-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg19 : FVec F S2 .f32) (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  let main_v89 : FVec F S2 .f32 := Host.absf main_arg19
  let main_cst_34 : FVec F S_ .f32 := constant S_ .f32 0x7F800000#32
  let main_v90 : FVec F S2 .f32 := broadcastInDim S2 ![] bcast_S_S2 main_cst_34
  let main_v91 : IVec S2 1 := cmpf .olt main_v89 main_v90
  let main_c_35 : IVec S_ 1 := constantI S_ 1 1#1
  let main_v92 : IVec S_ 1 := (fun x v => Host.reduce IntOp.andi x v reducesTo_S2_S_d0 h_S_) main_v91 main_c_35
  let main_v93 : IVec S_ 1 := andi main_v88 main_v92
  main_v93

def fn_part4 {F : FTy → Type} [FloatOps F] (main_arg15 : FVec F S128 .f32) (main_arg16 : FVec F S128x2 .f32) (main_arg17 : FVec F S2 .f32) (main_arg18 : FVec F S2 .f32) (main_arg19 : FVec F S2 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x2 .f32 := Host.absf main_arg16
  let main_cst_28 : FVec F S_ .f32 := constant S_ .f32 0x7F800000#32
  let main_v75 : FVec F S128x2 .f32 := broadcastInDim S128x2 ![] bcast_S_S128x2 main_cst_28
  let main_v76 : IVec S128x2 1 := cmpf .olt main_v74 main_v75
  let main_c_29 : IVec S_ 1 := constantI S_ 1 1#1
  let main_v77 : IVec S_ 1 := (fun x v => Host.reduce IntOp.andi x v reducesTo_S128x2_S_d0_1 h_S_) main_v76 main_c_29
  let main_v78 : IVec S_ 1 := andi main_v73 main_v77
  let main_v79 : FVec F S2 .f32 := Host.absf main_arg17
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  let main_v84 : FVec F S2 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S128 .f32) (main_arg13 : FVec F S128 .f32) (main_arg14 : FVec F S128x128 .f32) (main_arg15 : FVec F S128 .f32) (main_arg16 : FVec F S128x2 .f32) (main_arg17 : FVec F S2 .f32) (main_arg18 : FVec F S2 .f32) (main_arg19 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_v63 main_v67

def fn_part2 {F : FTy → Type} [FloatOps F] (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S128x2 .f32) (main_arg17 : FVec F S2 .f32) (main_arg18 : FVec F S2 .f32) (main_arg19 : FVec F S2 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S128x2 .f32) (main_arg17 : FVec F S2 .f32) (main_arg18 : FVec F S2 .f32) (main_arg19 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S128x2 .f32) (main_arg17 : FVec F S2 .f32) (main_arg18 : FVec F S2 .f32) (main_arg19 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 123
  | .vmem => 60
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x2, .f32⟩
  | .hbm, ⟨17, _⟩ => ⟨S2, .f32⟩
  | .hbm, ⟨18, _⟩ => ⟨S2, .f32⟩
  | .hbm, ⟨19, _⟩ => ⟨S2, .f32⟩
  | .hbm, ⟨20, _⟩ => ⟨S1x600000, .i32⟩
  | .hbm, ⟨21, _⟩ => ⟨S600000, .i32⟩
  | .hbm, ⟨22, _⟩ => ⟨S1x600000, .i32⟩
  | .hbm, ⟨23, _⟩ => ⟨S600000, .i32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S_, .f32⟩
  | .hbm, ⟨34, _⟩ => ⟨S50000x128, .f32⟩
  | .hbm, ⟨35, _⟩ => ⟨S600000x1, .i32⟩
  | .hbm, ⟨36, _⟩ => ⟨S50000x128, .f32⟩
  | .hbm, ⟨37, _⟩ => ⟨S1x128, .f32⟩
  | .hbm, ⟨38, _⟩ => ⟨S1x128, .f32⟩
  | .hbm, ⟨39, _⟩ => ⟨S50000x128, .f32⟩
  | .hbm, ⟨40, _⟩ => ⟨S1x128, .f32⟩
  | .hbm, ⟨41, _⟩ => ⟨S1x128, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S50000x128, .f32⟩
  | .hbm, ⟨57, _⟩ => ⟨S_, .i32⟩
  | .hbm, ⟨58, _⟩ => ⟨S600000, .i32⟩
  | .hbm, ⟨59, _⟩ => ⟨S600000, .i1⟩
  | .hbm, ⟨60, _⟩ => ⟨S_, .i32⟩
  | .hbm, ⟨61, _⟩ => ⟨S600000, .i32⟩
  | .hbm, ⟨62, _⟩ => ⟨S600000, .i32⟩
  | .hbm, ⟨63, _⟩ => ⟨S600000, .i32⟩
  | .hbm, ⟨64, _⟩ => ⟨S600000x1, .i32⟩
  | .hbm, ⟨65, _⟩ => ⟨S600000x128, .f32⟩
  | .hbm, ⟨66, _⟩ => ⟨S_, .f32⟩
  | .hbm, ⟨67, _⟩ => ⟨S50000x128, .f32⟩
  | .hbm, ⟨68, _⟩ => ⟨S600000x1, .i32⟩
  | .hbm, ⟨69, _⟩ => ⟨S50000x128, .f32⟩
  | .hbm, ⟨70, _⟩ => ⟨S1x128, .f32⟩
  | .hbm, ⟨71, _⟩ => ⟨S1x128, .f32⟩
  | .hbm, ⟨72, _⟩ => ⟨S50000x128, .f32⟩
  | .hbm, ⟨73, _⟩ => ⟨S1x128, .f32⟩
  | .hbm, ⟨74, _⟩ => ⟨S1x128, .f32⟩
  | .hbm, ⟨75, _⟩ => ⟨S128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S50000x128, .f32⟩
  | .hbm, ⟨90, _⟩ => ⟨S_, .i32⟩
  | .hbm, ⟨91, _⟩ => ⟨S600000, .i32⟩
  | .hbm, ⟨92, _⟩ => ⟨S600000, .i1⟩
  | .hbm, ⟨93, _⟩ => ⟨S_, .i32⟩
  | .hbm, ⟨94, _⟩ => ⟨S600000, .i32⟩
  | .hbm, ⟨95, _⟩ => ⟨S600000, .i32⟩
  | .hbm, ⟨96, _⟩ => ⟨S600000, .i32⟩
  | .hbm, ⟨97, _⟩ => ⟨S600000x1, .i32⟩
  | .hbm, ⟨98, _⟩ => ⟨S600000x128, .f32⟩
  | .hbm, ⟨99, _⟩ => ⟨S_, .f32⟩
  | .hbm, ⟨100, _⟩ => ⟨S50000x128, .f32⟩
  | .hbm, ⟨101, _⟩ => ⟨S600000x1, .i32⟩
  | .hbm, ⟨102, _⟩ => ⟨S50000x128, .f32⟩
  | .hbm, ⟨103, _⟩ => ⟨S1x128, .f32⟩
  | .hbm, ⟨104, _⟩ => ⟨S1x2, .f32⟩
  | .hbm, ⟨105, _⟩ => ⟨S50000x2, .f32⟩
  | .hbm, ⟨106, _⟩ => ⟨S1x2, .f32⟩
  | .hbm, ⟨107, _⟩ => ⟨S1x2, .f32⟩
  | .hbm, ⟨108, _⟩ => ⟨S2, .f32⟩
  | .hbm, ⟨109, _⟩ => ⟨S_, .f32⟩
  | .hbm, ⟨110, _⟩ => ⟨S2, .f32⟩
  | .hbm, ⟨111, _⟩ => ⟨S2, .f32⟩
  | .hbm, ⟨112, _⟩ => ⟨S2, .f32⟩
  | .hbm, ⟨113, _⟩ => ⟨S_, .f32⟩
  | .hbm, ⟨114, _⟩ => ⟨S2, .f32⟩
  | .hbm, ⟨115, _⟩ => ⟨S2, .f32⟩
  | .hbm, ⟨116, _⟩ => ⟨S2, .f32⟩
  | .hbm, ⟨117, _⟩ => ⟨S2, .f32⟩
  | .hbm, ⟨118, _⟩ => ⟨S1x2, .f32⟩
  | .hbm, ⟨119, _⟩ => ⟨S1x2, .f32⟩
  | .hbm, ⟨120, _⟩ => ⟨S1x2, .f32⟩
  | .hbm, ⟨121, _⟩ => ⟨S1x2, .f32⟩
  | .hbm, ⟨122, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x128, .f32⟩
  | .local _ .vmem, ⟨46, _⟩ => ⟨S128x2, .f32⟩
  | .local _ .vmem, ⟨47, _⟩ => ⟨S1x2, .f32⟩
  | .local _ .vmem, ⟨48, _⟩ => ⟨S5000x2, .f32⟩
  | .local _ .vmem, ⟨49, _⟩ => ⟨S5000x2, .f32⟩
  | .local _ .vmem, ⟨50, _⟩ => ⟨S1x2, .f32⟩
  | .local _ .vmem, ⟨51, _⟩ => ⟨S1x2, .f32⟩
  | .local _ .vmem, ⟨52, _⟩ => ⟨S5000x2, .f32⟩
  | .local _ .vmem, ⟨53, _⟩ => ⟨S5000x2, .f32⟩
  | .local _ .vmem, ⟨54, _⟩ => ⟨S1x2, .f32⟩
  | .local _ .vmem, ⟨55, _⟩ => ⟨S1x2, .f32⟩
  | .local _ .vmem, ⟨56, _⟩ => ⟨S1x2, .f32⟩
  | .local _ .vmem, ⟨57, _⟩ => ⟨S1x2, .f32⟩
  | .local _ .vmem, ⟨58, _⟩ => ⟨S5000x2, .f32⟩
  | .local _ .vmem, ⟨59, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16_0 : Ref sig .tc := ⟨.hbm, 39, rfl⟩
abbrev main_v16_1 : Ref sig .tc := ⟨.hbm, 40, rfl⟩
abbrev main_v16_2 : Ref sig .tc := ⟨.hbm, 41, rfl⟩
abbrev main_v17 : Ref sig .tc := ⟨.hbm, 42, rfl⟩
abbrev main_cst_1 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_3 : Ref sig .tc := ⟨.hbm, 57, rfl⟩
abbrev main_v30 : Ref sig .tc := ⟨.hbm, 58, rfl⟩
abbrev main_v31 : Ref sig .tc := ⟨.hbm, 59, rfl⟩
abbrev main_c_4 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_5 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42_0 : Ref sig .tc := ⟨.hbm, 72, rfl⟩
abbrev main_v42_1 : Ref sig .tc := ⟨.hbm, 73, rfl⟩
abbrev main_v42_2 : Ref sig .tc := ⟨.hbm, 74, rfl⟩
abbrev main_v43 : Ref sig .tc := ⟨.hbm, 75, rfl⟩
abbrev main_cst_6 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_7 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_8 : Ref sig .tc := ⟨.hbm, 90, rfl⟩
abbrev main_v56 : Ref sig .tc := ⟨.hbm, 91, rfl⟩
abbrev main_v57 : Ref sig .tc := ⟨.hbm, 92, rfl⟩
abbrev main_c_9 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_10 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68_0 : Ref sig .tc := ⟨.hbm, 105, rfl⟩
abbrev main_v68_1 : Ref sig .tc := ⟨.hbm, 106, rfl⟩
abbrev main_v68_2 : Ref sig .tc := ⟨.hbm, 107, rfl⟩
abbrev main_v69 : Ref sig .tc := ⟨.hbm, 108, rfl⟩
abbrev main_cst_11 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_12 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg8_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x2 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x2 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x2 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x2 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x2 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x2 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x2 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S5000x128 : S1x128.Broadcasts S5000x128
  reduces_S5000x128_S128 : S5000x128.Reduces [0] S128
  shapeCasts_S1x128_S128 : S1x128.ShapeCasts S128
  bcast_S_S128 : S_.BroadcastsInDim S128 (![] : Fin 0 → Fin S128.rank)
  shapeCasts_S2_S1x2 : S2.ShapeCasts S1x2
  inb_S1x2_S1x2_0_0 : ∀ a, (![0, 0] : Fin 2 → Nat) a + S1x2.size a ≤ S1x2.size a
  h_S1x2 : 0 < S1x2.numel
  inb_S128x2_S128x2_0_0 : ∀ a, (![0, 0] : Fin 2 → Nat) a + S128x2.size a ≤ S128x2.size a
  h_S128x2 : 0 < S128x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  reduces_S5000x2_S2 : S5000x2.Reduces [0] S2
  shapeCasts_S1x2_S2 : S1x2.ShapeCasts S2
  bcast_S_S2 : S_.BroadcastsInDim S2 (![] : Fin 0 → Fin S2.rank)
  shapeCasts_S5000x2_S5000x2 : S5000x2.ShapeCasts S5000x2
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x2.size a ≤ S128x2.size a
  hwx4_4 : ∀ i : grid4.Coords, EltTy.bits .f32 = 32 ∨ (Rect.block (s := S128x2) S128x2.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x2.size a ≤ S1x2.size a
  hwx4_5 : ∀ i : grid4.Coords, EltTy.bits .f32 = 32 ∨ (Rect.block (s := S1x2) S1x2.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x2.size a ≤ S50000x2.size a
  hwx4_6 : ∀ i : grid4.Coords, EltTy.bits .f32 = 32 ∨ (Rect.block (s := S50000x2) S5000x2.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x2.size a ≤ S1x2.size a
  hwx4_7 : ∀ i : grid4.Coords, EltTy.bits .f32 = 32 ∨ (Rect.block (s := S1x2) S1x2.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x2.size a ≤ S1x2.size a
  hwx4_8 : ∀ i : grid4.Coords, EltTy.bits .f32 = 32 ∨ (Rect.block (s := S1x2) S1x2.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x2.size a ≤ S50000x2.size a
  hwx5_0 : ∀ i : grid5.Coords, EltTy.bits .f32 = 32 ∨ (Rect.block (s := S50000x2) S5000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x2.size a ≤ S1x2.size a
  hwx5_2 : ∀ i : grid5.Coords, EltTy.bits .f32 = 32 ∨ (Rect.block (s := S1x2) S1x2.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x2.size a ≤ S1x2.size a
  hwx5_3 : ∀ i : grid5.Coords, EltTy.bits .f32 = 32 ∨ (Rect.block (s := S1x2) S1x2.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x2.size a ≤ S1x2.size a
  hwx5_4 : ∀ i : grid5.Coords, EltTy.bits .f32 = 32 ∨ (Rect.block (s := S1x2) S1x2.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x2.size a ≤ S50000x2.size a
  hwx5_5 : ∀ i : grid5.Coords, EltTy.bits .f32 = 32 ∨ (Rect.block (s := S50000x2) S5000x2.size (cc5_transform_5 i) (hinb5_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v16_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v42_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v42_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v42_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v55) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg16) S128x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v67) S1x2.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v68_0) S5000x2.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v68_1) S1x2.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v68_2) S1x2.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v68_0) S5000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S1x2.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v79) S1x2.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v80) S1x2.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v81) S5000x2.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S50000x2 : Shape := ⟨2, ![50000, 2]⟩
abbrev S1x2 : Shape := ⟨2, ![1, 2]⟩

abbrev nBuf : Space → Nat
  | .hbm => 240
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128, .f32⟩
  | 14 => ⟨S128x128, .f32⟩
  | 15 => ⟨S128, .f32⟩
  | 16 => ⟨S128x2, .f32⟩
  | 17 => ⟨S2, .f32⟩
  | 18 => ⟨S2, .f32⟩
  | 19 => ⟨S2, .f32⟩
  | 20 => ⟨S1x600000, .i32⟩
  | 21 => ⟨S600000, .i32⟩
  | 22 => ⟨S1x600000, .i32⟩
  | 23 => ⟨S600000, .i32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000x128, .f32⟩
  | 33 => ⟨S_, .f32⟩
  | 34 => ⟨S50000x128, .f32⟩
  | 35 => ⟨S600000x1, .i32⟩
  | 36 => ⟨S50000x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S_, .f32⟩
  | 53 => ⟨S128, .f32⟩
  | 54 => ⟨S_, .f32⟩
  | 55 => ⟨S128, .f32⟩
  | 56 => ⟨S128, .f32⟩
  | 57 => ⟨S_, .i32⟩
  | 58 => ⟨S_, .f32⟩
  | 59 => ⟨S128, .f32⟩
  | 60 => ⟨S1x128, .f32⟩
  | 61 => ⟨S_, .f32⟩
  | 62 => ⟨S1x128, .f32⟩
  | 63 => ⟨S1x128, .f32⟩
  | 64 => ⟨S50000x128, .f32⟩
  | 65 => ⟨S50000x128, .f32⟩
  | 66 => ⟨S50000x128, .f32⟩
  | 67 => ⟨S_, .f32⟩
  | 68 => ⟨S_, .f32⟩
  | 69 => ⟨S_, .f32⟩
  | 70 => ⟨S_, .f32⟩
  | 71 => ⟨S128, .f32⟩
  | 72 => ⟨S128, .f32⟩
  | 73 => ⟨S128, .f32⟩
  | 74 => ⟨S_, .f32⟩
  | 75 => ⟨S_, .i1⟩
  | 76 => ⟨S_, .f32⟩
  | 77 => ⟨S_, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S_, .f32⟩
  | 84 => ⟨S128, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .i32⟩
  | 97 => ⟨S600000, .i32⟩
  | 98 => ⟨S600000, .i1⟩
  | 99 => ⟨S_, .i32⟩
  | 100 => ⟨S600000, .i32⟩
  | 101 => ⟨S600000, .i32⟩
  | 102 => ⟨S600000, .i32⟩
  | 103 => ⟨S600000x1, .i32⟩
  | 104 => ⟨S600000x128, .f32⟩
  | 105 => ⟨S_, .f32⟩
  | 106 => ⟨S50000x128, .f32⟩
  | 107 => ⟨S600000x1, .i32⟩
  | 108 => ⟨S50000x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S_, .f32⟩
  | 125 => ⟨S128, .f32⟩
  | 126 => ⟨S_, .f32⟩
  | 127 => ⟨S128, .f32⟩
  | _ => ⟨S50000x128, .f32⟩

abbrev hbmTy0_1 (i : Nat) : BufTy := match i % 128 with
  | 0 => ⟨S128, .f32⟩
  | 1 => ⟨S_, .i32⟩
  | 2 => ⟨S_, .f32⟩
  | 3 => ⟨S128, .f32⟩
  | 4 => ⟨S1x128, .f32⟩
  | 5 => ⟨S_, .f32⟩
  | 6 => ⟨S1x128, .f32⟩
  | 7 => ⟨S1x128, .f32⟩
  | 8 => ⟨S50000x128, .f32⟩
  | 9 => ⟨S50000x128, .f32⟩
  | 10 => ⟨S50000x128, .f32⟩
  | 11 => ⟨S_, .f32⟩
  | 12 => ⟨S_, .f32⟩
  | 13 => ⟨S_, .f32⟩
  | 14 => ⟨S_, .f32⟩
  | 15 => ⟨S128, .f32⟩
  | 16 => ⟨S128, .f32⟩
  | 17 => ⟨S128, .f32⟩
  | 18 => ⟨S_, .f32⟩
  | 19 => ⟨S_, .i1⟩
  | 20 => ⟨S_, .f32⟩
  | 21 => ⟨S_, .f32⟩
  | 22 => ⟨S128, .f32⟩
  | 23 => ⟨S128, .f32⟩
  | 24 => ⟨S1x128, .f32⟩
  | 25 => ⟨S50000x128, .f32⟩
  | 26 => ⟨S50000x128, .f32⟩
  | 27 => ⟨S_, .f32⟩
  | 28 => ⟨S128, .f32⟩
  | 29 => ⟨S128, .f32⟩
  | 30 => ⟨S128, .f32⟩
  | 31 => ⟨S1x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000x128, .f32⟩
  | 49 => ⟨S_, .f32⟩
  | 50 => ⟨S50000x128, .f32⟩
  | 51 => ⟨S600000x1, .i32⟩
  | 52 => ⟨S50000x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S50000x2, .f32⟩
  | 62 => ⟨S1x2, .f32⟩
  | 63 => ⟨S50000x2, .f32⟩
  | 64 => ⟨S50000x2, .f32⟩
  | 65 => ⟨S_, .f32⟩
  | 66 => ⟨S50000x2, .f32⟩
  | 67 => ⟨S50000x2, .f32⟩
  | 68 => ⟨S_, .f32⟩
  | 69 => ⟨S2, .f32⟩
  | 70 => ⟨S_, .f32⟩
  | 71 => ⟨S2, .f32⟩
  | 72 => ⟨S2, .f32⟩
  | 73 => ⟨S_, .i32⟩
  | 74 => ⟨S_, .f32⟩
  | 75 => ⟨S2, .f32⟩
  | 76 => ⟨S1x2, .f32⟩
  | 77 => ⟨S_, .f32⟩
  | 78 => ⟨S1x2, .f32⟩
  | 79 => ⟨S1x2, .f32⟩
  | 80 => ⟨S50000x2, .f32⟩
  | 81 => ⟨S50000x2, .f32⟩
  | 82 => ⟨S50000x2, .f32⟩
  | 83 => ⟨S_, .f32⟩
  | 84 => ⟨S_, .f32⟩
  | 85 => ⟨S_, .f32⟩
  | 86 => ⟨S_, .f32⟩
  | 87 => ⟨S2, .f32⟩
  | 88 => ⟨S2, .f32⟩
  | 89 => ⟨S2, .f32⟩
  | 90 => ⟨S_, .f32⟩
  | 91 => ⟨S_, .i1⟩
  | 92 => ⟨S_, .f32⟩
  | 93 => ⟨S_, .f32⟩
  | 94 => ⟨S2, .f32⟩
  | 95 => ⟨S2, .f32⟩
  | 96 => ⟨S1x2, .f32⟩
  | 97 => ⟨S50000x2, .f32⟩
  | 98 => ⟨S50000x2, .f32⟩
  | 99 => ⟨S_, .f32⟩
  | 100 => ⟨S2, .f32⟩
  | 101 => ⟨S2, .f32⟩
  | 102 => ⟨S2, .f32⟩
  | 103 => ⟨S1x2, .f32⟩
  | 104 => ⟨S50000x2, .f32⟩
  | 105 => ⟨S50000x2, .f32⟩
  | 106 => ⟨S1x2, .f32⟩
  | 107 => ⟨S50000x2, .f32⟩
  | 108 => ⟨S50000x2, .f32⟩
  | 109 => ⟨S1x2, .f32⟩
  | 110 => ⟨S50000x2, .f32⟩
  | 111 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_2 : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_cst_4 : Ref sig .tc := ⟨.hbm, 54, rfl⟩
abbrev main_v28 : Ref sig .tc := ⟨.hbm, 55, rfl⟩
abbrev main_v29 : Ref sig .tc := ⟨.hbm, 56, rfl⟩
abbrev main_c_5 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_cst_3 : Ref sig .tc := ⟨.hbm, 74, rfl⟩
abbrev main_call0_v12 : Ref sig .tc := ⟨.hbm, 75, rfl⟩
abbrev main_call0_cst_4 : Ref sig .tc := ⟨.hbm, 76, rfl⟩
abbrev main_call0_call0_v0 : Ref sig .tc := ⟨.hbm, 77, rfl⟩
abbrev main_call0_call0_v1 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_cst_6 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_c_7 : Ref sig .tc := ⟨.hbm, 96, rfl⟩
abbrev main_v46 : Ref sig .tc := ⟨.hbm, 97, rfl⟩
abbrev main_v47 : Ref sig .tc := ⟨.hbm, 98, rfl⟩
abbrev main_c_8 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_9 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_cst_10 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_cst_11 : Ref sig .tc := ⟨.hbm, 121, rfl⟩
abbrev main_v67 : Ref sig .tc := ⟨.hbm, 122, rfl⟩
abbrev main_v68 : Ref sig .tc := ⟨.hbm, 123, rfl⟩
abbrev main_cst_12 : Ref sig .tc := ⟨.hbm, 124, rfl⟩
abbrev main_v69 : Ref sig .tc := ⟨.hbm, 125, rfl⟩
abbrev main_cst_13 : Ref sig .tc := ⟨.hbm, 126, rfl⟩
abbrev main_v70 : Ref sig .tc := ⟨.hbm, 127, rfl⟩
abbrev main_v71 : Ref sig .tc := ⟨.hbm, 128, rfl⟩
abbrev main_c_14 : Ref sig .tc := ⟨.hbm, 129, rfl⟩
abbrev main_call1_cst : Ref sig .tc := ⟨.hbm, 130, rfl⟩
abbrev main_call1_v0 : Ref sig .tc := ⟨.hbm, 131, rfl⟩
abbrev main_call1_v1 : Ref sig .tc := ⟨.hbm, 132, rfl⟩
abbrev main_call1_cst_0 : Ref sig .tc := ⟨.hbm, 133, rfl⟩
abbrev main_call1_v2 : Ref sig .tc := ⟨.hbm, 134, rfl⟩
abbrev main_call1_v3 : Ref sig .tc := ⟨.hbm, 135, rfl⟩
abbrev main_call1_v4 : Ref sig .tc := ⟨.hbm, 136, rfl⟩
abbrev main_call1_v5 : Ref sig .tc := ⟨.hbm, 137, rfl⟩
abbrev main_call1_v6 : Ref sig .tc := ⟨.hbm, 138, rfl⟩
abbrev main_call1_v7 : Ref sig .tc := ⟨.hbm, 139, rfl⟩
abbrev main_call1_cst_1 : Ref sig .tc := ⟨.hbm, 140, rfl⟩
abbrev main_call1_v8 : Ref sig .tc := ⟨.hbm, 141, rfl⟩
abbrev main_call1_cst_2 : Ref sig .tc := ⟨.hbm, 142, rfl⟩
abbrev main_call1_v9 : Ref sig .tc := ⟨.hbm, 143, rfl⟩
abbrev main_call1_v10 : Ref sig .tc := ⟨.hbm, 144, rfl⟩
abbrev main_call1_v11 : Ref sig .tc := ⟨.hbm, 145, rfl⟩
abbrev main_call1_cst_3 : Ref sig .tc := ⟨.hbm, 146, rfl⟩
abbrev main_call1_v12 : Ref sig .tc := ⟨.hbm, 147, rfl⟩
abbrev main_call1_cst_4 : Ref sig .tc := ⟨.hbm, 148, rfl⟩
abbrev main_call1_call0_v0 : Ref sig .tc := ⟨.hbm, 149, rfl⟩
abbrev main_call1_call0_v1 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_cst_15 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_c_16 : Ref sig .tc := ⟨.hbm, 168, rfl⟩
abbrev main_v88 : Ref sig .tc := ⟨.hbm, 169, rfl⟩
abbrev main_v89 : Ref sig .tc := ⟨.hbm, 170, rfl⟩
abbrev main_c_17 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_cst_18 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_cst_19 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_cst_20 : Ref sig .tc := ⟨.hbm, 193, rfl⟩
abbrev main_v109 : Ref sig .tc := ⟨.hbm, 194, rfl⟩
abbrev main_v110 : Ref sig .tc := ⟨.hbm, 195, rfl⟩
abbrev main_cst_21 : Ref sig .tc := ⟨.hbm, 196, rfl⟩
abbrev main_v111 : Ref sig .tc := ⟨.hbm, 197, rfl⟩
abbrev main_cst_22 : Ref sig .tc := ⟨.hbm, 198, rfl⟩
abbrev main_v112 : Ref sig .tc := ⟨.hbm, 199, rfl⟩
abbrev main_v113 : Ref sig .tc := ⟨.hbm, 200, rfl⟩
abbrev main_c_23 : Ref sig .tc := ⟨.hbm, 201, rfl⟩
abbrev main_call2_cst : Ref sig .tc := ⟨.hbm, 202, rfl⟩
abbrev main_call2_v0 : Ref sig .tc := ⟨.hbm, 203, rfl⟩
abbrev main_call2_v1 : Ref sig .tc := ⟨.hbm, 204, rfl⟩
abbrev main_call2_cst_0 : Ref sig .tc := ⟨.hbm, 205, rfl⟩
abbrev main_call2_v2 : Ref sig .tc := ⟨.hbm, 206, rfl⟩
abbrev main_call2_v3 : Ref sig .tc := ⟨.hbm, 207, rfl⟩
abbrev main_call2_v4 : Ref sig .tc := ⟨.hbm, 208, rfl⟩
abbrev main_call2_v5 : Ref sig .tc := ⟨.hbm, 209, rfl⟩
abbrev main_call2_v6 : Ref sig .tc := ⟨.hbm, 210, rfl⟩
abbrev main_call2_v7 : Ref sig .tc := ⟨.hbm, 211, rfl⟩
abbrev main_call2_cst_1 : Ref sig .tc := ⟨.hbm, 212, rfl⟩
abbrev main_call2_v8 : Ref sig .tc := ⟨.hbm, 213, rfl⟩
abbrev main_call2_cst_2 : Ref sig .tc := ⟨.hbm, 214, rfl⟩
abbrev main_call2_v9 : Ref sig .tc := ⟨.hbm, 215, rfl⟩
abbrev main_call2_v10 : Ref sig .tc := ⟨.hbm, 216, rfl⟩
abbrev main_call2_v11 : Ref sig .tc := ⟨.hbm, 217, rfl⟩
abbrev main_call2_cst_3 : Ref sig .tc := ⟨.hbm, 218, rfl⟩
abbrev main_call2_v12 : Ref sig .tc := ⟨.hbm, 219, rfl⟩
abbrev main_call2_cst_4 : Ref sig .tc := ⟨.hbm, 220, rfl⟩
abbrev main_call2_call0_v0 : Ref sig .tc := ⟨.hbm, 221, rfl⟩
abbrev main_call2_call0_v1 : Ref sig .tc := ⟨.hbm, 222, rfl⟩
abbrev main_v114 : Ref sig .tc := ⟨.hbm, 223, rfl⟩
abbrev main_v115 : Ref sig .tc := ⟨.hbm, 224, rfl⟩
abbrev main_v116 : Ref sig .tc := ⟨.hbm, 225, rfl⟩
abbrev main_v117 : Ref sig .tc := ⟨.hbm, 226, rfl⟩
abbrev main_cst_24 : Ref sig .tc := ⟨.hbm, 227, rfl⟩
abbrev main_v118 : Ref sig .tc := ⟨.hbm, 228, rfl⟩
abbrev main_v119 : Ref sig .tc := ⟨.hbm, 229, rfl⟩
abbrev main_v120 : Ref sig .tc := ⟨.hbm, 230, rfl⟩
abbrev main_v121 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_v127 : Ref sig .tc := ⟨.hbm, 237, rfl⟩
abbrev main_v128 : Ref sig .tc := ⟨.hbm, 238, rfl⟩
abbrev main_v129 : Ref sig .tc := ⟨.hbm, 239, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S_S50000x2 : S_.BroadcastsInDim S50000x2 (![] : Fin 0 → Fin S50000x2.rank)
  reducesTo_S50000x2_S2_d0 : S50000x2.ReducesTo [0] S2
  bcast_S_S2 : S_.BroadcastsInDim S2 (![] : Fin 0 → Fin S2.rank)
  bcast_S_S1x2 : S_.BroadcastsInDim S1x2 (![] : Fin 0 → Fin S1x2.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.KRun.lean ====
/-
  The kernel program's run with its result: at the compiled mesh, from any memory with zero counters, every weakly fair
  execution of @main on the TensorCores terminates, nothing faulting, and in every final state the result buffer main_v81
  holds the last boundary's contents W12 — the fold of the host operations and the six pipelines' outputs through @main —
  while the twenty argument arrays are as launched.  The thread state at the return holds every unscoped buffer at W12;
  the result buffer is one of them, and each argument's contents there are the launch contents.
-/
import proofs.«144821_j2645699854452_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN WITH ITS RESULT: termination, the result buffer at W12, the arguments as launched. -/
theorem run : θ_run defs (onTc (τ := τ) (main (F := F))) ⟨m, fun _ => 0, ρ⟩ (fun r => ∀ c : Dev nD,
      r.2.mem ((c.tc : Thread nD τ).loc main_v81) = W12 m ρ c (Proc.devRef .tc main_v81)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v81 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c)⟩)

end Cert.KernelIdeal.KRun

end
-- ==== Proof.Spec.lean ====
/-
  The mathematics both programs compute, stated once over the extended reals and over arbitrary sizes, with no
  program in sight.  One graph-network layer takes the node features x (n rows of a columns) and their neighbourhood sums g
  and returns   normalise( relu( relu((x + g)·Wa + ba)·Wb + bb ) ):
  a two-stage perceptron applied to every row, followed by a batch normalisation of every column over the n rows.
  The perceptron's value H is common to both programs.  They differ in how a column is normalised:
    * one program accumulates the column sums s = Σ_p H[p,q] and ss = Σ_p H[p,q]², forms  mean = s/N  and
      var = ss/N − mean·mean, and normalises with them (`layerK`);
    * the other forms  mean = (Σ_p H[p,q])/N  and  var = (Σ_p (H[p,q] − mean)²)/N  (`layerR`).
  For real entries the two variances agree: Σ(h − μ)² = Σh² − 2μΣh + Nμ² = Σh² − Nμ² when μ = Σh/N.
-/
import Idealize.ShloMosaic.PureOps.Ideal
import Idealize.ShloMosaic.Lib.ValueIdx

noncomputable section

open scoped BigOperators

namespace Cert.Spec

open Idealize.ShloMosaic Idealize.ShloMosaic.ValueIdx

/-- An r × c array of extended reals. -/
abbrev Mat (r c : ℕ) : Type := FVec Ideal (⟨2, ![r, c]⟩ : Shape) .f32
/-- A length-c vector of extended reals. -/
abbrev Vec1 (c : ℕ) : Type := FVec Ideal (⟨1, ![c]⟩ : Shape) .f32

variable {n a b d : ℕ}

/-- A vector laid out as a one-row array. -/
def rowOf (v : Vec1 d) : Mat 1 d := fun i => v (ix1 (i 1))

theorem rowOf_apply (v : Vec1 d) (z : Fin 1) (q : Fin d) : rowOf v (ix2 z q) = v (ix1 q) := rfl

/-- The hidden activation of row p at unit k: relu((x + g)[p,:]·Wa[:,k] + ba[k]). -/
def hid (x g : Mat n a) (Wa : Mat a b) (ba : Mat 1 b) (p : Fin n) (k : Fin b) : EReal :=
  max ((∑ j : Fin a, (x (ix2 p j) + g (ix2 p j)) * Wa (ix2 j k)) + ba (ix2 0 k)) 0

/-- The perceptron's output of row p at column q: relu(hid[p,:]·Wb[:,q] + bb[q]). -/
def mlpAt (x g : Mat n a) (Wa : Mat a b) (ba : Mat 1 b) (Wb : Mat b d) (bb : Mat 1 d) (p : Fin n) (q : Fin d) : EReal :=
  max ((∑ k : Fin b, hid x g Wa ba p k * Wb (ix2 k q)) + bb (ix2 0 q)) 0

/-- The perceptron applied to every row. -/
def mlp (x g : Mat n a) (Wa : Mat a b) (ba : Mat 1 b) (Wb : Mat b d) (bb : Mat 1 d) : Mat n d :=
  fun i => mlpAt x g Wa ba Wb bb (i 0) (i 1)

theorem mlp_apply (x g : Mat n a) (Wa : Mat a b) (ba : Mat 1 b) (Wb : Mat b d) (bb : Mat 1 d) (p : Fin n) (q : Fin d) :
    mlp x g Wa ba Wb bb (ix2 p q) = mlpAt x g Wa ba Wb bb p q := rfl

/-- Column sums, as a one-row array. -/
def colSum (h : Mat n d) : Mat 1 d := fun i => ∑ p : Fin n, h (ix2 p (i 1))
/-- Column sums of squares, as a one-row array. -/
def colSumSq (h : Mat n d) : Mat 1 d := fun i => ∑ p : Fin n, h (ix2 p (i 1)) * h (ix2 p (i 1))

theorem colSum_apply (h : Mat n d) (z : Fin 1) (q : Fin d) : colSum h (ix2 z q) = ∑ p : Fin n, h (ix2 p q) := rfl
theorem colSumSq_apply (h : Mat n d) (z : Fin 1) (q : Fin d) :
    colSumSq h (ix2 z q) = ∑ p : Fin n, h (ix2 p q) * h (ix2 p q) := rfl

/-- The divisor 50000 (its binary32 word is exact). -/
def cN : EReal := Ideal.ofBits .f32 0x47435000#32
/-- The variance offset, the binary32 nearest to 1e-5. -/
def cEps : EReal := Ideal.ofBits .f32 0x3727C5AC#32

/-- Mean row from the column sums: s / N. -/
def kMean (s : Mat 1 d) : Mat 1 d := fun i => Ideal.div (s i) cN
/-- Variance row from the column sums and sums of squares: ss / N − mean · mean. -/
def kVar (s ss : Mat 1 d) : Mat 1 d := fun i => Ideal.div (ss i) cN - kMean s i * kMean s i

/-- Normalise every column with given mean, variance, scale and shift rows:
    (h − mean)·rsqrt(var + ε)·γ + β. -/
def norm (h : Mat n d) (mean var γ β : Mat 1 d) : Mat n d :=
  fun i => (h i - mean (ix2 0 (i 1))) * Ideal.rsqrt (var (ix2 0 (i 1)) + cEps) * γ (ix2 0 (i 1)) + β (ix2 0 (i 1))

theorem norm_apply (h : Mat n d) (mean var γ β : Mat 1 d) (p : Fin n) (q : Fin d) :
    norm h mean var γ β (ix2 p q)
      = (h (ix2 p q) - mean (ix2 0 q)) * Ideal.rsqrt (var (ix2 0 q) + cEps) * γ (ix2 0 q) + β (ix2 0 q) := rfl

/-- A column's mean, summed directly. -/
def rMean (h : Mat n d) (q : Fin d) : EReal := Ideal.div (∑ p : Fin n, h (ix2 p q)) cN
/-- A column's variance, as the mean squared deviation. -/
def rVar (h : Mat n d) (q : Fin d) : EReal :=
  Ideal.div (∑ p : Fin n, (h (ix2 p q) - rMean h q) * (h (ix2 p q) - rMean h q)) cN

/-- Normalise every column with its own mean and mean squared deviation. -/
def refNorm (h : Mat n d) (γ β : Mat 1 d) : Mat n d :=
  fun i => (h i - rMean h (i 1)) * Ideal.rsqrt (rVar h (i 1) + cEps) * γ (ix2 0 (i 1)) + β (ix2 0 (i 1))

theorem refNorm_apply (h : Mat n d) (γ β : Mat 1 d) (p : Fin n) (q : Fin d) :
    refNorm h γ β (ix2 p q)
      = (h (ix2 p q) - rMean h q) * Ideal.rsqrt (rVar h q + cEps) * γ (ix2 0 q) + β (ix2 0 q) := rfl

/-- One layer, normalised through the accumulated sums. -/
def layerK (x g : Mat n a) (Wa : Mat a b) (ba : Vec1 b) (Wb : Mat b d) (bb γ β : Vec1 d) : Mat n d :=
  norm (mlp x g Wa (rowOf ba) Wb (rowOf bb))
    (kMean (colSum (mlp x g Wa (rowOf ba) Wb (rowOf bb))))
    (kVar (colSum (mlp x g Wa (rowOf ba) Wb (rowOf bb))) (colSumSq (mlp x g Wa (rowOf ba) Wb (rowOf bb))))
    (rowOf γ) (rowOf β)

/-- One layer, normalised through the mean squared deviation. -/
def layerR (x g : Mat n a) (Wa : Mat a b) (ba : Vec1 b) (Wb : Mat b d) (bb γ β : Vec1 d) : Mat n d :=
  refNorm (mlp x g Wa (rowOf ba) Wb (rowOf bb)) (rowOf γ) (rowOf β)

end Cert.Spec

end
-- ==== Proof.LibRowGatherScatter.lean ====
/-
  Row gather and row scatter-add, read at an index.

  `x[idx]` of a matrix `x : [N, C]` at a vector of `E` row numbers lowers to `stablehlo.gather` with offset_dims [1],
  collapsed_slice_dims [0], start_index_map [0], index_vector_dim 1 and slice sizes [1, C] over the row numbers as an
  `[E, 1]` array: result element `(e, k)` is `x` at row `idx[e, 0]` — read signed and clamped into `[0, N − 1]` — and
  column `k` (`gather_rows_apply`).

  `segment_sum(u, idx)` of updates `u : [E, C]` into `[N, C]` lowers to `stablehlo.scatter` with an `add` body,
  update_window_dims [1], inserted_window_dims [0], scatter_dims_to_operand_dims [0], index_vector_dim 1: at the extended
  reals element `(n, c)` of the result is the operand's plus the sum, over the rows `e` whose row number `idx[e, 0]`, read
  signed and NOT clamped, is `n`, of `u (e, c)` (`scatterAdd_rows_apply`). A row number outside `[0, N)` lands nowhere.

  Both for any sizes `N`, `E`, `C` and any index width.
-/
import Idealize.ShloMosaic.Lib.ValueIdx
import Idealize.ShloMosaic.PureOps.Ideal.Laws

noncomputable section

open scoped BigOperators

namespace Idealize.ShloMosaic.RowIndexing

open Idealize.ShloMosaic Idealize.ShloMosaic.ValueIdx

/-- The entry `[e, 0]` of an `[E, 1]` array of row numbers. -/
abbrev rowAt {E : Nat} (e : Fin E) : (⟨2, ![E, 1]⟩ : Shape).Idx := ix2 e (⟨0, Nat.one_pos⟩ : Fin 1)

/-! ## The gather of whole rows -/

section Gather
variable {α : Type}

/-- The dimension numbers of a gather of whole rows of an `[N, C]` operand at `[E, 1]` row numbers. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand at row `idx[e, 0]`, read signed and clamped into `[0, N − 1]`, column `k`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 (⟨min (idx (rowAt e)).toInt.toNat (N - 1), by omega⟩ : Fin N) k) := by
  unfold Host.gather
  refine congrArg x ?_
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = rowAt e := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = _
    rw [GatherDims.batchCoord_eq_zero _ _ _ List.not_mem_nil]
    have hs : (rowGatherDims N E C wf).start (ix2 e k) idx 1 = 0 := by
      unfold GatherDims.start
      rw [dif_neg (show ¬ (1 : Fin 2) ∈ (rowGatherDims N E C wf).startIndexMap from
        fun h => absurd (List.mem_singleton.mp h) (show ¬ ((1 : Fin 2) = 0) by decide))]
    have ho : (rowGatherDims N E C wf).offCoord (ix2 e k) 1 = k.val := by
      unfold GatherDims.offCoord
      rw [dif_pos (show (1 : Fin 2) ∈ (rowGatherDims N E C wf).sKept from (GatherDims.mem_sKept _ _).mpr
        ⟨fun h => absurd (List.mem_singleton.mp h) (show ¬ ((1 : Fin 2) = 0) by decide), List.not_mem_nil⟩)]
      rfl
    rw [hs, ho, Nat.add_zero, Nat.zero_add]

end Gather

/-! ## The scatter-add of whole rows -/

section Scatter

/-- The dimension numbers of a scatter of `[E, C]` update rows into an `[N, C]` operand at `[E, 1]` row numbers. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the window of update `(e, k)` starts at the row number `idx[e, 0]`, read signed. -/
theorem rowScatter_start0 : (rowScatterDims N E C wf).start (ix2 e k) idx 0 = (idx (rowAt e)).toInt := by
  unfold ScatterDims.start
  rw [dif_pos (show (0 : Fin 2) ∈ (rowScatterDims N E C wf).scatterDimsToOperandDims from List.mem_singleton.mpr rfl)]
  have hsi : (rowScatterDims N E C wf).siIdx (ix2 e k) ⟨List.idxOf (0 : Fin 2) (rowScatterDims N E C wf).scatterDimsToOperandDims,
      List.idxOf_lt_length_iff.2 (List.mem_singleton.mpr rfl)⟩ = rowAt e := by
    funext b; refine Fin.ext ?_
    match b with
    | ⟨0, _⟩ => rfl
    | ⟨1, _⟩ => rfl
  rw [hsi]

/-- On the column axis it starts at `0`. -/
theorem rowScatter_start1 : (rowScatterDims N E C wf).start (ix2 e k) idx 1 = 0 := by
  unfold ScatterDims.start
  rw [dif_neg (show ¬ (1 : Fin 2) ∈ (rowScatterDims N E C wf).scatterDimsToOperandDims from
    fun h => absurd (List.mem_singleton.mp h) (show ¬ ((1 : Fin 2) = 0) by decide))]

/-- The row axis is inserted: the window coordinate there is `0`. -/
theorem rowScatter_window0 : (rowScatterDims N E C wf).window (ix2 e k) 0 = 0 := by
  unfold ScatterDims.window
  rw [dif_neg]
  intro h
  have : (0 : Fin 2) ∈ (List.finRange 2).filter (fun a => a ∉ [(0 : Fin 2)]) := h
  simp at this

/-- On the column axis the window coordinate is the update's column. -/
theorem rowScatter_window1 : (rowScatterDims N E C wf).window (ix2 e k) 1 = k.val := by
  unfold ScatterDims.window
  rw [dif_pos]
  · rfl
  · show (1 : Fin 2) ∈ (List.finRange 2).filter (fun a => a ∉ [(0 : Fin 2)])
    simp

/-- Update `(e, k)` lands at `(n, c)` exactly when its row number, read signed, is `n` and `k = c`. -/
theorem rowScatter_resultIdx_eq_some_iff (n : Fin N) (c : Fin C) :
    (rowScatterDims N E C wf).resultIdx? (ix2 e k) idx = some (ix2 n c)
      ↔ (idx (rowAt e)).toInt = (n.val : Int) ∧ k = c := by
  have hs0 := rowScatter_start0 wf idx e k
  have hs1 := rowScatter_start1 wf idx e k
  have hw0 := rowScatter_window0 wf e k
  have hw1 := rowScatter_window1 wf e k
  have hn : n.val < N := n.isLt
  have hk : k.val < C := k.isLt
  unfold ScatterDims.resultIdx?
  split
  · rename_i h
    rw [Option.some.injEq]
    constructor
    · intro heq
      have e0 := congrArg Fin.val (congrFun heq 0)
      have e1 := congrArg Fin.val (congrFun heq 1)
      have h0 := (h 0).1
      simp only [hs0, hw0, hs1, hw1] at e0 e1 h0
      have e0' : ((idx (rowAt e)).toInt + ((0 : Nat) : Int)).toNat = n.val := e0
      have e1' : ((0 : Int) + (k.val : Int)).toNat = c.val := e1
      refine ⟨by omega, Fin.ext (by omega)⟩
    · rintro ⟨h0, rfl⟩
      funext a
      refine Fin.ext ?_
      match a with
      | ⟨0, _⟩ =>
        show ((rowScatterDims N E C wf).start (ix2 e k) idx 0 + ((rowScatterDims N E C wf).window (ix2 e k) 0 : Nat)).toNat = n.val
        rw [hs0, hw0, h0]; omega
      | ⟨1, _⟩ =>
        show ((rowScatterDims N E C wf).start (ix2 e k) idx 1 + ((rowScatterDims N E C wf).window (ix2 e k) 1 : Nat)).toNat = k.val
        rw [hs1, hw1]; omega
  · rename_i h
    constructor
    · intro heq; exact absurd heq (by simp)
    · rintro ⟨h0, rfl⟩
      exfalso
      apply h
      intro a
      match a with
      | ⟨0, _⟩ =>
        show 0 ≤ (rowScatterDims N E C wf).start (ix2 e k) idx 0 + ((rowScatterDims N E C wf).window (ix2 e k) 0 : Nat)
          ∧ (rowScatterDims N E C wf).start (ix2 e k) idx 0 + ((rowScatterDims N E C wf).window (ix2 e k) 0 : Nat) < (N : Int)
        rw [hs0, hw0, h0]; omega
      | ⟨1, _⟩ =>
        show 0 ≤ (rowScatterDims N E C wf).start (ix2 e k) idx 1 + ((rowScatterDims N E C wf).window (ix2 e k) 1 : Nat)
          ∧ (rowScatterDims N E C wf).start (ix2 e k) idx 1 + ((rowScatterDims N E C wf).window (ix2 e k) 1 : Nat) < (C : Int)
        rw [hs1, hw1]; omega

/-- THE ROW SCATTER-ADD READ AT `(n, c)`, on the extended reals: the operand there plus the sum over the update rows whose row
    number, read signed, is `n`, of the update at column `c`. -/
theorem scatterAdd_rows_apply {φ : FTy} (x : FVec Ideal ⟨2, ![N, C]⟩ φ) (upd : FVec Ideal ⟨2, ![E, C]⟩ φ) (n : Fin N) (c : Fin C) :
    Host.scatterAdd (rowScatterDims N E C wf) x idx upd (ix2 n c)
      = x (ix2 n c) + ∑ e : Fin E, if (idx (rowAt e)).toInt = (n.val : Int) then upd (ix2 e c) else 0 := by
  show x (ix2 n c) + ∑ j ∈ Finset.univ.filter (fun j => (rowScatterDims N E C wf).resultIdx? j idx = some (ix2 n c)), upd j = _
  refine congrArg (x (ix2 n c) + ·) ?_
  rw [Finset.sum_filter, sum_idx2]
  refine Finset.sum_congr rfl fun e _ => ?_
  simp only [rowScatter_resultIdx_eq_some_iff]
  by_cases h : (idx (rowAt e)).toInt = (n.val : Int)
  · simp only [h, true_and, if_true]
    rw [Finset.sum_ite_eq' Finset.univ c (fun k => upd (ix2 e k))]
    simp
  · simp [h]

end Scatter

end Idealize.ShloMosaic.RowIndexing

end
-- ==== Proof.LibAggregateLinear.lean ====
/-
  A linear map commutes with a weighted aggregation, on the extended reals.

  Aggregating rows first and applying a matrix afterwards,
      ∑ k, (∑ e ∈ hits, x e k · a e) · w k ,
  is applying the matrix to every row first and aggregating afterwards,
      ∑ e ∈ hits, (∑ k, x e k · w k) · a e ,
  when every `x e k`, `w k` and `a e` is a real number: over ℝ this is distributivity and an exchange of the two finite sums.
  (With an infinite entry the two sides can differ: distributivity fails at `⊤ + ⊥`.)  The selection of the rows that hit is an
  `if` inside the sum, as a scatter-add read at an index leaves it.

  Also here: the coercion ℝ → EReal commutes with finite sums, and the reciprocal square root of a positive extended real is
  a real number (`⊤ ↦ 0`), so that `if 0 < y then rsqrt (max y ε) else 0` is real for every `y` and `ε`.
-/
import Idealize.ShloMosaic.PureOps.Ideal

noncomputable section

open scoped BigOperators

namespace Idealize.ShloMosaic.AggregateLinear

/-- The coercion of a finite real sum is the sum of the coercions. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem sum_isReal {ι : Type*} (s : Finset ι) (f : ι → EReal) (hf : ∀ i ∈ s, ∃ r : ℝ, f i = r) : ∃ r : ℝ, ∑ i ∈ s, f i = r := by
  classical
  induction s using Finset.induction_on with
  | empty => exact ⟨0, by simp⟩
  | insert a s ha ih =>
    obtain ⟨r, hr⟩ := ih fun i hi => hf i (Finset.mem_insert_of_mem hi)
    obtain ⟨q, hq⟩ := hf a (Finset.mem_insert_self a s)
    exact ⟨q + r, by rw [Finset.sum_insert ha, hr, hq, EReal.coe_add]⟩

/-- AGGREGATE THEN MAP = MAP THEN AGGREGATE, when every entry is real. -/
theorem aggregate_map_comm {ι κ : Type*} [Fintype ι] [Fintype κ] (x : ι → κ → EReal) (w : κ → EReal) (a : ι → EReal)
    (p : ι → Prop) [DecidablePred p]
    (hx : ∀ e k, ∃ r : ℝ, x e k = r) (hw : ∀ k, ∃ r : ℝ, w k = r) (ha : ∀ e, ∃ r : ℝ, a e = r) :
    ∑ k, (∑ e, if p e then x e k * a e else 0) * w k = ∑ e, if p e then (∑ k, x e k * w k) * a e else 0 := by
  choose X hX using hx
  choose W hW using hw
  choose A hA using ha
  have hl : ∀ k, (∑ e, if p e then x e k * a e else 0) * w k
      = (((∑ e, if p e then X e k * A e else 0) * W k : ℝ) : EReal) := by
    intro k
    rw [EReal.coe_mul, coe_finset_sum, hW]
    refine congrArg (· * (W k : EReal)) (Finset.sum_congr rfl fun e _ => ?_)
    by_cases h : p e
    · rw [if_pos h, if_pos h, hX, hA, EReal.coe_mul]
    · rw [if_neg h, if_neg h, EReal.coe_zero]
  have hr : ∀ e, (if p e then (∑ k, x e k * w k) * a e else 0)
      = (((if p e then (∑ k, X e k * W k) * A e else 0 : ℝ)) : EReal) := by
    intro e
    by_cases h : p e
    · rw [if_pos h, if_pos h, EReal.coe_mul, coe_finset_sum, hA]
      refine congrArg (· * (A e : EReal)) (Finset.sum_congr rfl fun k _ => ?_)
      rw [hX, hW, EReal.coe_mul]
    · rw [if_neg h, if_neg h, EReal.coe_zero]
  simp only [hl, hr, ← coe_finset_sum]
  refine congrArg (fun r : ℝ => (r : EReal)) ?_
  simp only [Finset.sum_mul]
  rw [Finset.sum_comm]
  refine Finset.sum_congr rfl fun e _ => ?_
  by_cases h : p e
  · simp only [if_pos h]
    refine Finset.sum_congr rfl fun k _ => ?_
    ring
  · simp only [if_neg h, zero_mul, Finset.sum_const_zero]

/-- The reciprocal square root of a positive extended real is a real number (`⊤ ↦ 0`). -/
theorem rsqrt_isReal_of_pos (y : EReal) (h : 0 < y) : ∃ r : ℝ, Ideal.rsqrt y = r := by
  induction y using EReal.rec with
  | bot => exact absurd h (not_lt.mpr bot_le)
  | top => exact ⟨0, by rw [Ideal.rsqrt_top, EReal.coe_zero]⟩
  | coe r =>
    have hr : 0 < r := EReal.coe_pos.mp h
    refine ⟨(Real.sqrt r)⁻¹, ?_⟩
    rw [Ideal.rsqrt_coe, if_neg (not_lt.mpr hr.le), if_neg hr.ne']

end Idealize.ShloMosaic.AggregateLinear

end
-- ==== Proof.AggK.lean ====
/-
  The neighbourhood sum both programs compute on the host before each layer: row n of the result is the sum of the
  rows x[src e] over the edges e whose destination dst e is n.  The edge table's first row gives the sources (a negative
  number wraps by the number of nodes, then the read clamps into range), its second row the destinations; the sum starts from zero.
  For real-valued features every entry is a finite sum of reals, hence real.
-/
import proofs.«144821_j2645699854452_1_alg».proof.KernelIdeal
import proofs.«144821_j2645699854452_1_alg».proof.Proof.Gen.KernelIdeal
import proofs.«144821_j2645699854452_1_alg».proof.Proof.LibRowGatherScatter
import proofs.«144821_j2645699854452_1_alg».proof.Proof.LibAggregateLinear
import Idealize.ShloMosaic.Lib.ValueIdx
import Idealize.ShloMosaic.Lib.Pipeline.Value

noncomputable section

open scoped BigOperators

namespace Cert.KernelIdeal.Agg

open Idealize.ShloMosaic Idealize.ShloMosaic.ValueIdx Cert.KernelIdeal Cert.KernelIdeal.Gen

/-- The edge table: two rows of 600000 node numbers. -/
abbrev Edges : Type := (⟨S2x600000, .i32⟩ : BufTy).Contents (Elt Ideal)
/-- Node features: 50000 rows of 128 extended reals. -/
abbrev Feats : Type := (⟨S50000x128, .f32⟩ : BufTy).Contents (Elt Ideal)

/-- The sources: row 0 of the edge table. -/
def src (e : Edges) : (⟨S600000, .i32⟩ : BufTy).Contents (Elt Ideal) :=
  shapeCast S600000 (extractStridedSlice S1x600000 ![0, 0] e slices_S2x600000_S1x600000_0_0) shapeCasts_S1x600000_S600000

/-- The destinations: row 1 of the edge table. -/
def dst (e : Edges) : (⟨S600000, .i32⟩ : BufTy).Contents (Elt Ideal) :=
  shapeCast S600000 (extractStridedSlice S1x600000 ![1, 0] e slices_S2x600000_S1x600000_1_0) shapeCasts_S1x600000_S600000

/-- The sources as a column of row numbers, a negative one wrapped by the number of nodes. -/
def srcCol (e : Edges) : (⟨S600000x1, .i32⟩ : BufTy).Contents (Elt Ideal) :=
  broadcastInDim S600000x1 ![0] bcast_S600000_S600000x1_0
    (select (cmpi .slt (src e) (broadcastInDim S600000 ![] bcast_S_S600000 (constantI S_ 32 0#32)))
      (addi (src e) (broadcastInDim S600000 ![] bcast_S_S600000 (constantI S_ 32 50000#32))) (src e))

/-- The destinations as a column of row numbers. -/
def dstCol (e : Edges) : (⟨S600000x1, .i32⟩ : BufTy).Contents (Elt Ideal) :=
  broadcastInDim S600000x1 ![0] bcast_S600000_S600000x1_0 (dst e)

/-- The neighbourhood sums: the gathered source rows added into their destination rows, from zero. -/
def agg (x : Feats) (e : Edges) : Feats :=
  Host.scatterAdd (F := Ideal) scatter_S50000x128_S600000x1_S600000x128_1_0_0_1
    (broadcastInDim S50000x128 ![] bcast_S_S50000x128 (constant (F := Ideal) S_ .f32 0x00000000#32)) (dstCol e)
    (Host.gather gather_S50000x128_S600000x1_S600000x128_1_0_n_n_0_1_1128 x (srcCol e))

end Cert.KernelIdeal.Agg

end
-- ==== Proof.ChainKeep.lean ====
/-
  What persists through the run.  The program is six kernels among six stretches of host operations.  A buffer that no
  host operation of a stretch writes holds after the stretch what it held before it; a buffer that is none of a kernel's
  arrays holds after the kernel what it held before it.  Hence every argument, read at any later point of the run, is
  still the launch contents, and the source and destination vectors — rows 0 and 1 of the edge table, computed once
  by the first stretch — are still those rows when the third and the fifth stretch read them again.
-/
import proofs.«144821_j2645699854452_1_alg».proof.Proof.Gen.KernelIdeal.Frame
import proofs.«144821_j2645699854452_1_alg».proof.Proof.Spec
import proofs.«144821_j2645699854452_1_alg».proof.Proof.AggK

set_option maxRecDepth 16384

noncomputable section

namespace Cert.KernelIdeal.Chain

open Idealize.ShloMosaic Idealize.ShloMosaic.TcCoe Idealize.ShloMosaic.Tactic
open Cert.KernelIdeal Cert.KernelIdeal.Gen Cert.Spec

variable (m : (ℓ : Loc nD τ sig) → Buf (Elt Ideal) ℓ) (ρ : Dev nD → PrngReg) (c : Dev nD)

/-! ## The arguments, as the launch memory holds them -/

/-- The node features. -/
abbrev aX : Mat 50000 128 := m ((c : Thread nD τ).loc main_arg0)
/-- The edge table. -/
abbrev aE : Agg.Edges := m ((c : Thread nD τ).loc main_arg1)
/-- Layer 1's first weight matrix. -/
abbrev aW1a : Mat 128 128 := m ((c : Thread nD τ).loc main_arg2)
/-- Layer 1's first bias. -/
abbrev aB1a : Vec1 128 := m ((c : Thread nD τ).loc main_arg3)
/-- Layer 1's second weight matrix. -/
abbrev aW1b : Mat 128 128 := m ((c : Thread nD τ).loc main_arg4)
/-- Layer 1's second bias. -/
abbrev aB1b : Vec1 128 := m ((c : Thread nD τ).loc main_arg5)
/-- Layer 1's scale. -/
abbrev aG1 : Vec1 128 := m ((c : Thread nD τ).loc main_arg6)
/-- Layer 1's shift. -/
abbrev aBe1 : Vec1 128 := m ((c : Thread nD τ).loc main_arg7)
/-- Layer 2's first weight matrix. -/
abbrev aW2a : Mat 128 128 := m ((c : Thread nD τ).loc main_arg8)
/-- Layer 2's first bias. -/
abbrev aB2a : Vec1 128 := m ((c : Thread nD τ).loc main_arg9)
/-- Layer 2's second weight matrix. -/
abbrev aW2b : Mat 128 128 := m ((c : Thread nD τ).loc main_arg10)
/-- Layer 2's second bias. -/
abbrev aB2b : Vec1 128 := m ((c : Thread nD τ).loc main_arg11)
/-- Layer 2's scale. -/
abbrev aG2 : Vec1 128 := m ((c : Thread nD τ).loc main_arg12)
/-- Layer 2's shift. -/
abbrev aBe2 : Vec1 128 := m ((c : Thread nD τ).loc main_arg13)
/-- Layer 3's first weight matrix. -/
abbrev aW5a : Mat 128 128 := m ((c : Thread nD τ).loc main_arg14)
/-- Layer 3's first bias. -/
abbrev aB5a : Vec1 128 := m ((c : Thread nD τ).loc main_arg15)
/-- Layer 3's second weight matrix. -/
abbrev aW5b : Mat 128 2 := m ((c : Thread nD τ).loc main_arg16)
/-- Layer 3's second bias. -/
abbrev aB5b : Vec1 2 := m ((c : Thread nD τ).loc main_arg17)
/-- Layer 3's scale. -/
abbrev aG5 : Vec1 2 := m ((c : Thread nD τ).loc main_arg18)
/-- Layer 3's shift. -/
abbrev aBe5 : Vec1 2 := m ((c : Thread nD τ).loc main_arg19)

/-! ## What each stretch of host operations writes, and what it therefore leaves -/

/-- The buffers stretch 0 writes. -/
abbrev hostOps0_W : List (Ref sig .tc) :=
  [main_v0, main_v1, main_v2, main_v3, main_c, main_v4, main_v5, main_c_0, main_v6, main_v7,
   main_v8, main_v9, main_v10, main_cst, main_v11, main_v12, main_v13, main_v14, main_v15]
theorem hostOps0_writes : (hostOps0 : List (HloOp τ sig (Elt Ideal))).Forall fun op =>
    op.writes ⊆ (hostOps0_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 0 does not write holds after it what it held before. -/
theorem W1_of (r : Ref sig .tc) (h : r ∉ hostOps0_W) :
    W1 m ρ c (Proc.devRef .tc r) = W0 m ρ c (Proc.devRef .tc r) :=
  StableHlo.after_of_writes_sub hostOps0 _ hostOps0_writes h

/-- The buffers stretch 1 writes. -/
abbrev hostOps1_W : List (Ref sig .tc) :=
  [main_v17, main_cst_1, main_v18, main_v19, main_v20, main_cst_2, main_v21, main_v22, main_v23, main_v24,
   main_v25, main_v26, main_v27, main_v28]
theorem hostOps1_writes : (hostOps1 : List (HloOp τ sig (Elt Ideal))).Forall fun op =>
    op.writes ⊆ (hostOps1_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 1 does not write holds after it what it held before. -/
theorem W3_of (r : Ref sig .tc) (h : r ∉ hostOps1_W) :
    W3 m ρ c (Proc.devRef .tc r) = W2 m ρ c (Proc.devRef .tc r) :=
  StableHlo.after_of_writes_sub hostOps1 _ hostOps1_writes h

/-- The buffers stretch 2 writes. -/
abbrev hostOps2_W : List (Ref sig .tc) :=
  [main_c_3, main_v30, main_v31, main_c_4, main_v32, main_v33, main_v34, main_v35, main_v36, main_cst_5,
   main_v37, main_v38, main_v39, main_v40, main_v41]
theorem hostOps2_writes : (hostOps2 : List (HloOp τ sig (Elt Ideal))).Forall fun op =>
    op.writes ⊆ (hostOps2_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 2 does not write holds after it what it held before. -/
theorem W5_of (r : Ref sig .tc) (h : r ∉ hostOps2_W) :
    W5 m ρ c (Proc.devRef .tc r) = W4 m ρ c (Proc.devRef .tc r) :=
  StableHlo.after_of_writes_sub hostOps2 _ hostOps2_writes h

/-- The buffers stretch 3 writes. -/
abbrev hostOps3_W : List (Ref sig .tc) :=
  [main_v43, main_cst_6, main_v44, main_v45, main_v46, main_cst_7, main_v47, main_v48, main_v49, main_v50,
   main_v51, main_v52, main_v53, main_v54]
theorem hostOps3_writes : (hostOps3 : List (HloOp τ sig (Elt Ideal))).Forall fun op =>
    op.writes ⊆ (hostOps3_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 3 does not write holds after it what it held before. -/
theorem W7_of (r : Ref sig .tc) (h : r ∉ hostOps3_W) :
    W7 m ρ c (Proc.devRef .tc r) = W6 m ρ c (Proc.devRef .tc r) :=
  StableHlo.after_of_writes_sub hostOps3 _ hostOps3_writes h

/-- The buffers stretch 4 writes. -/
abbrev hostOps4_W : List (Ref sig .tc) :=
  [main_c_8, main_v56, main_v57, main_c_9, main_v58, main_v59, main_v60, main_v61, main_v62, main_cst_10,
   main_v63, main_v64, main_v65, main_v66, main_v67]
theorem hostOps4_writes : (hostOps4 : List (HloOp τ sig (Elt Ideal))).Forall fun op =>
    op.writes ⊆ (hostOps4_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 4 does not write holds after it what it held before. -/
theorem W9_of (r : Ref sig .tc) (h : r ∉ hostOps4_W) :
    W9 m ρ c (Proc.devRef .tc r) = W8 m ρ c (Proc.devRef .tc r) :=
  StableHlo.after_of_writes_sub hostOps4 _ hostOps4_writes h

/-- The buffers stretch 5 writes. -/
abbrev hostOps5_W : List (Ref sig .tc) :=
  [main_v69, main_cst_11, main_v70, main_v71, main_v72, main_cst_12, main_v73, main_v74, main_v75, main_v76,
   main_v77, main_v78, main_v79, main_v80]
theorem hostOps5_writes : (hostOps5 : List (HloOp τ sig (Elt Ideal))).Forall fun op =>
    op.writes ⊆ (hostOps5_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 5 does not write holds after it what it held before. -/
theorem W11_of (r : Ref sig .tc) (h : r ∉ hostOps5_W) :
    W11 m ρ c (Proc.devRef .tc r) = W10 m ρ c (Proc.devRef .tc r) :=
  StableHlo.after_of_writes_sub hostOps5 _ hostOps5_writes h

/-! ## The source and destination vectors -/

/-- After the first stretch the source vector is row 0 of the edge table. -/
theorem w1_src : W1 m ρ c (Proc.devRef .tc main_v1) = Agg.src (aE m c) := by
  show StableHlo.after hostOps0 (W0 m ρ c) (Proc.devRef .tc main_v1) = _
  after_results
  rfl
/-- After the first stretch the destination vector is row 1 of the edge table. -/
theorem w1_dst : W1 m ρ c (Proc.devRef .tc main_v3) = Agg.dst (aE m c) := by
  show StableHlo.after hostOps0 (W0 m ρ c) (Proc.devRef .tc main_v3) = _
  after_results
  rfl
/-- They are unchanged when the third stretch reads them … -/
theorem w4_src : W4 m ρ c (Proc.devRef .tc main_v1) = Agg.src (aE m c) :=
  (W4_of_ne m ρ c main_v1 (by decide)).trans ((W3_of m ρ c main_v1 (by decide)).trans ((W2_of_ne m ρ c main_v1 (by decide)).trans (w1_src m ρ c)))
theorem w4_dst : W4 m ρ c (Proc.devRef .tc main_v3) = Agg.dst (aE m c) :=
  (W4_of_ne m ρ c main_v3 (by decide)).trans ((W3_of m ρ c main_v3 (by decide)).trans ((W2_of_ne m ρ c main_v3 (by decide)).trans (w1_dst m ρ c)))
/-- … and when the fifth does. -/
theorem w8_src : W8 m ρ c (Proc.devRef .tc main_v1) = Agg.src (aE m c) :=
  (W8_of_ne m ρ c main_v1 (by decide)).trans ((W7_of m ρ c main_v1 (by decide)).trans ((W6_of_ne m ρ c main_v1 (by decide)).trans ((W5_of m ρ c main_v1 (by decide)).trans (w4_src m ρ c))))
theorem w8_dst : W8 m ρ c (Proc.devRef .tc main_v3) = Agg.dst (aE m c) :=
  (W8_of_ne m ρ c main_v3 (by decide)).trans ((W7_of m ρ c main_v3 (by decide)).trans ((W6_of_ne m ρ c main_v3 (by decide)).trans ((W5_of m ρ c main_v3 (by decide)).trans (w4_dst m ρ c))))

/-! ## The arguments where the later stretches read them -/

theorem w2_arg6 : W2 m ρ c (Proc.devRef .tc main_arg6) = aG1 m c :=
  (W2_of_ne m ρ c main_arg6 (by decide)).trans ((W1_of m ρ c main_arg6 (by decide)).trans (rfl))
theorem w2_arg7 : W2 m ρ c (Proc.devRef .tc main_arg7) = aBe1 m c :=
  (W2_of_ne m ρ c main_arg7 (by decide)).trans ((W1_of m ρ c main_arg7 (by decide)).trans (rfl))
theorem w4_arg8 : W4 m ρ c (Proc.devRef .tc main_arg8) = aW2a m c :=
  (W4_of_ne m ρ c main_arg8 (by decide)).trans ((W3_of m ρ c main_arg8 (by decide)).trans ((W2_of_ne m ρ c main_arg8 (by decide)).trans ((W1_of m ρ c main_arg8 (by decide)).trans (rfl))))
theorem w4_arg9 : W4 m ρ c (Proc.devRef .tc main_arg9) = aB2a m c :=
  (W4_of_ne m ρ c main_arg9 (by decide)).trans ((W3_of m ρ c main_arg9 (by decide)).trans ((W2_of_ne m ρ c main_arg9 (by decide)).trans ((W1_of m ρ c main_arg9 (by decide)).trans (rfl))))
theorem w4_arg10 : W4 m ρ c (Proc.devRef .tc main_arg10) = aW2b m c :=
  (W4_of_ne m ρ c main_arg10 (by decide)).trans ((W3_of m ρ c main_arg10 (by decide)).trans ((W2_of_ne m ρ c main_arg10 (by decide)).trans ((W1_of m ρ c main_arg10 (by decide)).trans (rfl))))
theorem w4_arg11 : W4 m ρ c (Proc.devRef .tc main_arg11) = aB2b m c :=
  (W4_of_ne m ρ c main_arg11 (by decide)).trans ((W3_of m ρ c main_arg11 (by decide)).trans ((W2_of_ne m ρ c main_arg11 (by decide)).trans ((W1_of m ρ c main_arg11 (by decide)).trans (rfl))))
theorem w6_arg12 : W6 m ρ c (Proc.devRef .tc main_arg12) = aG2 m c :=
  (W6_of_ne m ρ c main_arg12 (by decide)).trans ((W5_of m ρ c main_arg12 (by decide)).trans ((W4_of_ne m ρ c main_arg12 (by decide)).trans ((W3_of m ρ c main_arg12 (by decide)).trans ((W2_of_ne m ρ c main_arg12 (by decide)).trans ((W1_of m ρ c main_arg12 (by decide)).trans (rfl))))))
theorem w6_arg13 : W6 m ρ c (Proc.devRef .tc main_arg13) = aBe2 m c :=
  (W6_of_ne m ρ c main_arg13 (by decide)).trans ((W5_of m ρ c main_arg13 (by decide)).trans ((W4_of_ne m ρ c main_arg13 (by decide)).trans ((W3_of m ρ c main_arg13 (by decide)).trans ((W2_of_ne m ρ c main_arg13 (by decide)).trans ((W1_of m ρ c main_arg13 (by decide)).trans (rfl))))))
theorem w8_arg14 : W8 m ρ c (Proc.devRef .tc main_arg14) = aW5a m c :=
  (W8_of_ne m ρ c main_arg14 (by decide)).trans ((W7_of m ρ c main_arg14 (by decide)).trans ((W6_of_ne m ρ c main_arg14 (by decide)).trans ((W5_of m ρ c main_arg14 (by decide)).trans ((W4_of_ne m ρ c main_arg14 (by decide)).trans ((W3_of m ρ c main_arg14 (by decide)).trans ((W2_of_ne m ρ c main_arg14 (by decide)).trans ((W1_of m ρ c main_arg14 (by decide)).trans (rfl))))))))
theorem w8_arg15 : W8 m ρ c (Proc.devRef .tc main_arg15) = aB5a m c :=
  (W8_of_ne m ρ c main_arg15 (by decide)).trans ((W7_of m ρ c main_arg15 (by decide)).trans ((W6_of_ne m ρ c main_arg15 (by decide)).trans ((W5_of m ρ c main_arg15 (by decide)).trans ((W4_of_ne m ρ c main_arg15 (by decide)).trans ((W3_of m ρ c main_arg15 (by decide)).trans ((W2_of_ne m ρ c main_arg15 (by decide)).trans ((W1_of m ρ c main_arg15 (by decide)).trans (rfl))))))))
theorem w8_arg16 : W8 m ρ c (Proc.devRef .tc main_arg16) = aW5b m c :=
  (W8_of_ne m ρ c main_arg16 (by decide)).trans ((W7_of m ρ c main_arg16 (by decide)).trans ((W6_of_ne m ρ c main_arg16 (by decide)).trans ((W5_of m ρ c main_arg16 (by decide)).trans ((W4_of_ne m ρ c main_arg16 (by decide)).trans ((W3_of m ρ c main_arg16 (by decide)).trans ((W2_of_ne m ρ c main_arg16 (by decide)).trans ((W1_of m ρ c main_arg16 (by decide)).trans (rfl))))))))
theorem w8_arg17 : W8 m ρ c (Proc.devRef .tc main_arg17) = aB5b m c :=
  (W8_of_ne m ρ c main_arg17 (by decide)).trans ((W7_of m ρ c main_arg17 (by decide)).trans ((W6_of_ne m ρ c main_arg17 (by decide)).trans ((W5_of m ρ c main_arg17 (by decide)).trans ((W4_of_ne m ρ c main_arg17 (by decide)).trans ((W3_of m ρ c main_arg17 (by decide)).trans ((W2_of_ne m ρ c main_arg17 (by decide)).trans ((W1_of m ρ c main_arg17 (by decide)).trans (rfl))))))))
theorem w10_arg18 : W10 m ρ c (Proc.devRef .tc main_arg18) = aG5 m c :=
  (W10_of_ne m ρ c main_arg18 (by decide)).trans ((W9_of m ρ c main_arg18 (by decide)).trans ((W8_of_ne m ρ c main_arg18 (by decide)).trans ((W7_of m ρ c main_arg18 (by decide)).trans ((W6_of_ne m ρ c main_arg18 (by decide)).trans ((W5_of m ρ c main_arg18 (by decide)).trans ((W4_of_ne m ρ c main_arg18 (by decide)).trans ((W3_of m ρ c main_arg18 (by decide)).trans ((W2_of_ne m ρ c main_arg18 (by decide)).trans ((W1_of m ρ c main_arg18 (by decide)).trans (rfl))))))))))
theorem w10_arg19 : W10 m ρ c (Proc.devRef .tc main_arg19) = aBe5 m c :=
  (W10_of_ne m ρ c main_arg19 (by decide)).trans ((W9_of m ρ c main_arg19 (by decide)).trans ((W8_of_ne m ρ c main_arg19 (by decide)).trans ((W7_of m ρ c main_arg19 (by decide)).trans ((W6_of_ne m ρ c main_arg19 (by decide)).trans ((W5_of m ρ c main_arg19 (by decide)).trans ((W4_of_ne m ρ c main_arg19 (by decide)).trans ((W3_of m ρ c main_arg19 (by decide)).trans ((W2_of_ne m ρ c main_arg19 (by decide)).trans ((W1_of m ρ c main_arg19 (by decide)).trans (rfl))))))))))

end Cert.KernelIdeal.Chain

end
-- ==== Proof.ChainForms.lean ====
/-
  The host's small steps between the two kernels of a layer, read as the specification's rows, for any width d.
  A length-d vector reshaped to one row is the vector laid out as a row (entry (0, q) is entry q: the row-major
  position 0·d + q = q).  The accumulated column sums s and sums of squares ss, each a one-row array, are reshaped to
  vectors, divided by the constant N, combined as  ss/N − (s/N)·(s/N),  and reshaped back to rows: these rows are the
  mean row  s/N  and the variance row  ss/N − mean·mean  of the specification.
-/
import proofs.«144821_j2645699854452_1_alg».proof.Proof.Spec
import Idealize.ShloMosaic.Lib.ValueIdx
import Idealize.ShloMosaic.Lib.IdealHost
import Idealize.ShloMosaic.Lib.Pipeline.Value

noncomputable section

namespace Cert.Spec

open Idealize.ShloMosaic Idealize.ShloMosaic.ValueIdx

variable {d : ℕ}

/-- A vector reshaped to one row is the vector laid out as a row. -/
theorem reshape_eq_rowOf (v : Vec1 d) (h : (⟨1, ![d]⟩ : Shape).ShapeCasts ⟨2, ![1, d]⟩) :
    shapeCast (⟨2, ![1, d]⟩ : Shape) v h = rowOf v := by
  funext i
  obtain ⟨z, q, rfl⟩ : ∃ (z : Fin 1) (q : Fin d), i = ix2 z q := ⟨i 0, i 1, eq_ix2 i⟩
  rw [rowOf_apply]
  obtain rfl : z = 0 := Fin.ext (by have := z.isLt; omega)
  exact shapeCast_apply v h (ix2 (0 : Fin 1) q) (ix1 q) (by
    rw [Shape.rowMajor_val_two, Shape.rowMajor_val_one]; show q.val = 0 * d + q.val; omega)

/-- A one-row array reshaped to a vector: entry q is entry (0, q). -/
theorem reshape_row_apply (s : Mat 1 d) (h : (⟨2, ![1, d]⟩ : Shape).ShapeCasts ⟨1, ![d]⟩) (q : Fin d) :
    shapeCast (⟨1, ![d]⟩ : Shape) s h (ix1 q) = s (ix2 0 q) :=
  shapeCast_apply s h (ix1 q) (ix2 (0 : Fin 1) q) (by
    rw [Shape.rowMajor_val_two, Shape.rowMajor_val_one]; show 0 * d + q.val = q.val; omega)

/-- The divisor N as a splat vector reads N everywhere. -/
theorem splatN_apply (hb : (⟨0, ![]⟩ : Shape).BroadcastsInDim ⟨1, ![d]⟩ ![]) (q : Fin d) :
    broadcastInDim (⟨1, ![d]⟩ : Shape) ![] hb (constant (F := Ideal) (⟨0, ![]⟩ : Shape) .f32 0x47435000#32) (ix1 q) = cN := by
  rw [broadcastInDim_scalar_apply]; rfl

/-- The sums' row reshaped to a vector, divided by N and reshaped back is the mean row. -/
theorem host_mean (s : Mat 1 d) (h1 : (⟨2, ![1, d]⟩ : Shape).ShapeCasts ⟨1, ![d]⟩)
    (hb : (⟨0, ![]⟩ : Shape).BroadcastsInDim ⟨1, ![d]⟩ ![]) (h2 : (⟨1, ![d]⟩ : Shape).ShapeCasts ⟨2, ![1, d]⟩) :
    shapeCast (⟨2, ![1, d]⟩ : Shape)
        (Host.divf (shapeCast (⟨1, ![d]⟩ : Shape) s h1)
          (broadcastInDim (⟨1, ![d]⟩ : Shape) ![] hb (constant (F := Ideal) (⟨0, ![]⟩ : Shape) .f32 0x47435000#32)) : Vec1 d) h2
      = kMean s := by
  rw [reshape_eq_rowOf]
  funext i
  obtain ⟨z, q, rfl⟩ : ∃ (z : Fin 1) (q : Fin d), i = ix2 z q := ⟨i 0, i 1, eq_ix2 i⟩
  obtain rfl : z = 0 := Fin.ext (by have := z.isLt; omega)
  rw [rowOf_apply, hostDivf_apply, reshape_row_apply, splatN_apply]
  rfl

/-- The two rows reshaped to vectors and combined as  ss/N − (s/N)·(s/N),  reshaped back, is the variance row. -/
theorem host_var (s ss : Mat 1 d) (h1 : (⟨2, ![1, d]⟩ : Shape).ShapeCasts ⟨1, ![d]⟩)
    (hb : (⟨0, ![]⟩ : Shape).BroadcastsInDim ⟨1, ![d]⟩ ![]) (h2 : (⟨1, ![d]⟩ : Shape).ShapeCasts ⟨2, ![1, d]⟩) :
    shapeCast (⟨2, ![1, d]⟩ : Shape)
        (subf
          (Host.divf (shapeCast (⟨1, ![d]⟩ : Shape) ss h1)
            (broadcastInDim (⟨1, ![d]⟩ : Shape) ![] hb (constant (F := Ideal) (⟨0, ![]⟩ : Shape) .f32 0x47435000#32)))
          (mulf
            (Host.divf (shapeCast (⟨1, ![d]⟩ : Shape) s h1)
              (broadcastInDim (⟨1, ![d]⟩ : Shape) ![] hb (constant (F := Ideal) (⟨0, ![]⟩ : Shape) .f32 0x47435000#32)))
            (Host.divf (shapeCast (⟨1, ![d]⟩ : Shape) s h1)
              (broadcastInDim (⟨1, ![d]⟩ : Shape) ![] hb (constant (F := Ideal) (⟨0, ![]⟩ : Shape) .f32 0x47435000#32)))) : Vec1 d) h2
      = kVar s ss := by
  rw [reshape_eq_rowOf]
  funext i
  obtain ⟨z, q, rfl⟩ : ∃ (z : Fin 1) (q : Fin d), i = ix2 z q := ⟨i 0, i 1, eq_ix2 i⟩
  obtain rfl : z = 0 := Fin.ext (by have := z.isLt; omega)
  rw [rowOf_apply, subf_apply, mulf_apply, hostDivf_apply, hostDivf_apply, reshape_row_apply, reshape_row_apply, splatN_apply]
  rfl

end Cert.Spec

end
-- ==== Proof.Chain1.lean ====
/-
  The first layer, from the launch to the second kernel's exit.
  The first stretch of host operations leaves, at the first kernel's six input arrays: the features x, their
  neighbourhood sums g = agg x e, the two weight matrices, and the two biases reshaped to rows.  The kernel leaves the
  perceptron's value H = mlp x g Wa ba Wb bb and its column sums and column sums of squares.  The second stretch turns
  the two rows of sums into the mean row s/N and the variance row ss/N − mean·mean and reshapes scale and shift to rows; it
  does not touch H.  The second kernel normalises H with these four rows: its output is the layer's value.
  What a kernel leaves as a function of what it finds is taken here as a hypothesis (one fact per output array of each
  of the six kernels), so that the walk through the run is independent of how those facts are proved.
-/
import proofs.«144821_j2645699854452_1_alg».proof.Proof.ChainKeep
import proofs.«144821_j2645699854452_1_alg».proof.Proof.ChainForms

set_option maxRecDepth 16384

noncomputable section

namespace Cert.KernelIdeal.Chain

open Idealize.ShloMosaic Idealize.ShloMosaic.TcCoe Idealize.ShloMosaic.Tactic
open Cert.KernelIdeal Cert.KernelIdeal.Gen Cert.Spec

/-- The TensorCore's buffer contents when a kernel is entered. -/
abbrev Entry : Type := (c : Dev nD) → (b : Ref sig .tc) → Buf (Elt Ideal) ((c : Thread nD τ).loc b)

/-! ## What a kernel finds and what it leaves, named -/

set_option maxHeartbeats 1000000 in
/-- The perceptron applied to kernel 0's six input arrays as it finds them. -/
def inH0 (V : Entry) (c : Dev nD) : Mat 50000 128 :=
  mlp (n := 50000) (a := 128) (b := 128) (d := 128) (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))
set_option maxHeartbeats 1000000 in
/-- Kernel 0's activation array at its exit. -/
def out0_6 (V : Entry) (c : Dev nD) : Mat 50000 128 := (dat0 (F := Ideal) V c).arrAt 6 cfg0.N
set_option maxHeartbeats 1000000 in
/-- Kernel 0's row of column sums at its exit. -/
def out0_7 (V : Entry) (c : Dev nD) : Mat 1 128 := (dat0 (F := Ideal) V c).arrAt 7 cfg0.N
set_option maxHeartbeats 1000000 in
/-- Kernel 0's row of column sums of squares at its exit. -/
def out0_8 (V : Entry) (c : Dev nD) : Mat 1 128 := (dat0 (F := Ideal) V c).arrAt 8 cfg0.N
set_option maxHeartbeats 1000000 in
/-- The normalisation applied to kernel 1's five input arrays as it finds them. -/
def inN1 (V : Entry) (c : Dev nD) : Mat 50000 128 :=
  norm (n := 50000) (d := 128) (V c (Pipeline.arrRef spec1 0)) (V c (Pipeline.arrRef spec1 1)) (V c (Pipeline.arrRef spec1 2)) (V c (Pipeline.arrRef spec1 3)) (V c (Pipeline.arrRef spec1 4))
set_option maxHeartbeats 1000000 in
/-- Kernel 1's output array at its exit. -/
def out1_5 (V : Entry) (c : Dev nD) : Mat 50000 128 := (dat1 (F := Ideal) V c).arrAt 5 cfg1.N

set_option maxHeartbeats 1000000 in
/-- The perceptron applied to kernel 2's six input arrays as it finds them. -/
def inH2 (V : Entry) (c : Dev nD) : Mat 50000 128 :=
  mlp (n := 50000) (a := 128) (b := 128) (d := 128) (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
set_option maxHeartbeats 1000000 in
/-- Kernel 2's activation array at its exit. -/
def out2_6 (V : Entry) (c : Dev nD) : Mat 50000 128 := (dat2 (F := Ideal) V c).arrAt 6 cfg2.N
set_option maxHeartbeats 1000000 in
/-- Kernel 2's row of column sums at its exit. -/
def out2_7 (V : Entry) (c : Dev nD) : Mat 1 128 := (dat2 (F := Ideal) V c).arrAt 7 cfg2.N
set_option maxHeartbeats 1000000 in
/-- Kernel 2's row of column sums of squares at its exit. -/
def out2_8 (V : Entry) (c : Dev nD) : Mat 1 128 := (dat2 (F := Ideal) V c).arrAt 8 cfg2.N
set_option maxHeartbeats 1000000 in
/-- The normalisation applied to kernel 3's five input arrays as it finds them. -/
def inN3 (V : Entry) (c : Dev nD) : Mat 50000 128 :=
  norm (n := 50000) (d := 128) (V c (Pipeline.arrRef spec3 0)) (V c (Pipeline.arrRef spec3 1)) (V c (Pipeline.arrRef spec3 2)) (V c (Pipeline.arrRef spec3 3)) (V c (Pipeline.arrRef spec3 4))
set_option maxHeartbeats 1000000 in
/-- Kernel 3's output array at its exit. -/
def out3_5 (V : Entry) (c : Dev nD) : Mat 50000 128 := (dat3 (F := Ideal) V c).arrAt 5 cfg3.N

set_option maxHeartbeats 1000000 in
/-- The perceptron applied to kernel 4's six input arrays as it finds them. -/
def inH4 (V : Entry) (c : Dev nD) : Mat 50000 2 :=
  mlp (n := 50000) (a := 128) (b := 128) (d := 2) (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5))
set_option maxHeartbeats 1000000 in
/-- Kernel 4's activation array at its exit. -/
def out4_6 (V : Entry) (c : Dev nD) : Mat 50000 2 := (dat4 (F := Ideal) V c).arrAt 6 cfg4.N
set_option maxHeartbeats 1000000 in
/-- Kernel 4's row of column sums at its exit. -/
def out4_7 (V : Entry) (c : Dev nD) : Mat 1 2 := (dat4 (F := Ideal) V c).arrAt 7 cfg4.N
set_option maxHeartbeats 1000000 in
/-- Kernel 4's row of column sums of squares at its exit. -/
def out4_8 (V : Entry) (c : Dev nD) : Mat 1 2 := (dat4 (F := Ideal) V c).arrAt 8 cfg4.N
set_option maxHeartbeats 1000000 in
/-- The normalisation applied to kernel 5's five input arrays as it finds them. -/
def inN5 (V : Entry) (c : Dev nD) : Mat 50000 2 :=
  norm (n := 50000) (d := 2) (V c (Pipeline.arrRef spec5 0)) (V c (Pipeline.arrRef spec5 1)) (V c (Pipeline.arrRef spec5 2)) (V c (Pipeline.arrRef spec5 3)) (V c (Pipeline.arrRef spec5 4))
set_option maxHeartbeats 1000000 in
/-- Kernel 5's output array at its exit. -/
def out5_5 (V : Entry) (c : Dev nD) : Mat 50000 2 := (dat5 (F := Ideal) V c).arrAt 5 cfg5.N

/-- What each kernel leaves in its output arrays, as a function of its input arrays as it finds them: the layer
    kernels (0, 2, 4) leave the perceptron's value, its column sums and its column sums of squares; the normalising
    kernels (1, 3, 5) leave the normalised array. -/
structure RegionFacts : Prop where
  l0_H : ∀ (V : Entry) (c : Dev nD), out0_6 V c = inH0 V c
  l0_s : ∀ (V : Entry) (c : Dev nD), out0_7 V c = colSum (inH0 V c)
  l0_ss : ∀ (V : Entry) (c : Dev nD), out0_8 V c = colSumSq (inH0 V c)
  n1 : ∀ (V : Entry) (c : Dev nD), out1_5 V c = inN1 V c
  l2_H : ∀ (V : Entry) (c : Dev nD), out2_6 V c = inH2 V c
  l2_s : ∀ (V : Entry) (c : Dev nD), out2_7 V c = colSum (inH2 V c)
  l2_ss : ∀ (V : Entry) (c : Dev nD), out2_8 V c = colSumSq (inH2 V c)
  n3 : ∀ (V : Entry) (c : Dev nD), out3_5 V c = inN3 V c
  l4_H : ∀ (V : Entry) (c : Dev nD), out4_6 V c = inH4 V c
  l4_s : ∀ (V : Entry) (c : Dev nD), out4_7 V c = colSum (inH4 V c)
  l4_ss : ∀ (V : Entry) (c : Dev nD), out4_8 V c = colSumSq (inH4 V c)
  n5 : ∀ (V : Entry) (c : Dev nD), out5_5 V c = inN5 V c

variable (m : (ℓ : Loc nD τ sig) → Buf (Elt Ideal) ℓ) (ρ : Dev nD → PrngReg) (c : Dev nD)

/-! ## The first kernel's input arrays -/

theorem e0_0 : V1 m ρ c (Pipeline.arrRef spec0 0) = aX m c := (W1_of m ρ c main_arg0 (by decide)).trans rfl
set_option maxHeartbeats 1600000 in
theorem e0_1 : V1 m ρ c (Pipeline.arrRef spec0 1) = Agg.agg (aX m c) (aE m c) := by
  show StableHlo.after hostOps0 (W0 m ρ c) (Proc.devRef .tc main_v13) = _
  after_results_simp
  rfl
theorem e0_2 : V1 m ρ c (Pipeline.arrRef spec0 2) = aW1a m c := (W1_of m ρ c main_arg2 (by decide)).trans rfl
theorem e0_3 : V1 m ρ c (Pipeline.arrRef spec0 3) = rowOf (aB1a m c) := by
  show StableHlo.after hostOps0 (W0 m ρ c) (Proc.devRef .tc main_v14) = _
  after_results
  exact reshape_eq_rowOf (d := 128) _ _
theorem e0_4 : V1 m ρ c (Pipeline.arrRef spec0 4) = aW1b m c := (W1_of m ρ c main_arg4 (by decide)).trans rfl
theorem e0_5 : V1 m ρ c (Pipeline.arrRef spec0 5) = rowOf (aB1b m c) := by
  show StableHlo.after hostOps0 (W0 m ρ c) (Proc.devRef .tc main_v15) = _
  after_results
  exact reshape_eq_rowOf (d := 128) _ _

/-- The first layer's perceptron value. -/
abbrev H1 : Mat 50000 128 :=
  mlp (aX m c) (Agg.agg (aX m c) (aE m c)) (aW1a m c) (rowOf (aB1a m c)) (aW1b m c) (rowOf (aB1b m c))

theorem mlp1 : inH0 (V1 m ρ) c = H1 m c := by
  unfold inH0
  rw [e0_0, e0_1, e0_2, e0_3, e0_4, e0_5]

/-! ## What the first kernel leaves -/

theorem w2_H (hf : RegionFacts) : W2 m ρ c (Proc.devRef .tc main_v16_0) = H1 m c :=
  (W2_arr m ρ c 6).trans ((hf.l0_H _ c).trans (mlp1 m ρ c))
theorem w2_s (hf : RegionFacts) : W2 m ρ c (Proc.devRef .tc main_v16_1) = colSum (H1 m c) :=
  (W2_arr m ρ c 7).trans ((hf.l0_s _ c).trans (congrArg colSum (mlp1 m ρ c)))
theorem w2_ss (hf : RegionFacts) : W2 m ρ c (Proc.devRef .tc main_v16_2) = colSumSq (H1 m c) :=
  (W2_arr m ρ c 8).trans ((hf.l0_ss _ c).trans (congrArg colSumSq (mlp1 m ρ c)))

/-! ## The second kernel's input arrays -/

theorem e1_0 (hf : RegionFacts) : V3 m ρ c (Pipeline.arrRef spec1 0) = H1 m c :=
  (W3_of m ρ c main_v16_0 (by decide)).trans (w2_H m ρ c hf)
theorem e1_1 (hf : RegionFacts) : V3 m ρ c (Pipeline.arrRef spec1 1) = kMean (colSum (H1 m c)) := by
  show StableHlo.after hostOps1 (W2 m ρ c) (Proc.devRef .tc main_v25) = _
  after_results
  rw [w2_s m ρ c hf]
  exact host_mean (d := 128) _ _ _ _
theorem e1_2 (hf : RegionFacts) : V3 m ρ c (Pipeline.arrRef spec1 2) = kVar (colSum (H1 m c)) (colSumSq (H1 m c)) := by
  show StableHlo.after hostOps1 (W2 m ρ c) (Proc.devRef .tc main_v26) = _
  after_results
  rw [w2_s m ρ c hf, w2_ss m ρ c hf]
  exact host_var (d := 128) _ _ _ _ _
theorem e1_3 : V3 m ρ c (Pipeline.arrRef spec1 3) = rowOf (aG1 m c) := by
  show StableHlo.after hostOps1 (W2 m ρ c) (Proc.devRef .tc main_v27) = _
  after_results
  rw [w2_arg6]
  exact reshape_eq_rowOf (d := 128) _ _
theorem e1_4 : V3 m ρ c (Pipeline.arrRef spec1 4) = rowOf (aBe1 m c) := by
  show StableHlo.after hostOps1 (W2 m ρ c) (Proc.devRef .tc main_v28) = _
  after_results
  rw [w2_arg7]
  exact reshape_eq_rowOf (d := 128) _ _

/-! ## The first layer's value -/

/-- The first layer's value. -/
abbrev Y1 : Mat 50000 128 :=
  layerK (aX m c) (Agg.agg (aX m c) (aE m c)) (aW1a m c) (aB1a m c) (aW1b m c) (aB1b m c) (aG1 m c) (aBe1 m c)

/-- At the second kernel's exit its output array holds the first layer's value. -/
theorem w4_Y1 (hf : RegionFacts) : W4 m ρ c (Proc.devRef .tc main_v29) = Y1 m c :=
  (W4_arr m ρ c 5).trans ((hf.n1 _ c).trans (by
    unfold inN1
    rw [e1_0 m ρ c hf, e1_1 m ρ c hf, e1_2 m ρ c hf, e1_3, e1_4]
    rfl))

end Cert.KernelIdeal.Chain

end
-- ==== Proof.Chain2.lean ====
/-
  The second layer, from the second kernel's exit to the fourth kernel's exit: the first layer's text with the first
  layer's value Y1 in place of the features.  The third stretch of host operations recomputes the neighbourhood sums,
  now of Y1, from the source and destination vectors the first stretch left (rows 0 and 1 of the edge table, untouched
  since), and reshapes the two biases to rows; the third kernel leaves the perceptron's value and its two rows of sums;
  the fourth stretch forms the mean and variance rows and reshapes scale and shift; the fourth kernel normalises.
-/
import proofs.«144821_j2645699854452_1_alg».proof.Proof.Chain1

set_option maxRecDepth 16384

noncomputable section

namespace Cert.KernelIdeal.Chain

open Idealize.ShloMosaic Idealize.ShloMosaic.TcCoe Idealize.ShloMosaic.Tactic
open Cert.KernelIdeal Cert.KernelIdeal.Gen Cert.Spec

variable (m : (ℓ : Loc nD τ sig) → Buf (Elt Ideal) ℓ) (ρ : Dev nD → PrngReg) (c : Dev nD)

/-! ## The layer kernel's input arrays -/

theorem e2_0 (hf : RegionFacts) : V5 m ρ c (Pipeline.arrRef spec2 0) = Y1 m c :=
  (W5_of m ρ c main_v29 (by decide)).trans (w4_Y1 m ρ c hf)
set_option maxHeartbeats 1600000 in
theorem e2_1 (hf : RegionFacts) : V5 m ρ c (Pipeline.arrRef spec2 1) = Agg.agg (Y1 m c) (aE m c) := by
  show StableHlo.after hostOps2 (W4 m ρ c) (Proc.devRef .tc main_v39) = _
  after_results_simp
  rw [w4_Y1 m ρ c hf, w4_src, w4_dst]
  rfl
theorem e2_2 : V5 m ρ c (Pipeline.arrRef spec2 2) = aW2a m c :=
  (W5_of m ρ c main_arg8 (by decide)).trans (w4_arg8 m ρ c)
theorem e2_3 : V5 m ρ c (Pipeline.arrRef spec2 3) = rowOf (aB2a m c) := by
  show StableHlo.after hostOps2 (W4 m ρ c) (Proc.devRef .tc main_v40) = _
  after_results
  rw [w4_arg9]
  exact reshape_eq_rowOf (d := 128) _ _
theorem e2_4 : V5 m ρ c (Pipeline.arrRef spec2 4) = aW2b m c :=
  (W5_of m ρ c main_arg10 (by decide)).trans (w4_arg10 m ρ c)
theorem e2_5 : V5 m ρ c (Pipeline.arrRef spec2 5) = rowOf (aB2b m c) := by
  show StableHlo.after hostOps2 (W4 m ρ c) (Proc.devRef .tc main_v41) = _
  after_results
  rw [w4_arg11]
  exact reshape_eq_rowOf (d := 128) _ _

/-- This layer's perceptron value. -/
abbrev H2 : Mat 50000 128 :=
  mlp (Y1 m c) (Agg.agg (Y1 m c) (aE m c)) (aW2a m c) (rowOf (aB2a m c)) (aW2b m c) (rowOf (aB2b m c))

theorem mlp2 (hf : RegionFacts) : inH2 (V5 m ρ) c = H2 m c := by
  unfold inH2
  rw [e2_0 m ρ c hf, e2_1 m ρ c hf, e2_2, e2_3, e2_4, e2_5]

/-! ## What the layer kernel leaves -/

theorem w6_H (hf : RegionFacts) : W6 m ρ c (Proc.devRef .tc main_v42_0) = H2 m c :=
  (W6_arr m ρ c 6).trans ((hf.l2_H _ c).trans (mlp2 m ρ c hf))
theorem w6_s (hf : RegionFacts) : W6 m ρ c (Proc.devRef .tc main_v42_1) = colSum (H2 m c) :=
  (W6_arr m ρ c 7).trans ((hf.l2_s _ c).trans (congrArg colSum (mlp2 m ρ c hf)))
theorem w6_ss (hf : RegionFacts) : W6 m ρ c (Proc.devRef .tc main_v42_2) = colSumSq (H2 m c) :=
  (W6_arr m ρ c 8).trans ((hf.l2_ss _ c).trans (congrArg colSumSq (mlp2 m ρ c hf)))

/-! ## The normalising kernel's input arrays -/

theorem e3_0 (hf : RegionFacts) : V7 m ρ c (Pipeline.arrRef spec3 0) = H2 m c :=
  (W7_of m ρ c main_v42_0 (by decide)).trans (w6_H m ρ c hf)
theorem e3_1 (hf : RegionFacts) : V7 m ρ c (Pipeline.arrRef spec3 1) = kMean (colSum (H2 m c)) := by
  show StableHlo.after hostOps3 (W6 m ρ c) (Proc.devRef .tc main_v51) = _
  after_results
  rw [w6_s m ρ c hf]
  exact host_mean (d := 128) _ _ _ _
theorem e3_2 (hf : RegionFacts) : V7 m ρ c (Pipeline.arrRef spec3 2) = kVar (colSum (H2 m c)) (colSumSq (H2 m c)) := by
  show StableHlo.after hostOps3 (W6 m ρ c) (Proc.devRef .tc main_v52) = _
  after_results
  rw [w6_s m ρ c hf, w6_ss m ρ c hf]
  exact host_var (d := 128) _ _ _ _ _
theorem e3_3 : V7 m ρ c (Pipeline.arrRef spec3 3) = rowOf (aG2 m c) := by
  show StableHlo.after hostOps3 (W6 m ρ c) (Proc.devRef .tc main_v53) = _
  after_results
  rw [w6_arg12]
  exact reshape_eq_rowOf (d := 128) _ _
theorem e3_4 : V7 m ρ c (Pipeline.arrRef spec3 4) = rowOf (aBe2 m c) := by
  show StableHlo.after hostOps3 (W6 m ρ c) (Proc.devRef .tc main_v54) = _
  after_results
  rw [w6_arg13]
  exact reshape_eq_rowOf (d := 128) _ _

/-! ## The layer's value -/

/-- This layer's value. -/
abbrev Y2 : Mat 50000 128 :=
  layerK (Y1 m c) (Agg.agg (Y1 m c) (aE m c)) (aW2a m c) (aB2a m c) (aW2b m c) (aB2b m c) (aG2 m c) (aBe2 m c)

/-- At the normalising kernel's exit its output array holds the layer's value. -/
theorem w8_Y2 (hf : RegionFacts) : W8 m ρ c (Proc.devRef .tc main_v55) = Y2 m c :=
  (W8_arr m ρ c 5).trans ((hf.n3 _ c).trans (by
    unfold inN3
    rw [e3_0 m ρ c hf, e3_1 m ρ c hf, e3_2 m ρ c hf, e3_3, e3_4]
    rfl))

end Cert.KernelIdeal.Chain

end
-- ==== Proof.Chain3.lean ====
/-
  The third layer, from the fourth kernel's exit to the end of the run: the layer's walk once more, with the value X that
  the fourth kernel left in place of the features and an output of width 2 (the perceptron's second matrix is 128 × 2; its
  bias, the scale and the shift have length 2, and the sums, mean and variance rows are 1 × 2).
  The fifth stretch of host operations leaves, at the fifth kernel's six input arrays: X, its neighbourhood sums
  g = agg X e (the source and destination vectors are still rows 0 and 1 of the edge table), the two weight matrices, and
  the two biases reshaped to rows.  The kernel leaves the perceptron's value H = mlp X g Wa ba Wb bb with its column sums
  and column sums of squares.  The sixth stretch turns the two rows of sums into the mean row s/N and the variance row
  ss/N − mean·mean and reshapes scale and shift to rows; it does not touch H.  The sixth kernel normalises H with these four
  rows: its output array, the program's result, is the layer's value.
  X is arbitrary here: what the fourth kernel left is a hypothesis, so this walk does not depend on the second layer's.
-/
import proofs.«144821_j2645699854452_1_alg».proof.Proof.Chain1

set_option maxRecDepth 16384

noncomputable section

namespace Cert.KernelIdeal.Chain

open Idealize.ShloMosaic Idealize.ShloMosaic.TcCoe Idealize.ShloMosaic.Tactic
open Cert.KernelIdeal Cert.KernelIdeal.Gen Cert.Spec

variable (m : (ℓ : Loc nD τ sig) → Buf (Elt Ideal) ℓ) (ρ : Dev nD → PrngReg) (c : Dev nD)

/-! ## The layer kernel's input arrays -/

theorem e4_0 (X : Mat 50000 128) (hX : W8 m ρ c (Proc.devRef .tc main_v55) = X) :
    V9 m ρ c (Pipeline.arrRef spec4 0) = X :=
  (W9_of m ρ c main_v55 (by decide)).trans hX
set_option maxHeartbeats 1600000 in
theorem e4_1 (X : Mat 50000 128) (hX : W8 m ρ c (Proc.devRef .tc main_v55) = X) :
    V9 m ρ c (Pipeline.arrRef spec4 1) = Agg.agg X (aE m c) := by
  show StableHlo.after hostOps4 (W8 m ρ c) (Proc.devRef .tc main_v65) = _
  after_results_simp
  rw [hX, w8_src, w8_dst]
  rfl
theorem e4_2 : V9 m ρ c (Pipeline.arrRef spec4 2) = aW5a m c :=
  (W9_of m ρ c main_arg14 (by decide)).trans (w8_arg14 m ρ c)
theorem e4_3 : V9 m ρ c (Pipeline.arrRef spec4 3) = rowOf (aB5a m c) := by
  show StableHlo.after hostOps4 (W8 m ρ c) (Proc.devRef .tc main_v66) = _
  after_results
  rw [w8_arg15]
  exact reshape_eq_rowOf (d := 128) _ _
theorem e4_4 : V9 m ρ c (Pipeline.arrRef spec4 4) = aW5b m c :=
  (W9_of m ρ c main_arg16 (by decide)).trans (w8_arg16 m ρ c)
theorem e4_5 : V9 m ρ c (Pipeline.arrRef spec4 5) = rowOf (aB5b m c) := by
  show StableHlo.after hostOps4 (W8 m ρ c) (Proc.devRef .tc main_v67) = _
  after_results
  rw [w8_arg17]
  exact reshape_eq_rowOf (d := 2) _ _

/-- This layer's perceptron value, on the features X. -/
abbrev H3 (X : Mat 50000 128) : Mat 50000 2 :=
  mlp X (Agg.agg X (aE m c)) (aW5a m c) (rowOf (aB5a m c)) (aW5b m c) (rowOf (aB5b m c))

theorem mlp3 (X : Mat 50000 128) (hX : W8 m ρ c (Proc.devRef .tc main_v55) = X) :
    inH4 (V9 m ρ) c = H3 m c X := by
  unfold inH4
  rw [e4_0 m ρ c X hX, e4_1 m ρ c X hX, e4_2, e4_3, e4_4, e4_5]

/-! ## What the layer kernel leaves -/

theorem w10_H (X : Mat 50000 128) (hX : W8 m ρ c (Proc.devRef .tc main_v55) = X) (hf : RegionFacts) :
    W10 m ρ c (Proc.devRef .tc main_v68_0) = H3 m c X :=
  (W10_arr m ρ c 6).trans ((hf.l4_H _ c).trans (mlp3 m ρ c X hX))
theorem w10_s (X : Mat 50000 128) (hX : W8 m ρ c (Proc.devRef .tc main_v55) = X) (hf : RegionFacts) :
    W10 m ρ c (Proc.devRef .tc main_v68_1) = colSum (H3 m c X) :=
  (W10_arr m ρ c 7).trans ((hf.l4_s _ c).trans (congrArg colSum (mlp3 m ρ c X hX)))
theorem w10_ss (X : Mat 50000 128) (hX : W8 m ρ c (Proc.devRef .tc main_v55) = X) (hf : RegionFacts) :
    W10 m ρ c (Proc.devRef .tc main_v68_2) = colSumSq (H3 m c X) :=
  (W10_arr m ρ c 8).trans ((hf.l4_ss _ c).trans (congrArg colSumSq (mlp3 m ρ c X hX)))

/-! ## The normalising kernel's input arrays -/

theorem e5_0 (X : Mat 50000 128) (hX : W8 m ρ c (Proc.devRef .tc main_v55) = X) (hf : RegionFacts) :
    V11 m ρ c (Pipeline.arrRef spec5 0) = H3 m c X :=
  (W11_of m ρ c main_v68_0 (by decide)).trans (w10_H m ρ c X hX hf)
theorem e5_1 (X : Mat 50000 128) (hX : W8 m ρ c (Proc.devRef .tc main_v55) = X) (hf : RegionFacts) :
    V11 m ρ c (Pipeline.arrRef spec5 1) = kMean (colSum (H3 m c X)) := by
  show StableHlo.after hostOps5 (W10 m ρ c) (Proc.devRef .tc main_v77) = _
  after_results
  rw [w10_s m ρ c X hX hf]
  exact host_mean (d := 2) _ _ _ _
theorem e5_2 (X : Mat 50000 128) (hX : W8 m ρ c (Proc.devRef .tc main_v55) = X) (hf : RegionFacts) :
    V11 m ρ c (Pipeline.arrRef spec5 2) = kVar (colSum (H3 m c X)) (colSumSq (H3 m c X)) := by
  show StableHlo.after hostOps5 (W10 m ρ c) (Proc.devRef .tc main_v78) = _
  after_results
  rw [w10_s m ρ c X hX hf, w10_ss m ρ c X hX hf]
  exact host_var (d := 2) _ _ _ _ _
theorem e5_3 : V11 m ρ c (Pipeline.arrRef spec5 3) = rowOf (aG5 m c) := by
  show StableHlo.after hostOps5 (W10 m ρ c) (Proc.devRef .tc main_v79) = _
  after_results
  rw [w10_arg18]
  exact reshape_eq_rowOf (d := 2) _ _
theorem e5_4 : V11 m ρ c (Pipeline.arrRef spec5 4) = rowOf (aBe5 m c) := by
  show StableHlo.after hostOps5 (W10 m ρ c) (Proc.devRef .tc main_v80) = _
  after_results
  rw [w10_arg19]
  exact reshape_eq_rowOf (d := 2) _ _

/-! ## The layer's value -/

/-- This layer's value, on the features X. -/
abbrev Y3 (X : Mat 50000 128) : Mat 50000 2 :=
  layerK X (Agg.agg X (aE m c)) (aW5a m c) (aB5a m c) (aW5b m c) (aB5b m c) (aG5 m c) (aBe5 m c)

/-- At the sixth kernel's exit its output array — the program's result — holds the layer's value. -/
theorem w12_Y3 (X : Mat 50000 128) (hX : W8 m ρ c (Proc.devRef .tc main_v55) = X) (hf : RegionFacts) :
    W12 m ρ c (Proc.devRef .tc main_v81) = Y3 m c X :=
  (W12_arr m ρ c 5).trans ((hf.n5 _ c).trans (by
    unfold inN5
    rw [e5_0 m ρ c X hX hf, e5_1 m ρ c X hX hf, e5_2 m ρ c X hX hf, e5_3, e5_4]
    rfl))

end Cert.KernelIdeal.Chain

end
-- ==== Proof.ChainOut.lean ====
/-
  The three layers composed.  With every kernel's output arrays known as functions of its input arrays (the hypothesis),
  the program's result — the sixth kernel's output array at the end of the run — is the third layer's value on the
  second layer's value on the first layer's value of the launch features, each layer with the neighbourhood sums of its
  own input over the one edge table.
-/
import proofs.«144821_j2645699854452_1_alg».proof.Proof.Chain2
import proofs.«144821_j2645699854452_1_alg».proof.Proof.Chain3

set_option maxRecDepth 16384

noncomputable section

namespace Cert.KernelIdeal.Chain

open Idealize.ShloMosaic Idealize.ShloMosaic.TcCoe Idealize.ShloMosaic.Tactic
open Cert.KernelIdeal Cert.KernelIdeal.Gen Cert.Spec

variable (m : (ℓ : Loc nD τ sig) → Buf (Elt Ideal) ℓ) (ρ : Dev nD → PrngReg) (c : Dev nD)

/-- The program's result is the three layers applied in turn. -/
theorem out_of (hf : RegionFacts) :
    W12 m ρ c (Proc.devRef .tc main_v81)
      = layerK (Y2 m c) (Agg.agg (Y2 m c) (aE m c)) (aW5a m c) (aB5a m c) (aW5b m c) (aB5b m c) (aG5 m c) (aBe5 m c) :=
  w12_Y3 m ρ c (Y2 m c) (w8_Y2 m ρ c hf) hf

end Cert.KernelIdeal.Chain

end
-- ==== Proof.Layer0Pieces.lean ====
/-
  Region 0 (the layer kernel): what each case of the body leaves in each output's staging buffer, as the body's
  arithmetic applied to the blocks it loaded.  Every store and every load of the body covers a whole buffer at
  offset zero, so a buffer read back after the body is the payload of its last store, and a load of a buffer
  the body has already stored into is that store's payload.
-/
import proofs.«144821_j2645699854452_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Layer0

open Cert.KernelIdeal Cert.KernelIdeal.Gen

variable {F : FTy → Type} [FloatOps F]

/-- The one index offset of every store and load of the body: the zero offset. -/
theorem hz : (![0, 0] : Fin 2 → Nat) = fun _ => 0 := funext fun a => by fin_cases a <;> rfl

/-- At the first point the output block is left holding the perceptron's value of the input blocks:
    one store over the whole block, its loads the whole input blocks. -/
theorem out_A_6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 : Vec F S5000x128 .f32) (x1 : Vec F S5000x128 .f32) (x2 : Vec F S128x128 .f32) (x3 : Vec F S1x128 .f32) (x4 : Vec F S128x128 .f32) (x5 : Vec F S1x128 .f32) :
    out0_A_6 c i a1 h1 a2 h2 a3 h3 a4 h4 a5 h5 a6 h6 a7 h7 a8 h8 a9 h9 hc x0 x1 x2 x3 x4 x5 = k0_pay4 x0 x1 x2 x3 x4 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, View.ld_unit_zero (S := S5000x128) hz, View.ld_unit_zero (S := S128x128) hz, View.ld_unit_zero (S := S1x128) hz]

/-- At a later point likewise: the output block does not depend on what the accumulators held. -/
theorem out_B_6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 : Vec F S5000x128 .f32) (x1 : Vec F S5000x128 .f32) (x2 : Vec F S128x128 .f32) (x3 : Vec F S1x128 .f32) (x4 : Vec F S128x128 .f32) (x5 : Vec F S1x128 .f32)
    (xo7 : Vec F S1x128 .f32) (xo8 : Vec F S1x128 .f32) :
    out0_B_6 c i a1 h1 a2 h2 a3 h3 a4 h4 a5 h5 a6 h6 a7 h7 a8 h8 a9 h9 hc x0 x1 x2 x3 x4 x5 xo7 xo8 = k0_pay4 x0 x1 x2 x3 x4 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, View.ld_unit_zero (S := S5000x128) hz, View.ld_unit_zero (S := S128x128) hz, View.ld_unit_zero (S := S1x128) hz]

/-- At the first point the sum accumulator is zeroed, read back, and left at zero plus the block's column sums. -/
theorem out_A_7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 : Vec F S5000x128 .f32) (x1 : Vec F S5000x128 .f32) (x2 : Vec F S128x128 .f32) (x3 : Vec F S1x128 .f32) (x4 : Vec F S128x128 .f32) (x5 : Vec F S1x128 .f32) :
    out0_A_7 c i a1 h1 a2 h2 a3 h3 a4 h4 a5 h5 a6 h6 a7 h7 a8 h8 a9 h9 hc x0 x1 x2 x3 x4 x5 = k0_pay5 x0 x1 x2 x3 x4 x5 k0_pay2 := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, View.ld_unit_zero (S := S5000x128) hz, View.ld_unit_zero (S := S128x128) hz, View.ld_unit_zero (S := S1x128) hz]

/-- At a later point it is left at what it held plus the block's column sums. -/
theorem out_B_7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 : Vec F S5000x128 .f32) (x1 : Vec F S5000x128 .f32) (x2 : Vec F S128x128 .f32) (x3 : Vec F S1x128 .f32) (x4 : Vec F S128x128 .f32) (x5 : Vec F S1x128 .f32)
    (xo7 : Vec F S1x128 .f32) (xo8 : Vec F S1x128 .f32) :
    out0_B_7 c i a1 h1 a2 h2 a3 h3 a4 h4 a5 h5 a6 h6 a7 h7 a8 h8 a9 h9 hc x0 x1 x2 x3 x4 x5 xo7 xo8 = k0_pay5 x0 x1 x2 x3 x4 x5 xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, View.ld_unit_zero (S := S5000x128) hz, View.ld_unit_zero (S := S128x128) hz, View.ld_unit_zero (S := S1x128) hz]

/-- At the first point the sum-of-squares accumulator is zeroed, read back, and left at zero plus the block's
    column sums of squares. -/
theorem out_A_8 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 : Vec F S5000x128 .f32) (x1 : Vec F S5000x128 .f32) (x2 : Vec F S128x128 .f32) (x3 : Vec F S1x128 .f32) (x4 : Vec F S128x128 .f32) (x5 : Vec F S1x128 .f32) :
    out0_A_8 c i a1 h1 a2 h2 a3 h3 a4 h4 a5 h5 a6 h6 a7 h7 a8 h8 a9 h9 hc x0 x1 x2 x3 x4 x5 = k0_pay1 (k0_pay4 x0 x1 x2 x3 x4 x5) k0_pay3 := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, View.ld_unit_zero (S := S5000x128) hz, View.ld_unit_zero (S := S128x128) hz, View.ld_unit_zero (S := S1x128) hz]

/-- At a later point it is left at what it held plus the block's column sums of squares. -/
theorem out_B_8 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 : Vec F S5000x128 .f32) (x1 : Vec F S5000x128 .f32) (x2 : Vec F S128x128 .f32) (x3 : Vec F S1x128 .f32) (x4 : Vec F S128x128 .f32) (x5 : Vec F S1x128 .f32)
    (xo7 : Vec F S1x128 .f32) (xo8 : Vec F S1x128 .f32) :
    out0_B_8 c i a1 h1 a2 h2 a3 h3 a4 h4 a5 h5 a6 h6 a7 h7 a8 h8 a9 h9 hc x0 x1 x2 x3 x4 x5 xo7 xo8 = k0_pay1 (k0_pay4 x0 x1 x2 x3 x4 x5) xo8 := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h9.read_unread, View.ld_unit_zero (S := S5000x128) hz, View.ld_unit_zero (S := S128x128) hz, View.ld_unit_zero (S := S1x128) hz]

end Cert.KernelIdeal.Layer0

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.LayerBlock.lean ====
/-
  The arithmetic of one block of the layer kernel, for any block height and any widths, on the extended reals.
  A block of A rows of x and of g, the two weight arrays and the two bias rows go through
      relu( relu((x + g) · Wa + ba) · Wb + bb ),
  each product a plain contraction into the zero array with its operands narrowed first (the identity on extended
  reals), each bias row repeated down the rows.  Read at (p, q) that is the perceptron's value of row p at column q.
  The accumulators add to a one-row array the column sums of an A × B array: a sum along the rows, laid out as a row.
-/
import proofs.«144821_j2645699854452_1_alg».proof.Proof.Spec
import proofs.«144821_j2645699854452_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.KernelIdeal.LayerBlock

open Cert.Spec

/-- Over a result index (q) of a sum along the rows, the source index with row coordinate k is (k, q). -/
theorem lift_ix1 {A B : ℕ} (h : (⟨2, ![A, B]⟩ : Shape).Reduces [(0 : Fin 2)] ⟨1, ![B]⟩) (q : Fin B) (k : Fin A) :
    h.lift (ix1 q) k = ix2 k q := by
  funext c; apply Fin.ext
  match c with
  | ⟨0, _⟩ => rfl
  | ⟨1, _⟩ => rfl

/-- A sum along the rows of an A × B array, read at column q: the sum over the rows p of the entry (p, q). -/
theorem laneSum {A B : ℕ} (src : FVec Ideal ⟨2, ![A, B]⟩ .f32) (h : (⟨2, ![A, B]⟩ : Shape).Reduces [(0 : Fin 2)] ⟨1, ![B]⟩)
    (hφ : FKind.Formats .f32) (hacc : (0x00000000#32 : BitVec 32) = FKind.add.neutral .f32 hφ) (q : Fin B) :
    multiReduction .add [0] ⟨1, ![B]⟩ src 0x00000000#32 h hφ hacc (ix1 q) = ∑ p : Fin A, src (ix2 p q) :=
  (Ideal.multiReduction_add_single src 0x00000000#32 h hφ hacc (ix1 q)).trans
    (Finset.sum_congr rfl fun k _ => congrArg src (lift_ix1 h q k))

/-- The accumulator's step: a one-row array v plus the column sums of src laid out as one row, read at (z, q),
    is v (z, q) + ∑ p, src (p, q). -/
theorem accum {A B : ℕ} (src : FVec Ideal ⟨2, ![A, B]⟩ .f32) (v : FVec Ideal ⟨2, ![1, B]⟩ .f32)
    (h : (⟨2, ![A, B]⟩ : Shape).Reduces [(0 : Fin 2)] ⟨1, ![B]⟩)
    (hφ : FKind.Formats .f32) (hacc : (0x00000000#32 : BitVec 32) = FKind.add.neutral .f32 hφ)
    (hs1 : (⟨2, ![1, B]⟩ : Shape).ShapeCasts ⟨2, ![1, B]⟩) (hs2 : (⟨1, ![B]⟩ : Shape).ShapeCasts ⟨2, ![1, B]⟩)
    (z : Fin 1) (q : Fin B) :
    addf (shapeCast ⟨2, ![1, B]⟩ v hs1)
        (shapeCast ⟨2, ![1, B]⟩ (multiReduction .add [0] ⟨1, ![B]⟩ src 0x00000000#32 h hφ hacc) hs2) (ix2 z q)
      = v (ix2 z q) + ∑ p : Fin A, src (ix2 p q) := by
  show shapeCast ⟨2, ![1, B]⟩ v hs1 (ix2 z q)
      + shapeCast ⟨2, ![1, B]⟩ (multiReduction .add [0] ⟨1, ![B]⟩ src 0x00000000#32 h hφ hacc) hs2 (ix2 z q) = _
  rw [shapeCast_self, shapeCast_a_1a_apply, laneSum]

/-- One stage of the perceptron on a block: relu(L · W + bias) read at (p, k); the narrowing of the product's
    operands is the identity on extended reals, the product into the zero array is the plain contraction sum,
    the bias row is repeated down the rows. -/
theorem stage {A K M : ℕ} (d : DotDims ⟨2, ![A, K]⟩ ⟨2, ![K, M]⟩ ⟨2, ![A, M]⟩)
    (hlc : d.lhsContracting = [1]) (hrc : d.rhsContracting = [0]) (hln : d.lhsNonContracting = [0])
    (hrn : d.rhsNonContracting = [1]) (hlb : d.lhsBatch = []) (hrb : d.rhsBatch = [])
    (L : FVec Ideal ⟨2, ![A, K]⟩ .f32) (W : FVec Ideal ⟨2, ![K, M]⟩ .f32) (bias : FVec Ideal ⟨2, ![1, M]⟩ .f32)
    (hlt : FTy.bits .bf16 < FTy.bits .f32) (hs : (⟨2, ![1, M]⟩ : Shape).ShapeCasts ⟨2, ![1, M]⟩)
    (hb : (⟨2, ![1, M]⟩ : Shape).Broadcasts ⟨2, ![A, M]⟩) (p : Fin A) (k : Fin M) :
    maximumf (addf (matmul d none (truncf .bf16 L hlt) (truncf .bf16 W hlt) (constant ⟨2, ![A, M]⟩ .f32 0x00000000#32))
        (broadcastTo ⟨2, ![A, M]⟩ (shapeCast ⟨2, ![1, M]⟩ bias hs) hb))
      (broadcast ⟨2, ![A, M]⟩ (FloatOps.ofBits .f32 0x00000000#32)) (ix2 p k)
      = max ((∑ j : Fin K, L (ix2 p j) * W (ix2 j k)) + bias (ix2 0 k)) 0 := by
  show max (FloatOps.matmul d none (truncf .bf16 L hlt) (truncf .bf16 W hlt) (constant ⟨2, ![A, M]⟩ .f32 0x00000000#32) (ix2 p k)
      + broadcastTo ⟨2, ![A, M]⟩ (shapeCast ⟨2, ![1, M]⟩ bias hs) hb (ix2 p k)) (Ideal.ofBits .f32 0x00000000#32) = _
  rw [Cert.Bridge.matmul_zero_plain d hlc hrc hln hrn hlb hrb none _ _ p k, broadcastTo_1b_ab_apply, shapeCast_self,
    Ideal.ofBits_zero_f32]
  rfl

/-- The two stages composed: the body's arithmetic on a block of A rows, read at (p, q), is the perceptron's
    value of row p at column q. -/
theorem mlpBlock {A K M B : ℕ} (d1 : DotDims ⟨2, ![A, K]⟩ ⟨2, ![K, M]⟩ ⟨2, ![A, M]⟩)
    (h1lc : d1.lhsContracting = [1]) (h1rc : d1.rhsContracting = [0]) (h1ln : d1.lhsNonContracting = [0])
    (h1rn : d1.rhsNonContracting = [1]) (h1lb : d1.lhsBatch = []) (h1rb : d1.rhsBatch = [])
    (d2 : DotDims ⟨2, ![A, M]⟩ ⟨2, ![M, B]⟩ ⟨2, ![A, B]⟩)
    (h2lc : d2.lhsContracting = [1]) (h2rc : d2.rhsContracting = [0]) (h2ln : d2.lhsNonContracting = [0])
    (h2rn : d2.rhsNonContracting = [1]) (h2lb : d2.lhsBatch = []) (h2rb : d2.rhsBatch = [])
    (x g : Mat A K) (Wa : Mat K M) (ba : Mat 1 M) (Wb : Mat M B) (bb : Mat 1 B)
    (hlt : FTy.bits .bf16 < FTy.bits .f32) (hsx : (⟨2, ![A, K]⟩ : Shape).ShapeCasts ⟨2, ![A, K]⟩)
    (hs1 : (⟨2, ![1, M]⟩ : Shape).ShapeCasts ⟨2, ![1, M]⟩) (hb1 : (⟨2, ![1, M]⟩ : Shape).Broadcasts ⟨2, ![A, M]⟩)
    (hs2 : (⟨2, ![1, B]⟩ : Shape).ShapeCasts ⟨2, ![1, B]⟩) (hb2 : (⟨2, ![1, B]⟩ : Shape).Broadcasts ⟨2, ![A, B]⟩)
    (p : Fin A) (q : Fin B) :
    maximumf (addf (matmul d2 none
          (truncf .bf16
            (maximumf (addf (matmul d1 none (truncf .bf16 (addf x (shapeCast ⟨2, ![A, K]⟩ g hsx)) hlt) (truncf .bf16 Wa hlt)
                  (constant ⟨2, ![A, M]⟩ .f32 0x00000000#32))
                (broadcastTo ⟨2, ![A, M]⟩ (shapeCast ⟨2, ![1, M]⟩ ba hs1) hb1))
              (broadcast ⟨2, ![A, M]⟩ (FloatOps.ofBits .f32 0x00000000#32))) hlt)
          (truncf .bf16 Wb hlt) (constant ⟨2, ![A, B]⟩ .f32 0x00000000#32))
        (broadcastTo ⟨2, ![A, B]⟩ (shapeCast ⟨2, ![1, B]⟩ bb hs2) hb2))
      (broadcast ⟨2, ![A, B]⟩ (FloatOps.ofBits .f32 0x00000000#32)) (ix2 p q)
      = mlpAt x g Wa ba Wb bb p q := by
  refine (stage d2 h2lc h2rc h2ln h2rn h2lb h2rb _ Wb bb hlt hs2 hb2 p q).trans ?_
  unfold mlpAt hid
  refine congrArg (fun s => max (s + bb (ix2 0 q)) 0) (Finset.sum_congr rfl fun k _ => ?_)
  refine congrArg (· * Wb (ix2 k q)) ?_
  refine (stage d1 h1lc h1rc h1ln h1rn h1lb h1rb _ Wa ba hlt hs1 hb1 p k).trans ?_
  rw [shapeCast_self]
  rfl

/-- The perceptron's value of a row depends only on that row of x and of g and on the weights and biases:
    row p of one pair of arrays and row r of another, equal entry by entry, give equal values. -/
theorem mlpAt_congr {A N K M B : ℕ} (x' g' : Mat A K) (x g : Mat N K) (Wa' Wa : Mat K M) (ba' ba : Mat 1 M)
    (Wb' Wb : Mat M B) (bb' bb : Mat 1 B) (p : Fin A) (r : Fin N)
    (hx : ∀ j, x' (ix2 p j) = x (ix2 r j)) (hg : ∀ j, g' (ix2 p j) = g (ix2 r j))
    (hWa : ∀ j k, Wa' (ix2 j k) = Wa (ix2 j k)) (hba : ∀ k, ba' (ix2 0 k) = ba (ix2 0 k))
    (hWb : ∀ k q, Wb' (ix2 k q) = Wb (ix2 k q)) (hbb : ∀ q, bb' (ix2 0 q) = bb (ix2 0 q)) (q : Fin B) :
    mlpAt x' g' Wa' ba' Wb' bb' p q = mlpAt x g Wa ba Wb bb r q := by
  unfold mlpAt hid
  simp only [hx, hg, hWa, hba, hWb, hbb]

/-- The running sum's step: the sum over the first a·n positions plus the sum over the next a positions is the
    sum over the first a·(n+1) positions. -/
theorem range_step {β : Type*} [AddCommMonoid β] (f : ℕ → β) (a n : ℕ) :
    (∑ j ∈ Finset.range (a * n), f j) + ∑ p : Fin a, f (a * n + p.val) = ∑ j ∈ Finset.range (a * (n + 1)), f j := by
  rw [Nat.mul_succ, Finset.sum_range_add, Fin.sum_univ_eq_sum_range (fun x => f (a * n + x)) a]

/-- The running sum's start: the sum over the first a positions, from zero. -/
theorem range_start {β : Type*} [AddCommMonoid β] (f : ℕ → β) (a : ℕ) :
    (0 : β) + ∑ p : Fin a, f (a * 0 + p.val) = ∑ j ∈ Finset.range (a * (0 + 1)), f j := by
  have h := range_step f a 0
  rw [Nat.mul_zero, Finset.range_zero, Finset.sum_empty] at h
  simpa using h

/-- A sum over the first n positions of a function of the position as a number below n. -/
theorem range_eq_univ {β : Type*} [AddCommMonoid β] (n : ℕ) (f : ℕ → β) (g : Fin n → β)
    (h : ∀ j : Fin n, f j.val = g j) : ∑ j ∈ Finset.range n, f j = ∑ j : Fin n, g j := by
  rw [← Fin.sum_univ_eq_sum_range f n]
  exact Finset.sum_congr rfl fun j _ => h j

end Cert.KernelIdeal.LayerBlock
end
-- ==== Proof.Layer0Pay.lean ====
/-
  Region 0 (the layer kernel): the body's arithmetic on its loaded blocks, read at an index on the extended reals.
  The block stored into the output is the perceptron's value of the block's rows; the sum accumulator is left at what
  it held plus the block's column sums; the sum-of-squares accumulator at what it held plus the column sums of the
  squares; the value both accumulators are reset to is zero.
-/
import proofs.«144821_j2645699854452_1_alg».proof.Proof.Gen.KernelIdeal.Skeleton
import proofs.«144821_j2645699854452_1_alg».proof.Proof.LayerBlock

noncomputable section

open scoped BigOperators
open Idealize.ShloMosaic Idealize.ShloMosaic.ValueIdx

namespace Cert.KernelIdeal.Layer0

open Cert.KernelIdeal Cert.KernelIdeal.Gen Cert.Spec Cert.KernelIdeal.LayerBlock

/-- The stored block at (p, q): the perceptron's value of row p of the loaded blocks at column q. -/
theorem pay4_apply (x0 x1 : Mat 5000 128) (x2 : Mat 128 128) (x3 : Mat 1 128) (x4 : Mat 128 128) (x5 : Mat 1 128)
    (p : Fin 5000) (q : Fin 128) :
    k0_pay4 (F := Ideal) x0 x1 x2 x3 x4 x5 (ix2 p q) = mlpAt x0 x1 x2 x3 x4 x5 p q := by
  unfold k0_pay4
  exact mlpBlock dot_S5000x128_S128x128_S5000x128_1_0_0_1_n_n rfl rfl rfl rfl rfl rfl dot_S5000x128_S128x128_S5000x128_1_0_0_1_n_n rfl rfl rfl rfl rfl rfl
    x0 x1 x2 x3 x4 x5 _ _ _ _ _ _ p q

/-- The sum accumulator after the body, at (z, q): what it held plus the sum over the block's rows of the
    perceptron's value at column q. -/
theorem pay5_apply (x0 x1 : Mat 5000 128) (x2 : Mat 128 128) (x3 : Mat 1 128) (x4 : Mat 128 128) (x5 : Mat 1 128)
    (v : Mat 1 128) (z : Fin 1) (q : Fin 128) :
    k0_pay5 (F := Ideal) x0 x1 x2 x3 x4 x5 v (ix2 z q)
      = v (ix2 z q) + ∑ p : Fin 5000, mlpAt x0 x1 x2 x3 x4 x5 p q := by
  unfold k0_pay5
  refine (accum (k0_pay4 (F := Ideal) x0 x1 x2 x3 x4 x5) v _ _ _ _ _ z q).trans ?_
  exact congrArg (v (ix2 z q) + ·) (Finset.sum_congr rfl fun p _ => pay4_apply x0 x1 x2 x3 x4 x5 p q)

/-- The sum-of-squares accumulator after the body, at (z, q): what it held plus the sum over the block's rows of
    the square of the stored block's entry at column q. -/
theorem pay1_apply (h : Mat 5000 128) (v : Mat 1 128) (z : Fin 1) (q : Fin 128) :
    k0_pay1 (F := Ideal) h v (ix2 z q) = v (ix2 z q) + ∑ p : Fin 5000, h (ix2 p q) * h (ix2 p q) := by
  unfold k0_pay1
  exact accum (mulf h h) v _ _ _ _ _ z q

/-- The value the sum accumulator is reset to is zero everywhere. -/
theorem pay2_apply (i : (⟨2, ![1, 128]⟩ : Shape).Idx) : k0_pay2 (F := Ideal) i = 0 := by
  unfold k0_pay2
  exact Ideal.ofBits_zero_f32

/-- The value the sum-of-squares accumulator is reset to is zero everywhere. -/
theorem pay3_apply (i : (⟨2, ![1, 128]⟩ : Shape).Idx) : k0_pay3 (F := Ideal) i = 0 := by
  unfold k0_pay3
  exact Ideal.ofBits_zero_f32

end Cert.KernelIdeal.Layer0

end
-- ==== Proof.Layer0Reads.lean ====
/-
  Region 0 (the layer kernel): the blocks its windows hand the body at a grid point, as entries of the arrays
  the region finds.  The blocks of x, of g and of the output are the row blocks, moving down with the point; the
  weights, the biases and the accumulators are read whole at every point.
-/
import proofs.«144821_j2645699854452_1_alg».proof.Proof.Gen.KernelIdeal.Frame
import proofs.«144821_j2645699854452_1_alg».proof.Proof.Spec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Layer0

open Cert.KernelIdeal Cert.KernelIdeal.Gen Cert.Spec

variable (V : (c : Dev nD) → (b : Ref sig .tc) → Buf (Elt Ideal) ((c : Thread nD τ).loc b)) (c : Dev nD)

/-- the perceptron's value over the arrays the region finds -/
def H : Cert.Spec.Mat 50000 128 := Cert.Spec.mlp (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))

/-- The index maps, decided over the grid: the blocks of x, of g and of the output move down the rows with the
    point; the weights, the biases and the two accumulators stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row r of block t is row 5000·t + r of the array. -/
theorem row_lt (t : Fin cfg0.N) (p : Fin 5000) : 5000 * t.val + p.val < 50000 := by
  have hN : grid0.N = 10 := N_0
  have ht : t.val < grid0.N := t.isLt
  have hp := p.isLt
  omega

/-- Block t of x, at (p, j): the array's entry (5000·t + p, j). -/
theorem rd0 (t : Fin cfg0.N) (p : Fin 5000) (j : Fin 128) :
    (iblk0 V c 0 t : Mat 5000 128) (ix2 p j) = (V c (Pipeline.arrRef spec0 0) : Mat 50000 128) (ix2 ⟨5000 * t.val + p.val, row_lt t p⟩ j) := by
  obtain ⟨e0, e1, -⟩ := idx_facts t
  unfold iblk0
  rw [View.read_apply]
  refine congrArg (V c (Pipeline.arrRef spec0 0)) ?_
  funext a; apply Fin.ext
  match a with
  | ⟨0, _⟩ => show win0_0.index t (0 : Fin 2) * 5000 + 1 * p.val = 5000 * t.val + p.val; rw [e0]; omega
  | ⟨1, _⟩ => show win0_0.index t (1 : Fin 2) * 128 + 1 * j.val = j.val; rw [e1]; omega

/-- Block t of g, at (p, j): the array's entry (5000·t + p, j). -/
theorem rd1 (t : Fin cfg0.N) (p : Fin 5000) (j : Fin 128) :
    (iblk0 V c 1 t : Mat 5000 128) (ix2 p j) = (V c (Pipeline.arrRef spec0 1) : Mat 50000 128) (ix2 ⟨5000 * t.val + p.val, row_lt t p⟩ j) := by
  obtain ⟨-, -, e0, e1, -⟩ := idx_facts t
  unfold iblk0
  rw [View.read_apply]
  refine congrArg (V c (Pipeline.arrRef spec0 1)) ?_
  funext a; apply Fin.ext
  match a with
  | ⟨0, _⟩ => show win0_1.index t (0 : Fin 2) * 5000 + 1 * p.val = 5000 * t.val + p.val; rw [e0]; omega
  | ⟨1, _⟩ => show win0_1.index t (1 : Fin 2) * 128 + 1 * j.val = j.val; rw [e1]; omega

/-- The first weight array is read whole at every point. -/
theorem rd2 (t : Fin cfg0.N) (j : Fin 128) (k : Fin 128) :
    (iblk0 V c 2 t : Mat 128 128) (ix2 j k) = (V c (Pipeline.arrRef spec0 2) : Mat 128 128) (ix2 j k) := by
  obtain ⟨-, -, -, -, e0, e1, -⟩ := idx_facts t
  unfold iblk0
  rw [View.read_apply]
  refine congrArg (V c (Pipeline.arrRef spec0 2)) ?_
  funext a; apply Fin.ext
  match a with
  | ⟨0, _⟩ => show win0_2.index t (0 : Fin 2) * 128 + 1 * j.val = j.val; rw [e0]; omega
  | ⟨1, _⟩ => show win0_2.index t (1 : Fin 2) * 128 + 1 * k.val = k.val; rw [e1]; omega

/-- The first bias row is read whole at every point. -/
theorem rd3 (t : Fin cfg0.N) (z : Fin 1) (k : Fin 128) :
    (iblk0 V c 3 t : Mat 1 128) (ix2 z k) = (V c (Pipeline.arrRef spec0 3) : Mat 1 128) (ix2 z k) := by
  obtain ⟨-, -, -, -, -, -, e0, e1, -⟩ := idx_facts t
  unfold iblk0
  rw [View.read_apply]
  refine congrArg (V c (Pipeline.arrRef spec0 3)) ?_
  funext a; apply Fin.ext
  match a with
  | ⟨0, _⟩ => show win0_3.index t (0 : Fin 2) * 1 + 1 * z.val = z.val; rw [e0]; omega
  | ⟨1, _⟩ => show win0_3.index t (1 : Fin 2) * 128 + 1 * k.val = k.val; rw [e1]; omega

/-- The second weight array is read whole at every point. -/
theorem rd4 (t : Fin cfg0.N) (k : Fin 128) (q : Fin 128) :
    (iblk0 V c 4 t : Mat 128 128) (ix2 k q) = (V c (Pipeline.arrRef spec0 4) : Mat 128 128) (ix2 k q) := by
  obtain ⟨-, -, -, -, -, -, -, -, e0, e1, -⟩ := idx_facts t
  unfold iblk0
  rw [View.read_apply]
  refine congrArg (V c (Pipeline.arrRef spec0 4)) ?_
  funext a; apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The second bias row is read whole at every point. -/
theorem rd5 (t : Fin cfg0.N) (z : Fin 1) (q : Fin 128) :
    (iblk0 V c 5 t : Mat 1 128) (ix2 z q) = (V c (Pipeline.arrRef spec0 5) : Mat 1 128) (ix2 z q) := by
  obtain ⟨-, -, -, -, -, -, -, -, -, -, e0, e1, -⟩ := idx_facts t
  unfold iblk0
  rw [View.read_apply]
  refine congrArg (V c (Pipeline.arrRef spec0 5)) ?_
  funext a; apply Fin.ext
  match a with
  | ⟨0, _⟩ => show win0_5.index t (0 : Fin 2) * 1 + 1 * z.val = z.val; rw [e0]; omega
  | ⟨1, _⟩ => show win0_5.index t (1 : Fin 2) * 128 + 1 * q.val = q.val; rw [e1]; omega

end Cert.KernelIdeal.Layer0

end
-- ==== Proof.Layer0Acc.lean ====
/-
  Region 0 (the layer kernel): what the three output staging buffers hold after the body at each grid point.
  Block n of the output is block n of the perceptron's value H (rows 5000·n … 5000·n + 4999).  The two
  accumulators are zeroed at point 0 and at every point add the block's column sums (of the values, of their
  squares) to what the point before left: after point n they hold the sums over the rows below 5000·(n + 1).
-/
import proofs.«144821_j2645699854452_1_alg».proof.Proof.Layer0Pieces
import proofs.«144821_j2645699854452_1_alg».proof.Proof.Layer0Pay
import proofs.«144821_j2645699854452_1_alg».proof.Proof.Layer0Reads

noncomputable section

open scoped BigOperators
open Idealize.ShloMosaic Idealize.ShloMosaic.TcCoe Idealize.SL.Sem Idealize.ShloMosaic.ValueIdx
open Idealize.ShloMosaic.Pipeline (Dat)

namespace Cert.KernelIdeal.Layer0

open Cert.KernelIdeal Cert.KernelIdeal.Gen Cert.Spec Cert.KernelIdeal.LayerBlock

variable (V : (c : Dev nD) → (b : Ref sig .tc) → Buf (Elt Ideal) ((c : Thread nD τ).loc b)) (c : Dev nD)

/-- Entry (j, q) of H by row number; zero past the last row. -/
def Hn (j : ℕ) (q : Fin 128) : EReal := if h : j < 50000 then H V c (ix2 ⟨j, h⟩ q) else 0

theorem Hn_lt (j : ℕ) (h : j < 50000) (q : Fin 128) : Hn V c j q = H V c (ix2 ⟨j, h⟩ q) := dif_pos h

/-- The perceptron's value of row p of the blocks at point t is H's entry in row 5000·t + p: the row of x and of g
    is that row of the arrays, the weights and biases are the arrays'. -/
theorem blk_apply (t : Fin cfg0.N) (p : Fin 5000) (q : Fin 128) :
    mlpAt (iblk0 V c 0 t : Mat 5000 128) (iblk0 V c 1 t : Mat 5000 128) (iblk0 V c 2 t : Mat 128 128) (iblk0 V c 3 t : Mat 1 128) (iblk0 V c 4 t : Mat 128 128) (iblk0 V c 5 t : Mat 1 128) p q = Hn V c (5000 * t.val + p.val) q := by
  rw [Hn_lt V c _ (row_lt t p) q]
  exact mlpAt_congr (iblk0 V c 0 t) (iblk0 V c 1 t) (V c (Pipeline.arrRef spec0 0)) (V c (Pipeline.arrRef spec0 1))
    (iblk0 V c 2 t) (V c (Pipeline.arrRef spec0 2)) (iblk0 V c 3 t) (V c (Pipeline.arrRef spec0 3))
    (iblk0 V c 4 t) (V c (Pipeline.arrRef spec0 4)) (iblk0 V c 5 t) (V c (Pipeline.arrRef spec0 5))
    p ⟨5000 * t.val + p.val, row_lt t p⟩ (rd0 V c t p) (rd1 V c t p) (rd2 V c t) (fun k => rd3 V c t 0 k) (rd4 V c t)
    (fun q => rd5 V c t 0 q) q

/-- The stored block at point t, at (p, q). -/
theorem pay4_blk (t : Fin cfg0.N) (p : Fin 5000) (q : Fin 128) :
    k0_pay4 (F := Ideal) (iblk0 V c 0 t) (iblk0 V c 1 t) (iblk0 V c 2 t) (iblk0 V c 3 t) (iblk0 V c 4 t) (iblk0 V c 5 t) (ix2 p q) = Hn V c (5000 * t.val + p.val) q :=
  (pay4_apply (iblk0 V c 0 t) (iblk0 V c 1 t) (iblk0 V c 2 t) (iblk0 V c 3 t) (iblk0 V c 4 t) (iblk0 V c 5 t) p q).trans (blk_apply V c t p q)

/-- At a point where the run starts, the three buffers hold the body's arithmetic of the blocks over zeroed accumulators. -/
theorem outs_A (t : Fin cfg0.N) (h0 : t.val % 10 = 0) :
    (outsAt0 V c t.val t.isLt).1 = k0_pay4 (iblk0 V c 0 t) (iblk0 V c 1 t) (iblk0 V c 2 t) (iblk0 V c 3 t) (iblk0 V c 4 t) (iblk0 V c 5 t)
    ∧ (outsAt0 V c t.val t.isLt).2.1 = k0_pay5 (iblk0 V c 0 t) (iblk0 V c 1 t) (iblk0 V c 2 t) (iblk0 V c 3 t) (iblk0 V c 4 t) (iblk0 V c 5 t) (k0_pay2 (F := Ideal))
    ∧ (outsAt0 V c t.val t.isLt).2.2 = k0_pay1 (k0_pay4 (iblk0 V c 0 t) (iblk0 V c 1 t) (iblk0 V c 2 t) (iblk0 V c 3 t) (iblk0 V c 4 t) (iblk0 V c 5 t)) (k0_pay3 (F := Ideal)) := by
  rw [outsAt0_A V c t h0]
  dsimp only
  refine ⟨?_, ?_, ?_⟩
  · exact out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)
  · exact out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)
  · exact out_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)

/-- At a later point, over what the point before left in the two accumulators. -/
theorem outs_B (t : Fin cfg0.N) (h0 : ¬t.val % 10 = 0) :
    (outsAt0 V c t.val t.isLt).1 = k0_pay4 (iblk0 V c 0 t) (iblk0 V c 1 t) (iblk0 V c 2 t) (iblk0 V c 3 t) (iblk0 V c 4 t) (iblk0 V c 5 t)
    ∧ (outsAt0 V c t.val t.isLt).2.1 = k0_pay5 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1
    ∧ (outsAt0 V c t.val t.isLt).2.2 = k0_pay1 (k0_pay4 (iblk0 V c 0 t) (iblk0 V c 1 t) (iblk0 V c 2 t) (iblk0 V c 3 t) (iblk0 V c 4 t) (iblk0 V c 5 t)) (outsAt0 V c (t.val - 1) (Nat.lt_of_le_of_lt (Nat.sub_le _ _) t.isLt)).2.2 := by
  rw [outsAt0_B V c t h0]
  dsimp only
  refine ⟨?_, ?_, ?_⟩
  · exact out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2
  · exact out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2
  · exact out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2

/-- The staging buffers' contents depend on the point's number only. -/
theorem outsAt_congr (a b : ℕ) (h : a = b) (ha : a < cfg0.N) (hb : b < cfg0.N) :
    outsAt0 V c a ha = outsAt0 V c b hb := by
  subst h; rfl

/-- Block n of H, as a block of 5000 rows. -/
def blkH (n : ℕ) : Mat 5000 128 := fun i => Hn V c (5000 * n + (i 0).val) (i 1)
/-- The column sums of H over the rows below 5000·(n + 1), as one row. -/
def accS (n : ℕ) : Mat 1 128 := fun i => ∑ j ∈ Finset.range (5000 * (n + 1)), Hn V c j (i 1)
/-- The column sums of squares of H over the rows below 5000·(n + 1), as one row. -/
def accSS (n : ℕ) : Mat 1 128 := fun i => ∑ j ∈ Finset.range (5000 * (n + 1)), Hn V c j (i 1) * Hn V c j (i 1)

theorem pay4_eq_blkH (t : Fin cfg0.N) : k0_pay4 (F := Ideal) (iblk0 V c 0 t) (iblk0 V c 1 t) (iblk0 V c 2 t) (iblk0 V c 3 t) (iblk0 V c 4 t) (iblk0 V c 5 t) = blkH V c t.val := by
  refine funext fun (i : (⟨2, ![5000, 128]⟩ : Shape).Idx) => ?_
  obtain ⟨p, q, rfl⟩ : ∃ (p : Fin 5000) (q : Fin 128), i = ix2 p q := ⟨i 0, i 1, eq_ix2 i⟩
  exact pay4_blk V c t p q

/-- One step of the sum accumulator at point t: from the sums over the rows below 5000·t it goes to the sums over
    the rows below 5000·(t + 1). -/
theorem step5 (t : Fin cfg0.N) (v : Mat 1 128) (z : Fin 1) (q : Fin 128) :
    k0_pay5 (F := Ideal) (iblk0 V c 0 t) (iblk0 V c 1 t) (iblk0 V c 2 t) (iblk0 V c 3 t) (iblk0 V c 4 t) (iblk0 V c 5 t) v (ix2 z q) = v (ix2 z q) + ∑ p : Fin 5000, Hn V c (5000 * t.val + p.val) q :=
  (pay5_apply (iblk0 V c 0 t) (iblk0 V c 1 t) (iblk0 V c 2 t) (iblk0 V c 3 t) (iblk0 V c 4 t) (iblk0 V c 5 t) v z q).trans
    (congrArg (v (ix2 z q) + ·) (Finset.sum_congr rfl fun p _ => blk_apply V c t p q))

/-- One step of the sum-of-squares accumulator at point t. -/
theorem step1 (t : Fin cfg0.N) (v : Mat 1 128) (z : Fin 1) (q : Fin 128) :
    k0_pay1 (F := Ideal) (k0_pay4 (F := Ideal) (iblk0 V c 0 t) (iblk0 V c 1 t) (iblk0 V c 2 t) (iblk0 V c 3 t) (iblk0 V c 4 t) (iblk0 V c 5 t)) v (ix2 z q)
      = v (ix2 z q) + ∑ p : Fin 5000, Hn V c (5000 * t.val + p.val) q * Hn V c (5000 * t.val + p.val) q :=
  (pay1_apply (k0_pay4 (F := Ideal) (iblk0 V c 0 t) (iblk0 V c 1 t) (iblk0 V c 2 t) (iblk0 V c 3 t) (iblk0 V c 4 t) (iblk0 V c 5 t)) v z q).trans
    (congrArg (v (ix2 z q) + ·) (Finset.sum_congr rfl fun p _ =>
      congrArg₂ (· * ·) (pay4_blk V c t p q) (pay4_blk V c t p q)))

/-- THE ACCUMULATION: after point n the output's buffer holds block n of H and the accumulators the sums over the
    rows below 5000·(n + 1) — by induction on the point. -/
theorem inv : ∀ (n : ℕ) (hn : n < cfg0.N),
    (outsAt0 V c n hn).1 = blkH V c n ∧ (outsAt0 V c n hn).2.1 = accS V c n ∧ (outsAt0 V c n hn).2.2 = accSS V c n
  | 0, hn => by
    obtain ⟨e1, e2, e3⟩ := outs_A V c ⟨0, hn⟩ rfl
    refine ⟨e1.trans (pay4_eq_blkH V c ⟨0, hn⟩), e2.trans ?_, e3.trans ?_⟩
    · refine funext fun (i : (⟨2, ![1, 128]⟩ : Shape).Idx) => ?_
      obtain ⟨z, q, rfl⟩ : ∃ (z : Fin 1) (q : Fin 128), i = ix2 z q := ⟨i 0, i 1, eq_ix2 i⟩
      refine (step5 V c ⟨0, hn⟩ (k0_pay2 (F := Ideal)) z q).trans ?_
      rw [pay2_apply]
      exact range_start (fun j => Hn V c j q) 5000
    · refine funext fun (i : (⟨2, ![1, 128]⟩ : Shape).Idx) => ?_
      obtain ⟨z, q, rfl⟩ : ∃ (z : Fin 1) (q : Fin 128), i = ix2 z q := ⟨i 0, i 1, eq_ix2 i⟩
      refine (step1 V c ⟨0, hn⟩ (k0_pay3 (F := Ideal)) z q).trans ?_
      rw [pay3_apply]
      exact range_start (fun j => Hn V c j q * Hn V c j q) 5000
  | n + 1, hn => by
    have hN : grid0.N = 10 := N_0
    have hn' : n + 1 < grid0.N := hn
    have h0 : ¬(⟨n + 1, hn⟩ : Fin cfg0.N).val % 10 = 0 := by show ¬(n + 1) % 10 = 0; omega
    obtain ⟨e1, e2, e3⟩ := outs_B V c ⟨n + 1, hn⟩ h0
    obtain ⟨-, i2, i3⟩ := inv n (Nat.lt_of_succ_lt hn)
    have hp : outsAt0 V c ((⟨n + 1, hn⟩ : Fin cfg0.N).val - 1) (Nat.lt_of_le_of_lt (Nat.sub_le _ _) (⟨n + 1, hn⟩ : Fin cfg0.N).isLt)
        = outsAt0 V c n (Nat.lt_of_succ_lt hn) :=
      outsAt_congr V c _ _ (Nat.add_sub_cancel n 1) _ _
    rw [hp, i2] at e2
    rw [hp, i3] at e3
    refine ⟨e1.trans (pay4_eq_blkH V c ⟨n + 1, hn⟩), e2.trans ?_, e3.trans ?_⟩
    · refine funext fun (i : (⟨2, ![1, 128]⟩ : Shape).Idx) => ?_
      obtain ⟨z, q, rfl⟩ : ∃ (z : Fin 1) (q : Fin 128), i = ix2 z q := ⟨i 0, i 1, eq_ix2 i⟩
      refine (step5 V c ⟨n + 1, hn⟩ (accS V c n) z q).trans ?_
      exact range_step (fun j => Hn V c j q) 5000 (n + 1)
    · refine funext fun (i : (⟨2, ![1, 128]⟩ : Shape).Idx) => ?_
      obtain ⟨z, q, rfl⟩ : ∃ (z : Fin 1) (q : Fin 128), i = ix2 z q := ⟨i 0, i 1, eq_ix2 i⟩
      refine (step1 V c ⟨n + 1, hn⟩ (accSS V c n) z q).trans ?_
      exact range_step (fun j => Hn V c j q * Hn V c j q) 5000 (n + 1)

end Cert.KernelIdeal.Layer0

end
-- ==== Proof.Layer0.lean ====
/-
  Region 0 (the layer kernel): the values its three output arrays end holding, over the arrays the region finds.
  Output 6 is written back at every point, block t at point t: its ten blocks tile the array, which ends holding the
  perceptron's value H.  The two accumulators are written back once, after the last point, when they hold the sums
  over all 50000 rows: the column sums of H and the column sums of its squares.
-/
import proofs.«144821_j2645699854452_1_alg».proof.Proof.Layer0Acc

noncomputable section

open scoped BigOperators
open Idealize.ShloMosaic Idealize.ShloMosaic.TcCoe Idealize.SL.Sem Idealize.ShloMosaic.ValueIdx
open Idealize.ShloMosaic.Pipeline (Dat)

namespace Cert.KernelIdeal.Layer0

open Idealize.ShloMosaic Cert.KernelIdeal Cert.KernelIdeal.Gen Cert.Spec Cert.KernelIdeal.LayerBlock

variable (V : (c : Dev nD) → (b : Ref sig .tc) → Buf (Elt Ideal) ((c : Thread nD τ).loc b)) (c : Dev nD)

/-- What point t writes back to output 6 is block t of H. -/
theorem flushed6 (t : Fin cfg0.N) (hf : (cfg0.win 6).flush t = true) :
    (dat0 (F := Ideal) V c).flushed 6 t = ((cfg0.win 6).blk t).view.read (Elt Ideal) (H V c) := by
  obtain ⟨-, -, -, -, -, -, -, -, -, -, -, -, e0, e1, -⟩ := idx_facts t
  show (cfg0.win 6).cut (grid0.coords t) ((dat0 (F := Ideal) V c).after 6 t) = _
  rw [after0_6, (inv V c t.val t.isLt).1]
  refine funext fun (y : (⟨2, ![5000, 128]⟩ : Shape).Idx) => ?_
  obtain ⟨p, q, rfl⟩ : ∃ (p : Fin 5000) (q : Fin 128), y = ix2 p q := ⟨y 0, y 1, eq_ix2 y⟩
  rw [View.read_apply]
  show Hn V c (5000 * t.val + p.val) q = H V c (((cfg0.win 6).blk t).view.emb (ix2 p q))
  rw [Hn_lt V c _ (row_lt t p) q]
  refine congrArg (H V c) ?_
  funext a; apply Fin.ext
  match a with
  | ⟨0, _⟩ => show 5000 * t.val + p.val = win0_6.index t (0 : Fin 2) * 5000 + 1 * p.val; rw [e0]; omega
  | ⟨1, _⟩ => show q.val = win0_6.index t (1 : Fin 2) * 128 + 1 * q.val; rw [e1]; omega

/-- Every row of the array is in the block of the point its row number divided by 5000 names. -/
theorem cover6 (i : (⟨2, ![50000, 128]⟩ : Shape).Idx) :
    ∃ t : Fin cfg0.N, (cfg0.win 6).flush t = true ∧ i ∈ ((cfg0.win 6).blk t).view.set := by
  have hN : grid0.N = 10 := N_0
  have hi0 : (i 0).val < 50000 := (i 0).isLt
  have hi1 : (i 1).val < 128 := (i 1).isLt
  have ht : (i 0).val / 5000 < grid0.N := by omega
  obtain ⟨-, -, -, -, -, -, -, -, -, -, -, -, e0, e1, -⟩ := idx_facts ⟨(i 0).val / 5000, ht⟩
  refine ⟨⟨(i 0).val / 5000, ht⟩, flush0_6 _, ?_⟩
  show i ∈ ((View.whole main_v16_0).slice (win0_6.rect ⟨(i 0).val / 5000, ht⟩)).set
  rw [View.set_slice_whole, Rect.mem_set_unit]
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e0]; dsimp only; omega
  | ⟨1, _⟩ =>
    show win0_6.index ⟨(i 0).val / 5000, ht⟩ (1 : Fin 2) * 128 ≤ (i 1).val
      ∧ (i 1).val < win0_6.index ⟨(i 0).val / 5000, ht⟩ (1 : Fin 2) * 128 + 128
    rw [e1]; omega

/-- Output 6 ends holding the perceptron's value. -/
theorem arr6 : ((dat0 (F := Ideal) V c).arrAt 6 cfg0.N : Mat 50000 128) = H V c :=
  (dat0 (F := Ideal) V c).arrAt_eq_of_cover 6 (H V c) (flushed6 V c) (cover6)

/-- The sum over the row numbers below the number of rows is the sum over the rows. -/
theorem sumHn (q : Fin 128) : ∑ j ∈ Finset.range 50000, Hn V c j q = ∑ p : Fin 50000, H V c (ix2 p q) := by
  rw [← Fin.sum_univ_eq_sum_range (fun j => Hn V c j q) 50000]
  exact Finset.sum_congr rfl fun j _ => Hn_lt V c j.val j.isLt q

/-- Likewise for the squares. -/
theorem sumHnSq (q : Fin 128) :
    ∑ j ∈ Finset.range 50000, Hn V c j q * Hn V c j q = ∑ p : Fin 50000, H V c (ix2 p q) * H V c (ix2 p q) := by
  rw [← Fin.sum_univ_eq_sum_range (fun j => Hn V c j q * Hn V c j q) 50000]
  exact Finset.sum_congr rfl fun j _ => by rw [Hn_lt V c j.val j.isLt q]

/-- An accumulator's one block is its whole array: element (z, q) of the block is element (z, q) of the array. -/
theorem emb7 (t : Fin cfg0.N) (z : Fin 1) (q : Fin 128) : ((cfg0.win 7).blk t).view.emb (ix2 z q) = ix2 z q := by
  obtain ⟨-, -, -, -, -, -, -, -, -, -, -, -, -, -, e0, e1, -⟩ := idx_facts t
  funext a; apply Fin.ext
  match a with
  | ⟨0, _⟩ => show win0_7.index t (0 : Fin 2) * 1 + 1 * z.val = z.val; rw [e0]; omega
  | ⟨1, _⟩ => show win0_7.index t (1 : Fin 2) * 128 + 1 * q.val = q.val; rw [e1]; omega

theorem emb8 (t : Fin cfg0.N) (z : Fin 1) (q : Fin 128) : ((cfg0.win 8).blk t).view.emb (ix2 z q) = ix2 z q := by
  obtain ⟨-, -, -, -, -, -, -, -, -, -, -, -, -, -, -, -, e0, e1⟩ := idx_facts t
  funext a; apply Fin.ext
  match a with
  | ⟨0, _⟩ => show win0_8.index t (0 : Fin 2) * 1 + 1 * z.val = z.val; rw [e0]; omega
  | ⟨1, _⟩ => show win0_8.index t (1 : Fin 2) * 128 + 1 * q.val = q.val; rw [e1]; omega

/-- The one write-back of the sum accumulator, after the last point, writes the column sums of H over all rows. -/
theorem flushed7 (t : Fin cfg0.N) (hf : (cfg0.win 7).flush t = true) :
    (dat0 (F := Ideal) V c).flushed 7 t = ((cfg0.win 7).blk t).view.read (Elt Ideal) (colSum (n := 50000) (d := 128) (H V c)) := by
  have hN : grid0.N = 10 := N_0
  have ht : t.val < grid0.N := t.isLt
  have hr : 5000 * (t.val + 1) = 50000 := by have := (flush0_7 t).mp hf; omega
  show (cfg0.win 7).cut (grid0.coords t) ((dat0 (F := Ideal) V c).after 7 t) = _
  rw [after0_7, (inv V c t.val t.isLt).2.1]
  refine funext fun (y : (⟨2, ![1, 128]⟩ : Shape).Idx) => ?_
  obtain ⟨z, q, rfl⟩ : ∃ (z : Fin 1) (q : Fin 128), y = ix2 z q := ⟨y 0, y 1, eq_ix2 y⟩
  rw [View.read_apply, emb7 t z q]
  refine (cast_eq_iff_heq.mpr (heq_of_eq ?_)).symm
  rw [colSum_apply]
  show _ = ∑ j ∈ Finset.range (5000 * (t.val + 1)), Hn V c j q
  rw [hr]
  exact (sumHn V c q).symm

/-- The one write-back of the sum-of-squares accumulator writes the column sums of squares of H over all rows. -/
theorem flushed8 (t : Fin cfg0.N) (hf : (cfg0.win 8).flush t = true) :
    (dat0 (F := Ideal) V c).flushed 8 t = ((cfg0.win 8).blk t).view.read (Elt Ideal) (colSumSq (n := 50000) (d := 128) (H V c)) := by
  have hN : grid0.N = 10 := N_0
  have ht : t.val < grid0.N := t.isLt
  have hr : 5000 * (t.val + 1) = 50000 := by have := (flush0_8 t).mp hf; omega
  show (cfg0.win 8).cut (grid0.coords t) ((dat0 (F := Ideal) V c).after 8 t) = _
  rw [after0_8, (inv V c t.val t.isLt).2.2]
  refine funext fun (y : (⟨2, ![1, 128]⟩ : Shape).Idx) => ?_
  obtain ⟨z, q, rfl⟩ : ∃ (z : Fin 1) (q : Fin 128), y = ix2 z q := ⟨y 0, y 1, eq_ix2 y⟩
  rw [View.read_apply, emb8 t z q]
  refine (cast_eq_iff_heq.mpr (heq_of_eq ?_)).symm
  rw [colSumSq_apply]
  show _ = ∑ j ∈ Finset.range (5000 * (t.val + 1)), Hn V c j q * Hn V c j q
  rw [hr]
  exact (sumHnSq V c q).symm

/-- The last point's block covers the one-row array. -/
theorem cover7 (i : (⟨2, ![1, 128]⟩ : Shape).Idx) :
    ∃ t : Fin cfg0.N, (cfg0.win 7).flush t = true ∧ i ∈ ((cfg0.win 7).blk t).view.set := by
  have hi0 : (i 0).val < 1 := (i 0).isLt
  have hi1 : (i 1).val < 128 := (i 1).isLt
  obtain ⟨-, -, -, -, -, -, -, -, -, -, -, -, -, -, e0, e1, -⟩ := idx_facts t0_9
  refine ⟨t0_9, (flush0_7 t0_9).mpr rfl, ?_⟩
  show i ∈ ((View.whole main_v16_1).slice (win0_7.rect t0_9)).set
  rw [View.set_slice_whole, Rect.mem_set_unit]
  intro a
  match a with
  | ⟨0, _⟩ =>
    show win0_7.index t0_9 (0 : Fin 2) * 1 ≤ (i 0).val ∧ (i 0).val < win0_7.index t0_9 (0 : Fin 2) * 1 + 1
    rw [e0]; omega
  | ⟨1, _⟩ =>
    show win0_7.index t0_9 (1 : Fin 2) * 128 ≤ (i 1).val ∧ (i 1).val < win0_7.index t0_9 (1 : Fin 2) * 128 + 128
    rw [e1]; omega

theorem cover8 (i : (⟨2, ![1, 128]⟩ : Shape).Idx) :
    ∃ t : Fin cfg0.N, (cfg0.win 8).flush t = true ∧ i ∈ ((cfg0.win 8).blk t).view.set := by
  have hi0 : (i 0).val < 1 := (i 0).isLt
  have hi1 : (i 1).val < 128 := (i 1).isLt
  obtain ⟨-, -, -, -, -, -, -, -, -, -, -, -, -, -, -, -, e0, e1⟩ := idx_facts t0_9
  refine ⟨t0_9, (flush0_8 t0_9).mpr rfl, ?_⟩
  show i ∈ ((View.whole main_v16_2).slice (win0_8.rect t0_9)).set
  rw [View.set_slice_whole, Rect.mem_set_unit]
  intro a
  match a with
  | ⟨0, _⟩ =>
    show win0_8.index t0_9 (0 : Fin 2) * 1 ≤ (i 0).val ∧ (i 0).val < win0_8.index t0_9 (0 : Fin 2) * 1 + 1
    rw [e0]; omega
  | ⟨1, _⟩ =>
    show win0_8.index t0_9 (1 : Fin 2) * 128 ≤ (i 1).val ∧ (i 1).val < win0_8.index t0_9 (1 : Fin 2) * 128 + 128
    rw [e1]; omega

/-- The sum accumulator's array ends holding the column sums of H. -/
theorem arr7 : ((dat0 (F := Ideal) V c).arrAt 7 cfg0.N : Mat 1 128) = Cert.Spec.colSum (n := 50000) (d := 128) (H V c) :=
  (dat0 (F := Ideal) V c).arrAt_eq_of_cover 7 (colSum (n := 50000) (d := 128) (H V c)) (flushed7 V c) (cover7)

/-- The sum-of-squares accumulator's array ends holding the column sums of squares of H. -/
theorem arr8 : ((dat0 (F := Ideal) V c).arrAt 8 cfg0.N : Mat 1 128) = Cert.Spec.colSumSq (n := 50000) (d := 128) (H V c) :=
  (dat0 (F := Ideal) V c).arrAt_eq_of_cover 8 (colSumSq (n := 50000) (d := 128) (H V c)) (flushed8 V c) (cover8)

end Cert.KernelIdeal.Layer0

end
-- ==== Proof.Layer2Pieces.lean ====
/-
  Region 2 (the layer kernel): what each case of the body leaves in each output's staging buffer, as the body's
  arithmetic applied to the blocks it loaded.  Every store and every load of the body covers a whole buffer at
  offset zero, so a buffer read back after the body is the payload of its last store, and a load of a buffer
  the body has already stored into is that store's payload.
-/
import proofs.«144821_j2645699854452_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Layer2

open Cert.KernelIdeal Cert.KernelIdeal.Gen

variable {F : FTy → Type} [FloatOps F]

/-- The one index offset of every store and load of the body: the zero offset. -/
theorem hz : (![0, 0] : Fin 2 → Nat) = fun _ => 0 := funext fun a => by fin_cases a <;> rfl

/-- At the first point the output block is left holding the perceptron's value of the input blocks:
    one store over the whole block, its loads the whole input blocks. -/
theorem out_A_6 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond2_0 i) (x0 : Vec F S5000x128 .f32) (x1 : Vec F S5000x128 .f32) (x2 : Vec F S128x128 .f32) (x3 : Vec F S1x128 .f32) (x4 : Vec F S128x128 .f32) (x5 : Vec F S1x128 .f32) :
    out2_A_6 c i a1 h1 a2 h2 a3 h3 a4 h4 a5 h5 a6 h6 a7 h7 a8 h8 a9 h9 hc x0 x1 x2 x3 x4 x5 = k2_pay4 x0 x1 x2 x3 x4 x5 := by
  unfold out2_A_6
  rw [View.read_writes_eq_canon _ _ _ (cover2_A_6 c i a1 h1 a2 h2 a3 h3 a4 h4 a5 h5 a6 h6 a7 h7 a8 h8 a9 h9 hc x0 x1 x2 x3 x4 x5)]
  unfold kernelRun2_A
  dsimp only
  sl_unfold_words
  rw [View.canon_unit_zero hz]
  simp only [View.readAt_eq_ld, h1.read_unread, h2.read_unread, h3.read_unread, h4.read_unread, h5.read_unread, h6.read_unread, View.ld_unit_zero (S := S5000x128) hz, View.ld_unit_zero (S := S128x128) hz, View.ld_unit_zero (S := S1x128) hz]

/-- At a later point likewise: the output block does not depend on what the accumulators held. -/
theorem out_B_6 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond2_0 i) (x0 : Vec F S5000x128 .f32) (x1 : Vec F S5000x128 .f32) (x2 : Vec F S128x128 .f32) (x3 : Vec F S1x128 .f32) (x4 : Vec F S128x128 .f32) (x5 : Vec F S1x128 .f32)
    (xo7 : Vec F S1x128 .f32) (xo8 : Vec F S1x128 .f32) :
    out2_B_6 c i a1 h1 a2 h2 a3 h3 a4 h4 a5 h5 a6 h6 a7 h7 a8 h8 a9 h9 hc x0 x1 x2 x3 x4 x5 xo7 xo8 = k2_pay4 x0 x1 x2 x3 x4 x5 := by
  unfold out2_B_6
  rw [View.read_writes_eq_canon _ _ _ (cover2_B_6 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread, View.ld_unit_zero (S := S5000x128) hz, View.ld_unit_zero (S := S128x128) hz, View.ld_unit_zero (S := S1x128) hz]

/-- At the first point the sum accumulator is zeroed, read back, and left at zero plus the block's column sums. -/
theorem out_A_7 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond2_0 i) (x0 : Vec F S5000x128 .f32) (x1 : Vec F S5000x128 .f32) (x2 : Vec F S128x128 .f32) (x3 : Vec F S1x128 .f32) (x4 : Vec F S128x128 .f32) (x5 : Vec F S1x128 .f32) :
    out2_A_7 c i a1 h1 a2 h2 a3 h3 a4 h4 a5 h5 a6 h6 a7 h7 a8 h8 a9 h9 hc x0 x1 x2 x3 x4 x5 = k2_pay5 x0 x1 x2 x3 x4 x5 k2_pay2 := by
  unfold out2_A_7
  rw [View.read_writes_eq_canon _ _ _ (cover2_A_7 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, View.ld_unit_zero (S := S5000x128) hz, View.ld_unit_zero (S := S128x128) hz, View.ld_unit_zero (S := S1x128) hz]

/-- At a later point it is left at what it held plus the block's column sums. -/
theorem out_B_7 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond2_0 i) (x0 : Vec F S5000x128 .f32) (x1 : Vec F S5000x128 .f32) (x2 : Vec F S128x128 .f32) (x3 : Vec F S1x128 .f32) (x4 : Vec F S128x128 .f32) (x5 : Vec F S1x128 .f32)
    (xo7 : Vec F S1x128 .f32) (xo8 : Vec F S1x128 .f32) :
    out2_B_7 c i a1 h1 a2 h2 a3 h3 a4 h4 a5 h5 a6 h6 a7 h7 a8 h8 a9 h9 hc x0 x1 x2 x3 x4 x5 xo7 xo8 = k2_pay5 x0 x1 x2 x3 x4 x5 xo7 := by
  unfold out2_B_7
  rw [View.read_writes_eq_canon _ _ _ (cover2_B_7 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread, h8.read_unread, View.ld_unit_zero (S := S5000x128) hz, View.ld_unit_zero (S := S128x128) hz, View.ld_unit_zero (S := S1x128) hz]

/-- At the first point the sum-of-squares accumulator is zeroed, read back, and left at zero plus the block's
    column sums of squares. -/
theorem out_A_8 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond2_0 i) (x0 : Vec F S5000x128 .f32) (x1 : Vec F S5000x128 .f32) (x2 : Vec F S128x128 .f32) (x3 : Vec F S1x128 .f32) (x4 : Vec F S128x128 .f32) (x5 : Vec F S1x128 .f32) :
    out2_A_8 c i a1 h1 a2 h2 a3 h3 a4 h4 a5 h5 a6 h6 a7 h7 a8 h8 a9 h9 hc x0 x1 x2 x3 x4 x5 = k2_pay1 (k2_pay4 x0 x1 x2 x3 x4 x5) k2_pay3 := by
  unfold out2_A_8
  rw [View.read_writes_eq_canon _ _ _ (cover2_A_8 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, View.ld_unit_zero (S := S5000x128) hz, View.ld_unit_zero (S := S128x128) hz, View.ld_unit_zero (S := S1x128) hz]

/-- At a later point it is left at what it held plus the block's column sums of squares. -/
theorem out_B_8 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond2_0 i) (x0 : Vec F S5000x128 .f32) (x1 : Vec F S5000x128 .f32) (x2 : Vec F S128x128 .f32) (x3 : Vec F S1x128 .f32) (x4 : Vec F S128x128 .f32) (x5 : Vec F S1x128 .f32)
    (xo7 : Vec F S1x128 .f32) (xo8 : Vec F S1x128 .f32) :
    out2_B_8 c i a1 h1 a2 h2 a3 h3 a4 h4 a5 h5 a6 h6 a7 h7 a8 h8 a9 h9 hc x0 x1 x2 x3 x4 x5 xo7 xo8 = k2_pay1 (k2_pay4 x0 x1 x2 x3 x4 x5) xo8 := by
  unfold out2_B_8
  rw [View.read_writes_eq_canon _ _ _ (cover2_B_8 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread, h9.read_unread, View.ld_unit_zero (S := S5000x128) hz, View.ld_unit_zero (S := S128x128) hz, View.ld_unit_zero (S := S1x128) hz]

end Cert.KernelIdeal.Layer2

end
-- ==== Proof.Layer2Pay.lean ====
/-
  Region 2 (the layer kernel): the body's arithmetic on its loaded blocks, read at an index on the extended reals.
  The block stored into the output is the perceptron's value of the block's rows; the sum accumulator is left at what
  it held plus the block's column sums; the sum-of-squares accumulator at what it held plus the column sums of the
  squares; the value both accumulators are reset to is zero.
-/
import proofs.«144821_j2645699854452_1_alg».proof.Proof.Gen.KernelIdeal.Skeleton
import proofs.«144821_j2645699854452_1_alg».proof.Proof.LayerBlock

noncomputable section

open scoped BigOperators
open Idealize.ShloMosaic Idealize.ShloMosaic.ValueIdx

namespace Cert.KernelIdeal.Layer2

open Cert.KernelIdeal Cert.KernelIdeal.Gen Cert.Spec Cert.KernelIdeal.LayerBlock

/-- The stored block at (p, q): the perceptron's value of row p of the loaded blocks at column q
    (the block of x first goes through a reshaping to its own shape, which changes nothing). -/
theorem pay4_apply (x0 x1 : Mat 5000 128) (x2 : Mat 128 128) (x3 : Mat 1 128) (x4 : Mat 128 128) (x5 : Mat 1 128)
    (p : Fin 5000) (q : Fin 128) :
    k2_pay4 (F := Ideal) x0 x1 x2 x3 x4 x5 (ix2 p q) = mlpAt x0 x1 x2 x3 x4 x5 p q := by
  unfold k2_pay4
  rw [shapeCast_self x0]
  exact mlpBlock dot_S5000x128_S128x128_S5000x128_1_0_0_1_n_n rfl rfl rfl rfl rfl rfl dot_S5000x128_S128x128_S5000x128_1_0_0_1_n_n rfl rfl rfl rfl rfl rfl
    x0 x1 x2 x3 x4 x5 _ _ _ _ _ _ p q

/-- The sum accumulator after the body, at (z, q): what it held plus the sum over the block's rows of the
    perceptron's value at column q. -/
theorem pay5_apply (x0 x1 : Mat 5000 128) (x2 : Mat 128 128) (x3 : Mat 1 128) (x4 : Mat 128 128) (x5 : Mat 1 128)
    (v : Mat 1 128) (z : Fin 1) (q : Fin 128) :
    k2_pay5 (F := Ideal) x0 x1 x2 x3 x4 x5 v (ix2 z q)
      = v (ix2 z q) + ∑ p : Fin 5000, mlpAt x0 x1 x2 x3 x4 x5 p q := by
  unfold k2_pay5
  refine (accum (k2_pay4 (F := Ideal) x0 x1 x2 x3 x4 x5) v _ _ _ _ _ z q).trans ?_
  exact congrArg (v (ix2 z q) + ·) (Finset.sum_congr rfl fun p _ => pay4_apply x0 x1 x2 x3 x4 x5 p q)

/-- The sum-of-squares accumulator after the body, at (z, q): what it held plus the sum over the block's rows of
    the square of the stored block's entry at column q. -/
theorem pay1_apply (h : Mat 5000 128) (v : Mat 1 128) (z : Fin 1) (q : Fin 128) :
    k2_pay1 (F := Ideal) h v (ix2 z q) = v (ix2 z q) + ∑ p : Fin 5000, h (ix2 p q) * h (ix2 p q) := by
  unfold k2_pay1
  exact accum (mulf h h) v _ _ _ _ _ z q

/-- The value the sum accumulator is reset to is zero everywhere. -/
theorem pay2_apply (i : (⟨2, ![1, 128]⟩ : Shape).Idx) : k2_pay2 (F := Ideal) i = 0 := by
  unfold k2_pay2
  exact Ideal.ofBits_zero_f32

/-- The value the sum-of-squares accumulator is reset to is zero everywhere. -/
theorem pay3_apply (i : (⟨2, ![1, 128]⟩ : Shape).Idx) : k2_pay3 (F := Ideal) i = 0 := by
  unfold k2_pay3
  exact Ideal.ofBits_zero_f32

end Cert.KernelIdeal.Layer2

end
-- ==== Proof.Layer2Reads.lean ====
/-
  Region 2 (the layer kernel): the blocks its windows hand the body at a grid point, as entries of the arrays
  the region finds.  The blocks of x, of g and of the output are the row blocks, moving down with the point; the
  weights, the biases and the accumulators are read whole at every point.
-/
import proofs.«144821_j2645699854452_1_alg».proof.Proof.Gen.KernelIdeal.Frame
import proofs.«144821_j2645699854452_1_alg».proof.Proof.Spec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen Cert.Spec

variable (V : (c : Dev nD) → (b : Ref sig .tc) → Buf (Elt Ideal) ((c : Thread nD τ).loc b)) (c : Dev nD)

/-- the perceptron's value over the arrays the region finds -/
def H : Cert.Spec.Mat 50000 128 := Cert.Spec.mlp (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))

/-- The index maps, decided over the grid: the blocks of x, of g and of the output move down the rows with the
    point; the weights, the biases and the two accumulators stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- Row r of block t is row 5000·t + r of the array. -/
theorem row_lt (t : Fin cfg2.N) (p : Fin 5000) : 5000 * t.val + p.val < 50000 := by
  have hN : grid2.N = 10 := N_2
  have ht : t.val < grid2.N := t.isLt
  have hp := p.isLt
  omega

/-- Block t of x, at (p, j): the array's entry (5000·t + p, j). -/
theorem rd0 (t : Fin cfg2.N) (p : Fin 5000) (j : Fin 128) :
    (iblk2 V c 0 t : Mat 5000 128) (ix2 p j) = (V c (Pipeline.arrRef spec2 0) : Mat 50000 128) (ix2 ⟨5000 * t.val + p.val, row_lt t p⟩ j) := by
  obtain ⟨e0, e1, -⟩ := idx_facts t
  unfold iblk2
  rw [View.read_apply]
  refine congrArg (V c (Pipeline.arrRef spec2 0)) ?_
  funext a; apply Fin.ext
  match a with
  | ⟨0, _⟩ => show win2_0.index t (0 : Fin 2) * 5000 + 1 * p.val = 5000 * t.val + p.val; rw [e0]; omega
  | ⟨1, _⟩ => show win2_0.index t (1 : Fin 2) * 128 + 1 * j.val = j.val; rw [e1]; omega

/-- Block t of g, at (p, j): the array's entry (5000·t + p, j). -/
theorem rd1 (t : Fin cfg2.N) (p : Fin 5000) (j : Fin 128) :
    (iblk2 V c 1 t : Mat 5000 128) (ix2 p j) = (V c (Pipeline.arrRef spec2 1) : Mat 50000 128) (ix2 ⟨5000 * t.val + p.val, row_lt t p⟩ j) := by
  obtain ⟨-, -, e0, e1, -⟩ := idx_facts t
  unfold iblk2
  rw [View.read_apply]
  refine congrArg (V c (Pipeline.arrRef spec2 1)) ?_
  funext a; apply Fin.ext
  match a with
  | ⟨0, _⟩ => show win2_1.index t (0 : Fin 2) * 5000 + 1 * p.val = 5000 * t.val + p.val; rw [e0]; omega
  | ⟨1, _⟩ => show win2_1.index t (1 : Fin 2) * 128 + 1 * j.val = j.val; rw [e1]; omega

/-- The first weight array is read whole at every point. -/
theorem rd2 (t : Fin cfg2.N) (j : Fin 128) (k : Fin 128) :
    (iblk2 V c 2 t : Mat 128 128) (ix2 j k) = (V c (Pipeline.arrRef spec2 2) : Mat 128 128) (ix2 j k) := by
  obtain ⟨-, -, -, -, e0, e1, -⟩ := idx_facts t
  unfold iblk2
  rw [View.read_apply]
  refine congrArg (V c (Pipeline.arrRef spec2 2)) ?_
  funext a; apply Fin.ext
  match a with
  | ⟨0, _⟩ => show win2_2.index t (0 : Fin 2) * 128 + 1 * j.val = j.val; rw [e0]; omega
  | ⟨1, _⟩ => show win2_2.index t (1 : Fin 2) * 128 + 1 * k.val = k.val; rw [e1]; omega

/-- The first bias row is read whole at every point. -/
theorem rd3 (t : Fin cfg2.N) (z : Fin 1) (k : Fin 128) :
    (iblk2 V c 3 t : Mat 1 128) (ix2 z k) = (V c (Pipeline.arrRef spec2 3) : Mat 1 128) (ix2 z k) := by
  obtain ⟨-, -, -, -, -, -, e0, e1, -⟩ := idx_facts t
  unfold iblk2
  rw [View.read_apply]
  refine congrArg (V c (Pipeline.arrRef spec2 3)) ?_
  funext a; apply Fin.ext
  match a with
  | ⟨0, _⟩ => show win2_3.index t (0 : Fin 2) * 1 + 1 * z.val = z.val; rw [e0]; omega
  | ⟨1, _⟩ => show win2_3.index t (1 : Fin 2) * 128 + 1 * k.val = k.val; rw [e1]; omega

/-- The second weight array is read whole at every point. -/
theorem rd4 (t : Fin cfg2.N) (k : Fin 128) (q : Fin 128) :
    (iblk2 V c 4 t : Mat 128 128) (ix2 k q) = (V c (Pipeline.arrRef spec2 4) : Mat 128 128) (ix2 k q) := by
  obtain ⟨-, -, -, -, -, -, -, -, e0, e1, -⟩ := idx_facts t
  unfold iblk2
  rw [View.read_apply]
  refine congrArg (V c (Pipeline.arrRef spec2 4)) ?_
  funext a; apply Fin.ext
  match a with
  | ⟨0, _⟩ => show win2_4.index t (0 : Fin 2) * 128 + 1 * k.val = k.val; rw [e0]; omega
  | ⟨1, _⟩ => show win2_4.index t (1 : Fin 2) * 128 + 1 * q.val = q.val; rw [e1]; omega

/-- The second bias row is read whole at every point. -/
theorem rd5 (t : Fin cfg2.N) (z : Fin 1) (q : Fin 128) :
    (iblk2 V c 5 t : Mat 1 128) (ix2 z q) = (V c (Pipeline.arrRef spec2 5) : Mat 1 128) (ix2 z q) := by
  obtain ⟨-, -, -, -, -, -, -, -, -, -, e0, e1, -⟩ := idx_facts t
  unfold iblk2
  rw [View.read_apply]
  refine congrArg (V c (Pipeline.arrRef spec2 5)) ?_
  funext a; apply Fin.ext
  match a with
  | ⟨0, _⟩ => show win2_5.index t (0 : Fin 2) * 1 + 1 * z.val = z.val; rw [e0]; omega
  | ⟨1, _⟩ => show win2_5.index t (1 : Fin 2) * 128 + 1 * q.val = q.val; rw [e1]; omega

end Cert.KernelIdeal.Layer2

end
-- ==== Proof.Layer2Acc.lean ====
/-
  Region 2 (the layer kernel): what the three output staging buffers hold after the body at each grid point.
  Block n of the output is block n of the perceptron's value H (rows 5000·n … 5000·n + 4999).  The two
  accumulators are zeroed at point 0 and at every point add the block's column sums (of the values, of their
  squares) to what the point before left: after point n they hold the sums over the rows below 5000·(n + 1).
-/
import proofs.«144821_j2645699854452_1_alg».proof.Proof.Layer2Pieces
import proofs.«144821_j2645699854452_1_alg».proof.Proof.Layer2Pay
import proofs.«144821_j2645699854452_1_alg».proof.Proof.Layer2Reads

noncomputable section

open scoped BigOperators
open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen Cert.Spec Cert.KernelIdeal.LayerBlock

variable (V : (c : Dev nD) → (b : Ref sig .tc) → Buf (Elt Ideal) ((c : Thread nD τ).loc b)) (c : Dev nD)

/-- Entry (j, q) of H by row number; zero past the last row. -/
def Hn (j : ℕ) (q : Fin 128) : EReal := if h : j < 50000 then H V c (ix2 ⟨j, h⟩ q) else 0

theorem Hn_lt (j : ℕ) (h : j < 50000) (q : Fin 128) : Hn V c j q = H V c (ix2 ⟨j, h⟩ q) := dif_pos h

/-- The perceptron's value of row p of the blocks at point t is H's entry in row 5000·t + p: the row of x and of g
    is that row of the arrays, the weights and biases are the arrays'. -/
theorem blk_apply (t : Fin cfg2.N) (p : Fin 5000) (q : Fin 128) :
    mlpAt (iblk2 V c 0 t : Mat 5000 128) (iblk2 V c 1 t : Mat 5000 128) (iblk2 V c 2 t : Mat 128 128) (iblk2 V c 3 t : Mat 1 128) (iblk2 V c 4 t : Mat 128 128) (iblk2 V c 5 t : Mat 1 128) p q = Hn V c (5000 * t.val + p.val) q := by
  rw [Hn_lt V c _ (row_lt t p) q]
  exact mlpAt_congr (iblk2 V c 0 t) (iblk2 V c 1 t) (V c (Pipeline.arrRef spec2 0)) (V c (Pipeline.arrRef spec2 1))
    (iblk2 V c 2 t) (V c (Pipeline.arrRef spec2 2)) (iblk2 V c 3 t) (V c (Pipeline.arrRef spec2 3))
    (iblk2 V c 4 t) (V c (Pipeline.arrRef spec2 4)) (iblk2 V c 5 t) (V c (Pipeline.arrRef spec2 5))
    p ⟨5000 * t.val + p.val, row_lt t p⟩ (rd0 V c t p) (rd1 V c t p) (rd2 V c t) (fun k => rd3 V c t 0 k) (rd4 V c t)
    (fun q => rd5 V c t 0 q) q

/-- The stored block at point t, at (p, q). -/
theorem pay4_blk (t : Fin cfg2.N) (p : Fin 5000) (q : Fin 128) :
    k2_pay4 (F := Ideal) (iblk2 V c 0 t) (iblk2 V c 1 t) (iblk2 V c 2 t) (iblk2 V c 3 t) (iblk2 V c 4 t) (iblk2 V c 5 t) (ix2 p q) = Hn V c (5000 * t.val + p.val) q :=
  (pay4_apply (iblk2 V c 0 t) (iblk2 V c 1 t) (iblk2 V c 2 t) (iblk2 V c 3 t) (iblk2 V c 4 t) (iblk2 V c 5 t) p q).trans (blk_apply V c t p q)

/-- At a point where the run starts, the three buffers hold the body's arithmetic of the blocks over zeroed accumulators. -/
theorem outs_A (t : Fin cfg2.N) (h0 : t.val % 10 = 0) :
    (outsAt2 V c t.val t.isLt).1 = k2_pay4 (iblk2 V c 0 t) (iblk2 V c 1 t) (iblk2 V c 2 t) (iblk2 V c 3 t) (iblk2 V c 4 t) (iblk2 V c 5 t)
    ∧ (outsAt2 V c t.val t.isLt).2.1 = k2_pay5 (iblk2 V c 0 t) (iblk2 V c 1 t) (iblk2 V c 2 t) (iblk2 V c 3 t) (iblk2 V c 4 t) (iblk2 V c 5 t) (k2_pay2 (F := Ideal))
    ∧ (outsAt2 V c t.val t.isLt).2.2 = k2_pay1 (k2_pay4 (iblk2 V c 0 t) (iblk2 V c 1 t) (iblk2 V c 2 t) (iblk2 V c 3 t) (iblk2 V c 4 t) (iblk2 V c 5 t)) (k2_pay3 (F := Ideal)) := by
  rw [outsAt2_A V c t h0]
  dsimp only
  refine ⟨?_, ?_, ?_⟩
  · exact out_A_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)
  · exact out_A_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)
  · exact out_A_8 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)

/-- At a later point, over what the point before left in the two accumulators. -/
theorem outs_B (t : Fin cfg2.N) (h0 : ¬t.val % 10 = 0) :
    (outsAt2 V c t.val t.isLt).1 = k2_pay4 (iblk2 V c 0 t) (iblk2 V c 1 t) (iblk2 V c 2 t) (iblk2 V c 3 t) (iblk2 V c 4 t) (iblk2 V c 5 t)
    ∧ (outsAt2 V c t.val t.isLt).2.1 = k2_pay5 (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1
    ∧ (outsAt2 V c t.val t.isLt).2.2 = k2_pay1 (k2_pay4 (iblk2 V c 0 t) (iblk2 V c 1 t) (iblk2 V c 2 t) (iblk2 V c 3 t) (iblk2 V c 4 t) (iblk2 V c 5 t)) (outsAt2 V c (t.val - 1) (Nat.lt_of_le_of_lt (Nat.sub_le _ _) t.isLt)).2.2 := by
  rw [outsAt2_B V c t h0]
  dsimp only
  refine ⟨?_, ?_, ?_⟩
  · exact out_B_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2
  · exact out_B_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2
  · exact out_B_8 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2

/-- The staging buffers' contents depend on the point's number only. -/
theorem outsAt_congr (a b : ℕ) (h : a = b) (ha : a < cfg2.N) (hb : b < cfg2.N) :
    outsAt2 V c a ha = outsAt2 V c b hb := by
  subst h; rfl

/-- Block n of H, as a block of 5000 rows. -/
def blkH (n : ℕ) : Mat 5000 128 := fun i => Hn V c (5000 * n + (i 0).val) (i 1)
/-- The column sums of H over the rows below 5000·(n + 1), as one row. -/
def accS (n : ℕ) : Mat 1 128 := fun i => ∑ j ∈ Finset.range (5000 * (n + 1)), Hn V c j (i 1)
/-- The column sums of squares of H over the rows below 5000·(n + 1), as one row. -/
def accSS (n : ℕ) : Mat 1 128 := fun i => ∑ j ∈ Finset.range (5000 * (n + 1)), Hn V c j (i 1) * Hn V c j (i 1)

theorem pay4_eq_blkH (t : Fin cfg2.N) : k2_pay4 (F := Ideal) (iblk2 V c 0 t) (iblk2 V c 1 t) (iblk2 V c 2 t) (iblk2 V c 3 t) (iblk2 V c 4 t) (iblk2 V c 5 t) = blkH V c t.val := by
  refine funext fun (i : (⟨2, ![5000, 128]⟩ : Shape).Idx) => ?_
  obtain ⟨p, q, rfl⟩ : ∃ (p : Fin 5000) (q : Fin 128), i = ix2 p q := ⟨i 0, i 1, eq_ix2 i⟩
  exact pay4_blk V c t p q

/-- One step of the sum accumulator at point t: from the sums over the rows below 5000·t it goes to the sums over
    the rows below 5000·(t + 1). -/
theorem step5 (t : Fin cfg2.N) (v : Mat 1 128) (z : Fin 1) (q : Fin 128) :
    k2_pay5 (F := Ideal) (iblk2 V c 0 t) (iblk2 V c 1 t) (iblk2 V c 2 t) (iblk2 V c 3 t) (iblk2 V c 4 t) (iblk2 V c 5 t) v (ix2 z q) = v (ix2 z q) + ∑ p : Fin 5000, Hn V c (5000 * t.val + p.val) q :=
  (pay5_apply (iblk2 V c 0 t) (iblk2 V c 1 t) (iblk2 V c 2 t) (iblk2 V c 3 t) (iblk2 V c 4 t) (iblk2 V c 5 t) v z q).trans
    (congrArg (v (ix2 z q) + ·) (Finset.sum_congr rfl fun p _ => blk_apply V c t p q))

/-- One step of the sum-of-squares accumulator at point t. -/
theorem step1 (t : Fin cfg2.N) (v : Mat 1 128) (z : Fin 1) (q : Fin 128) :
    k2_pay1 (F := Ideal) (k2_pay4 (F := Ideal) (iblk2 V c 0 t) (iblk2 V c 1 t) (iblk2 V c 2 t) (iblk2 V c 3 t) (iblk2 V c 4 t) (iblk2 V c 5 t)) v (ix2 z q)
      = v (ix2 z q) + ∑ p : Fin 5000, Hn V c (5000 * t.val + p.val) q * Hn V c (5000 * t.val + p.val) q :=
  (pay1_apply (k2_pay4 (F := Ideal) (iblk2 V c 0 t) (iblk2 V c 1 t) (iblk2 V c 2 t) (iblk2 V c 3 t) (iblk2 V c 4 t) (iblk2 V c 5 t)) v z q).trans
    (congrArg (v (ix2 z q) + ·) (Finset.sum_congr rfl fun p _ =>
      congrArg₂ (· * ·) (pay4_blk V c t p q) (pay4_blk V c t p q)))

/-- THE ACCUMULATION: after point n the output's buffer holds block n of H and the accumulators the sums over the
    rows below 5000·(n + 1) — by induction on the point. -/
theorem inv : ∀ (n : ℕ) (hn : n < cfg2.N),
    (outsAt2 V c n hn).1 = blkH V c n ∧ (outsAt2 V c n hn).2.1 = accS V c n ∧ (outsAt2 V c n hn).2.2 = accSS V c n
  | 0, hn => by
    obtain ⟨e1, e2, e3⟩ := outs_A V c ⟨0, hn⟩ rfl
    refine ⟨e1.trans (pay4_eq_blkH V c ⟨0, hn⟩), e2.trans ?_, e3.trans ?_⟩
    · refine funext fun (i : (⟨2, ![1, 128]⟩ : Shape).Idx) => ?_
      obtain ⟨z, q, rfl⟩ : ∃ (z : Fin 1) (q : Fin 128), i = ix2 z q := ⟨i 0, i 1, eq_ix2 i⟩
      refine (step5 V c ⟨0, hn⟩ (k2_pay2 (F := Ideal)) z q).trans ?_
      rw [pay2_apply]
      exact range_start (fun j => Hn V c j q) 5000
    · refine funext fun (i : (⟨2, ![1, 128]⟩ : Shape).Idx) => ?_
      obtain ⟨z, q, rfl⟩ : ∃ (z : Fin 1) (q : Fin 128), i = ix2 z q := ⟨i 0, i 1, eq_ix2 i⟩
      refine (step1 V c ⟨0, hn⟩ (k2_pay3 (F := Ideal)) z q).trans ?_
      rw [pay3_apply]
      exact range_start (fun j => Hn V c j q * Hn V c j q) 5000
  | n + 1, hn => by
    have hN : grid2.N = 10 := N_2
    have hn' : n + 1 < grid2.N := hn
    have h0 : ¬(⟨n + 1, hn⟩ : Fin cfg2.N).val % 10 = 0 := by show ¬(n + 1) % 10 = 0; omega
    obtain ⟨e1, e2, e3⟩ := outs_B V c ⟨n + 1, hn⟩ h0
    obtain ⟨-, i2, i3⟩ := inv n (Nat.lt_of_succ_lt hn)
    have hp : outsAt2 V c ((⟨n + 1, hn⟩ : Fin cfg2.N).val - 1) (Nat.lt_of_le_of_lt (Nat.sub_le _ _) (⟨n + 1, hn⟩ : Fin cfg2.N).isLt)
        = outsAt2 V c n (Nat.lt_of_succ_lt hn) :=
      outsAt_congr V c _ _ (Nat.add_sub_cancel n 1) _ _
    rw [hp, i2] at e2
    rw [hp, i3] at e3
    refine ⟨e1.trans (pay4_eq_blkH V c ⟨n + 1, hn⟩), e2.trans ?_, e3.trans ?_⟩
    · refine funext fun (i : (⟨2, ![1, 128]⟩ : Shape).Idx) => ?_
      obtain ⟨z, q, rfl⟩ : ∃ (z : Fin 1) (q : Fin 128), i = ix2 z q := ⟨i 0, i 1, eq_ix2 i⟩
      refine (step5 V c ⟨n + 1, hn⟩ (accS V c n) z q).trans ?_
      exact range_step (fun j => Hn V c j q) 5000 (n + 1)
    · refine funext fun (i : (⟨2, ![1, 128]⟩ : Shape).Idx) => ?_
      obtain ⟨z, q, rfl⟩ : ∃ (z : Fin 1) (q : Fin 128), i = ix2 z q := ⟨i 0, i 1, eq_ix2 i⟩
      refine (step1 V c ⟨n + 1, hn⟩ (accSS V c n) z q).trans ?_
      exact range_step (fun j => Hn V c j q * Hn V c j q) 5000 (n + 1)

end Cert.KernelIdeal.Layer2

end
-- ==== Proof.Layer2.lean ====
/-
  Region 2 (the layer kernel): the values its three output arrays end holding, over the arrays the region finds.
  Output 6 is written back at every point, block t at point t: its ten blocks tile the array, which ends holding the
  perceptron's value H.  The two accumulators are written back once, after the last point, when they hold the sums
  over all 50000 rows: the column sums of H and the column sums of its squares.
-/
import proofs.«144821_j2645699854452_1_alg».proof.Proof.Layer2Acc

noncomputable section

open scoped BigOperators
open Idealize.ShloMosaic Idealize.ShloMosaic.TcCoe Idealize.SL.Sem Idealize.ShloMosaic.ValueIdx
open Idealize.ShloMosaic.Pipeline (Dat)

namespace Cert.KernelIdeal.Layer2

open Idealize.ShloMosaic Cert.KernelIdeal Cert.KernelIdeal.Gen Cert.Spec Cert.KernelIdeal.LayerBlock

variable (V : (c : Dev nD) → (b : Ref sig .tc) → Buf (Elt Ideal) ((c : Thread nD τ).loc b)) (c : Dev nD)

/-- What point t writes back to output 6 is block t of H. -/
theorem flushed6 (t : Fin cfg2.N) (hf : (cfg2.win 6).flush t = true) :
    (dat2 (F := Ideal) V c).flushed 6 t = ((cfg2.win 6).blk t).view.read (Elt Ideal) (H V c) := by
  obtain ⟨-, -, -, -, -, -, -, -, -, -, -, -, e0, e1, -⟩ := idx_facts t
  show (cfg2.win 6).cut (grid2.coords t) ((dat2 (F := Ideal) V c).after 6 t) = _
  rw [after2_6, (inv V c t.val t.isLt).1]
  refine funext fun (y : (⟨2, ![5000, 128]⟩ : Shape).Idx) => ?_
  obtain ⟨p, q, rfl⟩ : ∃ (p : Fin 5000) (q : Fin 128), y = ix2 p q := ⟨y 0, y 1, eq_ix2 y⟩
  rw [View.read_apply]
  show Hn V c (5000 * t.val + p.val) q = H V c (((cfg2.win 6).blk t).view.emb (ix2 p q))
  rw [Hn_lt V c _ (row_lt t p) q]
  refine congrArg (H V c) ?_
  funext a; apply Fin.ext
  match a with
  | ⟨0, _⟩ => show 5000 * t.val + p.val = win2_6.index t (0 : Fin 2) * 5000 + 1 * p.val; rw [e0]; omega
  | ⟨1, _⟩ => show q.val = win2_6.index t (1 : Fin 2) * 128 + 1 * q.val; rw [e1]; omega

/-- Every row of the array is in the block of the point its row number divided by 5000 names. -/
theorem cover6 (i : (⟨2, ![50000, 128]⟩ : Shape).Idx) :
    ∃ t : Fin cfg2.N, (cfg2.win 6).flush t = true ∧ i ∈ ((cfg2.win 6).blk t).view.set := by
  have hN : grid2.N = 10 := N_2
  have hi0 : (i 0).val < 50000 := (i 0).isLt
  have hi1 : (i 1).val < 128 := (i 1).isLt
  have ht : (i 0).val / 5000 < grid2.N := by omega
  obtain ⟨-, -, -, -, -, -, -, -, -, -, -, -, e0, e1, -⟩ := idx_facts ⟨(i 0).val / 5000, ht⟩
  refine ⟨⟨(i 0).val / 5000, ht⟩, flush2_6 _, ?_⟩
  show i ∈ ((View.whole main_v42_0).slice (win2_6.rect ⟨(i 0).val / 5000, ht⟩)).set
  rw [View.set_slice_whole, Rect.mem_set_unit]
  intro a
  match a with
  | ⟨0, _⟩ =>
    show win2_6.index ⟨(i 0).val / 5000, ht⟩ (0 : Fin 2) * 5000 ≤ (i 0).val
      ∧ (i 0).val < win2_6.index ⟨(i 0).val / 5000, ht⟩ (0 : Fin 2) * 5000 + 5000
    rw [e0]; dsimp only; omega
  | ⟨1, _⟩ =>
    show win2_6.index ⟨(i 0).val / 5000, ht⟩ (1 : Fin 2) * 128 ≤ (i 1).val
      ∧ (i 1).val < win2_6.index ⟨(i 0).val / 5000, ht⟩ (1 : Fin 2) * 128 + 128
    rw [e1]; omega

/-- Output 6 ends holding the perceptron's value. -/
theorem arr6 : ((dat2 (F := Ideal) V c).arrAt 6 cfg2.N : Mat 50000 128) = H V c :=
  (dat2 (F := Ideal) V c).arrAt_eq_of_cover 6 (H V c) (flushed6 V c) (cover6)

/-- The sum over the row numbers below the number of rows is the sum over the rows. -/
theorem sumHn (q : Fin 128) : ∑ j ∈ Finset.range 50000, Hn V c j q = ∑ p : Fin 50000, H V c (ix2 p q) := by
  rw [← Fin.sum_univ_eq_sum_range (fun j => Hn V c j q) 50000]
  exact Finset.sum_congr rfl fun j _ => Hn_lt V c j.val j.isLt q

/-- Likewise for the squares. -/
theorem sumHnSq (q : Fin 128) :
    ∑ j ∈ Finset.range 50000, Hn V c j q * Hn V c j q = ∑ p : Fin 50000, H V c (ix2 p q) * H V c (ix2 p q) := by
  rw [← Fin.sum_univ_eq_sum_range (fun j => Hn V c j q * Hn V c j q) 50000]
  exact Finset.sum_congr rfl fun j _ => by rw [Hn_lt V c j.val j.isLt q]

/-- An accumulator's one block is its whole array: element (z, q) of the block is element (z, q) of the array. -/
theorem emb7 (t : Fin cfg2.N) (z : Fin 1) (q : Fin 128) : ((cfg2.win 7).blk t).view.emb (ix2 z q) = ix2 z q := by
  obtain ⟨-, -, -, -, -, -, -, -, -, -, -, -, -, -, e0, e1, -⟩ := idx_facts t
  funext a; apply Fin.ext
  match a with
  | ⟨0, _⟩ => show win2_7.index t (0 : Fin 2) * 1 + 1 * z.val = z.val; rw [e0]; omega
  | ⟨1, _⟩ => show win2_7.index t (1 : Fin 2) * 128 + 1 * q.val = q.val; rw [e1]; omega

theorem emb8 (t : Fin cfg2.N) (z : Fin 1) (q : Fin 128) : ((cfg2.win 8).blk t).view.emb (ix2 z q) = ix2 z q := by
  obtain ⟨-, -, -, -, -, -, -, -, -, -, -, -, -, -, -, -, e0, e1⟩ := idx_facts t
  funext a; apply Fin.ext
  match a with
  | ⟨0, _⟩ => show win2_8.index t (0 : Fin 2) * 1 + 1 * z.val = z.val; rw [e0]; omega
  | ⟨1, _⟩ => show win2_8.index t (1 : Fin 2) * 128 + 1 * q.val = q.val; rw [e1]; omega

/-- The one write-back of the sum accumulator, after the last point, writes the column sums of H over all rows. -/
theorem flushed7 (t : Fin cfg2.N) (hf : (cfg2.win 7).flush t = true) :
    (dat2 (F := Ideal) V c).flushed 7 t = ((cfg2.win 7).blk t).view.read (Elt Ideal) (colSum (n := 50000) (d := 128) (H V c)) := by
  have hN : grid2.N = 10 := N_2
  have ht : t.val < grid2.N := t.isLt
  have hr : 5000 * (t.val + 1) = 50000 := by have := (flush2_7 t).mp hf; omega
  show (cfg2.win 7).cut (grid2.coords t) ((dat2 (F := Ideal) V c).after 7 t) = _
  rw [after2_7, (inv V c t.val t.isLt).2.1]
  refine funext fun (y : (⟨2, ![1, 128]⟩ : Shape).Idx) => ?_
  obtain ⟨z, q, rfl⟩ : ∃ (z : Fin 1) (q : Fin 128), y = ix2 z q := ⟨y 0, y 1, eq_ix2 y⟩
  rw [View.read_apply, emb7 t z q]
  refine (cast_eq_iff_heq.mpr (heq_of_eq ?_)).symm
  rw [colSum_apply]
  show _ = ∑ j ∈ Finset.range (5000 * (t.val + 1)), Hn V c j q
  rw [hr]
  exact (sumHn V c q).symm

/-- The one write-back of the sum-of-squares accumulator writes the column sums of squares of H over all rows. -/
theorem flushed8 (t : Fin cfg2.N) (hf : (cfg2.win 8).flush t = true) :
    (dat2 (F := Ideal) V c).flushed 8 t = ((cfg2.win 8).blk t).view.read (Elt Ideal) (colSumSq (n := 50000) (d := 128) (H V c)) := by
  have hN : grid2.N = 10 := N_2
  have ht : t.val < grid2.N := t.isLt
  have hr : 5000 * (t.val + 1) = 50000 := by have := (flush2_8 t).mp hf; omega
  show (cfg2.win 8).cut (grid2.coords t) ((dat2 (F := Ideal) V c).after 8 t) = _
  rw [after2_8, (inv V c t.val t.isLt).2.2]
  refine funext fun (y : (⟨2, ![1, 128]⟩ : Shape).Idx) => ?_
  obtain ⟨z, q, rfl⟩ : ∃ (z : Fin 1) (q : Fin 128), y = ix2 z q := ⟨y 0, y 1, eq_ix2 y⟩
  rw [View.read_apply, emb8 t z q]
  refine (cast_eq_iff_heq.mpr (heq_of_eq ?_)).symm
  rw [colSumSq_apply]
  show _ = ∑ j ∈ Finset.range (5000 * (t.val + 1)), Hn V c j q * Hn V c j q
  rw [hr]
  exact (sumHnSq V c q).symm

/-- The last point's block covers the one-row array. -/
theorem cover7 (i : (⟨2, ![1, 128]⟩ : Shape).Idx) :
    ∃ t : Fin cfg2.N, (cfg2.win 7).flush t = true ∧ i ∈ ((cfg2.win 7).blk t).view.set := by
  have hi0 : (i 0).val < 1 := (i 0).isLt
  have hi1 : (i 1).val < 128 := (i 1).isLt
  obtain ⟨-, -, -, -, -, -, -, -, -, -, -, -, -, -, e0, e1, -⟩ := idx_facts t2_9
  refine ⟨t2_9, (flush2_7 t2_9).mpr rfl, ?_⟩
  show i ∈ ((View.whole main_v42_1).slice (win2_7.rect t2_9)).set
  rw [View.set_slice_whole, Rect.mem_set_unit]
  intro a
  match a with
  | ⟨0, _⟩ =>
    show win2_7.index t2_9 (0 : Fin 2) * 1 ≤ (i 0).val ∧ (i 0).val < win2_7.index t2_9 (0 : Fin 2) * 1 + 1
    rw [e0]; omega
  | ⟨1, _⟩ =>
    show win2_7.index t2_9 (1 : Fin 2) * 128 ≤ (i 1).val ∧ (i 1).val < win2_7.index t2_9 (1 : Fin 2) * 128 + 128
    rw [e1]; omega

theorem cover8 (i : (⟨2, ![1, 128]⟩ : Shape).Idx) :
    ∃ t : Fin cfg2.N, (cfg2.win 8).flush t = true ∧ i ∈ ((cfg2.win 8).blk t).view.set := by
  have hi0 : (i 0).val < 1 := (i 0).isLt
  have hi1 : (i 1).val < 128 := (i 1).isLt
  obtain ⟨-, -, -, -, -, -, -, -, -, -, -, -, -, -, -, -, e0, e1⟩ := idx_facts t2_9
  refine ⟨t2_9, (flush2_8 t2_9).mpr rfl, ?_⟩
  show i ∈ ((View.whole main_v42_2).slice (win2_8.rect t2_9)).set
  rw [View.set_slice_whole, Rect.mem_set_unit]
  intro a
  match a with
  | ⟨0, _⟩ =>
    show win2_8.index t2_9 (0 : Fin 2) * 1 ≤ (i 0).val ∧ (i 0).val < win2_8.index t2_9 (0 : Fin 2) * 1 + 1
    rw [e0]; omega
  | ⟨1, _⟩ =>
    show win2_8.index t2_9 (1 : Fin 2) * 128 ≤ (i 1).val ∧ (i 1).val < win2_8.index t2_9 (1 : Fin 2) * 128 + 128
    rw [e1]; omega

/-- The sum accumulator's array ends holding the column sums of H. -/
theorem arr7 : ((dat2 (F := Ideal) V c).arrAt 7 cfg2.N : Mat 1 128) = Cert.Spec.colSum (n := 50000) (d := 128) (H V c) :=
  (dat2 (F := Ideal) V c).arrAt_eq_of_cover 7 (colSum (n := 50000) (d := 128) (H V c)) (flushed7 V c) (cover7)

/-- The sum-of-squares accumulator's array ends holding the column sums of squares of H. -/
theorem arr8 : ((dat2 (F := Ideal) V c).arrAt 8 cfg2.N : Mat 1 128) = Cert.Spec.colSumSq (n := 50000) (d := 128) (H V c) :=
  (dat2 (F := Ideal) V c).arrAt_eq_of_cover 8 (colSumSq (n := 50000) (d := 128) (H V c)) (flushed8 V c) (cover8)

end Cert.KernelIdeal.Layer2

end
-- ==== Proof.Layer4Pieces.lean ====
/-
  Region 4 (the layer kernel): what each case of the body leaves in each output's staging buffer, as the body's
  arithmetic applied to the blocks it loaded.  Every store and every load of the body covers a whole buffer at
  offset zero, so a buffer read back after the body is the payload of its last store, and a load of a buffer
  the body has already stored into is that store's payload.
-/
import proofs.«144821_j2645699854452_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Layer4

open Cert.KernelIdeal Cert.KernelIdeal.Gen

variable {F : FTy → Type} [FloatOps F]

/-- The one index offset of every store and load of the body: the zero offset. -/
theorem hz : (![0, 0] : Fin 2 → Nat) = fun _ => 0 := funext fun a => by fin_cases a <;> rfl

/-- At the first point the output block is left holding the perceptron's value of the input blocks:
    one store over the whole block, its loads the whole input blocks. -/
theorem out_A_6 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x2 .f32) (h5 : a5.IsWhole) (a6 : Memref sig .tc .vmem S1x2 .f32) (h6 : a6.IsWhole) (a7 : Memref sig .tc .vmem S5000x2 .f32) (h7 : a7.IsWhole) (a8 : Memref sig .tc .vmem S1x2 .f32) (h8 : a8.IsWhole) (a9 : Memref sig .tc .vmem S1x2 .f32) (h9 : a9.IsWhole) (hc : cond4_0 i) (x0 : Vec F S5000x128 .f32) (x1 : Vec F S5000x128 .f32) (x2 : Vec F S128x128 .f32) (x3 : Vec F S1x128 .f32) (x4 : Vec F S128x2 .f32) (x5 : Vec F S1x2 .f32) :
    out4_A_6 c i a1 h1 a2 h2 a3 h3 a4 h4 a5 h5 a6 h6 a7 h7 a8 h8 a9 h9 hc x0 x1 x2 x3 x4 x5 = k4_pay4 x0 x1 x2 x3 x4 x5 := by
  unfold out4_A_6
  rw [View.read_writes_eq_canon _ _ _ (cover4_A_6 c i a1 h1 a2 h2 a3 h3 a4 h4 a5 h5 a6 h6 a7 h7 a8 h8 a9 h9 hc x0 x1 x2 x3 x4 x5)]
  unfold kernelRun4_A
  dsimp only
  sl_unfold_words
  rw [View.canon_unit_zero hz]
  simp only [View.readAt_eq_ld, h1.read_unread, h2.read_unread, h3.read_unread, h4.read_unread, h5.read_unread, h6.read_unread, View.ld_unit_zero (S := S5000x128) hz, View.ld_unit_zero (S := S128x128) hz, View.ld_unit_zero (S := S1x128) hz, View.ld_unit_zero (S := S128x2) hz, View.ld_unit_zero (S := S1x2) hz, View.ld_unit_zero (S := S5000x2) hz]

/-- At a later point likewise: the output block does not depend on what the accumulators held. -/
theorem out_B_6 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x2 .f32) (h5 : a5.IsWhole) (a6 : Memref sig .tc .vmem S1x2 .f32) (h6 : a6.IsWhole) (a7 : Memref sig .tc .vmem S5000x2 .f32) (h7 : a7.IsWhole) (a8 : Memref sig .tc .vmem S1x2 .f32) (h8 : a8.IsWhole) (a9 : Memref sig .tc .vmem S1x2 .f32) (h9 : a9.IsWhole) (hc : ¬cond4_0 i) (x0 : Vec F S5000x128 .f32) (x1 : Vec F S5000x128 .f32) (x2 : Vec F S128x128 .f32) (x3 : Vec F S1x128 .f32) (x4 : Vec F S128x2 .f32) (x5 : Vec F S1x2 .f32)
    (xo7 : Vec F S1x2 .f32) (xo8 : Vec F S1x2 .f32) :
    out4_B_6 c i a1 h1 a2 h2 a3 h3 a4 h4 a5 h5 a6 h6 a7 h7 a8 h8 a9 h9 hc x0 x1 x2 x3 x4 x5 xo7 xo8 = k4_pay4 x0 x1 x2 x3 x4 x5 := by
  unfold out4_B_6
  rw [View.read_writes_eq_canon _ _ _ (cover4_B_6 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz]
  simp only [View.readAt_eq_ld, h1.read_unread, h2.read_unread, h3.read_unread, h4.read_unread, h5.read_unread, h6.read_unread, View.ld_unit_zero (S := S5000x128) hz, View.ld_unit_zero (S := S128x128) hz, View.ld_unit_zero (S := S1x128) hz, View.ld_unit_zero (S := S128x2) hz, View.ld_unit_zero (S := S1x2) hz, View.ld_unit_zero (S := S5000x2) hz]

/-- At the first point the sum accumulator is zeroed, read back, and left at zero plus the block's column sums. -/
theorem out_A_7 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x2 .f32) (h5 : a5.IsWhole) (a6 : Memref sig .tc .vmem S1x2 .f32) (h6 : a6.IsWhole) (a7 : Memref sig .tc .vmem S5000x2 .f32) (h7 : a7.IsWhole) (a8 : Memref sig .tc .vmem S1x2 .f32) (h8 : a8.IsWhole) (a9 : Memref sig .tc .vmem S1x2 .f32) (h9 : a9.IsWhole) (hc : cond4_0 i) (x0 : Vec F S5000x128 .f32) (x1 : Vec F S5000x128 .f32) (x2 : Vec F S128x128 .f32) (x3 : Vec F S1x128 .f32) (x4 : Vec F S128x2 .f32) (x5 : Vec F S1x2 .f32) :
    out4_A_7 c i a1 h1 a2 h2 a3 h3 a4 h4 a5 h5 a6 h6 a7 h7 a8 h8 a9 h9 hc x0 x1 x2 x3 x4 x5 = k4_pay5 x0 x1 x2 x3 x4 x5 k4_pay2 := by
  unfold out4_A_7
  rw [View.read_writes_eq_canon _ _ _ (cover4_A_7 c i a1 h1 a2 h2 a3 h3 a4 h4 a5 h5 a6 h6 a7 h7 a8 h8 a9 h9 hc x0 x1 x2 x3 x4 x5)]
  unfold kernelRun4_A
  dsimp only
  sl_unfold_words
  rw [View.canon_cons_unit_zero (S := S1x2) hz, View.readCov_unit_zero (S := S1x2) _ hz]
  simp only [View.readAt_eq_ld, h1.read_unread, h2.read_unread, h3.read_unread, h4.read_unread, h5.read_unread, h6.read_unread, View.ld_unit_zero (S := S5000x128) hz, View.ld_unit_zero (S := S128x128) hz, View.ld_unit_zero (S := S1x128) hz, View.ld_unit_zero (S := S128x2) hz, View.ld_unit_zero (S := S1x2) hz, View.ld_unit_zero (S := S5000x2) hz]

/-- At a later point it is left at what it held plus the block's column sums. -/
theorem out_B_7 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x2 .f32) (h5 : a5.IsWhole) (a6 : Memref sig .tc .vmem S1x2 .f32) (h6 : a6.IsWhole) (a7 : Memref sig .tc .vmem S5000x2 .f32) (h7 : a7.IsWhole) (a8 : Memref sig .tc .vmem S1x2 .f32) (h8 : a8.IsWhole) (a9 : Memref sig .tc .vmem S1x2 .f32) (h9 : a9.IsWhole) (hc : ¬cond4_0 i) (x0 : Vec F S5000x128 .f32) (x1 : Vec F S5000x128 .f32) (x2 : Vec F S128x128 .f32) (x3 : Vec F S1x128 .f32) (x4 : Vec F S128x2 .f32) (x5 : Vec F S1x2 .f32)
    (xo7 : Vec F S1x2 .f32) (xo8 : Vec F S1x2 .f32) :
    out4_B_7 c i a1 h1 a2 h2 a3 h3 a4 h4 a5 h5 a6 h6 a7 h7 a8 h8 a9 h9 hc x0 x1 x2 x3 x4 x5 xo7 xo8 = k4_pay5 x0 x1 x2 x3 x4 x5 xo7 := by
  unfold out4_B_7
  rw [View.read_writes_eq_canon _ _ _ (cover4_B_7 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz]
  simp only [View.readAt_eq_ld, h1.read_unread, h2.read_unread, h3.read_unread, h4.read_unread, h5.read_unread, h6.read_unread, h8.read_unread, View.ld_unit_zero (S := S5000x128) hz, View.ld_unit_zero (S := S128x128) hz, View.ld_unit_zero (S := S1x128) hz, View.ld_unit_zero (S := S128x2) hz, View.ld_unit_zero (S := S1x2) hz, View.ld_unit_zero (S := S5000x2) hz]

/-- At the first point the sum-of-squares accumulator is zeroed, read back, and left at zero plus the block's
    column sums of squares. -/
theorem out_A_8 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x2 .f32) (h5 : a5.IsWhole) (a6 : Memref sig .tc .vmem S1x2 .f32) (h6 : a6.IsWhole) (a7 : Memref sig .tc .vmem S5000x2 .f32) (h7 : a7.IsWhole) (a8 : Memref sig .tc .vmem S1x2 .f32) (h8 : a8.IsWhole) (a9 : Memref sig .tc .vmem S1x2 .f32) (h9 : a9.IsWhole) (hc : cond4_0 i) (x0 : Vec F S5000x128 .f32) (x1 : Vec F S5000x128 .f32) (x2 : Vec F S128x128 .f32) (x3 : Vec F S1x128 .f32) (x4 : Vec F S128x2 .f32) (x5 : Vec F S1x2 .f32) :
    out4_A_8 c i a1 h1 a2 h2 a3 h3 a4 h4 a5 h5 a6 h6 a7 h7 a8 h8 a9 h9 hc x0 x1 x2 x3 x4 x5 = k4_pay1 (k4_pay4 x0 x1 x2 x3 x4 x5) k4_pay3 := by
  unfold out4_A_8
  rw [View.read_writes_eq_canon _ _ _ (cover4_A_8 c i a1 h1 a2 h2 a3 h3 a4 h4 a5 h5 a6 h6 a7 h7 a8 h8 a9 h9 hc x0 x1 x2 x3 x4 x5)]
  unfold kernelRun4_A
  dsimp only
  sl_unfold_words
  rw [View.canon_cons_unit_zero (S := S1x2) hz, View.readCov_unit_zero (S := S1x2) _ hz]
  simp only [View.readAt_eq_ld, h1.read_unread, h2.read_unread, h3.read_unread, h4.read_unread, h5.read_unread, h6.read_unread, View.ld_unit_zero (S := S5000x128) hz, View.ld_unit_zero (S := S128x128) hz, View.ld_unit_zero (S := S1x128) hz, View.ld_unit_zero (S := S128x2) hz, View.ld_unit_zero (S := S1x2) hz, View.ld_unit_zero (S := S5000x2) hz]

/-- At a later point it is left at what it held plus the block's column sums of squares. -/
theorem out_B_8 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x2 .f32) (h5 : a5.IsWhole) (a6 : Memref sig .tc .vmem S1x2 .f32) (h6 : a6.IsWhole) (a7 : Memref sig .tc .vmem S5000x2 .f32) (h7 : a7.IsWhole) (a8 : Memref sig .tc .vmem S1x2 .f32) (h8 : a8.IsWhole) (a9 : Memref sig .tc .vmem S1x2 .f32) (h9 : a9.IsWhole) (hc : ¬cond4_0 i) (x0 : Vec F S5000x128 .f32) (x1 : Vec F S5000x128 .f32) (x2 : Vec F S128x128 .f32) (x3 : Vec F S1x128 .f32) (x4 : Vec F S128x2 .f32) (x5 : Vec F S1x2 .f32)
    (xo7 : Vec F S1x2 .f32) (xo8 : Vec F S1x2 .f32) :
    out4_B_8 c i a1 h1 a2 h2 a3 h3 a4 h4 a5 h5 a6 h6 a7 h7 a8 h8 a9 h9 hc x0 x1 x2 x3 x4 x5 xo7 xo8 = k4_pay1 (k4_pay4 x0 x1 x2 x3 x4 x5) xo8 := by
  unfold out4_B_8
  rw [View.read_writes_eq_canon _ _ _ (cover4_B_8 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz]
  simp only [View.readAt_eq_ld, h1.read_unread, h2.read_unread, h3.read_unread, h4.read_unread, h5.read_unread, h6.read_unread, h9.read_unread, View.ld_unit_zero (S := S5000x128) hz, View.ld_unit_zero (S := S128x128) hz, View.ld_unit_zero (S := S1x128) hz, View.ld_unit_zero (S := S128x2) hz, View.ld_unit_zero (S := S1x2) hz, View.ld_unit_zero (S := S5000x2) hz]

end Cert.KernelIdeal.Layer4

end
-- ==== Proof.Layer4Pay.lean ====
/-
  Region 4 (the layer kernel): the body's arithmetic on its loaded blocks, read at an index on the extended reals.
  The block stored into the output is the perceptron's value of the block's rows; the sum accumulator is left at what
  it held plus the block's column sums; the sum-of-squares accumulator at what it held plus the column sums of the
  squares; the value both accumulators are reset to is zero.
-/
import proofs.«144821_j2645699854452_1_alg».proof.Proof.Gen.KernelIdeal.Skeleton
import proofs.«144821_j2645699854452_1_alg».proof.Proof.LayerBlock

noncomputable section

open scoped BigOperators
open Idealize.ShloMosaic Idealize.ShloMosaic.ValueIdx

namespace Cert.KernelIdeal.Layer4

open Cert.KernelIdeal Cert.KernelIdeal.Gen Cert.Spec Cert.KernelIdeal.LayerBlock

/-- The stored block at (p, q): the perceptron's value of row p of the loaded blocks at column q
    (the block of x first goes through a reshaping to its own shape, which changes nothing). -/
theorem pay4_apply (x0 x1 : Mat 5000 128) (x2 : Mat 128 128) (x3 : Mat 1 128) (x4 : Mat 128 2) (x5 : Mat 1 2)
    (p : Fin 5000) (q : Fin 2) :
    k4_pay4 (F := Ideal) x0 x1 x2 x3 x4 x5 (ix2 p q) = mlpAt x0 x1 x2 x3 x4 x5 p q := by
  unfold k4_pay4
  rw [shapeCast_self x0]
  exact mlpBlock dot_S5000x128_S128x128_S5000x128_1_0_0_1_n_n rfl rfl rfl rfl rfl rfl dot_S5000x128_S128x2_S5000x2_1_0_0_1_n_n rfl rfl rfl rfl rfl rfl
    x0 x1 x2 x3 x4 x5 _ _ _ _ _ _ p q

/-- The sum accumulator after the body, at (z, q): what it held plus the sum over the block's rows of the
    perceptron's value at column q. -/
theorem pay5_apply (x0 x1 : Mat 5000 128) (x2 : Mat 128 128) (x3 : Mat 1 128) (x4 : Mat 128 2) (x5 : Mat 1 2)
    (v : Mat 1 2) (z : Fin 1) (q : Fin 2) :
    k4_pay5 (F := Ideal) x0 x1 x2 x3 x4 x5 v (ix2 z q)
      = v (ix2 z q) + ∑ p : Fin 5000, mlpAt x0 x1 x2 x3 x4 x5 p q := by
  unfold k4_pay5
  refine (accum (k4_pay4 (F := Ideal) x0 x1 x2 x3 x4 x5) v _ _ _ _ _ z q).trans ?_
  exact congrArg (v (ix2 z q) + ·) (Finset.sum_congr rfl fun p _ => pay4_apply x0 x1 x2 x3 x4 x5 p q)

/-- The sum-of-squares accumulator after the body, at (z, q): what it held plus the sum over the block's rows of
    the square of the stored block's entry at column q. -/
theorem pay1_apply (h : Mat 5000 2) (v : Mat 1 2) (z : Fin 1) (q : Fin 2) :
    k4_pay1 (F := Ideal) h v (ix2 z q) = v (ix2 z q) + ∑ p : Fin 5000, h (ix2 p q) * h (ix2 p q) := by
  unfold k4_pay1
  exact accum (mulf h h) v _ _ _ _ _ z q

/-- The value the sum accumulator is reset to is zero everywhere. -/
theorem pay2_apply (i : (⟨2, ![1, 2]⟩ : Shape).Idx) : k4_pay2 (F := Ideal) i = 0 := by
  unfold k4_pay2
  exact Ideal.ofBits_zero_f32

/-- The value the sum-of-squares accumulator is reset to is zero everywhere. -/
theorem pay3_apply (i : (⟨2, ![1, 2]⟩ : Shape).Idx) : k4_pay3 (F := Ideal) i = 0 := by
  unfold k4_pay3
  exact Ideal.ofBits_zero_f32

end Cert.KernelIdeal.Layer4

end
-- ==== Proof.Layer4Reads.lean ====
/-
  Region 4 (the layer kernel): the blocks its windows hand the body at a grid point, as entries of the arrays
  the region finds.  The blocks of x, of g and of the output are the row blocks, moving down with the point; the
  weights, the biases and the accumulators are read whole at every point.
-/
import proofs.«144821_j2645699854452_1_alg».proof.Proof.Gen.KernelIdeal.Frame
import proofs.«144821_j2645699854452_1_alg».proof.Proof.Spec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Layer4

open Cert.KernelIdeal Cert.KernelIdeal.Gen Cert.Spec

variable (V : (c : Dev nD) → (b : Ref sig .tc) → Buf (Elt Ideal) ((c : Thread nD τ).loc b)) (c : Dev nD)

/-- the perceptron's value over the arrays the region finds -/
def H : Cert.Spec.Mat 50000 2 := Cert.Spec.mlp (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))

/-- The index maps, decided over the grid: the blocks of x, of g and of the output move down the rows with the
    point; the weights, the biases and the two accumulators stay at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

/-- Row r of block t is row 5000·t + r of the array. -/
theorem row_lt (t : Fin cfg4.N) (p : Fin 5000) : 5000 * t.val + p.val < 50000 := by
  have hN : grid4.N = 10 := N_4
  have ht : t.val < grid4.N := t.isLt
  have hp := p.isLt
  omega

/-- Block t of x, at (p, j): the array's entry (5000·t + p, j). -/
theorem rd0 (t : Fin cfg4.N) (p : Fin 5000) (j : Fin 128) :
    (iblk4 V c 0 t : Mat 5000 128) (ix2 p j) = (V c (Pipeline.arrRef spec4 0) : Mat 50000 128) (ix2 ⟨5000 * t.val + p.val, row_lt t p⟩ j) := by
  obtain ⟨e0, e1, -⟩ := idx_facts t
  unfold iblk4
  rw [View.read_apply]
  refine congrArg (V c (Pipeline.arrRef spec4 0)) ?_
  funext a; apply Fin.ext
  match a with
  | ⟨0, _⟩ => show win4_0.index t (0 : Fin 2) * 5000 + 1 * p.val = 5000 * t.val + p.val; rw [e0]; omega
  | ⟨1, _⟩ => show win4_0.index t (1 : Fin 2) * 128 + 1 * j.val = j.val; rw [e1]; omega

/-- Block t of g, at (p, j): the array's entry (5000·t + p, j). -/
theorem rd1 (t : Fin cfg4.N) (p : Fin 5000) (j : Fin 128) :
    (iblk4 V c 1 t : Mat 5000 128) (ix2 p j) = (V c (Pipeline.arrRef spec4 1) : Mat 50000 128) (ix2 ⟨5000 * t.val + p.val, row_lt t p⟩ j) := by
  obtain ⟨-, -, e0, e1, -⟩ := idx_facts t
  unfold iblk4
  rw [View.read_apply]
  refine congrArg (V c (Pipeline.arrRef spec4 1)) ?_
  funext a; apply Fin.ext
  match a with
  | ⟨0, _⟩ => show win4_1.index t (0 : Fin 2) * 5000 + 1 * p.val = 5000 * t.val + p.val; rw [e0]; omega
  | ⟨1, _⟩ => show win4_1.index t (1 : Fin 2) * 128 + 1 * j.val = j.val; rw [e1]; omega

/-- The first weight array is read whole at every point. -/
theorem rd2 (t : Fin cfg4.N) (j : Fin 128) (k : Fin 128) :
    (iblk4 V c 2 t : Mat 128 128) (ix2 j k) = (V c (Pipeline.arrRef spec4 2) : Mat 128 128) (ix2 j k) := by
  obtain ⟨-, -, -, -, e0, e1, -⟩ := idx_facts t
  unfold iblk4
  rw [View.read_apply]
  refine congrArg (V c (Pipeline.arrRef spec4 2)) ?_
  funext a; apply Fin.ext
  match a with
  | ⟨0, _⟩ => show win4_2.index t (0 : Fin 2) * 128 + 1 * j.val = j.val; rw [e0]; omega
  | ⟨1, _⟩ => show win4_2.index t (1 : Fin 2) * 128 + 1 * k.val = k.val; rw [e1]; omega

/-- The first bias row is read whole at every point. -/
theorem rd3 (t : Fin cfg4.N) (z : Fin 1) (k : Fin 128) :
    (iblk4 V c 3 t : Mat 1 128) (ix2 z k) = (V c (Pipeline.arrRef spec4 3) : Mat 1 128) (ix2 z k) := by
  obtain ⟨-, -, -, -, -, -, e0, e1, -⟩ := idx_facts t
  unfold iblk4
  rw [View.read_apply]
  refine congrArg (V c (Pipeline.arrRef spec4 3)) ?_
  funext a; apply Fin.ext
  match a with
  | ⟨0, _⟩ => show win4_3.index t (0 : Fin 2) * 1 + 1 * z.val = z.val; rw [e0]; omega
  | ⟨1, _⟩ => show win4_3.index t (1 : Fin 2) * 128 + 1 * k.val = k.val; rw [e1]; omega

/-- The second weight array is read whole at every point. -/
theorem rd4 (t : Fin cfg4.N) (k : Fin 128) (q : Fin 2) :
    (iblk4 V c 4 t : Mat 128 2) (ix2 k q) = (V c (Pipeline.arrRef spec4 4) : Mat 128 2) (ix2 k q) := by
  obtain ⟨-, -, -, -, -, -, -, -, e0, e1, -⟩ := idx_facts t
  unfold iblk4
  rw [View.read_apply]
  refine congrArg (V c (Pipeline.arrRef spec4 4)) ?_
  funext a; apply Fin.ext
  match a with
  | ⟨0, _⟩ => show win4_4.index t (0 : Fin 2) * 128 + 1 * k.val = k.val; rw [e0]; omega
  | ⟨1, _⟩ => show win4_4.index t (1 : Fin 2) * 2 + 1 * q.val = q.val; rw [e1]; omega

/-- The second bias row is read whole at every point. -/
theorem rd5 (t : Fin cfg4.N) (z : Fin 1) (q : Fin 2) :
    (iblk4 V c 5 t : Mat 1 2) (ix2 z q) = (V c (Pipeline.arrRef spec4 5) : Mat 1 2) (ix2 z q) := by
  obtain ⟨-, -, -, -, -, -, -, -, -, -, e0, e1, -⟩ := idx_facts t
  unfold iblk4
  rw [View.read_apply]
  refine congrArg (V c (Pipeline.arrRef spec4 5)) ?_
  funext a; apply Fin.ext
  match a with
  | ⟨0, _⟩ => show win4_5.index t (0 : Fin 2) * 1 + 1 * z.val = z.val; rw [e0]; omega
  | ⟨1, _⟩ => show win4_5.index t (1 : Fin 2) * 2 + 1 * q.val = q.val; rw [e1]; omega

end Cert.KernelIdeal.Layer4

end
-- ==== Proof.Layer4Acc.lean ====
/-
  Region 4 (the layer kernel): what the three output staging buffers hold after the body at each grid point.
  Block n of the output is block n of the perceptron's value H (rows 5000·n … 5000·n + 4999).  The two
  accumulators are zeroed at point 0 and at every point add the block's column sums (of the values, of their
  squares) to what the point before left: after point n they hold the sums over the rows below 5000·(n + 1).
-/
import proofs.«144821_j2645699854452_1_alg».proof.Proof.Layer4Pieces
import proofs.«144821_j2645699854452_1_alg».proof.Proof.Layer4Pay
import proofs.«144821_j2645699854452_1_alg».proof.Proof.Layer4Reads

noncomputable section

open scoped BigOperators
open Idealize.ShloMosaic Idealize.ShloMosaic.TcCoe Idealize.SL.Sem Idealize.ShloMosaic.ValueIdx
open Idealize.ShloMosaic.Pipeline (Dat)

namespace Cert.KernelIdeal.Layer4

open Cert.KernelIdeal Cert.KernelIdeal.Gen Cert.Spec Cert.KernelIdeal.LayerBlock

variable (V : (c : Dev nD) → (b : Ref sig .tc) → Buf (Elt Ideal) ((c : Thread nD τ).loc b)) (c : Dev nD)

/-- Entry (j, q) of H by row number; zero past the last row. -/
def Hn (j : ℕ) (q : Fin 2) : EReal := if h : j < 50000 then H V c (ix2 ⟨j, h⟩ q) else 0

theorem Hn_lt (j : ℕ) (h : j < 50000) (q : Fin 2) : Hn V c j q = H V c (ix2 ⟨j, h⟩ q) := dif_pos h

/-- The perceptron's value of row p of the blocks at point t is H's entry in row 5000·t + p: the row of x and of g
    is that row of the arrays, the weights and biases are the arrays'. -/
theorem blk_apply (t : Fin cfg4.N) (p : Fin 5000) (q : Fin 2) :
    mlpAt (iblk4 V c 0 t : Mat 5000 128) (iblk4 V c 1 t : Mat 5000 128) (iblk4 V c 2 t : Mat 128 128) (iblk4 V c 3 t : Mat 1 128) (iblk4 V c 4 t : Mat 128 2) (iblk4 V c 5 t : Mat 1 2) p q = Hn V c (5000 * t.val + p.val) q := by
  rw [Hn_lt V c _ (row_lt t p) q]
  exact mlpAt_congr (iblk4 V c 0 t) (iblk4 V c 1 t) (V c (Pipeline.arrRef spec4 0)) (V c (Pipeline.arrRef spec4 1))
    (iblk4 V c 2 t) (V c (Pipeline.arrRef spec4 2)) (iblk4 V c 3 t) (V c (Pipeline.arrRef spec4 3))
    (iblk4 V c 4 t) (V c (Pipeline.arrRef spec4 4)) (iblk4 V c 5 t) (V c (Pipeline.arrRef spec4 5))
    p ⟨5000 * t.val + p.val, row_lt t p⟩ (rd0 V c t p) (rd1 V c t p) (rd2 V c t) (fun k => rd3 V c t 0 k) (rd4 V c t)
    (fun q => rd5 V c t 0 q) q

/-- The stored block at point t, at (p, q). -/
theorem pay4_blk (t : Fin cfg4.N) (p : Fin 5000) (q : Fin 2) :
    k4_pay4 (F := Ideal) (iblk4 V c 0 t) (iblk4 V c 1 t) (iblk4 V c 2 t) (iblk4 V c 3 t) (iblk4 V c 4 t) (iblk4 V c 5 t) (ix2 p q) = Hn V c (5000 * t.val + p.val) q :=
  (pay4_apply (iblk4 V c 0 t) (iblk4 V c 1 t) (iblk4 V c 2 t) (iblk4 V c 3 t) (iblk4 V c 4 t) (iblk4 V c 5 t) p q).trans (blk_apply V c t p q)

/-- At a point where the run starts, the three buffers hold the body's arithmetic of the blocks over zeroed accumulators. -/
theorem outs_A (t : Fin cfg4.N) (h0 : t.val % 10 = 0) :
    (outsAt4 V c t.val t.isLt).1 = k4_pay4 (iblk4 V c 0 t) (iblk4 V c 1 t) (iblk4 V c 2 t) (iblk4 V c 3 t) (iblk4 V c 4 t) (iblk4 V c 5 t)
    ∧ (outsAt4 V c t.val t.isLt).2.1 = k4_pay5 (iblk4 V c 0 t) (iblk4 V c 1 t) (iblk4 V c 2 t) (iblk4 V c 3 t) (iblk4 V c 4 t) (iblk4 V c 5 t) (k4_pay2 (F := Ideal))
    ∧ (outsAt4 V c t.val t.isLt).2.2 = k4_pay1 (k4_pay4 (iblk4 V c 0 t) (iblk4 V c 1 t) (iblk4 V c 2 t) (iblk4 V c 3 t) (iblk4 V c 4 t) (iblk4 V c 5 t)) (k4_pay3 (F := Ideal)) := by
  rw [outsAt4_A V c t h0]
  dsimp only
  refine ⟨?_, ?_, ?_⟩
  · exact out_A_6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)
  · exact out_A_7 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)
  · exact out_A_8 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)

/-- At a later point, over what the point before left in the two accumulators. -/
theorem outs_B (t : Fin cfg4.N) (h0 : ¬t.val % 10 = 0) :
    (outsAt4 V c t.val t.isLt).1 = k4_pay4 (iblk4 V c 0 t) (iblk4 V c 1 t) (iblk4 V c 2 t) (iblk4 V c 3 t) (iblk4 V c 4 t) (iblk4 V c 5 t)
    ∧ (outsAt4 V c t.val t.isLt).2.1 = k4_pay5 (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1
    ∧ (outsAt4 V c t.val t.isLt).2.2 = k4_pay1 (k4_pay4 (iblk4 V c 0 t) (iblk4 V c 1 t) (iblk4 V c 2 t) (iblk4 V c 3 t) (iblk4 V c 4 t) (iblk4 V c 5 t)) (outsAt4 V c (t.val - 1) (Nat.lt_of_le_of_lt (Nat.sub_le _ _) t.isLt)).2.2 := by
  rw [outsAt4_B V c t h0]
  dsimp only
  refine ⟨?_, ?_, ?_⟩
  · exact out_B_6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2
  · exact out_B_7 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2
  · exact out_B_8 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2

/-- The staging buffers' contents depend on the point's number only. -/
theorem outsAt_congr (a b : ℕ) (h : a = b) (ha : a < cfg4.N) (hb : b < cfg4.N) :
    outsAt4 V c a ha = outsAt4 V c b hb := by
  subst h; rfl

/-- Block n of H, as a block of 5000 rows. -/
def blkH (n : ℕ) : Mat 5000 2 := fun i => Hn V c (5000 * n + (i 0).val) (i 1)
/-- The column sums of H over the rows below 5000·(n + 1), as one row. -/
def accS (n : ℕ) : Mat 1 2 := fun i => ∑ j ∈ Finset.range (5000 * (n + 1)), Hn V c j (i 1)
/-- The column sums of squares of H over the rows below 5000·(n + 1), as one row. -/
def accSS (n : ℕ) : Mat 1 2 := fun i => ∑ j ∈ Finset.range (5000 * (n + 1)), Hn V c j (i 1) * Hn V c j (i 1)

theorem pay4_eq_blkH (t : Fin cfg4.N) : k4_pay4 (F := Ideal) (iblk4 V c 0 t) (iblk4 V c 1 t) (iblk4 V c 2 t) (iblk4 V c 3 t) (iblk4 V c 4 t) (iblk4 V c 5 t) = blkH V c t.val := by
  refine funext fun (i : (⟨2, ![5000, 2]⟩ : Shape).Idx) => ?_
  obtain ⟨p, q, rfl⟩ : ∃ (p : Fin 5000) (q : Fin 2), i = ix2 p q := ⟨i 0, i 1, eq_ix2 i⟩
  exact pay4_blk V c t p q

/-- One step of the sum accumulator at point t: from the sums over the rows below 5000·t it goes to the sums over
    the rows below 5000·(t + 1). -/
theorem step5 (t : Fin cfg4.N) (v : Mat 1 2) (z : Fin 1) (q : Fin 2) :
    k4_pay5 (F := Ideal) (iblk4 V c 0 t) (iblk4 V c 1 t) (iblk4 V c 2 t) (iblk4 V c 3 t) (iblk4 V c 4 t) (iblk4 V c 5 t) v (ix2 z q) = v (ix2 z q) + ∑ p : Fin 5000, Hn V c (5000 * t.val + p.val) q :=
  (pay5_apply (iblk4 V c 0 t) (iblk4 V c 1 t) (iblk4 V c 2 t) (iblk4 V c 3 t) (iblk4 V c 4 t) (iblk4 V c 5 t) v z q).trans
    (congrArg (v (ix2 z q) + ·) (Finset.sum_congr rfl fun p _ => blk_apply V c t p q))

/-- One step of the sum-of-squares accumulator at point t. -/
theorem step1 (t : Fin cfg4.N) (v : Mat 1 2) (z : Fin 1) (q : Fin 2) :
    k4_pay1 (F := Ideal) (k4_pay4 (F := Ideal) (iblk4 V c 0 t) (iblk4 V c 1 t) (iblk4 V c 2 t) (iblk4 V c 3 t) (iblk4 V c 4 t) (iblk4 V c 5 t)) v (ix2 z q)
      = v (ix2 z q) + ∑ p : Fin 5000, Hn V c (5000 * t.val + p.val) q * Hn V c (5000 * t.val + p.val) q :=
  (pay1_apply (k4_pay4 (F := Ideal) (iblk4 V c 0 t) (iblk4 V c 1 t) (iblk4 V c 2 t) (iblk4 V c 3 t) (iblk4 V c 4 t) (iblk4 V c 5 t)) v z q).trans
    (congrArg (v (ix2 z q) + ·) (Finset.sum_congr rfl fun p _ =>
      congrArg₂ (· * ·) (pay4_blk V c t p q) (pay4_blk V c t p q)))

/-- THE ACCUMULATION: after point n the output's buffer holds block n of H and the accumulators the sums over the
    rows below 5000·(n + 1) — by induction on the point. -/
theorem inv : ∀ (n : ℕ) (hn : n < cfg4.N),
    (outsAt4 V c n hn).1 = blkH V c n ∧ (outsAt4 V c n hn).2.1 = accS V c n ∧ (outsAt4 V c n hn).2.2 = accSS V c n
  | 0, hn => by
    obtain ⟨e1, e2, e3⟩ := outs_A V c ⟨0, hn⟩ rfl
    refine ⟨e1.trans (pay4_eq_blkH V c ⟨0, hn⟩), e2.trans ?_, e3.trans ?_⟩
    · refine funext fun (i : (⟨2, ![1, 2]⟩ : Shape).Idx) => ?_
      obtain ⟨z, q, rfl⟩ : ∃ (z : Fin 1) (q : Fin 2), i = ix2 z q := ⟨i 0, i 1, eq_ix2 i⟩
      refine (step5 V c ⟨0, hn⟩ (k4_pay2 (F := Ideal)) z q).trans ?_
      rw [pay2_apply]
      exact range_start (fun j => Hn V c j q) 5000
    · refine funext fun (i : (⟨2, ![1, 2]⟩ : Shape).Idx) => ?_
      obtain ⟨z, q, rfl⟩ : ∃ (z : Fin 1) (q : Fin 2), i = ix2 z q := ⟨i 0, i 1, eq_ix2 i⟩
      refine (step1 V c ⟨0, hn⟩ (k4_pay3 (F := Ideal)) z q).trans ?_
      rw [pay3_apply]
      exact range_start (fun j => Hn V c j q * Hn V c j q) 5000
  | n + 1, hn => by
    have hN : grid4.N = 10 := N_4
    have hn' : n + 1 < grid4.N := hn
    have h0 : ¬(⟨n + 1, hn⟩ : Fin cfg4.N).val % 10 = 0 := by show ¬(n + 1) % 10 = 0; omega
    obtain ⟨e1, e2, e3⟩ := outs_B V c ⟨n + 1, hn⟩ h0
    obtain ⟨-, i2, i3⟩ := inv n (Nat.lt_of_succ_lt hn)
    have hp : outsAt4 V c ((⟨n + 1, hn⟩ : Fin cfg4.N).val - 1) (Nat.lt_of_le_of_lt (Nat.sub_le _ _) (⟨n + 1, hn⟩ : Fin cfg4.N).isLt)
        = outsAt4 V c n (Nat.lt_of_succ_lt hn) :=
      outsAt_congr V c _ _ (Nat.add_sub_cancel n 1) _ _
    rw [hp, i2] at e2
    rw [hp, i3] at e3
    refine ⟨e1.trans (pay4_eq_blkH V c ⟨n + 1, hn⟩), e2.trans ?_, e3.trans ?_⟩
    · refine funext fun (i : (⟨2, ![1, 2]⟩ : Shape).Idx) => ?_
      obtain ⟨z, q, rfl⟩ : ∃ (z : Fin 1) (q : Fin 2), i = ix2 z q := ⟨i 0, i 1, eq_ix2 i⟩
      refine (step5 V c ⟨n + 1, hn⟩ (accS V c n) z q).trans ?_
      exact range_step (fun j => Hn V c j q) 5000 (n + 1)
    · refine funext fun (i : (⟨2, ![1, 2]⟩ : Shape).Idx) => ?_
      obtain ⟨z, q, rfl⟩ : ∃ (z : Fin 1) (q : Fin 2), i = ix2 z q := ⟨i 0, i 1, eq_ix2 i⟩
      refine (step1 V c ⟨n + 1, hn⟩ (accSS V c n) z q).trans ?_
      exact range_step (fun j => Hn V c j q * Hn V c j q) 5000 (n + 1)

end Cert.KernelIdeal.Layer4

end
-- ==== Proof.Layer4.lean ====
/-
  Region 4 (the layer kernel): the values its three output arrays end holding, over the arrays the region finds.
  Output 6 is written back at every point, block t at point t: its ten blocks tile the array, which ends holding the
  perceptron's value H.  The two accumulators are written back once, after the last point, when they hold the sums
  over all 50000 rows: the column sums of H and the column sums of its squares.
-/
import proofs.«144821_j2645699854452_1_alg».proof.Proof.Layer4Acc

noncomputable section

open scoped BigOperators
open Idealize.ShloMosaic Idealize.ShloMosaic.TcCoe Idealize.SL.Sem Idealize.ShloMosaic.ValueIdx
open Idealize.ShloMosaic.Pipeline (Dat)

namespace Cert.KernelIdeal.Layer4

open Idealize.ShloMosaic Cert.KernelIdeal Cert.KernelIdeal.Gen Cert.Spec Cert.KernelIdeal.LayerBlock

variable (V : (c : Dev nD) → (b : Ref sig .tc) → Buf (Elt Ideal) ((c : Thread nD τ).loc b)) (c : Dev nD)

/-- What point t writes back to output 6 is block t of H. -/
theorem flushed6 (t : Fin cfg4.N) (hf : (cfg4.win 6).flush t = true) :
    (dat4 (F := Ideal) V c).flushed 6 t = ((cfg4.win 6).blk t).view.read (Elt Ideal) (H V c) := by
  obtain ⟨-, -, -, -, -, -, -, -, -, -, -, -, e0, e1, -⟩ := idx_facts t
  show (cfg4.win 6).cut (grid4.coords t) ((dat4 (F := Ideal) V c).after 6 t) = _
  rw [after4_6, (inv V c t.val t.isLt).1]
  refine funext fun (y : (⟨2, ![5000, 2]⟩ : Shape).Idx) => ?_
  obtain ⟨p, q, rfl⟩ : ∃ (p : Fin 5000) (q : Fin 2), y = ix2 p q := ⟨y 0, y 1, eq_ix2 y⟩
  rw [View.read_apply]
  show Hn V c (5000 * t.val + p.val) q = H V c (((cfg4.win 6).blk t).view.emb (ix2 p q))
  rw [Hn_lt V c _ (row_lt t p) q]
  refine congrArg (H V c) ?_
  funext a; apply Fin.ext
  match a with
  | ⟨0, _⟩ => show 5000 * t.val + p.val = win4_6.index t (0 : Fin 2) * 5000 + 1 * p.val; rw [e0]; omega
  | ⟨1, _⟩ => show q.val = win4_6.index t (1 : Fin 2) * 2 + 1 * q.val; rw [e1]; omega

/-- Every row of the array is in the block of the point its row number divided by 5000 names. -/
theorem cover6 (i : (⟨2, ![50000, 2]⟩ : Shape).Idx) :
    ∃ t : Fin cfg4.N, (cfg4.win 6).flush t = true ∧ i ∈ ((cfg4.win 6).blk t).view.set := by
  have hN : grid4.N = 10 := N_4
  have hi0 : (i 0).val < 50000 := (i 0).isLt
  have hi1 : (i 1).val < 2 := (i 1).isLt
  have ht : (i 0).val / 5000 < grid4.N := by omega
  obtain ⟨-, -, -, -, -, -, -, -, -, -, -, -, e0, e1, -⟩ := idx_facts ⟨(i 0).val / 5000, ht⟩
  refine ⟨⟨(i 0).val / 5000, ht⟩, flush4_6 _, ?_⟩
  show i ∈ ((View.whole main_v68_0).slice (win4_6.rect ⟨(i 0).val / 5000, ht⟩)).set
  rw [View.set_slice_whole, Rect.mem_set_unit]
  intro a
  match a with
  | ⟨0, _⟩ =>
    show win4_6.index ⟨(i 0).val / 5000, ht⟩ (0 : Fin 2) * 5000 ≤ (i 0).val
      ∧ (i 0).val < win4_6.index ⟨(i 0).val / 5000, ht⟩ (0 : Fin 2) * 5000 + 5000
    rw [e0]; dsimp only; omega
  | ⟨1, _⟩ =>
    show win4_6.index ⟨(i 0).val / 5000, ht⟩ (1 : Fin 2) * 2 ≤ (i 1).val
      ∧ (i 1).val < win4_6.index ⟨(i 0).val / 5000, ht⟩ (1 : Fin 2) * 2 + 2
    rw [e1]; omega

/-- Output 6 ends holding the perceptron's value. -/
theorem arr6 : ((dat4 (F := Ideal) V c).arrAt 6 cfg4.N : Mat 50000 2) = H V c :=
  (dat4 (F := Ideal) V c).arrAt_eq_of_cover 6 (H V c) (flushed6 V c) (cover6)

/-- The sum over the row numbers below the number of rows is the sum over the rows. -/
theorem sumHn (q : Fin 2) : ∑ j ∈ Finset.range 50000, Hn V c j q = ∑ p : Fin 50000, H V c (ix2 p q) := by
  rw [← Fin.sum_univ_eq_sum_range (fun j => Hn V c j q) 50000]
  exact Finset.sum_congr rfl fun j _ => Hn_lt V c j.val j.isLt q

/-- Likewise for the squares. -/
theorem sumHnSq (q : Fin 2) :
    ∑ j ∈ Finset.range 50000, Hn V c j q * Hn V c j q = ∑ p : Fin 50000, H V c (ix2 p q) * H V c (ix2 p q) := by
  rw [← Fin.sum_univ_eq_sum_range (fun j => Hn V c j q * Hn V c j q) 50000]
  exact Finset.sum_congr rfl fun j _ => by rw [Hn_lt V c j.val j.isLt q]

/-- An accumulator's one block is its whole array: element (z, q) of the block is element (z, q) of the array. -/
theorem emb7 (t : Fin cfg4.N) (z : Fin 1) (q : Fin 2) : ((cfg4.win 7).blk t).view.emb (ix2 z q) = ix2 z q := by
  obtain ⟨-, -, -, -, -, -, -, -, -, -, -, -, -, -, e0, e1, -⟩ := idx_facts t
  funext a; apply Fin.ext
  match a with
  | ⟨0, _⟩ => show win4_7.index t (0 : Fin 2) * 1 + 1 * z.val = z.val; rw [e0]; omega
  | ⟨1, _⟩ => show win4_7.index t (1 : Fin 2) * 2 + 1 * q.val = q.val; rw [e1]; omega

theorem emb8 (t : Fin cfg4.N) (z : Fin 1) (q : Fin 2) : ((cfg4.win 8).blk t).view.emb (ix2 z q) = ix2 z q := by
  obtain ⟨-, -, -, -, -, -, -, -, -, -, -, -, -, -, -, -, e0, e1⟩ := idx_facts t
  funext a; apply Fin.ext
  match a with
  | ⟨0, _⟩ => show win4_8.index t (0 : Fin 2) * 1 + 1 * z.val = z.val; rw [e0]; omega
  | ⟨1, _⟩ => show win4_8.index t (1 : Fin 2) * 2 + 1 * q.val = q.val; rw [e1]; omega

/-- The one write-back of the sum accumulator, after the last point, writes the column sums of H over all rows. -/
theorem flushed7 (t : Fin cfg4.N) (hf : (cfg4.win 7).flush t = true) :
    (dat4 (F := Ideal) V c).flushed 7 t = ((cfg4.win 7).blk t).view.read (Elt Ideal) (colSum (n := 50000) (d := 2) (H V c)) := by
  have hN : grid4.N = 10 := N_4
  have ht : t.val < grid4.N := t.isLt
  have hr : 5000 * (t.val + 1) = 50000 := by have := (flush4_7 t).mp hf; omega
  show (cfg4.win 7).cut (grid4.coords t) ((dat4 (F := Ideal) V c).after 7 t) = _
  rw [after4_7, (inv V c t.val t.isLt).2.1]
  refine funext fun (y : (⟨2, ![1, 2]⟩ : Shape).Idx) => ?_
  obtain ⟨z, q, rfl⟩ : ∃ (z : Fin 1) (q : Fin 2), y = ix2 z q := ⟨y 0, y 1, eq_ix2 y⟩
  rw [View.read_apply, emb7 t z q]
  refine (cast_eq_iff_heq.mpr (heq_of_eq ?_)).symm
  rw [colSum_apply]
  show _ = ∑ j ∈ Finset.range (5000 * (t.val + 1)), Hn V c j q
  rw [hr]
  exact (sumHn V c q).symm

/-- The one write-back of the sum-of-squares accumulator writes the column sums of squares of H over all rows. -/
theorem flushed8 (t : Fin cfg4.N) (hf : (cfg4.win 8).flush t = true) :
    (dat4 (F := Ideal) V c).flushed 8 t = ((cfg4.win 8).blk t).view.read (Elt Ideal) (colSumSq (n := 50000) (d := 2) (H V c)) := by
  have hN : grid4.N = 10 := N_4
  have ht : t.val < grid4.N := t.isLt
  have hr : 5000 * (t.val + 1) = 50000 := by have := (flush4_8 t).mp hf; omega
  show (cfg4.win 8).cut (grid4.coords t) ((dat4 (F := Ideal) V c).after 8 t) = _
  rw [after4_8, (inv V c t.val t.isLt).2.2]
  refine funext fun (y : (⟨2, ![1, 2]⟩ : Shape).Idx) => ?_
  obtain ⟨z, q, rfl⟩ : ∃ (z : Fin 1) (q : Fin 2), y = ix2 z q := ⟨y 0, y 1, eq_ix2 y⟩
  rw [View.read_apply, emb8 t z q]
  refine (cast_eq_iff_heq.mpr (heq_of_eq ?_)).symm
  rw [colSumSq_apply]
  show _ = ∑ j ∈ Finset.range (5000 * (t.val + 1)), Hn V c j q * Hn V c j q
  rw [hr]
  exact (sumHnSq V c q).symm

/-- The last point's block covers the one-row array. -/
theorem cover7 (i : (⟨2, ![1, 2]⟩ : Shape).Idx) :
    ∃ t : Fin cfg4.N, (cfg4.win 7).flush t = true ∧ i ∈ ((cfg4.win 7).blk t).view.set := by
  have hi0 : (i 0).val < 1 := (i 0).isLt
  have hi1 : (i 1).val < 2 := (i 1).isLt
  obtain ⟨-, -, -, -, -, -, -, -, -, -, -, -, -, -, e0, e1, -⟩ := idx_facts t4_9
  refine ⟨t4_9, (flush4_7 t4_9).mpr rfl, ?_⟩
  show i ∈ ((View.whole main_v68_1).slice (win4_7.rect t4_9)).set
  rw [View.set_slice_whole, Rect.mem_set_unit]
  intro a
  match a with
  | ⟨0, _⟩ =>
    show win4_7.index t4_9 (0 : Fin 2) * 1 ≤ (i 0).val ∧ (i 0).val < win4_7.index t4_9 (0 : Fin 2) * 1 + 1
    rw [e0]; omega
  | ⟨1, _⟩ =>
    show win4_7.index t4_9 (1 : Fin 2) * 2 ≤ (i 1).val ∧ (i 1).val < win4_7.index t4_9 (1 : Fin 2) * 2 + 2
    rw [e1]; omega

theorem cover8 (i : (⟨2, ![1, 2]⟩ : Shape).Idx) :
    ∃ t : Fin cfg4.N, (cfg4.win 8).flush t = true ∧ i ∈ ((cfg4.win 8).blk t).view.set := by
  have hi0 : (i 0).val < 1 := (i 0).isLt
  have hi1 : (i 1).val < 2 := (i 1).isLt
  obtain ⟨-, -, -, -, -, -, -, -, -, -, -, -, -, -, -, -, e0, e1⟩ := idx_facts t4_9
  refine ⟨t4_9, (flush4_8 t4_9).mpr rfl, ?_⟩
  show i ∈ ((View.whole main_v68_2).slice (win4_8.rect t4_9)).set
  rw [View.set_slice_whole, Rect.mem_set_unit]
  intro a
  match a with
  | ⟨0, _⟩ =>
    show win4_8.index t4_9 (0 : Fin 2) * 1 ≤ (i 0).val ∧ (i 0).val < win4_8.index t4_9 (0 : Fin 2) * 1 + 1
    rw [e0]; omega
  | ⟨1, _⟩ =>
    show win4_8.index t4_9 (1 : Fin 2) * 2 ≤ (i 1).val ∧ (i 1).val < win4_8.index t4_9 (1 : Fin 2) * 2 + 2
    rw [e1]; omega

/-- The sum accumulator's array ends holding the column sums of H. -/
theorem arr7 : ((dat4 (F := Ideal) V c).arrAt 7 cfg4.N : Mat 1 2) = Cert.Spec.colSum (n := 50000) (d := 2) (H V c) :=
  (dat4 (F := Ideal) V c).arrAt_eq_of_cover 7 (colSum (n := 50000) (d := 2) (H V c)) (flushed7 V c) (cover7)

/-- The sum-of-squares accumulator's array ends holding the column sums of squares of H. -/
theorem arr8 : ((dat4 (F := Ideal) V c).arrAt 8 cfg4.N : Mat 1 2) = Cert.Spec.colSumSq (n := 50000) (d := 2) (H V c) :=
  (dat4 (F := Ideal) V c).arrAt_eq_of_cover 8 (colSumSq (n := 50000) (d := 2) (H V c)) (flushed8 V c) (cover8)

end Cert.KernelIdeal.Layer4

end
-- ==== Proof.Norm1.lean ====
/-
  The value of the first normalisation region.  The region walks the 50000 × 128 activation array in ten blocks of
  5000 rows; at block t it reads the block, and the whole mean, variance, scale and shift rows, and writes
      (h − mean) · rsqrt(var + ε) · γ + β
  into block t of the result.  So what block t receives is block t of ONE function of the five arrays — the
  specification's `norm` — and since every row r lies in block r / 5000, the result array ends holding `norm` of the
  five arrays as the region finds them.
-/
import proofs.«144821_j2645699854452_1_alg».proof.Proof.Gen.KernelIdeal.Frame
import proofs.«144821_j2645699854452_1_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.ShloMosaic.ValueIdx
open Idealize.ShloMosaic.Pipeline (Dat)

namespace Cert.KernelIdeal.Norm1
open Idealize.ShloMosaic Cert.KernelIdeal Cert.KernelIdeal.Gen

theorem hz : (![0, 0] : Fin 2 → Nat) = fun _ => 0 := funext fun a => by fin_cases a <;> rfl

/-- A row vector broadcast down the rows reads, at row p and column q, the row vector at column q. -/
theorem bcast_row (x : S1x128.Idx → EReal) (h : S1x128.Broadcasts S5000x128) (p : Fin 5000) (q : Fin 128) :
    broadcastTo S5000x128 x h (ix2 p q) = x (ix2 0 q) :=
  broadcastTo_apply x h (ix2 p q) (ix2 0 q) fun a => by
    match a with
    | ⟨0, _⟩ => rfl
    | ⟨1, _⟩ => rfl

/-- The reciprocal square root of a vector, at an index, is that of the element. -/
theorem rsqrt_apply {s : Shape} {φ : FTy} (a : FVec Ideal s φ) (i : s.Idx) : rsqrt a i = Ideal.rsqrt (a i) := rfl

/-- The body's stored value at row p, column q of its block:
    (h[p,q] − mean[q]) · rsqrt(var[q] + ε) · γ[q] + β[q]. -/
theorem pay_apply (v0 : Vec Ideal S1x128 .f32) (v5 : Vec Ideal S5000x128 .f32) (v7 v13 v17 : Vec Ideal S1x128 .f32)
    (p : Fin 5000) (q : Fin 128) :
    k1_pay1 (F := Ideal) v0 v5 v7 v13 v17 (ix2 p q)
      = (v5 (ix2 p q) - v7 (ix2 0 q)) * Ideal.rsqrt (v0 (ix2 0 q) + Cert.Spec.cEps) * v13 (ix2 0 q) + v17 (ix2 0 q) := by
  unfold k1_pay1
  simp only [addf_apply, mulf_apply, subf_apply, rsqrt_apply, shapeCast_self, bcast_row, broadcast_apply]
  rfl

variable (V : (c : Dev nD) → (b : Ref sig .tc) → Buf (Elt Ideal) ((c : Thread nD τ).loc b)) (c : Dev nD)

/-- The normalised array, as one function of the five arrays the region finds. -/
abbrev G : Cert.Spec.Mat 50000 128 :=
  Cert.Spec.norm (V c (Pipeline.arrRef spec1 0)) (V c (Pipeline.arrRef spec1 1)) (V c (Pipeline.arrRef spec1 2))
    (V c (Pipeline.arrRef spec1 3)) (V c (Pipeline.arrRef spec1 4))

/-- The index maps over the grid: at point t the activation block and the result block are row block t, column block 0;
    the four row vectors are whole at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The normalised array at row r, column q, from the five entries it depends on. -/
theorem norm_point (h : Cert.Spec.Mat 50000 128) (mean var γ β : Cert.Spec.Mat 1 128) (r : Fin 50000) (q : Fin 128)
    (a b v g s : EReal) (ha : a = h (ix2 r q)) (hb : b = mean (ix2 0 q)) (hv : v = var (ix2 0 q))
    (hg : g = γ (ix2 0 q)) (hs : s = β (ix2 0 q)) :
    (a - b) * Ideal.rsqrt (v + Cert.Spec.cEps) * g + s = Cert.Spec.norm h mean var γ β (ix2 r q) := by
  subst ha hb hv hg hs
  rfl

/-- Where the elements of the windows' blocks at point t sit in their arrays: the activation block's and the result
    block's row p is the array's row 5000·t + p; the four row vectors are read whole. -/
theorem emb_in (t : Fin cfg1.N) (p : Fin 5000) (q : Fin 128) (r : Fin 50000) (hr : r.val = 5000 * t.val + p.val) :
    ((cfg1.win 0).blk t).view.emb (ix2 p q) = (ix2 r q : S50000x128.Idx) := by
  obtain ⟨e00, e01, -⟩ := idx_facts t
  funext a
  apply Fin.ext
  match a with
  | ⟨0, _⟩ => show win1_0.index t (0 : Fin 2) * 5000 + 1 * p.val = r.val; omega
  | ⟨1, _⟩ => show win1_0.index t (1 : Fin 2) * 128 + 1 * q.val = q.val; omega

theorem emb_out (t : Fin cfg1.N) (p : Fin 5000) (q : Fin 128) (r : Fin 50000) (hr : r.val = 5000 * t.val + p.val) :
    ((cfg1.win 5).blk t).view.emb (ix2 p q) = (ix2 r q : S50000x128.Idx) := by
  obtain ⟨-, -, -, -, -, -, -, -, -, -, e50, e51⟩ := idx_facts t
  funext a
  apply Fin.ext
  match a with
  | ⟨0, _⟩ => show win1_5.index t (0 : Fin 2) * 5000 + 1 * p.val = r.val; omega
  | ⟨1, _⟩ => show win1_5.index t (1 : Fin 2) * 128 + 1 * q.val = q.val; omega

theorem emb_mean (t : Fin cfg1.N) (q : Fin 128) :
    ((cfg1.win 1).blk t).view.emb (ix2 0 q) = (ix2 0 q : S1x128.Idx) := by
  obtain ⟨-, -, e10, e11, -⟩ := idx_facts t
  funext a
  apply Fin.ext
  match a with
  | ⟨0, _⟩ => show win1_1.index t (0 : Fin 2) * 1 + 1 * 0 = 0; omega
  | ⟨1, _⟩ => show win1_1.index t (1 : Fin 2) * 128 + 1 * q.val = q.val; omega

theorem emb_var (t : Fin cfg1.N) (q : Fin 128) :
    ((cfg1.win 2).blk t).view.emb (ix2 0 q) = (ix2 0 q : S1x128.Idx) := by
  obtain ⟨-, -, -, -, e20, e21, -⟩ := idx_facts t
  funext a
  apply Fin.ext
  match a with
  | ⟨0, _⟩ => show win1_2.index t (0 : Fin 2) * 1 + 1 * 0 = 0; omega
  | ⟨1, _⟩ => show win1_2.index t (1 : Fin 2) * 128 + 1 * q.val = q.val; omega

theorem emb_scale (t : Fin cfg1.N) (q : Fin 128) :
    ((cfg1.win 3).blk t).view.emb (ix2 0 q) = (ix2 0 q : S1x128.Idx) := by
  obtain ⟨-, -, -, -, -, -, e30, e31, -⟩ := idx_facts t
  funext a
  apply Fin.ext
  match a with
  | ⟨0, _⟩ => show win1_3.index t (0 : Fin 2) * 1 + 1 * 0 = 0; omega
  | ⟨1, _⟩ => show win1_3.index t (1 : Fin 2) * 128 + 1 * q.val = q.val; omega

theorem emb_shift (t : Fin cfg1.N) (q : Fin 128) :
    ((cfg1.win 4).blk t).view.emb (ix2 0 q) = (ix2 0 q : S1x128.Idx) := by
  obtain ⟨-, -, -, -, -, -, -, -, e40, e41, -⟩ := idx_facts t
  funext a
  apply Fin.ext
  match a with
  | ⟨0, _⟩ => show win1_4.index t (0 : Fin 2) * 1 + 1 * 0 = 0; omega
  | ⟨1, _⟩ => show win1_4.index t (1 : Fin 2) * 128 + 1 * q.val = q.val; omega

/-- The blocks read at point t: the activation block's entry (p, q) is the array's entry (5000·t + p, q);
    a row vector's block is the row vector. -/
theorem read_in (t : Fin cfg1.N) (p : Fin 5000) (q : Fin 128) (r : Fin 50000) (hr : r.val = 5000 * t.val + p.val) :
    iblk1 V c 0 t (ix2 p q) = (V c (Pipeline.arrRef spec1 0) : S50000x128.Idx → EReal) (ix2 r q) :=
  congrArg (V c (Pipeline.arrRef spec1 0) : S50000x128.Idx → EReal) (emb_in t p q r hr)

theorem read_mean (t : Fin cfg1.N) (q : Fin 128) :
    iblk1 V c 1 t (ix2 0 q) = (V c (Pipeline.arrRef spec1 1) : S1x128.Idx → EReal) (ix2 0 q) :=
  congrArg (V c (Pipeline.arrRef spec1 1) : S1x128.Idx → EReal) (emb_mean t q)

theorem read_var (t : Fin cfg1.N) (q : Fin 128) :
    iblk1 V c 2 t (ix2 0 q) = (V c (Pipeline.arrRef spec1 2) : S1x128.Idx → EReal) (ix2 0 q) :=
  congrArg (V c (Pipeline.arrRef spec1 2) : S1x128.Idx → EReal) (emb_var t q)

theorem read_scale (t : Fin cfg1.N) (q : Fin 128) :
    iblk1 V c 3 t (ix2 0 q) = (V c (Pipeline.arrRef spec1 3) : S1x128.Idx → EReal) (ix2 0 q) :=
  congrArg (V c (Pipeline.arrRef spec1 3) : S1x128.Idx → EReal) (emb_scale t q)

theorem read_shift (t : Fin cfg1.N) (q : Fin 128) :
    iblk1 V c 4 t (ix2 0 q) = (V c (Pipeline.arrRef spec1 4) : S1x128.Idx → EReal) (ix2 0 q) :=
  congrArg (V c (Pipeline.arrRef spec1 4) : S1x128.Idx → EReal) (emb_shift t q)

/-- What point t writes back is block t of the normalised array. -/
theorem flushed_eq (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  have hN : cfg1.N = 10 := N_1
  obtain ⟨r, hr⟩ : ∃ r : Fin 50000, r.val = 5000 * t.val + p.val :=
    ⟨⟨5000 * t.val + p.val, by have := t.isLt; have := p.isLt; omega⟩, rfl⟩
  show k1_pay1 (F := Ideal) (iblk1 V c 2 t) (iblk1 V c 0 t) (iblk1 V c 1 t) (iblk1 V c 3 t) (iblk1 V c 4 t) (ix2 p q)
      = G V c (((cfg1.win 5).blk t).view.emb (ix2 p q))
  rw [emb_out t p q r hr]
  refine (pay_apply (iblk1 V c 2 t) (iblk1 V c 0 t) (iblk1 V c 1 t) (iblk1 V c 3 t) (iblk1 V c 4 t) p q).trans ?_
  exact norm_point (V c (Pipeline.arrRef spec1 0)) (V c (Pipeline.arrRef spec1 1)) (V c (Pipeline.arrRef spec1 2))
    (V c (Pipeline.arrRef spec1 3)) (V c (Pipeline.arrRef spec1 4)) r q _ _ _ _ _
    (read_in V c t p q r hr) (read_mean V c t q) (read_var V c t q) (read_scale V c t q) (read_shift V c t q)

/-- An index of the array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v29).slice (win1_5.rect t)).set ↔ _
  rw [View.set_slice_whole, Rect.mem_set_unit]
  exact Iff.rfl

/-- Every row r of the array lies in the block of point r / 5000, and every point writes its block back. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, e50, e51⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- The result array after the region is the normalised array: every row lies in some point's block. -/
theorem arr5 : (Gen.dat1 (F := Ideal) V c).arrAt 5 cfg1.N = Cert.Spec.norm (V c (Pipeline.arrRef spec1 0)) (V c (Pipeline.arrRef spec1 1)) (V c (Pipeline.arrRef spec1 2)) (V c (Pipeline.arrRef spec1 3)) (V c (Pipeline.arrRef spec1 4)) :=
  (dat1 (F := Ideal) V c).arrAt_eq_of_cover 5 (G V c) (fun t _ => flushed_eq V c t) cover

end Cert.KernelIdeal.Norm1
end
-- ==== Proof.Norm3.lean ====
/-
  The value of the second normalisation region.  The region walks the 50000 × 128 activation array in ten blocks of
  5000 rows; at block t it reads the block, and the whole mean, variance, scale and shift rows, and writes
      (h − mean) · rsqrt(var + ε) · γ + β
  into block t of the result.  So what block t receives is block t of ONE function of the five arrays — the
  specification's `norm` — and since every row r lies in block r / 5000, the result array ends holding `norm` of the
  five arrays as the region finds them.
-/
import proofs.«144821_j2645699854452_1_alg».proof.Proof.Gen.KernelIdeal.Frame
import proofs.«144821_j2645699854452_1_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.ShloMosaic.ValueIdx
open Idealize.ShloMosaic.Pipeline (Dat)

namespace Cert.KernelIdeal.Norm3
open Idealize.ShloMosaic Cert.KernelIdeal Cert.KernelIdeal.Gen

theorem hz : (![0, 0] : Fin 2 → Nat) = fun _ => 0 := funext fun a => by fin_cases a <;> rfl

/-- A row vector broadcast down the rows reads, at row p and column q, the row vector at column q. -/
theorem bcast_row (x : S1x128.Idx → EReal) (h : S1x128.Broadcasts S5000x128) (p : Fin 5000) (q : Fin 128) :
    broadcastTo S5000x128 x h (ix2 p q) = x (ix2 0 q) :=
  broadcastTo_apply x h (ix2 p q) (ix2 0 q) fun a => by
    match a with
    | ⟨0, _⟩ => rfl
    | ⟨1, _⟩ => rfl

/-- The reciprocal square root of a vector, at an index, is that of the element. -/
theorem rsqrt_apply {s : Shape} {φ : FTy} (a : FVec Ideal s φ) (i : s.Idx) : rsqrt a i = Ideal.rsqrt (a i) := rfl

/-- The body's stored value at row p, column q of its block:
    (h[p,q] − mean[q]) · rsqrt(var[q] + ε) · γ[q] + β[q]. -/
theorem pay_apply (v0 : Vec Ideal S1x128 .f32) (v5 : Vec Ideal S5000x128 .f32) (v7 v13 v17 : Vec Ideal S1x128 .f32)
    (p : Fin 5000) (q : Fin 128) :
    k3_pay1 (F := Ideal) v0 v5 v7 v13 v17 (ix2 p q)
      = (v5 (ix2 p q) - v7 (ix2 0 q)) * Ideal.rsqrt (v0 (ix2 0 q) + Cert.Spec.cEps) * v13 (ix2 0 q) + v17 (ix2 0 q) := by
  unfold k3_pay1
  simp only [addf_apply, mulf_apply, subf_apply, rsqrt_apply, shapeCast_self, bcast_row, broadcast_apply]
  rfl

variable (V : (c : Dev nD) → (b : Ref sig .tc) → Buf (Elt Ideal) ((c : Thread nD τ).loc b)) (c : Dev nD)

/-- The normalised array, as one function of the five arrays the region finds. -/
abbrev G : Cert.Spec.Mat 50000 128 :=
  Cert.Spec.norm (V c (Pipeline.arrRef spec3 0)) (V c (Pipeline.arrRef spec3 1)) (V c (Pipeline.arrRef spec3 2))
    (V c (Pipeline.arrRef spec3 3)) (V c (Pipeline.arrRef spec3 4))

/-- The index maps over the grid: at point t the activation block and the result block are row block t, column block 0;
    the four row vectors are whole at every point. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The normalised array at row r, column q, from the five entries it depends on. -/
theorem norm_point (h : Cert.Spec.Mat 50000 128) (mean var γ β : Cert.Spec.Mat 1 128) (r : Fin 50000) (q : Fin 128)
    (a b v g s : EReal) (ha : a = h (ix2 r q)) (hb : b = mean (ix2 0 q)) (hv : v = var (ix2 0 q))
    (hg : g = γ (ix2 0 q)) (hs : s = β (ix2 0 q)) :
    (a - b) * Ideal.rsqrt (v + Cert.Spec.cEps) * g + s = Cert.Spec.norm h mean var γ β (ix2 r q) := by
  subst ha hb hv hg hs
  rfl

/-- Where the elements of the windows' blocks at point t sit in their arrays: the activation block's and the result
    block's row p is the array's row 5000·t + p; the four row vectors are read whole. -/
theorem emb_in (t : Fin cfg3.N) (p : Fin 5000) (q : Fin 128) (r : Fin 50000) (hr : r.val = 5000 * t.val + p.val) :
    ((cfg3.win 0).blk t).view.emb (ix2 p q) = (ix2 r q : S50000x128.Idx) := by
  obtain ⟨e00, e01, -⟩ := idx_facts t
  funext a
  apply Fin.ext
  match a with
  | ⟨0, _⟩ => show win3_0.index t (0 : Fin 2) * 5000 + 1 * p.val = r.val; omega
  | ⟨1, _⟩ => show win3_0.index t (1 : Fin 2) * 128 + 1 * q.val = q.val; omega

theorem emb_out (t : Fin cfg3.N) (p : Fin 5000) (q : Fin 128) (r : Fin 50000) (hr : r.val = 5000 * t.val + p.val) :
    ((cfg3.win 5).blk t).view.emb (ix2 p q) = (ix2 r q : S50000x128.Idx) := by
  obtain ⟨-, -, -, -, -, -, -, -, -, -, e50, e51⟩ := idx_facts t
  funext a
  apply Fin.ext
  match a with
  | ⟨0, _⟩ => show win3_5.index t (0 : Fin 2) * 5000 + 1 * p.val = r.val; omega
  | ⟨1, _⟩ => show win3_5.index t (1 : Fin 2) * 128 + 1 * q.val = q.val; omega

theorem emb_mean (t : Fin cfg3.N) (q : Fin 128) :
    ((cfg3.win 1).blk t).view.emb (ix2 0 q) = (ix2 0 q : S1x128.Idx) := by
  obtain ⟨-, -, e10, e11, -⟩ := idx_facts t
  funext a
  apply Fin.ext
  match a with
  | ⟨0, _⟩ => show win3_1.index t (0 : Fin 2) * 1 + 1 * 0 = 0; omega
  | ⟨1, _⟩ => show win3_1.index t (1 : Fin 2) * 128 + 1 * q.val = q.val; omega

theorem emb_var (t : Fin cfg3.N) (q : Fin 128) :
    ((cfg3.win 2).blk t).view.emb (ix2 0 q) = (ix2 0 q : S1x128.Idx) := by
  obtain ⟨-, -, -, -, e20, e21, -⟩ := idx_facts t
  funext a
  apply Fin.ext
  match a with
  | ⟨0, _⟩ => show win3_2.index t (0 : Fin 2) * 1 + 1 * 0 = 0; omega
  | ⟨1, _⟩ => show win3_2.index t (1 : Fin 2) * 128 + 1 * q.val = q.val; omega

theorem emb_scale (t : Fin cfg3.N) (q : Fin 128) :
    ((cfg3.win 3).blk t).view.emb (ix2 0 q) = (ix2 0 q : S1x128.Idx) := by
  obtain ⟨-, -, -, -, -, -, e30, e31, -⟩ := idx_facts t
  funext a
  apply Fin.ext
  match a with
  | ⟨0, _⟩ => show win3_3.index t (0 : Fin 2) * 1 + 1 * 0 = 0; omega
  | ⟨1, _⟩ => show win3_3.index t (1 : Fin 2) * 128 + 1 * q.val = q.val; omega

theorem emb_shift (t : Fin cfg3.N) (q : Fin 128) :
    ((cfg3.win 4).blk t).view.emb (ix2 0 q) = (ix2 0 q : S1x128.Idx) := by
  obtain ⟨-, -, -, -, -, -, -, -, e40, e41, -⟩ := idx_facts t
  funext a
  apply Fin.ext
  match a with
  | ⟨0, _⟩ => show win3_4.index t (0 : Fin 2) * 1 + 1 * 0 = 0; omega
  | ⟨1, _⟩ => show win3_4.index t (1 : Fin 2) * 128 + 1 * q.val = q.val; omega

/-- The blocks read at point t: the activation block's entry (p, q) is the array's entry (5000·t + p, q);
    a row vector's block is the row vector. -/
theorem read_in (t : Fin cfg3.N) (p : Fin 5000) (q : Fin 128) (r : Fin 50000) (hr : r.val = 5000 * t.val + p.val) :
    iblk3 V c 0 t (ix2 p q) = (V c (Pipeline.arrRef spec3 0) : S50000x128.Idx → EReal) (ix2 r q) :=
  congrArg (V c (Pipeline.arrRef spec3 0) : S50000x128.Idx → EReal) (emb_in t p q r hr)

theorem read_mean (t : Fin cfg3.N) (q : Fin 128) :
    iblk3 V c 1 t (ix2 0 q) = (V c (Pipeline.arrRef spec3 1) : S1x128.Idx → EReal) (ix2 0 q) :=
  congrArg (V c (Pipeline.arrRef spec3 1) : S1x128.Idx → EReal) (emb_mean t q)

theorem read_var (t : Fin cfg3.N) (q : Fin 128) :
    iblk3 V c 2 t (ix2 0 q) = (V c (Pipeline.arrRef spec3 2) : S1x128.Idx → EReal) (ix2 0 q) :=
  congrArg (V c (Pipeline.arrRef spec3 2) : S1x128.Idx → EReal) (emb_var t q)

theorem read_scale (t : Fin cfg3.N) (q : Fin 128) :
    iblk3 V c 3 t (ix2 0 q) = (V c (Pipeline.arrRef spec3 3) : S1x128.Idx → EReal) (ix2 0 q) :=
  congrArg (V c (Pipeline.arrRef spec3 3) : S1x128.Idx → EReal) (emb_scale t q)

theorem read_shift (t : Fin cfg3.N) (q : Fin 128) :
    iblk3 V c 4 t (ix2 0 q) = (V c (Pipeline.arrRef spec3 4) : S1x128.Idx → EReal) (ix2 0 q) :=
  congrArg (V c (Pipeline.arrRef spec3 4) : S1x128.Idx → EReal) (emb_shift t q)

/-- What point t writes back is block t of the normalised array. -/
theorem flushed_eq (t : Fin cfg3.N) :
    (dat3 (F := Ideal) V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  have hN : cfg3.N = 10 := N_3
  obtain ⟨r, hr⟩ : ∃ r : Fin 50000, r.val = 5000 * t.val + p.val :=
    ⟨⟨5000 * t.val + p.val, by have := t.isLt; have := p.isLt; omega⟩, rfl⟩
  show k3_pay1 (F := Ideal) (iblk3 V c 2 t) (iblk3 V c 0 t) (iblk3 V c 1 t) (iblk3 V c 3 t) (iblk3 V c 4 t) (ix2 p q)
      = G V c (((cfg3.win 5).blk t).view.emb (ix2 p q))
  rw [emb_out t p q r hr]
  refine (pay_apply (iblk3 V c 2 t) (iblk3 V c 0 t) (iblk3 V c 1 t) (iblk3 V c 3 t) (iblk3 V c 4 t) p q).trans ?_
  exact norm_point (V c (Pipeline.arrRef spec3 0)) (V c (Pipeline.arrRef spec3 1)) (V c (Pipeline.arrRef spec3 2))
    (V c (Pipeline.arrRef spec3 3)) (V c (Pipeline.arrRef spec3 4)) r q _ _ _ _ _
    (read_in V c t p q r hr) (read_mean V c t q) (read_var V c t q) (read_scale V c t q) (read_shift V c t q)

/-- An index of the array is in point t's block iff each coordinate is in the block's range on its axis. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v55).slice (win3_5.rect t)).set ↔ _
  rw [View.set_slice_whole, Rect.mem_set_unit]
  exact Iff.rfl

/-- Every row r of the array lies in the block of point r / 5000, and every point writes its block back. -/
theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, -, -, -, -, e50, e51⟩ := idx_facts t
  refine ⟨t, flush3_5 t, ?_⟩
  rw [mem_blk]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 128 ≤ (i 1).val ∧ (i 1).val < win3_5.index t (1 : Fin 2) * 128 + 128
    omega

/-- The result array after the region is the normalised array: every row lies in some point's block. -/
theorem arr5 : (Gen.dat3 (F := Ideal) V c).arrAt 5 cfg3.N = Cert.Spec.norm (V c (Pipeline.arrRef spec3 0)) (V c (Pipeline.arrRef spec3 1)) (V c (Pipeline.arrRef spec3 2)) (V c (Pipeline.arrRef spec3 3)) (V c (Pipeline.arrRef spec3 4)) :=
  (dat3 (F := Ideal) V c).arrAt_eq_of_cover 5 (G V c) (fun t _ => flushed_eq V c t) cover

end Cert.KernelIdeal.Norm3
end
-- ==== Proof.Norm5.lean ====
/-
  The value of the third normalisation region.  The region walks the 50000 × 2 activation array in ten blocks of
  5000 rows; at block t it reads the block, and the whole mean, variance, scale and shift rows, and writes
      (h − mean) · rsqrt(var + ε) · γ + β
  into block t of the result.  So what block t receives is block t of ONE function of the five arrays — the
  specification's `norm` — and since every row r lies in block r / 5000, the result array ends holding `norm` of the
  five arrays as the region finds them.
-/
import proofs.«144821_j2645699854452_1_alg».proof.Proof.Gen.KernelIdeal.Frame
import proofs.«144821_j2645699854452_1_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.ShloMosaic.ValueIdx
open Idealize.ShloMosaic.Pipeline (Dat)

namespace Cert.KernelIdeal.Norm5
open Idealize.ShloMosaic Cert.KernelIdeal Cert.KernelIdeal.Gen

theorem hz : (![0, 0] : Fin 2 → Nat) = fun _ => 0 := funext fun a => by fin_cases a <;> rfl

/-- A row vector broadcast down the rows reads, at row p and column q, the row vector at column q. -/
theorem bcast_row (x : S1x2.Idx → EReal) (h : S1x2.Broadcasts S5000x2) (p : Fin 5000) (q : Fin 2) :
    broadcastTo S5000x2 x h (ix2 p q) = x (ix2 0 q) :=
  broadcastTo_apply x h (ix2 p q) (ix2 0 q) fun a => by
    match a with
    | ⟨0, _⟩ => rfl
    | ⟨1, _⟩ => rfl

/-- The reciprocal square root of a vector, at an index, is that of the element. -/
theorem rsqrt_apply {s : Shape} {φ : FTy} (a : FVec Ideal s φ) (i : s.Idx) : rsqrt a i = Ideal.rsqrt (a i) := rfl

/-- The body's stored value at row p, column q of its block:
    (h[p,q] − mean[q]) · rsqrt(var[q] + ε) · γ[q] + β[q]. -/
theorem pay_apply (v0 : Vec Ideal S1x2 .f32) (v5 : Vec Ideal S5000x2 .f32) (v7 v13 v17 : Vec Ideal S1x2 .f32)
    (p : Fin 5000) (q : Fin 2) :
    k5_pay1 (F := Ideal) v0 v5 v7 v13 v17 (ix2 p q)
      = (v5 (ix2 p q) - v7 (ix2 0 q)) * Ideal.rsqrt (v0 (ix2 0 q) + Cert.Spec.cEps) * v13 (ix2 0 q) + v17 (ix2 0 q) := by
  unfold k5_pay1
  simp only [addf_apply, mulf_apply, subf_apply, rsqrt_apply, shapeCast_self, bcast_row, broadcast_apply]
  rfl

variable (V : (c : Dev nD) → (b : Ref sig .tc) → Buf (Elt Ideal) ((c : Thread nD τ).loc b)) (c : Dev nD)

/-- The normalised array, as one function of the five arrays the region finds. -/
abbrev G : Cert.Spec.Mat 50000 2 :=
  Cert.Spec.norm (V c (Pipeline.arrRef spec5 0)) (V c (Pipeline.arrRef spec5 1)) (V c (Pipeline.arrRef spec5 2))
    (V c (Pipeline.arrRef spec5 3)) (V c (Pipeline.arrRef spec5 4))

/-- The index maps over the grid: at point t the activation block and the result block are row block t, column block 0;
    the four row vectors are whole at every point. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The normalised array at row r, column q, from the five entries it depends on. -/
theorem norm_point (h : Cert.Spec.Mat 50000 2) (mean var γ β : Cert.Spec.Mat 1 2) (r : Fin 50000) (q : Fin 2)
    (a b v g s : EReal) (ha : a = h (ix2 r q)) (hb : b = mean (ix2 0 q)) (hv : v = var (ix2 0 q))
    (hg : g = γ (ix2 0 q)) (hs : s = β (ix2 0 q)) :
    (a - b) * Ideal.rsqrt (v + Cert.Spec.cEps) * g + s = Cert.Spec.norm h mean var γ β (ix2 r q) := by
  subst ha hb hv hg hs
  rfl

/-- Where the elements of the windows' blocks at point t sit in their arrays: the activation block's and the result
    block's row p is the array's row 5000·t + p; the four row vectors are read whole. -/
theorem emb_in (t : Fin cfg5.N) (p : Fin 5000) (q : Fin 2) (r : Fin 50000) (hr : r.val = 5000 * t.val + p.val) :
    ((cfg5.win 0).blk t).view.emb (ix2 p q) = (ix2 r q : S50000x2.Idx) := by
  obtain ⟨e00, e01, -⟩ := idx_facts t
  funext a
  apply Fin.ext
  match a with
  | ⟨0, _⟩ => show win5_0.index t (0 : Fin 2) * 5000 + 1 * p.val = r.val; omega
  | ⟨1, _⟩ => show win5_0.index t (1 : Fin 2) * 2 + 1 * q.val = q.val; omega

theorem emb_out (t : Fin cfg5.N) (p : Fin 5000) (q : Fin 2) (r : Fin 50000) (hr : r.val = 5000 * t.val + p.val) :
    ((cfg5.win 5).blk t).view.emb (ix2 p q) = (ix2 r q : S50000x2.Idx) := by
  obtain ⟨-, -, -, -, -, -, -, -, -, -, e50, e51⟩ := idx_facts t
  funext a
  apply Fin.ext
  match a with
  | ⟨0, _⟩ => show win5_5.index t (0 : Fin 2) * 5000 + 1 * p.val = r.val; omega
  | ⟨1, _⟩ => show win5_5.index t (1 : Fin 2) * 2 + 1 * q.val = q.val; omega

theorem emb_mean (t : Fin cfg5.N) (q : Fin 2) :
    ((cfg5.win 1).blk t).view.emb (ix2 0 q) = (ix2 0 q : S1x2.Idx) := by
  obtain ⟨-, -, e10, e11, -⟩ := idx_facts t
  funext a
  apply Fin.ext
  match a with
  | ⟨0, _⟩ => show win5_1.index t (0 : Fin 2) * 1 + 1 * 0 = 0; omega
  | ⟨1, _⟩ => show win5_1.index t (1 : Fin 2) * 2 + 1 * q.val = q.val; omega

theorem emb_var (t : Fin cfg5.N) (q : Fin 2) :
    ((cfg5.win 2).blk t).view.emb (ix2 0 q) = (ix2 0 q : S1x2.Idx) := by
  obtain ⟨-, -, -, -, e20, e21, -⟩ := idx_facts t
  funext a
  apply Fin.ext
  match a with
  | ⟨0, _⟩ => show win5_2.index t (0 : Fin 2) * 1 + 1 * 0 = 0; omega
  | ⟨1, _⟩ => show win5_2.index t (1 : Fin 2) * 2 + 1 * q.val = q.val; omega

theorem emb_scale (t : Fin cfg5.N) (q : Fin 2) :
    ((cfg5.win 3).blk t).view.emb (ix2 0 q) = (ix2 0 q : S1x2.Idx) := by
  obtain ⟨-, -, -, -, -, -, e30, e31, -⟩ := idx_facts t
  funext a
  apply Fin.ext
  match a with
  | ⟨0, _⟩ => show win5_3.index t (0 : Fin 2) * 1 + 1 * 0 = 0; omega
  | ⟨1, _⟩ => show win5_3.index t (1 : Fin 2) * 2 + 1 * q.val = q.val; omega

theorem emb_shift (t : Fin cfg5.N) (q : Fin 2) :
    ((cfg5.win 4).blk t).view.emb (ix2 0 q) = (ix2 0 q : S1x2.Idx) := by
  obtain ⟨-, -, -, -, -, -, -, -, e40, e41, -⟩ := idx_facts t
  funext a
  apply Fin.ext
  match a with
  | ⟨0, _⟩ => show win5_4.index t (0 : Fin 2) * 1 + 1 * 0 = 0; omega
  | ⟨1, _⟩ => show win5_4.index t (1 : Fin 2) * 2 + 1 * q.val = q.val; omega

/-- The blocks read at point t: the activation block's entry (p, q) is the array's entry (5000·t + p, q);
    a row vector's block is the row vector. -/
theorem read_in (t : Fin cfg5.N) (p : Fin 5000) (q : Fin 2) (r : Fin 50000) (hr : r.val = 5000 * t.val + p.val) :
    iblk5 V c 0 t (ix2 p q) = (V c (Pipeline.arrRef spec5 0) : S50000x2.Idx → EReal) (ix2 r q) :=
  congrArg (V c (Pipeline.arrRef spec5 0) : S50000x2.Idx → EReal) (emb_in t p q r hr)

theorem read_mean (t : Fin cfg5.N) (q : Fin 2) :
    iblk5 V c 1 t (ix2 0 q) = (V c (Pipeline.arrRef spec5 1) : S1x2.Idx → EReal) (ix2 0 q) :=
  congrArg (V c (Pipeline.arrRef spec5 1) : S1x2.Idx → EReal) (emb_mean t q)

theorem read_var (t : Fin cfg5.N) (q : Fin 2) :
    iblk5 V c 2 t (ix2 0 q) = (V c (Pipeline.arrRef spec5 2) : S1x2.Idx → EReal) (ix2 0 q) :=
  congrArg (V c (Pipeline.arrRef spec5 2) : S1x2.Idx → EReal) (emb_var t q)

theorem read_scale (t : Fin cfg5.N) (q : Fin 2) :
    iblk5 V c 3 t (ix2 0 q) = (V c (Pipeline.arrRef spec5 3) : S1x2.Idx → EReal) (ix2 0 q) :=
  congrArg (V c (Pipeline.arrRef spec5 3) : S1x2.Idx → EReal) (emb_scale t q)

theorem read_shift (t : Fin cfg5.N) (q : Fin 2) :
    iblk5 V c 4 t (ix2 0 q) = (V c (Pipeline.arrRef spec5 4) : S1x2.Idx → EReal) (ix2 0 q) :=
  congrArg (V c (Pipeline.arrRef spec5 4) : S1x2.Idx → EReal) (emb_shift t q)

/-- What point t writes back is block t of the normalised array. -/
theorem flushed_eq (t : Fin cfg5.N) :
    (dat5 (F := Ideal) V c).flushed 5 t = ((cfg5.win 5).blk t).view.read (Elt Ideal) (G V c) := by
  show (cfg5.win 5).cut (grid5.coords t) ((dat5 V c).after 5 t) = _
  rw [after5_5]
  unfold out5_5
  rw [View.canon_unit_zero hz]
  simp only [View.ld_unit_zero (S := S5000x2) hz, View.ld_unit_zero (S := S1x2) hz]
  funext j
  obtain ⟨p, q, rfl⟩ : ∃ (p : Fin 5000) (q : Fin 2), j = ix2 p q := ⟨j 0, j 1, eq_ix2 j⟩
  have hN : cfg5.N = 10 := N_5
  obtain ⟨r, hr⟩ : ∃ r : Fin 50000, r.val = 5000 * t.val + p.val :=
    ⟨⟨5000 * t.val + p.val, by have := t.isLt; have := p.isLt; omega⟩, rfl⟩
  show k5_pay1 (F := Ideal) (iblk5 V c 2 t) (iblk5 V c 0 t) (iblk5 V c 1 t) (iblk5 V c 3 t) (iblk5 V c 4 t) (ix2 p q)
      = G V c (((cfg5.win 5).blk t).view.emb (ix2 p q))
  rw [emb_out t p q r hr]
  refine (pay_apply (iblk5 V c 2 t) (iblk5 V c 0 t) (iblk5 V c 1 t) (iblk5 V c 3 t) (iblk5 V c 4 t) p q).trans ?_
  exact norm_point (V c (Pipeline.arrRef spec5 0)) (V c (Pipeline.arrRef spec5 1)) (V c (Pipeline.arrRef spec5 2))
    (V c (Pipeline.arrRef spec5 3)) (V c (Pipeline.arrRef spec5 4)) r q _ _ _ _ _
    (read_in V c t p q r hr) (read_mean V c t q) (read_var V c t q) (read_scale V c t q) (read_shift V c t q)

/-- An index of the array is in point t's block iff each coordinate is in the block's range on its axis. -/
theorem mem_blk (t : Fin cfg5.N) (i : S50000x2.Idx) :
    i ∈ ((cfg5.win 5).blk t).view.set ↔ ∀ a : Fin 2, win5_5.index t a * S5000x2.size a ≤ (i a).val ∧ (i a).val < win5_5.index t a * S5000x2.size a + S5000x2.size a := by
  show i ∈ ((View.whole main_v81).slice (win5_5.rect t)).set ↔ _
  rw [View.set_slice_whole, Rect.mem_set_unit]
  exact Iff.rfl

/-- Every row r of the array lies in the block of point r / 5000, and every point writes its block back. -/
theorem cover (i : S50000x2.Idx) :
    ∃ t : Fin cfg5.N, (cfg5.win 5).flush t = true ∧ i ∈ ((cfg5.win 5).blk t).view.set := by
  have hi0 : (i 0).val < 50000 := (i 0).isLt
  have hi1 : (i 1).val < 2 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, -, -, -, -, -, -, e50, e51⟩ := idx_facts t
  refine ⟨t, flush5_5 t, ?_⟩
  rw [mem_blk]
  intro a
  match a with
  | ⟨0, _⟩ =>
    show win5_5.index t (0 : Fin 2) * 5000 ≤ (i 0).val ∧ (i 0).val < win5_5.index t (0 : Fin 2) * 5000 + 5000
    omega
  | ⟨1, _⟩ =>
    show win5_5.index t (1 : Fin 2) * 2 ≤ (i 1).val ∧ (i 1).val < win5_5.index t (1 : Fin 2) * 2 + 2
    omega

/-- The result array after the region is the normalised array: every row lies in some point's block. -/
theorem arr5 : (Gen.dat5 (F := Ideal) V c).arrAt 5 cfg5.N = Cert.Spec.norm (V c (Pipeline.arrRef spec5 0)) (V c (Pipeline.arrRef spec5 1)) (V c (Pipeline.arrRef spec5 2)) (V c (Pipeline.arrRef spec5 3)) (V c (Pipeline.arrRef spec5 4)) :=
  (dat5 (F := Ideal) V c).arrAt_eq_of_cover 5 (G V c) (fun t _ => flushed_eq V c t) cover

end Cert.KernelIdeal.Norm5
end
-- ==== Proof.Chain.lean ====
/-
  The program's result as one function of its arguments.  Each of the six kernels' output arrays is, as proved kernel by
  kernel, the perceptron's value (with its column sums and column sums of squares) or the normalised array of what the
  kernel finds in its input arrays; with these twelve facts the walk through the run gives the result:
      layer₃( layer₂( layer₁(x) ) ),   layerₖ(y) = normalise( mlp(y, agg y e) )  with the k-th weights,
  every layer over the same edge table e.
-/
import proofs.«144821_j2645699854452_1_alg».proof.Proof.ChainOut
import proofs.«144821_j2645699854452_1_alg».proof.Proof.Layer0
import proofs.«144821_j2645699854452_1_alg».proof.Proof.Layer2
import proofs.«144821_j2645699854452_1_alg».proof.Proof.Layer4
import proofs.«144821_j2645699854452_1_alg».proof.Proof.Norm1
import proofs.«144821_j2645699854452_1_alg».proof.Proof.Norm3
import proofs.«144821_j2645699854452_1_alg».proof.Proof.Norm5

set_option maxRecDepth 16384

noncomputable section

namespace Cert.KernelIdeal.Chain

open Idealize.ShloMosaic Idealize.ShloMosaic.TcCoe Idealize.ShloMosaic.Tactic
open Cert.KernelIdeal Cert.KernelIdeal.Gen Cert.Spec

/-! ## The twelve facts, each in the form the walk uses -/

set_option maxHeartbeats 1000000 in
theorem f0_H (V : Entry) (c : Dev nD) : out0_6 V c = inH0 V c := by
  unfold out0_6 inH0
  exact Layer0.arr6 V c
set_option maxHeartbeats 1000000 in
theorem f0_s (V : Entry) (c : Dev nD) : out0_7 V c = colSum (inH0 V c) := by
  unfold out0_7 inH0
  exact Layer0.arr7 V c
set_option maxHeartbeats 1000000 in
theorem f0_ss (V : Entry) (c : Dev nD) : out0_8 V c = colSumSq (inH0 V c) := by
  unfold out0_8 inH0
  exact Layer0.arr8 V c
set_option maxHeartbeats 1000000 in
theorem f1_N (V : Entry) (c : Dev nD) : out1_5 V c = inN1 V c := by
  unfold out1_5 inN1
  exact Norm1.arr5 V c

set_option maxHeartbeats 1000000 in
theorem f2_H (V : Entry) (c : Dev nD) : out2_6 V c = inH2 V c := by
  unfold out2_6 inH2
  exact Layer2.arr6 V c
set_option maxHeartbeats 1000000 in
theorem f2_s (V : Entry) (c : Dev nD) : out2_7 V c = colSum (inH2 V c) := by
  unfold out2_7 inH2
  exact Layer2.arr7 V c
set_option maxHeartbeats 1000000 in
theorem f2_ss (V : Entry) (c : Dev nD) : out2_8 V c = colSumSq (inH2 V c) := by
  unfold out2_8 inH2
  exact Layer2.arr8 V c
set_option maxHeartbeats 1000000 in
theorem f3_N (V : Entry) (c : Dev nD) : out3_5 V c = inN3 V c := by
  unfold out3_5 inN3
  exact Norm3.arr5 V c

set_option maxHeartbeats 1000000 in
theorem f4_H (V : Entry) (c : Dev nD) : out4_6 V c = inH4 V c := by
  unfold out4_6 inH4
  exact Layer4.arr6 V c
set_option maxHeartbeats 1000000 in
theorem f4_s (V : Entry) (c : Dev nD) : out4_7 V c = colSum (inH4 V c) := by
  unfold out4_7 inH4
  exact Layer4.arr7 V c
set_option maxHeartbeats 1000000 in
theorem f4_ss (V : Entry) (c : Dev nD) : out4_8 V c = colSumSq (inH4 V c) := by
  unfold out4_8 inH4
  exact Layer4.arr8 V c
set_option maxHeartbeats 1000000 in
theorem f5_N (V : Entry) (c : Dev nD) : out5_5 V c = inN5 V c := by
  unfold out5_5 inN5
  exact Norm5.arr5 V c

/-- Every kernel's output arrays, as proved kernel by kernel. -/
theorem regionFacts : RegionFacts :=
  ⟨f0_H, f0_s, f0_ss, f1_N, f2_H, f2_s, f2_ss, f3_N, f4_H, f4_s, f4_ss, f5_N⟩

end Cert.KernelIdeal.Chain

open Idealize.ShloMosaic in
/-- The idealized kernel's result: three layers, each the normalised perceptron of its input and of that input's
    neighbourhood sums over the edge table. -/
theorem Cert.KernelIdeal.Chain.out :
    ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Cert.KernelIdeal.Gen.W12 (F := Ideal) m ρ c (Proc.devRef .tc Cert.KernelIdeal.main_v81) = Cert.Spec.layerK (Cert.Spec.layerK (Cert.Spec.layerK (m ((c.tc : Thread Cert.KernelIdeal.nD Cert.KernelIdeal.τ).loc Cert.KernelIdeal.main_arg0)) (Cert.KernelIdeal.Agg.agg (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.KernelIdeal.Agg.agg (Cert.Spec.layerK (m ((c.tc : Thread Cert.KernelIdeal.nD Cert.KernelIdeal.τ).loc Cert.KernelIdeal.main_arg0)) (Cert.KernelIdeal.Agg.agg (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg1))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (Cert.KernelIdeal.Agg.agg (Cert.Spec.layerK (Cert.Spec.layerK (m ((c.tc : Thread Cert.KernelIdeal.nD Cert.KernelIdeal.τ).loc Cert.KernelIdeal.main_arg0)) (Cert.KernelIdeal.Agg.agg (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.KernelIdeal.Agg.agg (Cert.Spec.layerK (m ((c.tc : Thread Cert.KernelIdeal.nD Cert.KernelIdeal.τ).loc Cert.KernelIdeal.main_arg0)) (Cert.KernelIdeal.Agg.agg (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg1))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (m ((c.tc : Thread Cert.KernelIdeal.nD Cert.KernelIdeal.τ).loc Cert.KernelIdeal.main_arg1))) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) :=
  fun m ρ c => Cert.KernelIdeal.Chain.out_of m ρ c Cert.KernelIdeal.Chain.regionFacts

end
-- ==== Proof.RefOps.lean ====
/- The reference program's @main as a list of its 220 host operations, the three calls of the variance
   function (and, inside each, of the guarded select) written out at their call sites over the call's own
   buffers. The list is cut at the two normalised intermediate outputs: three graph-network layers, each
   aggregate → two affine maps with relu → column mean and variance → normalise, scale and shift. -/
import proofs.«144821_j2645699854452_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Layer 1: the edge endpoints, the neighbour sum, the two-layer perceptron, the column mean and (population) variance, and the normalised output `main_v45`. 76 operations. -/
abbrev ops1 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S600000x1 ![0] bcast_S600000_S600000x1_0 : (⟨S600000, .i32⟩ : BufTy).Contents (Elt F) → (⟨S600000x1, .i32⟩ : BufTy).Contents (Elt F)),
    StableHlo.ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_arg0 main_v13 main_v14 (addf : (⟨S50000x128, .f32⟩ : BufTy).Contents (Elt F) → (⟨S50000x128, .f32⟩ : BufTy).Contents (Elt F) → (⟨S50000x128, .f32⟩ : BufTy).Contents (Elt F)),
    StableHlo.binary main_v14 main_arg2 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S50000x128 ![0, 1] bcast_S1x128_S50000x128_0_1 : (⟨S1x128, .f32⟩ : BufTy).Contents (Elt F) → (⟨S50000x128, .f32⟩ : BufTy).Contents (Elt F)),
    StableHlo.binary main_v15 main_v17 main_v18 (addf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x00000000#32),
    StableHlo.unary main_cst_1 main_v19 (broadcastInDim S50000x128 ![] bcast_S_S50000x128 : (⟨S_, .f32⟩ : BufTy).Contents (Elt F) → (⟨S50000x128, .f32⟩ : BufTy).Contents (Elt F)),
    StableHlo.binary main_v18 main_v19 main_v20 (maximumf : (⟨S50000x128, .f32⟩ : BufTy).Contents (Elt F) → (⟨S50000x128, .f32⟩ : BufTy).Contents (Elt F) → (⟨S50000x128, .f32⟩ : BufTy).Contents (Elt F)),
    StableHlo.binary main_v20 main_arg4 main_v21 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S50000x128 ![0, 1] bcast_S1x128_S50000x128_0_1 : (⟨S1x128, .f32⟩ : BufTy).Contents (Elt F) → (⟨S50000x128, .f32⟩ : BufTy).Contents (Elt F)),
    StableHlo.binary main_v21 main_v23 main_v24 (addf : (⟨S50000x128, .f32⟩ : BufTy).Contents (Elt F) → (⟨S50000x128, .f32⟩ : BufTy).Contents (Elt F) → (⟨S50000x128, .f32⟩ : BufTy).Contents (Elt F)),
    StableHlo.nullary main_cst_2 (constant S_ .f32 0x00000000#32),
    StableHlo.unary main_cst_2 main_v25 (broadcastInDim S50000x128 ![] bcast_S_S50000x128 : (⟨S_, .f32⟩ : BufTy).Contents (Elt F) → (⟨S50000x128, .f32⟩ : BufTy).Contents (Elt F)),
    StableHlo.binary main_v24 main_v25 main_v26 (maximumf : (⟨S50000x128, .f32⟩ : BufTy).Contents (Elt F) → (⟨S50000x128, .f32⟩ : BufTy).Contents (Elt F) → (⟨S50000x128, .f32⟩ : BufTy).Contents (Elt F)),
    StableHlo.nullary main_cst_3 (constant S_ .f32 0x00000000#32),
    StableHlo.binary main_v26 main_cst_3 main_v27 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_4 (constant S_ .f32 0x47435000#32),
    StableHlo.unary main_cst_4 main_v28 (broadcastInDim S128 ![] bcast_S_S128 : (⟨S_, .f32⟩ : BufTy).Contents (Elt F) → (⟨S128, .f32⟩ : BufTy).Contents (Elt F)),
    StableHlo.binary main_v27 main_v28 main_v29 (Host.divf : (⟨S128, .f32⟩ : BufTy).Contents (Elt F) → (⟨S128, .f32⟩ : BufTy).Contents (Elt F) → (⟨S128, .f32⟩ : BufTy).Contents (Elt F)),
    StableHlo.nullary main_c_5 (constantI S_ 32 0#32),
    StableHlo.TRef.nullary main_call0.cst (constant S_ .f32 0x00000000#32),
    StableHlo.TRef.binary (.of main_v26) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v26) main_call0.v4 main_call0.v5 subf,
    StableHlo.TRef.binary main_call0.v5 main_call0.v5 main_call0.v6 mulf,
    StableHlo.TRef.unary (.of main_c_5) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v29 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S50000x128 ![0, 1] bcast_S1x128_S50000x128_0_1 : (⟨S1x128, .f32⟩ : BufTy).Contents (Elt F) → (⟨S50000x128, .f32⟩ : BufTy).Contents (Elt F)),
    StableHlo.binary main_v26 main_v32 main_v33 (subf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x3727C5AC#32),
    StableHlo.unary main_cst_6 main_v34 (broadcastInDim S128 ![] bcast_S_S128 : (⟨S_, .f32⟩ : BufTy).Contents (Elt F) → (⟨S128, .f32⟩ : BufTy).Contents (Elt F)),
    StableHlo.binary main_v30 main_v34 main_v35 (addf : (⟨S128, .f32⟩ : BufTy).Contents (Elt F) → (⟨S128, .f32⟩ : BufTy).Contents (Elt F) → (⟨S128, .f32⟩ : BufTy).Contents (Elt F)),
    StableHlo.unary main_v35 main_v36 (Host.rsqrt : (⟨S128, .f32⟩ : BufTy).Contents (Elt F) → (⟨S128, .f32⟩ : BufTy).Contents (Elt F)),
    StableHlo.unary main_v36 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S50000x128 ![0, 1] bcast_S1x128_S50000x128_0_1 : (⟨S1x128, .f32⟩ : BufTy).Contents (Elt F) → (⟨S50000x128, .f32⟩ : BufTy).Contents (Elt F)),
    StableHlo.binary main_v33 main_v38 main_v39 (mulf : (⟨S50000x128, .f32⟩ : BufTy).Contents (Elt F) → (⟨S50000x128, .f32⟩ : BufTy).Contents (Elt F) → (⟨S50000x128, .f32⟩ : BufTy).Contents (Elt F)),
    StableHlo.unary main_arg6 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v41 main_v42 (mulf : (⟨S50000x128, .f32⟩ : BufTy).Contents (Elt F) → (⟨S50000x128, .f32⟩ : BufTy).Contents (Elt F) → (⟨S50000x128, .f32⟩ : BufTy).Contents (Elt F)),
    StableHlo.unary main_arg7 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v42 main_v44 main_v45 (addf : (⟨S50000x128, .f32⟩ : BufTy).Contents (Elt F) → (⟨S50000x128, .f32⟩ : BufTy).Contents (Elt F) → (⟨S50000x128, .f32⟩ : BufTy).Contents (Elt F)) ]

/-- Layer 2, reading `main_v45`: the same chain with the second layer's parameters; its normalised output is `main_v87`. 72 operations. -/
abbrev ops2 : List (HloOp τ sig (Elt F)) :=
  [ StableHlo.nullary main_c_7 (constantI S_ 32 0#32),
    StableHlo.unary main_c_7 main_v46 (broadcastInDim S600000 ![] bcast_S_S600000 : (⟨S_, .i32⟩ : BufTy).Contents (Elt F) → (⟨S600000, .i32⟩ : BufTy).Contents (Elt F)),
    StableHlo.binary main_v1 main_v46 main_v47 (cmpi .slt : (⟨S600000, .i32⟩ : BufTy).Contents (Elt F) → (⟨S600000, .i32⟩ : BufTy).Contents (Elt F) → (⟨S600000, .i1⟩ : BufTy).Contents (Elt F)),
    StableHlo.nullary main_c_8 (constantI S_ 32 50000#32),
    StableHlo.unary main_c_8 main_v48 (broadcastInDim S600000 ![] bcast_S_S600000 : (⟨S_, .i32⟩ : BufTy).Contents (Elt F) → (⟨S600000, .i32⟩ : BufTy).Contents (Elt F)),
    StableHlo.binary main_v1 main_v48 main_v49 (addi : (⟨S600000, .i32⟩ : BufTy).Contents (Elt F) → (⟨S600000, .i32⟩ : BufTy).Contents (Elt F) → (⟨S600000, .i32⟩ : BufTy).Contents (Elt F)),
    StableHlo.ternary main_v47 main_v49 main_v1 main_v50 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v50 main_v51 (broadcastInDim S600000x1 ![0] bcast_S600000_S600000x1_0 : (⟨S600000, .i32⟩ : BufTy).Contents (Elt F) → (⟨S600000x1, .i32⟩ : BufTy).Contents (Elt F)),
    StableHlo.binary main_v45 main_v51 main_v52 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_9 (constant S_ .f32 0x00000000#32),
    StableHlo.unary main_cst_9 main_v53 (broadcastInDim S50000x128 ![] bcast_S_S50000x128 : (⟨S_, .f32⟩ : BufTy).Contents (Elt F) → (⟨S50000x128, .f32⟩ : BufTy).Contents (Elt F)),
    StableHlo.unary main_v3 main_v54 (broadcastInDim S600000x1 ![0] bcast_S600000_S600000x1_0 : (⟨S600000, .i32⟩ : BufTy).Contents (Elt F) → (⟨S600000x1, .i32⟩ : BufTy).Contents (Elt F)),
    StableHlo.ternary main_v53 main_v54 main_v52 main_v55 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v45 main_v55 main_v56 (addf : (⟨S50000x128, .f32⟩ : BufTy).Contents (Elt F) → (⟨S50000x128, .f32⟩ : BufTy).Contents (Elt F) → (⟨S50000x128, .f32⟩ : BufTy).Contents (Elt F)),
    StableHlo.binary main_v56 main_arg8 main_v57 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S50000x128 ![0, 1] bcast_S1x128_S50000x128_0_1 : (⟨S1x128, .f32⟩ : BufTy).Contents (Elt F) → (⟨S50000x128, .f32⟩ : BufTy).Contents (Elt F)),
    StableHlo.binary main_v57 main_v59 main_v60 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x00000000#32),
    StableHlo.unary main_cst_10 main_v61 (broadcastInDim S50000x128 ![] bcast_S_S50000x128 : (⟨S_, .f32⟩ : BufTy).Contents (Elt F) → (⟨S50000x128, .f32⟩ : BufTy).Contents (Elt F)),
    StableHlo.binary main_v60 main_v61 main_v62 (maximumf : (⟨S50000x128, .f32⟩ : BufTy).Contents (Elt F) → (⟨S50000x128, .f32⟩ : BufTy).Contents (Elt F) → (⟨S50000x128, .f32⟩ : BufTy).Contents (Elt F)),
    StableHlo.binary main_v62 main_arg10 main_v63 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v65 main_v66 (addf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x00000000#32),
    StableHlo.unary main_cst_11 main_v67 (broadcastInDim S50000x128 ![] bcast_S_S50000x128 : (⟨S_, .f32⟩ : BufTy).Contents (Elt F) → (⟨S50000x128, .f32⟩ : BufTy).Contents (Elt F)),
    StableHlo.binary main_v66 main_v67 main_v68 (maximumf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x00000000#32),
    StableHlo.binary main_v68 main_cst_12 main_v69 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_13 (constant S_ .f32 0x47435000#32),
    StableHlo.unary main_cst_13 main_v70 (broadcastInDim S128 ![] bcast_S_S128 : (⟨S_, .f32⟩ : BufTy).Contents (Elt F) → (⟨S128, .f32⟩ : BufTy).Contents (Elt F)),
    StableHlo.binary main_v69 main_v70 main_v71 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call1.cst (constant S_ .f32 0x00000000#32),
    StableHlo.TRef.binary (.of main_v68) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v68) main_call1.v4 main_call1.v5 subf,
    StableHlo.TRef.binary main_call1.v5 main_call1.v5 main_call1.v6 mulf,
    StableHlo.TRef.unary (.of main_c_14) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v71 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S50000x128 ![0, 1] bcast_S1x128_S50000x128_0_1 : (⟨S1x128, .f32⟩ : BufTy).Contents (Elt F) → (⟨S50000x128, .f32⟩ : BufTy).Contents (Elt F)),
    StableHlo.binary main_v68 main_v74 main_v75 (subf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x3727C5AC#32),
    StableHlo.unary main_cst_15 main_v76 (broadcastInDim S128 ![] bcast_S_S128 : (⟨S_, .f32⟩ : BufTy).Contents (Elt F) → (⟨S128, .f32⟩ : BufTy).Contents (Elt F)),
    StableHlo.binary main_v72 main_v76 main_v77 (addf : (⟨S128, .f32⟩ : BufTy).Contents (Elt F) → (⟨S128, .f32⟩ : BufTy).Contents (Elt F) → (⟨S128, .f32⟩ : BufTy).Contents (Elt F)),
    StableHlo.unary main_v77 main_v78 (Host.rsqrt : (⟨S128, .f32⟩ : BufTy).Contents (Elt F) → (⟨S128, .f32⟩ : BufTy).Contents (Elt F)),
    StableHlo.unary main_v78 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S50000x128 ![0, 1] bcast_S1x128_S50000x128_0_1 : (⟨S1x128, .f32⟩ : BufTy).Contents (Elt F) → (⟨S50000x128, .f32⟩ : BufTy).Contents (Elt F)),
    StableHlo.binary main_v75 main_v80 main_v81 (mulf : (⟨S50000x128, .f32⟩ : BufTy).Contents (Elt F) → (⟨S50000x128, .f32⟩ : BufTy).Contents (Elt F) → (⟨S50000x128, .f32⟩ : BufTy).Contents (Elt F)),
    StableHlo.unary main_arg12 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v81 main_v83 main_v84 (mulf : (⟨S50000x128, .f32⟩ : BufTy).Contents (Elt F) → (⟨S50000x128, .f32⟩ : BufTy).Contents (Elt F) → (⟨S50000x128, .f32⟩ : BufTy).Contents (Elt F)),
    StableHlo.unary main_arg13 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S50000x128 ![0, 1] bcast_S1x128_S50000x128_0_1 : (⟨S1x128, .f32⟩ : BufTy).Contents (Elt F) → (⟨S50000x128, .f32⟩ : BufTy).Contents (Elt F)),
    StableHlo.binary main_v84 main_v86 main_v87 (addf : (⟨S50000x128, .f32⟩ : BufTy).Contents (Elt F) → (⟨S50000x128, .f32⟩ : BufTy).Contents (Elt F) → (⟨S50000x128, .f32⟩ : BufTy).Contents (Elt F)) ]

/-- Layer 3, reading `main_v87`: the same chain with output width 2; the program's result is `main_v129`. 72 operations. -/
abbrev ops3 : List (HloOp τ sig (Elt F)) :=
  [ StableHlo.nullary main_c_16 (constantI S_ 32 0#32),
    StableHlo.unary main_c_16 main_v88 (broadcastInDim S600000 ![] bcast_S_S600000 : (⟨S_, .i32⟩ : BufTy).Contents (Elt F) → (⟨S600000, .i32⟩ : BufTy).Contents (Elt F)),
    StableHlo.binary main_v1 main_v88 main_v89 (cmpi .slt : (⟨S600000, .i32⟩ : BufTy).Contents (Elt F) → (⟨S600000, .i32⟩ : BufTy).Contents (Elt F) → (⟨S600000, .i1⟩ : BufTy).Contents (Elt F)),
    StableHlo.nullary main_c_17 (constantI S_ 32 50000#32),
    StableHlo.unary main_c_17 main_v90 (broadcastInDim S600000 ![] bcast_S_S600000 : (⟨S_, .i32⟩ : BufTy).Contents (Elt F) → (⟨S600000, .i32⟩ : BufTy).Contents (Elt F)),
    StableHlo.binary main_v1 main_v90 main_v91 (addi : (⟨S600000, .i32⟩ : BufTy).Contents (Elt F) → (⟨S600000, .i32⟩ : BufTy).Contents (Elt F) → (⟨S600000, .i32⟩ : BufTy).Contents (Elt F)),
    StableHlo.ternary main_v89 main_v91 main_v1 main_v92 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v92 main_v93 (broadcastInDim S600000x1 ![0] bcast_S600000_S600000x1_0 : (⟨S600000, .i32⟩ : BufTy).Contents (Elt F) → (⟨S600000x1, .i32⟩ : BufTy).Contents (Elt F)),
    StableHlo.binary main_v87 main_v93 main_v94 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_18 (constant S_ .f32 0x00000000#32),
    StableHlo.unary main_cst_18 main_v95 (broadcastInDim S50000x128 ![] bcast_S_S50000x128 : (⟨S_, .f32⟩ : BufTy).Contents (Elt F) → (⟨S50000x128, .f32⟩ : BufTy).Contents (Elt F)),
    StableHlo.unary main_v3 main_v96 (broadcastInDim S600000x1 ![0] bcast_S600000_S600000x1_0 : (⟨S600000, .i32⟩ : BufTy).Contents (Elt F) → (⟨S600000x1, .i32⟩ : BufTy).Contents (Elt F)),
    StableHlo.ternary main_v95 main_v96 main_v94 main_v97 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v87 main_v97 main_v98 (addf : (⟨S50000x128, .f32⟩ : BufTy).Contents (Elt F) → (⟨S50000x128, .f32⟩ : BufTy).Contents (Elt F) → (⟨S50000x128, .f32⟩ : BufTy).Contents (Elt F)),
    StableHlo.binary main_v98 main_arg14 main_v99 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg15 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S50000x128 ![0, 1] bcast_S1x128_S50000x128_0_1 : (⟨S1x128, .f32⟩ : BufTy).Contents (Elt F) → (⟨S50000x128, .f32⟩ : BufTy).Contents (Elt F)),
    StableHlo.binary main_v99 main_v101 main_v102 (addf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x00000000#32),
    StableHlo.unary main_cst_19 main_v103 (broadcastInDim S50000x128 ![] bcast_S_S50000x128 : (⟨S_, .f32⟩ : BufTy).Contents (Elt F) → (⟨S50000x128, .f32⟩ : BufTy).Contents (Elt F)),
    StableHlo.binary main_v102 main_v103 main_v104 (maximumf : (⟨S50000x128, .f32⟩ : BufTy).Contents (Elt F) → (⟨S50000x128, .f32⟩ : BufTy).Contents (Elt F) → (⟨S50000x128, .f32⟩ : BufTy).Contents (Elt F)),
    StableHlo.binary main_v104 main_arg16 main_v105 ((fun l r => Host.dotGeneral dot_S50000x128_S128x2_S50000x2_1_0_0_1_n_n none l r) : (⟨S50000x128, .f32⟩ : BufTy).Contents (Elt F) → (⟨S128x2, .f32⟩ : BufTy).Contents (Elt F) → (⟨S50000x2, .f32⟩ : BufTy).Contents (Elt F)),
    StableHlo.unary main_arg17 main_v106 (broadcastInDim S1x2 ![1] bcast_S2_S1x2_1 : (⟨S2, .f32⟩ : BufTy).Contents (Elt F) → (⟨S1x2, .f32⟩ : BufTy).Contents (Elt F)),
    StableHlo.unary main_v106 main_v107 (broadcastInDim S50000x2 ![0, 1] bcast_S1x2_S50000x2_0_1 : (⟨S1x2, .f32⟩ : BufTy).Contents (Elt F) → (⟨S50000x2, .f32⟩ : BufTy).Contents (Elt F)),
    StableHlo.binary main_v105 main_v107 main_v108 (addf : (⟨S50000x2, .f32⟩ : BufTy).Contents (Elt F) → (⟨S50000x2, .f32⟩ : BufTy).Contents (Elt F) → (⟨S50000x2, .f32⟩ : BufTy).Contents (Elt F)),
    StableHlo.nullary main_cst_20 (constant S_ .f32 0x00000000#32),
    StableHlo.unary main_cst_20 main_v109 (broadcastInDim S50000x2 ![] bcast_S_S50000x2 : (⟨S_, .f32⟩ : BufTy).Contents (Elt F) → (⟨S50000x2, .f32⟩ : BufTy).Contents (Elt F)),
    StableHlo.binary main_v108 main_v109 main_v110 (maximumf : (⟨S50000x2, .f32⟩ : BufTy).Contents (Elt F) → (⟨S50000x2, .f32⟩ : BufTy).Contents (Elt F) → (⟨S50000x2, .f32⟩ : BufTy).Contents (Elt F)),
    StableHlo.nullary main_cst_21 (constant S_ .f32 0x00000000#32),
    StableHlo.binary main_v110 main_cst_21 main_v111 ((fun x v => Host.reduceAdd x v reducesTo_S50000x2_S2_d0 h_S_) : (⟨S50000x2, .f32⟩ : BufTy).Contents (Elt F) → (⟨S_, .f32⟩ : BufTy).Contents (Elt F) → (⟨S2, .f32⟩ : BufTy).Contents (Elt F)),
    StableHlo.nullary main_cst_22 (constant S_ .f32 0x47435000#32),
    StableHlo.unary main_cst_22 main_v112 (broadcastInDim S2 ![] bcast_S_S2 : (⟨S_, .f32⟩ : BufTy).Contents (Elt F) → (⟨S2, .f32⟩ : BufTy).Contents (Elt F)),
    StableHlo.binary main_v111 main_v112 main_v113 (Host.divf : (⟨S2, .f32⟩ : BufTy).Contents (Elt F) → (⟨S2, .f32⟩ : BufTy).Contents (Elt F) → (⟨S2, .f32⟩ : BufTy).Contents (Elt F)),
    StableHlo.nullary main_c_23 (constantI S_ 32 0#32),
    StableHlo.TRef.nullary main_call2.cst (constant S_ .f32 0x00000000#32),
    StableHlo.TRef.binary (.of main_v110) main_call2.cst main_call2.v0 (fun x v => Host.reduceAdd x v reducesTo_S50000x2_S2_d0 h_S_),
    StableHlo.TRef.unary main_call2.v0 main_call2.v1 (broadcastInDim S1x2 ![1] bcast_S2_S1x2_1),
    StableHlo.TRef.nullary main_call2.cst_0 (constant S_ .f32 0x47435000#32),
    StableHlo.TRef.unary main_call2.cst_0 main_call2.v2 (broadcastInDim S1x2 ![] bcast_S_S1x2),
    StableHlo.TRef.binary main_call2.v1 main_call2.v2 main_call2.v3 Host.divf,
    StableHlo.TRef.unary main_call2.v3 main_call2.v4 (broadcastInDim S50000x2 ![0, 1] bcast_S1x2_S50000x2_0_1),
    StableHlo.TRef.binary (.of main_v110) main_call2.v4 main_call2.v5 subf,
    StableHlo.TRef.binary main_call2.v5 main_call2.v5 main_call2.v6 mulf,
    StableHlo.TRef.unary (.of main_c_23) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x2_S2_d0 h_S_),
    StableHlo.TRef.unary main_call2.v8 main_call2.v10 (broadcastInDim S2 ![] bcast_S_S2),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S2 ![] bcast_S_S2),
    StableHlo.TRef.ternary main_call2.v12 main_call2.v11 main_call2.call0.v1 main_call2.call0.v2 (fun p a b => select (broadcastInDim S2 ![] bcast_S_S2 p) a b),
    StableHlo.unary main_v113 main_v115 (broadcastInDim S1x2 ![1] bcast_S2_S1x2_1 : (⟨S2, .f32⟩ : BufTy).Contents (Elt F) → (⟨S1x2, .f32⟩ : BufTy).Contents (Elt F)),
    StableHlo.unary main_v115 main_v116 (broadcastInDim S50000x2 ![0, 1] bcast_S1x2_S50000x2_0_1 : (⟨S1x2, .f32⟩ : BufTy).Contents (Elt F) → (⟨S50000x2, .f32⟩ : BufTy).Contents (Elt F)),
    StableHlo.binary main_v110 main_v116 main_v117 (subf : (⟨S50000x2, .f32⟩ : BufTy).Contents (Elt F) → (⟨S50000x2, .f32⟩ : BufTy).Contents (Elt F) → (⟨S50000x2, .f32⟩ : BufTy).Contents (Elt F)),
    StableHlo.nullary main_cst_24 (constant S_ .f32 0x3727C5AC#32),
    StableHlo.unary main_cst_24 main_v118 (broadcastInDim S2 ![] bcast_S_S2 : (⟨S_, .f32⟩ : BufTy).Contents (Elt F) → (⟨S2, .f32⟩ : BufTy).Contents (Elt F)),
    StableHlo.binary main_v114 main_v118 main_v119 (addf : (⟨S2, .f32⟩ : BufTy).Contents (Elt F) → (⟨S2, .f32⟩ : BufTy).Contents (Elt F) → (⟨S2, .f32⟩ : BufTy).Contents (Elt F)),
    StableHlo.unary main_v119 main_v120 (Host.rsqrt : (⟨S2, .f32⟩ : BufTy).Contents (Elt F) → (⟨S2, .f32⟩ : BufTy).Contents (Elt F)),
    StableHlo.unary main_v120 main_v121 (broadcastInDim S1x2 ![1] bcast_S2_S1x2_1 : (⟨S2, .f32⟩ : BufTy).Contents (Elt F) → (⟨S1x2, .f32⟩ : BufTy).Contents (Elt F)),
    StableHlo.unary main_v121 main_v122 (broadcastInDim S50000x2 ![0, 1] bcast_S1x2_S50000x2_0_1 : (⟨S1x2, .f32⟩ : BufTy).Contents (Elt F) → (⟨S50000x2, .f32⟩ : BufTy).Contents (Elt F)),
    StableHlo.binary main_v117 main_v122 main_v123 (mulf : (⟨S50000x2, .f32⟩ : BufTy).Contents (Elt F) → (⟨S50000x2, .f32⟩ : BufTy).Contents (Elt F) → (⟨S50000x2, .f32⟩ : BufTy).Contents (Elt F)),
    StableHlo.unary main_arg18 main_v124 (broadcastInDim S1x2 ![1] bcast_S2_S1x2_1 : (⟨S2, .f32⟩ : BufTy).Contents (Elt F) → (⟨S1x2, .f32⟩ : BufTy).Contents (Elt F)),
    StableHlo.unary main_v124 main_v125 (broadcastInDim S50000x2 ![0, 1] bcast_S1x2_S50000x2_0_1 : (⟨S1x2, .f32⟩ : BufTy).Contents (Elt F) → (⟨S50000x2, .f32⟩ : BufTy).Contents (Elt F)),
    StableHlo.binary main_v123 main_v125 main_v126 (mulf : (⟨S50000x2, .f32⟩ : BufTy).Contents (Elt F) → (⟨S50000x2, .f32⟩ : BufTy).Contents (Elt F) → (⟨S50000x2, .f32⟩ : BufTy).Contents (Elt F)),
    StableHlo.unary main_arg19 main_v127 (broadcastInDim S1x2 ![1] bcast_S2_S1x2_1 : (⟨S2, .f32⟩ : BufTy).Contents (Elt F) → (⟨S1x2, .f32⟩ : BufTy).Contents (Elt F)),
    StableHlo.unary main_v127 main_v128 (broadcastInDim S50000x2 ![0, 1] bcast_S1x2_S50000x2_0_1 : (⟨S1x2, .f32⟩ : BufTy).Contents (Elt F) → (⟨S50000x2, .f32⟩ : BufTy).Contents (Elt F)),
    StableHlo.binary main_v126 main_v128 main_v129 (addf : (⟨S50000x2, .f32⟩ : BufTy).Contents (Elt F) → (⟨S50000x2, .f32⟩ : BufTy).Contents (Elt F) → (⟨S50000x2, .f32⟩ : BufTy).Contents (Elt F)) ]

/-- @main's 220 operations, in order. -/
abbrev ops : List (HloOp τ sig (Elt F)) := ops1 ++ ops2 ++ ops3

end Cert.ReferenceIdeal.RefRun

end
-- ==== Proof.RefMain.lean ====
/- The reference program's run: @main is the straight line of its 220 operations (the called functions
   unfolded at their calls), so every weakly fair execution terminates with each buffer at the operations'
   fold over the launch contents; the result buffer holds that fold, the twenty arguments are untouched. -/
import proofs.«144821_j2645699854452_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- 220 binds re-associated: the rewrite under the chain recurses once per statement
set_option maxRecDepth 16384 in
set_option maxHeartbeats 4000000 in
/-- @main is that straight line: the three windows run in order, the functions' definitions unfolded at their
    calls and the records at their fields; both sides are one chain of steps once sequencing is reassociated
    (a line run after a line is their concatenation run as one). -/
theorem main_eq (c : Dev nD) : main (F := F) c = seq ops := by
  show main (F := F) c = seq (ops1 ++ ops2 ++ ops3)
  rw [seq_append, seq_append]
  simp only [main, main_part0, main_part1, main_part2, fn_var.body, fn_var_0.body, fn_where.body, fn_where_1.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub ..⟩

theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..⟩

theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..⟩

/-- Everything any of the 220 operations touches is a TensorCore reference. -/
theorem ops_sub : (ops : List (HloOp τ sig (Elt F))).Forall fun op => op.bufs ⊆ tcRefs τ sig :=
  List.forall_append.mpr ⟨List.forall_append.mpr ⟨ops1_sub, ops2_sub⟩, ops3_sub⟩

/-- The contents after two lines in a row: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- One operation's written buffer is among the listed ones: an operation writes exactly its result buffer,
    found in the list by computation. -/
local macro "w1" : term =>
  `(by simp only [nullary_writes, unary_writes, binary_writes, ternary_writes, reshape_writes,
        Finset.singleton_subset_iff, List.mem_toFinset]; exact List.mem_map_of_mem (by decide))

/-- The buffers layer 1's operations write, in order. -/
abbrev ops1_W : List (Ref sig .tc) :=
  [main_v0, main_v1, main_v2, main_v3, main_c, main_v4, main_v5, main_c_0, main_v6, main_v7,
   main_v8, main_v9, main_v10, main_cst, main_v11, main_v12, main_v13, main_v14, main_v15, main_v16,
   main_v17, main_v18, main_cst_1, main_v19, main_v20, main_v21, main_v22, main_v23, main_v24, main_cst_2,
   main_v25, main_v26, main_cst_3, main_v27, main_cst_4, main_v28, main_v29, main_c_5, main_call0_cst, main_call0_v0,
   main_call0_v1, main_call0_cst_0, main_call0_v2, main_call0_v3, main_call0_v4, main_call0_v5, main_call0_v6, main_call0_v7, main_call0_cst_1, main_call0_v8,
   main_call0_cst_2, main_call0_v9, main_call0_v10, main_call0_v11, main_call0_cst_3, main_call0_v12, main_call0_cst_4, main_call0_call0_v0, main_call0_call0_v1, main_v30,
   main_v31, main_v32, main_v33, main_cst_6, main_v34, main_v35, main_v36, main_v37, main_v38, main_v39,
   main_v40, main_v41, main_v42, main_v43, main_v44, main_v45]

theorem ops1_writes : (ops1 : List (HloOp τ sig (Elt F))).Forall fun op =>
    op.writes ⊆ (ops1_W.map (Proc.devRef (τ := τ) .tc)).toFinset := by
  simp only [List.Forall]
  exact ⟨w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1⟩

/-- A buffer layer 1 does not write keeps its contents through it. -/
theorem ops1_keep (V : Valuation τ sig (Elt F)) (r : Ref sig .tc) (h : r ∉ ops1_W) :
    after ops1 V (Proc.devRef .tc r) = V (Proc.devRef .tc r) :=
  after_of_writes_sub ops1 _ ops1_writes h

/-- Every operation of layer 1 determines its results (none allocates). -/
theorem ops1_fresh : ∀ op ∈ (ops1 : List (HloOp τ sig (Elt F))), op.fresh = ∅ := by
  intro _ h; (repeat (cases h with | head => rfl | tail _ h => ?_)); exact nomatch h

/-- The buffers layer 2's operations write, in order. -/
abbrev ops2_W : List (Ref sig .tc) :=
  [main_c_7, main_v46, main_v47, main_c_8, main_v48, main_v49, main_v50, main_v51, main_v52, main_cst_9,
   main_v53, main_v54, main_v55, main_v56, main_v57, main_v58, main_v59, main_v60, main_cst_10, main_v61,
   main_v62, main_v63, main_v64, main_v65, main_v66, main_cst_11, main_v67, main_v68, main_cst_12, main_v69,
   main_cst_13, main_v70, main_v71, main_c_14, main_call1_cst, main_call1_v0, main_call1_v1, main_call1_cst_0, main_call1_v2, main_call1_v3,
   main_call1_v4, main_call1_v5, main_call1_v6, main_call1_v7, main_call1_cst_1, main_call1_v8, main_call1_cst_2, main_call1_v9, main_call1_v10, main_call1_v11,
   main_call1_cst_3, main_call1_v12, main_call1_cst_4, main_call1_call0_v0, main_call1_call0_v1, main_v72, main_v73, main_v74, main_v75, main_cst_15,
   main_v76, main_v77, main_v78, main_v79, main_v80, main_v81, main_v82, main_v83, main_v84, main_v85,
   main_v86, main_v87]

theorem ops2_writes : (ops2 : List (HloOp τ sig (Elt F))).Forall fun op =>
    op.writes ⊆ (ops2_W.map (Proc.devRef (τ := τ) .tc)).toFinset := by
  simp only [List.Forall]
  exact ⟨w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1⟩

/-- A buffer layer 2 does not write keeps its contents through it. -/
theorem ops2_keep (V : Valuation τ sig (Elt F)) (r : Ref sig .tc) (h : r ∉ ops2_W) :
    after ops2 V (Proc.devRef .tc r) = V (Proc.devRef .tc r) :=
  after_of_writes_sub ops2 _ ops2_writes h

/-- Every operation of layer 2 determines its results (none allocates). -/
theorem ops2_fresh : ∀ op ∈ (ops2 : List (HloOp τ sig (Elt F))), op.fresh = ∅ := by
  intro _ h; (repeat (cases h with | head => rfl | tail _ h => ?_)); exact nomatch h

/-- The buffers layer 3's operations write, in order. -/
abbrev ops3_W : List (Ref sig .tc) :=
  [main_c_16, main_v88, main_v89, main_c_17, main_v90, main_v91, main_v92, main_v93, main_v94, main_cst_18,
   main_v95, main_v96, main_v97, main_v98, main_v99, main_v100, main_v101, main_v102, main_cst_19, main_v103,
   main_v104, main_v105, main_v106, main_v107, main_v108, main_cst_20, main_v109, main_v110, main_cst_21, main_v111,
   main_cst_22, main_v112, main_v113, main_c_23, main_call2_cst, main_call2_v0, main_call2_v1, main_call2_cst_0, main_call2_v2, main_call2_v3,
   main_call2_v4, main_call2_v5, main_call2_v6, main_call2_v7, main_call2_cst_1, main_call2_v8, main_call2_cst_2, main_call2_v9, main_call2_v10, main_call2_v11,
   main_call2_cst_3, main_call2_v12, main_call2_cst_4, main_call2_call0_v0, main_call2_call0_v1, main_v114, main_v115, main_v116, main_v117, main_cst_24,
   main_v118, main_v119, main_v120, main_v121, main_v122, main_v123, main_v124, main_v125, main_v126, main_v127,
   main_v128, main_v129]

theorem ops3_writes : (ops3 : List (HloOp τ sig (Elt F))).Forall fun op =>
    op.writes ⊆ (ops3_W.map (Proc.devRef (τ := τ) .tc)).toFinset := by
  simp only [List.Forall]
  exact ⟨w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1⟩

/-- A buffer layer 3 does not write keeps its contents through it. -/
theorem ops3_keep (V : Valuation τ sig (Elt F)) (r : Ref sig .tc) (h : r ∉ ops3_W) :
    after ops3 V (Proc.devRef .tc r) = V (Proc.devRef .tc r) :=
  after_of_writes_sub ops3 _ ops3_writes h

/-- Every operation of layer 3 determines its results (none allocates). -/
theorem ops3_fresh : ∀ op ∈ (ops3 : List (HloOp τ sig (Elt F))), op.fresh = ∅ := by
  intro _ h; (repeat (cases h with | head => rfl | tail _ h => ?_)); exact nomatch h

/-- None of the 220 operations allocates. -/
theorem ops_fresh : ∀ op ∈ (ops : List (HloOp τ sig (Elt F))), op.fresh = ∅ := by
  intro op h
  rcases List.mem_append.mp h with h | h
  · rcases List.mem_append.mp h with h | h
    · exact ops1_fresh op h
    · exact ops2_fresh op h
  · exact ops3_fresh op h

/-- A buffer none of the three layers writes — each of the twenty arguments — keeps its contents through the program. -/
theorem arg_keep (V : Valuation τ sig (Elt F)) (r : Ref sig .tc) (h1 : r ∉ ops1_W) (h2 : r ∉ ops2_W) (h3 : r ∉ ops3_W) :
    after ops V (Proc.devRef .tc r) = V (Proc.devRef .tc r) := by
  show after (ops1 ++ ops2 ++ ops3) V (Proc.devRef .tc r) = V (Proc.devRef .tc r)
  rw [after_append, after_append, ops3_keep _ r h3, ops2_keep _ r h2, ops1_keep _ r h1]

/-- On every device, for any float values, from any memory with zero counters: every weakly fair execution of
    @main terminates with the result buffer at the 220 operations' fold over the device's launch contents and
    each of the twenty arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v129) = after ops (fun b => m ((c : Dev nD), b)) (Proc.devRef .tc main_v129)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨h c main_v129,
      (h c main_arg0).trans (arg_keep _ main_arg0 (by decide) (by decide) (by decide)),
      (h c main_arg1).trans (arg_keep _ main_arg1 (by decide) (by decide) (by decide)),
      (h c main_arg2).trans (arg_keep _ main_arg2 (by decide) (by decide) (by decide)),
      (h c main_arg3).trans (arg_keep _ main_arg3 (by decide) (by decide) (by decide)),
      (h c main_arg4).trans (arg_keep _ main_arg4 (by decide) (by decide) (by decide)),
      (h c main_arg5).trans (arg_keep _ main_arg5 (by decide) (by decide) (by decide)),
      (h c main_arg6).trans (arg_keep _ main_arg6 (by decide) (by decide) (by decide)),
      (h c main_arg7).trans (arg_keep _ main_arg7 (by decide) (by decide) (by decide)),
      (h c main_arg8).trans (arg_keep _ main_arg8 (by decide) (by decide) (by decide)),
      (h c main_arg9).trans (arg_keep _ main_arg9 (by decide) (by decide) (by decide)),
      (h c main_arg10).trans (arg_keep _ main_arg10 (by decide) (by decide) (by decide)),
      (h c main_arg11).trans (arg_keep _ main_arg11 (by decide) (by decide) (by decide)),
      (h c main_arg12).trans (arg_keep _ main_arg12 (by decide) (by decide) (by decide)),
      (h c main_arg13).trans (arg_keep _ main_arg13 (by decide) (by decide) (by decide)),
      (h c main_arg14).trans (arg_keep _ main_arg14 (by decide) (by decide) (by decide)),
      (h c main_arg15).trans (arg_keep _ main_arg15 (by decide) (by decide) (by decide)),
      (h c main_arg16).trans (arg_keep _ main_arg16 (by decide) (by decide) (by decide)),
      (h c main_arg17).trans (arg_keep _ main_arg17 (by decide) (by decide) (by decide)),
      (h c main_arg18).trans (arg_keep _ main_arg18 (by decide) (by decide) (by decide)),
      (h c main_arg19).trans (arg_keep _ main_arg19 (by decide) (by decide) (by decide))⟩)
    (run_seq scopedRefs_eq scopedSems_eq defs main (fun _ => ops) main_eq (fun _ => ops_sub) m ρ (fun _ => ops_fresh))

end Cert.ReferenceIdeal.RefRun

end
-- ==== Proof.AggR.lean ====
/-
  The neighbourhood sum both programs compute on the host before each layer: row n of the result is the sum of the
  rows x[src e] over the edges e whose destination dst e is n.  The edge table's first row gives the sources (a negative
  number wraps by the number of nodes, then the read clamps into range), its second row the destinations; the sum starts from zero.
  For real-valued features every entry is a finite sum of reals, hence real.
-/
import proofs.«144821_j2645699854452_1_alg».proof.ReferenceIdeal
import proofs.«144821_j2645699854452_1_alg».proof.Proof.Gen.ReferenceIdeal
import proofs.«144821_j2645699854452_1_alg».proof.Proof.LibRowGatherScatter
import proofs.«144821_j2645699854452_1_alg».proof.Proof.LibAggregateLinear
import Idealize.ShloMosaic.Lib.ValueIdx
import Idealize.ShloMosaic.Lib.Pipeline.Value

noncomputable section

open scoped BigOperators

namespace Cert.ReferenceIdeal.Agg

open Idealize.ShloMosaic Idealize.ShloMosaic.ValueIdx Cert.ReferenceIdeal Cert.ReferenceIdeal.Gen

/-- The edge table: two rows of 600000 node numbers. -/
abbrev Edges : Type := (⟨S2x600000, .i32⟩ : BufTy).Contents (Elt Ideal)
/-- Node features: 50000 rows of 128 extended reals. -/
abbrev Feats : Type := (⟨S50000x128, .f32⟩ : BufTy).Contents (Elt Ideal)

/-- The sources: row 0 of the edge table. -/
def src (e : Edges) : (⟨S600000, .i32⟩ : BufTy).Contents (Elt Ideal) :=
  shapeCast S600000 (extractStridedSlice S1x600000 ![0, 0] e slices_S2x600000_S1x600000_0_0) shapeCasts_S1x600000_S600000

/-- The destinations: row 1 of the edge table. -/
def dst (e : Edges) : (⟨S600000, .i32⟩ : BufTy).Contents (Elt Ideal) :=
  shapeCast S600000 (extractStridedSlice S1x600000 ![1, 0] e slices_S2x600000_S1x600000_1_0) shapeCasts_S1x600000_S600000

/-- The sources as a column of row numbers, a negative one wrapped by the number of nodes. -/
def srcCol (e : Edges) : (⟨S600000x1, .i32⟩ : BufTy).Contents (Elt Ideal) :=
  broadcastInDim S600000x1 ![0] bcast_S600000_S600000x1_0
    (select (cmpi .slt (src e) (broadcastInDim S600000 ![] bcast_S_S600000 (constantI S_ 32 0#32)))
      (addi (src e) (broadcastInDim S600000 ![] bcast_S_S600000 (constantI S_ 32 50000#32))) (src e))

/-- The destinations as a column of row numbers. -/
def dstCol (e : Edges) : (⟨S600000x1, .i32⟩ : BufTy).Contents (Elt Ideal) :=
  broadcastInDim S600000x1 ![0] bcast_S600000_S600000x1_0 (dst e)

/-- The neighbourhood sums: the gathered source rows added into their destination rows, from zero. -/
def agg (x : Feats) (e : Edges) : Feats :=
  Host.scatterAdd (F := Ideal) scatter_S50000x128_S600000x1_S600000x128_1_0_0_1
    (broadcastInDim S50000x128 ![] bcast_S_S50000x128 (constant (F := Ideal) S_ .f32 0x00000000#32)) (dstCol e)
    (Host.gather gather_S50000x128_S600000x1_S600000x128_1_0_n_n_0_1_1128 x (srcCol e))

end Cert.ReferenceIdeal.Agg

end
-- ==== Proof.LibBroadcastInDim2.lean ====
/-
  The host's `broadcast_in_dim` between ranks 1 and 2, read at an index given by its coordinates, for any sizes:
  a vector `[a]` as a column `[a, 1]` (dims = [0]) and as a row `[1, b]` (dims = [1]); a column `[a, 1]` along the second axis
  to `[a, b]` and a row `[1, b]` along the first axis to `[a, b]` (dims = [0, 1]).  Each is one instance of the library's
  read-at-an-index lemma for the operation, the coordinate arithmetic discharged once for all sizes.
-/
import Idealize.ShloMosaic.Lib.ValueIdx
import Idealize.ShloMosaic.Lib.Pipeline.Value

namespace Idealize.ShloMosaic.BroadcastInDim2

open Idealize.ShloMosaic Idealize.ShloMosaic.ValueIdx

variable {α : Type}

/-- A vector as a column: entry (p, 0) is the vector's entry p. -/
theorem vecToCol_apply {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim (⟨2, ![a, 1]⟩ : Shape) (![0] : Fin 1 → Fin 2) h v (ix2 p z) = v (ix1 p) :=
  broadcastInDim_apply (![0] : Fin 1 → Fin 2) h v (ix2 p z) (ix1 p) (fun d => match d with
    | ⟨0, _⟩ => by
        show p.val = if a = 1 then 0 else p.val
        by_cases ha : a = 1
        · rw [if_pos ha]; have := p.isLt; omega
        · rw [if_neg ha])

/-- A vector as a row: entry (0, q) is the vector's entry q. -/
theorem vecToRow_apply {b : Nat} (v : (⟨1, ![b]⟩ : Shape).Idx → α)
    (h : (⟨1, ![b]⟩ : Shape).BroadcastsInDim ⟨2, ![1, b]⟩ (![1] : Fin 1 → Fin 2)) (z : Fin 1) (q : Fin b) :
    broadcastInDim (⟨2, ![1, b]⟩ : Shape) (![1] : Fin 1 → Fin 2) h v (ix2 z q) = v (ix1 q) :=
  broadcastInDim_apply (![1] : Fin 1 → Fin 2) h v (ix2 z q) (ix1 q) (fun d => match d with
    | ⟨0, _⟩ => by
        show q.val = if b = 1 then 0 else q.val
        by_cases hb : b = 1
        · rw [if_pos hb]; have := q.isLt; omega
        · rw [if_neg hb])

/-- A column along the second axis: entry (p, q) is the column's entry (p, 0). -/
theorem colToMat_apply {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 p (0 : Fin 1)) :=
  broadcastInDim_apply (![0, 1] : Fin 2 → Fin 2) h v (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row along the first axis: entry (p, q) is the row's entry (0, q). -/
theorem rowToMat_apply {a b : Nat} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 (0 : Fin 1) q) :=
  broadcastInDim_apply (![0, 1] : Fin 2 → Fin 2) h v (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.BroadcastInDim2
-- ==== Proof.LibLayerNormRow.lean ====
/-
  A layer-norm row on the extended reals, for any length, with the divisor N, the offset ε, the scale γ and the shift β
  as given:  mean = (Σ x) / N,  variance = (Σ (x − mean)²) / N,  result j = (x j − mean) · rsqrt (variance + ε) · γ j + β j.

  The host's mean and variance routines start their sums from an initial zero; and its variance routine divides by
  N − (a correction converted from the integer 0) under the guard "that divisor is positive", falling back to a
  not-a-number otherwise.  For N a positive real number the guard holds and the divisor is N, so the routine's value IS
  the quotient by N — for every row of extended reals.
-/
import Idealize.ShloMosaic.PureOps.Ideal
import Idealize.ShloMosaic.Lib.ValueIdx

noncomputable section

open scoped BigOperators

namespace Cert.Lib.LayerNormRow

open Idealize.ShloMosaic

variable {n : ℕ}

def mean (x : Fin n → EReal) (N : EReal) : EReal := Ideal.div (∑ j : Fin n, x j) N

def variance (x : Fin n → EReal) (N : EReal) : EReal :=
  Ideal.div (∑ j : Fin n, (x j - mean x N) * (x j - mean x N)) N

def layerNorm (x : Fin n → EReal) (N ε : EReal) (γ β : Fin n → EReal) (j : Fin n) : EReal :=
  (x j - mean x N) * Ideal.rsqrt (variance x N + ε) * γ j + β j

/-- A sum started from an initial zero is the sum. -/
theorem mean_of_zero_init (x : Fin n → EReal) (N z : EReal) (hz : z = 0) : Ideal.div (z + ∑ j : Fin n, x j) N = mean x N := by
  subst hz; rw [zero_add]; rfl

/-- The correction 0, converted from a 32-bit integer to a float, is the real zero. -/
theorem sitofp_zero : (((0#32 : BitVec 32).toInt : ℝ) : EReal) = 0 := by
  rw [show (0#32 : BitVec 32).toInt = 0 from by decide, Int.cast_zero, EReal.coe_zero]

/-- The variance routine's guarded quotient at a zero correction: for N a positive real, the guard "N − 0 > 0" holds and
    the quotient by N − 0 is the quotient by N. -/
theorem guarded_quotient (N : EReal) (r : ℝ) (hN : N = (r : EReal)) (hr : 0 < r) (t z0 S nan : EReal) (ht : t = 0) (hz0 : z0 = 0) :
    Scalar.select (Ideal.cmp .ogt (N - t) z0) (Ideal.div S (N - t)) nan = Ideal.div S N := by
  subst ht hz0
  rw [sub_zero]
  have hg : Ideal.cmp .ogt N 0 = 1#1 := by
    show BitVec.ofBool (decide ((0 : EReal) < N)) = 1#1
    rw [hN, decide_eq_true (by exact_mod_cast hr)]
    rfl
  rw [hg]
  exact ValueIdx.select_one _ _

end Cert.Lib.LayerNormRow

end
-- ==== Proof.RefTerms.lean ====
/-
  The reference program's value, one graph-network layer at a time.  A layer takes the node features x, the edge table,
  two weight matrices with their bias vectors and the scale and shift vectors, and returns

      normalise( relu( relu((x + g)·Wa + ba)·Wb + bb ) ),      g = the neighbourhood sums of x,

  where a column is normalised with its mean (Σ h)/N and its mean squared deviation (Σ (h − mean)²)/N, the latter
  formed by a routine that recomputes the mean, divides by N − 0 (the zero converted from an integer) and guards the
  quotient by "N − 0 > 0".  The first part of this file writes a layer as the composition of the host operations the
  program applies, over arbitrary sizes and with the shape facts those operations cite as parameters; the three layers
  of the program are its instances at the program's own shape facts.  The second part reads that composition index by
  index on the extended reals: it is the specification's layer (Cert.Spec.layerR).
-/
import proofs.«144821_j2645699854452_1_alg».proof.ReferenceIdeal
import proofs.«144821_j2645699854452_1_alg».proof.Proof.Gen.ReferenceIdeal
import proofs.«144821_j2645699854452_1_alg».proof.Proof.AggR
import proofs.«144821_j2645699854452_1_alg».proof.Proof.Spec
import proofs.«144821_j2645699854452_1_alg».proof.Proof.LibPlainDot
import proofs.«144821_j2645699854452_1_alg».proof.Proof.LibBroadcastInDim2
import proofs.«144821_j2645699854452_1_alg».proof.Proof.LibLayerNormRow
import Idealize.ShloMosaic.Lib.IdealHost

noncomputable section

open scoped BigOperators

namespace Cert.ReferenceIdeal.RefTerms

open Idealize.ShloMosaic Idealize.ShloMosaic.ValueIdx Cert.ReferenceIdeal Cert.ReferenceIdeal.Gen

/-! ## A layer as a composition of host operations -/

/-- The rank-zero shape of a scalar operand. -/
abbrev Sc : Shape := ⟨0, ![]⟩

/-- The shape facts the operations of one layer cite: n rows, a input columns, b hidden units, d output columns. -/
structure LayerFacts (n a b d : ℕ) where
  dotA : DotDims ⟨2, ![n, a]⟩ ⟨2, ![a, b]⟩ ⟨2, ![n, b]⟩
  dotB : DotDims ⟨2, ![n, b]⟩ ⟨2, ![b, d]⟩ ⟨2, ![n, d]⟩
  rowB : (⟨1, ![b]⟩ : Shape).BroadcastsInDim ⟨2, ![1, b]⟩ (![1] : Fin 1 → Fin 2)
  matB : (⟨2, ![1, b]⟩ : Shape).BroadcastsInDim ⟨2, ![n, b]⟩ (![0, 1] : Fin 2 → Fin 2)
  rowD : (⟨1, ![d]⟩ : Shape).BroadcastsInDim ⟨2, ![1, d]⟩ (![1] : Fin 1 → Fin 2)
  matD : (⟨2, ![1, d]⟩ : Shape).BroadcastsInDim ⟨2, ![n, d]⟩ (![0, 1] : Fin 2 → Fin 2)
  scNB : Sc.BroadcastsInDim ⟨2, ![n, b]⟩ (![] : Fin 0 → Fin 2)
  scND : Sc.BroadcastsInDim ⟨2, ![n, d]⟩ (![] : Fin 0 → Fin 2)
  scD : Sc.BroadcastsInDim ⟨1, ![d]⟩ (![] : Fin 0 → Fin 1)
  sc1D : Sc.BroadcastsInDim ⟨2, ![1, d]⟩ (![] : Fin 0 → Fin 2)
  red : (⟨2, ![n, d]⟩ : Shape).ReducesTo [0] ⟨1, ![d]⟩
  hSc : 0 < Sc.numel

variable {n a b d : ℕ}

/-- The scalar zero, the divisor N = 50000, the variance offset and the not-a-number, as the program's words. -/
abbrev zeroS : FVec Ideal Sc .f32 := constant (F := Ideal) Sc .f32 0x00000000#32
abbrev nS : FVec Ideal Sc .f32 := constant (F := Ideal) Sc .f32 0x47435000#32
abbrev epsS : FVec Ideal Sc .f32 := constant (F := Ideal) Sc .f32 0x3727C5AC#32
abbrev nanS : FVec Ideal Sc .f32 := constant (F := Ideal) Sc .f32 0x7FC00000#32

/-- The hidden activations of every row: relu((x + g)·Wa + ba), the bias vector laid out as a row and repeated down
    the rows, the relu the maximum with a zero array. -/
def hidden (φ : LayerFacts n a b d) (x g : Spec.Mat n a) (Wa : Spec.Mat a b) (ba : Spec.Vec1 b) : Spec.Mat n b :=
  maximumf
    (addf (Host.dotGeneral φ.dotA none (addf x g) Wa)
      (broadcastInDim ⟨2, ![n, b]⟩ ![0, 1] φ.matB (broadcastInDim ⟨2, ![1, b]⟩ ![1] φ.rowB ba)))
    (broadcastInDim ⟨2, ![n, b]⟩ ![] φ.scNB zeroS)

/-- The perceptron of every row: relu(hidden·Wb + bb). -/
def pre (φ : LayerFacts n a b d) (x g : Spec.Mat n a) (Wa : Spec.Mat a b) (ba : Spec.Vec1 b) (Wb : Spec.Mat b d)
    (bb : Spec.Vec1 d) : Spec.Mat n d :=
  maximumf
    (addf (Host.dotGeneral φ.dotB none (hidden φ x g Wa ba) Wb)
      (broadcastInDim ⟨2, ![n, d]⟩ ![0, 1] φ.matD (broadcastInDim ⟨2, ![1, d]⟩ ![1] φ.rowD bb)))
    (broadcastInDim ⟨2, ![n, d]⟩ ![] φ.scND zeroS)

/-- The column means: the column sums from zero, divided by N. -/
def mean (φ : LayerFacts n a b d) (h : Spec.Mat n d) : Spec.Vec1 d :=
  Host.divf (Host.reduceAdd h zeroS φ.red φ.hSc) (broadcastInDim ⟨1, ![d]⟩ ![] φ.scD nS)

/-- The divisor of the variance routine: N minus the correction c converted to a float. -/
def divisor (c : IVec Sc 32) : FVec Ideal Sc .f32 := subf nS (sitofp (F := Ideal) .f32 c)

/-- The deviations from the column means as the variance routine recomputes them. -/
def dev (φ : LayerFacts n a b d) (h : Spec.Mat n d) : Spec.Mat n d :=
  subf h
    (broadcastInDim ⟨2, ![n, d]⟩ ![0, 1] φ.matD
      (Host.divf (broadcastInDim ⟨2, ![1, d]⟩ ![1] φ.rowD (Host.reduceAdd h zeroS φ.red φ.hSc))
        (broadcastInDim ⟨2, ![1, d]⟩ ![] φ.sc1D nS)))

/-- The column variances at correction c: the sums of squared deviations from zero, divided by N − c where that
    divisor is positive, a not-a-number otherwise. -/
def var (φ : LayerFacts n a b d) (h : Spec.Mat n d) (c : IVec Sc 32) : Spec.Vec1 d :=
  select (broadcastInDim ⟨1, ![d]⟩ ![] φ.scD (cmpf .ogt (divisor c) zeroS))
    (Host.divf (Host.reduceAdd (mulf (dev φ h) (dev φ h)) zeroS φ.red φ.hSc)
      (broadcastInDim ⟨1, ![d]⟩ ![] φ.scD (divisor c)))
    (broadcastInDim ⟨1, ![d]⟩ ![] φ.scD (id nanS))

/-- Every column normalised: (h − mean)·rsqrt(var + ε)·γ + β, each vector laid out as a row and repeated down the rows. -/
def normed (φ : LayerFacts n a b d) (h : Spec.Mat n d) (m v γ β : Spec.Vec1 d) : Spec.Mat n d :=
  addf
    (mulf
      (mulf
        (subf h (broadcastInDim ⟨2, ![n, d]⟩ ![0, 1] φ.matD (broadcastInDim ⟨2, ![1, d]⟩ ![1] φ.rowD m)))
        (broadcastInDim ⟨2, ![n, d]⟩ ![0, 1] φ.matD
          (broadcastInDim ⟨2, ![1, d]⟩ ![1] φ.rowD
            (Host.rsqrt (addf v (broadcastInDim ⟨1, ![d]⟩ ![] φ.scD epsS))))))
      (broadcastInDim ⟨2, ![n, d]⟩ ![0, 1] φ.matD (broadcastInDim ⟨2, ![1, d]⟩ ![1] φ.rowD γ)))
    (broadcastInDim ⟨2, ![n, d]⟩ ![0, 1] φ.matD (broadcastInDim ⟨2, ![1, d]⟩ ![1] φ.rowD β))

/-- One layer from the features x and their neighbourhood sums g: the perceptron, normalised with its column means
    and its column variances at the integer correction zero. -/
def layer (φ : LayerFacts n a b d) (x g : Spec.Mat n a) (Wa : Spec.Mat a b) (ba : Spec.Vec1 b) (Wb : Spec.Mat b d)
    (bb γ β : Spec.Vec1 d) : Spec.Mat n d :=
  normed φ (pre φ x g Wa ba Wb bb) (mean φ (pre φ x g Wa ba Wb bb))
    (var φ (pre φ x g Wa ba Wb bb) (constantI Sc 32 0#32)) γ β

/-- The shape facts of the program's first two layers: 50000 rows, 128 columns throughout. -/
def facts128 : LayerFacts 50000 128 128 128 where
  dotA := dot_S50000x128_S128x128_S50000x128_1_0_0_1_n_n
  dotB := dot_S50000x128_S128x128_S50000x128_1_0_0_1_n_n
  rowB := bcast_S128_S1x128_1
  matB := bcast_S1x128_S50000x128_0_1
  rowD := bcast_S128_S1x128_1
  matD := bcast_S1x128_S50000x128_0_1
  scNB := bcast_S_S50000x128
  scND := bcast_S_S50000x128
  scD := bcast_S_S128
  sc1D := bcast_S_S1x128
  red := reducesTo_S50000x128_S128_d0
  hSc := h_S_

/-- The shape facts of the program's last layer: 128 hidden units, 2 output columns. -/
def facts2 : LayerFacts 50000 128 128 2 where
  dotA := dot_S50000x128_S128x128_S50000x128_1_0_0_1_n_n
  dotB := dot_S50000x128_S128x2_S50000x2_1_0_0_1_n_n
  rowB := bcast_S128_S1x128_1
  matB := bcast_S1x128_S50000x128_0_1
  rowD := bcast_S2_S1x2_1
  matD := bcast_S1x2_S50000x2_0_1
  scNB := bcast_S_S50000x128
  scND := bcast_S_S50000x2
  scD := bcast_S_S2
  sc1D := bcast_S_S1x2
  red := reducesTo_S50000x2_S2_d0
  hSc := h_S_

/-- The program's first layer, on the input features and the edge table. -/
def layer1 (x : Agg.Feats) (e : Agg.Edges) (Wa : (⟨S128x128, .f32⟩ : BufTy).Contents (Elt Ideal))
    (ba : (⟨S128, .f32⟩ : BufTy).Contents (Elt Ideal)) (Wb : (⟨S128x128, .f32⟩ : BufTy).Contents (Elt Ideal))
    (bb γ β : (⟨S128, .f32⟩ : BufTy).Contents (Elt Ideal)) : Agg.Feats :=
  layer facts128 x (Agg.agg x e) Wa ba Wb bb γ β

/-- The program's second layer: the same operations on the first layer's result. -/
def layer2 (x : Agg.Feats) (e : Agg.Edges) (Wa : (⟨S128x128, .f32⟩ : BufTy).Contents (Elt Ideal))
    (ba : (⟨S128, .f32⟩ : BufTy).Contents (Elt Ideal)) (Wb : (⟨S128x128, .f32⟩ : BufTy).Contents (Elt Ideal))
    (bb γ β : (⟨S128, .f32⟩ : BufTy).Contents (Elt Ideal)) : Agg.Feats :=
  layer facts128 x (Agg.agg x e) Wa ba Wb bb γ β

/-- The program's third layer: two output columns. -/
def layer3 (x : Agg.Feats) (e : Agg.Edges) (Wa : (⟨S128x128, .f32⟩ : BufTy).Contents (Elt Ideal))
    (ba : (⟨S128, .f32⟩ : BufTy).Contents (Elt Ideal)) (Wb : (⟨S128x2, .f32⟩ : BufTy).Contents (Elt Ideal))
    (bb γ β : (⟨S2, .f32⟩ : BufTy).Contents (Elt Ideal)) : (⟨S50000x2, .f32⟩ : BufTy).Contents (Elt Ideal) :=
  layer facts2 x (Agg.agg x e) Wa ba Wb bb γ β

/-! ## The composition read index by index -/

open Idealize.ShloMosaic.BroadcastInDim2

/-- The divisor's word 0x47435000 is the real number 50000. -/
theorem cN_eq : Spec.cN = ((50000 : ℝ) : EReal) := by
  unfold Spec.cN
  simp [Ideal.ofBits, Ideal.ieee, -EReal.coe_mul]; norm_num

/-- The scalar words read at their one index: zero, the divisor, the offset. -/
theorem zeroS_apply (i : Sc.Idx) : zeroS i = 0 := Ideal.ofBits_zero_f32
theorem nS_apply (i : Sc.Idx) : nS i = Spec.cN := rfl
theorem epsS_apply (i : Sc.Idx) : epsS i = Spec.cEps := rfl

/-- Over result column q, the source index of the sum along the rows with row coordinate k is (k, q). -/
theorem lift_rows (h : (⟨2, ![n, d]⟩ : Shape).Reduces [0] ⟨1, ![d]⟩) (q : Fin d) (k : Fin n) :
    h.lift (ix1 q) k = ix2 k q := by
  funext c
  match c with
  | ⟨0, _⟩ => exact Fin.ext rfl
  | ⟨1, _⟩ => exact Fin.ext rfl

/-- The host sum along the rows at column q: the initial scalar plus the sum of the column. -/
theorem reduce_col (φ : LayerFacts n a b d) (h : Spec.Mat n d) (init : FVec Ideal Sc .f32) (q : Fin d) :
    Host.reduceAdd h init φ.red φ.hSc (ix1 q) = init ix0 + ∑ p : Fin n, h (ix2 p q) := by
  have hR : (⟨2, ![n, d]⟩ : Shape).Reduces [0] ⟨1, ![d]⟩ := ⟨φ.red.1, Nat.one_pos, φ.red.2⟩
  rw [hostReduceAdd_apply, Ideal.hostReduceAdd_single φ.red hR, eq_ix0 (Shape.Idx.first φ.hSc)]
  exact congrArg _ (Finset.sum_congr rfl fun k _ => by rw [lift_rows hR q k])

/-- A column sum started from the zero word is the sum. -/
theorem reduce_col_zero (φ : LayerFacts n a b d) (h : Spec.Mat n d) (q : Fin d) :
    Host.reduceAdd h zeroS φ.red φ.hSc (ix1 q) = ∑ p : Fin n, h (ix2 p q) := by
  rw [reduce_col φ, zeroS_apply, zero_add]

/-- The hidden activations at (p, k) are the specification's. -/
theorem hidden_apply (φ : LayerFacts n a b d)
    (hlc : φ.dotA.lhsContracting = [1]) (hrc : φ.dotA.rhsContracting = [0]) (hln : φ.dotA.lhsNonContracting = [0])
    (hrn : φ.dotA.rhsNonContracting = [1]) (hlb : φ.dotA.lhsBatch = []) (hrb : φ.dotA.rhsBatch = [])
    (x g : Spec.Mat n a) (Wa : Spec.Mat a b) (ba : Spec.Vec1 b) (p : Fin n) (k : Fin b) :
    hidden φ x g Wa ba (ix2 p k) = Spec.hid x g Wa (Spec.rowOf ba) p k := by
  unfold hidden Spec.hid
  rw [maximumf_apply, addf_apply]
  simp only [Host.dotGeneral]
  rw [Cert.Bridge.dotGeneral_plain φ.dotA hlc hrc hln hrn hlb hrb none .single (addf x g) Wa p k,
    rowToMat_apply, vecToRow_apply, broadcastInDim_scalar_apply, zeroS_apply]
  rfl

/-- The perceptron is the specification's. -/
theorem pre_eq (φ : LayerFacts n a b d)
    (hlc : φ.dotA.lhsContracting = [1]) (hrc : φ.dotA.rhsContracting = [0]) (hln : φ.dotA.lhsNonContracting = [0])
    (hrn : φ.dotA.rhsNonContracting = [1]) (hlb : φ.dotA.lhsBatch = []) (hrb : φ.dotA.rhsBatch = [])
    (hlc' : φ.dotB.lhsContracting = [1]) (hrc' : φ.dotB.rhsContracting = [0]) (hln' : φ.dotB.lhsNonContracting = [0])
    (hrn' : φ.dotB.rhsNonContracting = [1]) (hlb' : φ.dotB.lhsBatch = []) (hrb' : φ.dotB.rhsBatch = [])
    (x g : Spec.Mat n a) (Wa : Spec.Mat a b) (ba : Spec.Vec1 b) (Wb : Spec.Mat b d) (bb : Spec.Vec1 d) :
    pre φ x g Wa ba Wb bb = Spec.mlp x g Wa (Spec.rowOf ba) Wb (Spec.rowOf bb) := by
  funext i
  obtain ⟨p, q, rfl⟩ : ∃ p q, i = ix2 p q := ⟨i 0, i 1, eq_ix2 i⟩
  rw [Spec.mlp_apply]
  unfold pre Spec.mlpAt
  rw [maximumf_apply, addf_apply]
  simp only [Host.dotGeneral]
  rw [Cert.Bridge.dotGeneral_plain φ.dotB hlc' hrc' hln' hrn' hlb' hrb' none .single (hidden φ x g Wa ba) Wb p q,
    rowToMat_apply, vecToRow_apply, broadcastInDim_scalar_apply, zeroS_apply]
  rw [Finset.sum_congr rfl fun k _ => by rw [hidden_apply φ hlc hrc hln hrn hlb hrb x g Wa ba p k]]
  rfl

/-- The column means are the specification's. -/
theorem mean_apply (φ : LayerFacts n a b d) (h : Spec.Mat n d) (q : Fin d) : mean φ h (ix1 q) = Spec.rMean h q := by
  unfold mean Spec.rMean
  rw [hostDivf_apply, reduce_col_zero φ, broadcastInDim_scalar_apply, nS_apply]

/-- The variance routine's deviations are the deviations from the specification's column means. -/
theorem dev_apply (φ : LayerFacts n a b d) (h : Spec.Mat n d) (p : Fin n) (q : Fin d) :
    dev φ h (ix2 p q) = h (ix2 p q) - Spec.rMean h q := by
  unfold dev Spec.rMean
  rw [subf_apply, rowToMat_apply, hostDivf_apply, vecToRow_apply, reduce_col_zero φ, broadcastInDim_scalar_apply, nS_apply]

/-- The column variances at the integer correction zero are the specification's: the divisor N − 0 is N, a positive
    real, so the guard holds. -/
theorem var_apply (φ : LayerFacts n a b d) (h : Spec.Mat n d) (q : Fin d) :
    var φ h (constantI Sc 32 0#32) (ix1 q) = Spec.rVar h q := by
  unfold var Spec.rVar
  rw [select_apply, broadcastInDim_scalar_apply, broadcastInDim_scalar_apply, hostDivf_apply, broadcastInDim_scalar_apply,
    reduce_col_zero φ, cmpf_apply]
  show Scalar.select (Ideal.cmp .ogt (Spec.cN - (((0#32 : BitVec 32).toInt : ℝ) : EReal)) (zeroS ix0))
      (Ideal.div (∑ p : Fin n, mulf (dev φ h) (dev φ h) (ix2 p q)) (Spec.cN - (((0#32 : BitVec 32).toInt : ℝ) : EReal))) (nanS ix0) = _
  rw [Cert.Lib.LayerNormRow.guarded_quotient Spec.cN 50000 cN_eq (by norm_num) _ _ _ _ Cert.Lib.LayerNormRow.sitofp_zero
    (zeroS_apply ix0)]
  exact congrArg (fun s => Ideal.div s Spec.cN)
    (Finset.sum_congr rfl fun p _ => by rw [mulf_apply, dev_apply φ h p q])

/-- The normalisation read at (p, q). -/
theorem normed_apply (φ : LayerFacts n a b d) (h : Spec.Mat n d) (m v γ β : Spec.Vec1 d) (p : Fin n) (q : Fin d) :
    normed φ h m v γ β (ix2 p q)
      = (h (ix2 p q) - m (ix1 q)) * Ideal.rsqrt (v (ix1 q) + Spec.cEps) * γ (ix1 q) + β (ix1 q) := by
  unfold normed
  simp only [addf_apply, mulf_apply, subf_apply, rowToMat_apply, vecToRow_apply]
  show (h (ix2 p q) - m (ix1 q)) * Ideal.rsqrt (v (ix1 q) + broadcastInDim ⟨1, ![d]⟩ ![] φ.scD epsS (ix1 q)) * γ (ix1 q) + β (ix1 q) = _
  rw [broadcastInDim_scalar_apply, epsS_apply]

/-- A LAYER OF THE PROGRAM IS THE SPECIFICATION'S LAYER, for plain matrix products. -/
theorem layer_eq (φ : LayerFacts n a b d)
    (hlc : φ.dotA.lhsContracting = [1]) (hrc : φ.dotA.rhsContracting = [0]) (hln : φ.dotA.lhsNonContracting = [0])
    (hrn : φ.dotA.rhsNonContracting = [1]) (hlb : φ.dotA.lhsBatch = []) (hrb : φ.dotA.rhsBatch = [])
    (hlc' : φ.dotB.lhsContracting = [1]) (hrc' : φ.dotB.rhsContracting = [0]) (hln' : φ.dotB.lhsNonContracting = [0])
    (hrn' : φ.dotB.rhsNonContracting = [1]) (hlb' : φ.dotB.lhsBatch = []) (hrb' : φ.dotB.rhsBatch = [])
    (x g : Spec.Mat n a) (Wa : Spec.Mat a b) (ba : Spec.Vec1 b) (Wb : Spec.Mat b d) (bb γ β : Spec.Vec1 d) :
    layer φ x g Wa ba Wb bb γ β = Spec.layerR x g Wa ba Wb bb γ β := by
  unfold layer Spec.layerR
  rw [pre_eq φ hlc hrc hln hrn hlb hrb hlc' hrc' hln' hrn' hlb' hrb']
  funext i
  obtain ⟨p, q, rfl⟩ : ∃ p q, i = ix2 p q := ⟨i 0, i 1, eq_ix2 i⟩
  rw [normed_apply, Spec.refNorm_apply, mean_apply, var_apply]
  rfl

/-! ## The program's three layers -/

/-- The first layer is the specification's layer on the input features and their neighbourhood sums. -/
theorem layer1_eq (x : Agg.Feats) (e : Agg.Edges) (Wa : (⟨S128x128, .f32⟩ : BufTy).Contents (Elt Ideal))
    (ba : (⟨S128, .f32⟩ : BufTy).Contents (Elt Ideal)) (Wb : (⟨S128x128, .f32⟩ : BufTy).Contents (Elt Ideal))
    (bb γ β : (⟨S128, .f32⟩ : BufTy).Contents (Elt Ideal)) :
    layer1 x e Wa ba Wb bb γ β = Cert.Spec.layerR x (Agg.agg x e) Wa ba Wb bb γ β :=
  layer_eq facts128 rfl rfl rfl rfl rfl rfl rfl rfl rfl rfl rfl rfl x (Agg.agg x e) Wa ba Wb bb γ β

/-- The second layer likewise. -/
theorem layer2_eq (x : Agg.Feats) (e : Agg.Edges) (Wa : (⟨S128x128, .f32⟩ : BufTy).Contents (Elt Ideal))
    (ba : (⟨S128, .f32⟩ : BufTy).Contents (Elt Ideal)) (Wb : (⟨S128x128, .f32⟩ : BufTy).Contents (Elt Ideal))
    (bb γ β : (⟨S128, .f32⟩ : BufTy).Contents (Elt Ideal)) :
    layer2 x e Wa ba Wb bb γ β = Cert.Spec.layerR x (Agg.agg x e) Wa ba Wb bb γ β :=
  layer_eq facts128 rfl rfl rfl rfl rfl rfl rfl rfl rfl rfl rfl rfl x (Agg.agg x e) Wa ba Wb bb γ β

/-- The third layer likewise, with two output columns. -/
theorem layer3_eq (x : Agg.Feats) (e : Agg.Edges) (Wa : (⟨S128x128, .f32⟩ : BufTy).Contents (Elt Ideal))
    (ba : (⟨S128, .f32⟩ : BufTy).Contents (Elt Ideal)) (Wb : (⟨S128x2, .f32⟩ : BufTy).Contents (Elt Ideal))
    (bb γ β : (⟨S2, .f32⟩ : BufTy).Contents (Elt Ideal)) :
    layer3 x e Wa ba Wb bb γ β = Cert.Spec.layerR x (Agg.agg x e) Wa ba Wb bb γ β :=
  layer_eq facts2 rfl rfl rfl rfl rfl rfl rfl rfl rfl rfl rfl rfl x (Agg.agg x e) Wa ba Wb bb γ β

end Cert.ReferenceIdeal.RefTerms

end
-- ==== Proof.RefLayers.lean ====
/-
  The reference program's three layers as values: what the result buffer of each layer's operations holds, from any
  contents of the buffers, is the layer (Cert.ReferenceIdeal.RefTerms) of what the argument buffers hold; the edge
  table's two rows, computed once by the first layer's operations, are what the later layers read again.
-/
import proofs.«144821_j2645699854452_1_alg».proof.Proof.RefOps
import proofs.«144821_j2645699854452_1_alg».proof.Proof.RefTerms

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The contents of the buffers, at the extended reals. -/
abbrev Vals : Type := Valuation τ sig (Elt Ideal)

set_option maxRecDepth 16384 in
set_option maxHeartbeats 4000000 in
/-- The first layer's operations leave the edge table's sources in main_v1. -/
theorem src_after (W : Vals) : after (ops1 (F := Ideal)) W (Proc.devRef .tc main_v1) = Agg.src (W (Proc.devRef .tc main_arg1)) := by
  after_results_simp
  rfl

set_option maxRecDepth 16384 in
set_option maxHeartbeats 4000000 in
/-- The first layer's operations leave the edge table's destinations in main_v3. -/
theorem dst_after (W : Vals) : after (ops1 (F := Ideal)) W (Proc.devRef .tc main_v3) = Agg.dst (W (Proc.devRef .tc main_arg1)) := by
  after_results_simp
  rfl

set_option maxRecDepth 16384 in
set_option maxHeartbeats 4000000 in
/-- The first layer's operations leave the first layer of the arguments in main_v45. -/
theorem layer1_after (W : Vals) :
    after (ops1 (F := Ideal)) W (Proc.devRef .tc main_v45)
      = RefTerms.layer1 (W (Proc.devRef .tc main_arg0)) (W (Proc.devRef .tc main_arg1)) (W (Proc.devRef .tc main_arg2)) (W (Proc.devRef .tc main_arg3))
          (W (Proc.devRef .tc main_arg4)) (W (Proc.devRef .tc main_arg5)) (W (Proc.devRef .tc main_arg6)) (W (Proc.devRef .tc main_arg7)) := by
  after_results_simp
  rfl

set_option maxRecDepth 16384 in
set_option maxHeartbeats 4000000 in
/-- The second layer's operations, run from contents whose main_v1 and main_v3 are the edge table's two rows, leave the
    second layer of main_v45 and the arguments in main_v87. -/
theorem layer2_after (W : Vals) (e : Agg.Edges) (hs : W (Proc.devRef .tc main_v1) = Agg.src e)
    (hd : W (Proc.devRef .tc main_v3) = Agg.dst e) :
    after (ops2 (F := Ideal)) W (Proc.devRef .tc main_v87)
      = RefTerms.layer2 (W (Proc.devRef .tc main_v45)) e (W (Proc.devRef .tc main_arg8)) (W (Proc.devRef .tc main_arg9))
          (W (Proc.devRef .tc main_arg10)) (W (Proc.devRef .tc main_arg11)) (W (Proc.devRef .tc main_arg12)) (W (Proc.devRef .tc main_arg13)) := by
  after_results_simp
  rw [hs, hd]
  rfl

set_option maxRecDepth 16384 in
set_option maxHeartbeats 4000000 in
/-- The third layer's operations, likewise, leave the third layer of main_v87 and the arguments in main_v129. -/
theorem layer3_after (W : Vals) (e : Agg.Edges) (hs : W (Proc.devRef .tc main_v1) = Agg.src e)
    (hd : W (Proc.devRef .tc main_v3) = Agg.dst e) :
    after (ops3 (F := Ideal)) W (Proc.devRef .tc main_v129)
      = RefTerms.layer3 (W (Proc.devRef .tc main_v87)) e (W (Proc.devRef .tc main_arg14)) (W (Proc.devRef .tc main_arg15))
          (W (Proc.devRef .tc main_arg16)) (W (Proc.devRef .tc main_arg17)) (W (Proc.devRef .tc main_arg18)) (W (Proc.devRef .tc main_arg19)) := by
  after_results_simp
  rw [hs, hd]
  rfl

end Cert.ReferenceIdeal.RefRun

end
-- ==== Proof.RefOut.lean ====
/- The reference program's result as three layers composed: the fold of its 220 operations at the result buffer is
   the third layer applied to the second applied to the first, each on the features before it, the edge table and its
   own six parameter arrays.  The layers' lines run one after another, so the fold of the whole line is the third
   line's fold over the second's over the first's; between lines the edge endpoints (computed once, in the first) and
   the parameters are carried unchanged, since no later line writes them. -/
import proofs.«144821_j2645699854452_1_alg».proof.Proof.RefMain
import proofs.«144821_j2645699854452_1_alg».proof.Proof.RefLayers

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The result buffer after the whole program, from any contents W: layer 3 of layer 2 of layer 1. -/
theorem out (W : Valuation τ sig (Elt Ideal)) :
    after ops W (Proc.devRef .tc main_v129)
      = RefTerms.layer3
          (RefTerms.layer2
            (RefTerms.layer1 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)))
            (W (Proc.devRef .tc main_arg1)) (W (Proc.devRef .tc main_arg8)) (W (Proc.devRef .tc main_arg9)) (W (Proc.devRef .tc main_arg10)) (W (Proc.devRef .tc main_arg11)) (W (Proc.devRef .tc main_arg12)) (W (Proc.devRef .tc main_arg13)))
          (W (Proc.devRef .tc main_arg1)) (W (Proc.devRef .tc main_arg14)) (W (Proc.devRef .tc main_arg15)) (W (Proc.devRef .tc main_arg16)) (W (Proc.devRef .tc main_arg17)) (W (Proc.devRef .tc main_arg18)) (W (Proc.devRef .tc main_arg19)) := by
  show after (ops1 ++ ops2 ++ ops3) W (Proc.devRef .tc main_v129) = _
  rw [after_append, after_append]
  -- the edge endpoints after the first line, carried through the second
  have hs1 := src_after W
  have hd1 := dst_after W
  have hs2 : after ops2 (after ops1 W) (Proc.devRef .tc main_v1) = Agg.src (W (Proc.devRef .tc main_arg1)) :=
    (ops2_keep _ main_v1 (by decide)).trans hs1
  have hd2 : after ops2 (after ops1 W) (Proc.devRef .tc main_v3) = Agg.dst (W (Proc.devRef .tc main_arg1)) :=
    (ops2_keep _ main_v3 (by decide)).trans hd1
  rw [layer3_after (after ops2 (after ops1 W)) (W (Proc.devRef .tc main_arg1)) hs2 hd2, layer2_after (after ops1 W) (W (Proc.devRef .tc main_arg1)) hs1 hd1, layer1_after W]
  -- the parameters of the later layers, untouched by the earlier lines
  rw [ops2_keep _ main_arg14 (by decide), ops1_keep _ main_arg14 (by decide),
    ops2_keep _ main_arg15 (by decide), ops1_keep _ main_arg15 (by decide),
    ops2_keep _ main_arg16 (by decide), ops1_keep _ main_arg16 (by decide),
    ops2_keep _ main_arg17 (by decide), ops1_keep _ main_arg17 (by decide),
    ops2_keep _ main_arg18 (by decide), ops1_keep _ main_arg18 (by decide),
    ops2_keep _ main_arg19 (by decide), ops1_keep _ main_arg19 (by decide),
    ops1_keep _ main_arg8 (by decide), ops1_keep _ main_arg9 (by decide), ops1_keep _ main_arg10 (by decide), ops1_keep _ main_arg11 (by decide), ops1_keep _ main_arg12 (by decide), ops1_keep _ main_arg13 (by decide)]

end Cert.ReferenceIdeal.RefRun

end
-- ==== Proof.NormForms.lean ====
/-
  The two normalisations of a column agree on real entries, and a layer maps real arrays to real arrays.
  With S = Σ_p h_p over n = N rows and μ = S/N:
      Σ_p (h_p − μ)² = Σ_p h_p² − 2μS + nμ² = Σ_p h_p² − S²/N,
  so the mean squared deviation (Σ_p (h_p − μ)²)/N equals (Σ_p h_p²)/N − μ².  On the extended reals this needs every
  entry real: at an infinite entry the two sides differ.  Real entries stay real through the perceptron (finite sums of
  products, a maximum with zero) and through the normalisation (the variance is a real number ≥ 0, the offset is a
  positive real, so the reciprocal square root is real).
-/
import proofs.«144821_j2645699854452_1_alg».proof.Proof.Spec
import proofs.«144821_j2645699854452_1_alg».proof.Proof.LibAggregateLinear

noncomputable section

open scoped BigOperators

namespace Cert.Spec

open Idealize.ShloMosaic Idealize.ShloMosaic.ValueIdx Idealize.ShloMosaic.AggregateLinear

/-- Every entry of the array is a real number. -/
def AllReal {S : Shape} (v : FVec Ideal S .f32) : Prop := ∀ i, ∃ r : ℝ, v i = (r : EReal)

/-! ## The two literals -/

theorem cN_eq : cN = ((50000 : ℝ) : EReal) := by
  unfold cN; simp [Ideal.ofBits, Ideal.ieee, -EReal.coe_mul]; norm_num

theorem cEps_eq : cEps = ((10995116 / 1099511627776 : ℝ) : EReal) := by
  unfold cEps; simp [Ideal.ofBits, Ideal.ieee, -EReal.coe_mul]; norm_num

/-! ## Real entries under the operations -/

theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩
theorem real_sub {x y : EReal} (hx : ∃ r : ℝ, x = r) (hy : ∃ r : ℝ, y = r) : ∃ r : ℝ, x - y = r := by
  obtain ⟨a, rfl⟩ := hx; obtain ⟨b, rfl⟩ := hy; exact ⟨a - b, (EReal.coe_sub a b).symm⟩
theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩
theorem real_max0 {x : EReal} (hx : ∃ r : ℝ, x = r) : ∃ r : ℝ, max x 0 = r := by
  obtain ⟨a, rfl⟩ := hx
  rcases le_total (a : EReal) 0 with h | h
  · exact ⟨0, by rw [max_eq_right h]; rfl⟩
  · exact ⟨a, by rw [max_eq_left h]⟩
theorem real_divN {x : EReal} (hx : ∃ r : ℝ, x = r) : ∃ r : ℝ, Ideal.div x cN = r := by
  obtain ⟨a, rfl⟩ := hx
  exact ⟨a * (1 / 50000), by rw [cN_eq, Ideal.div_coe (by norm_num : (50000 : ℝ) ≠ 0), ← EReal.coe_mul]⟩

/-! ## The variance identity over the reals -/

theorem var_identity {n : ℕ} (h : Fin n → ℝ) (N : ℝ) (hN : N ≠ 0) (hn : (n : ℝ) = N) :
    (∑ p, h p * h p) * (1 / N) - ((∑ p, h p) * (1 / N)) * ((∑ p, h p) * (1 / N))
      = (∑ p, (h p - (∑ p, h p) * (1 / N)) * (h p - (∑ p, h p) * (1 / N))) * (1 / N) := by
  have e : ∀ μ : ℝ, ∑ p, (h p - μ) * (h p - μ) = (∑ p, h p * h p) - 2 * μ * (∑ p, h p) + (n : ℝ) * (μ * μ) := by
    intro μ
    have : ∀ p, (h p - μ) * (h p - μ) = h p * h p - 2 * μ * h p + μ * μ := fun p => by ring
    simp only [this, Finset.sum_add_distrib, Finset.sum_sub_distrib, ← Finset.mul_sum, Finset.sum_const,
      Finset.card_univ, Fintype.card_fin, nsmul_eq_mul]
    ring
  rw [e, hn]; field_simp; ring

end Cert.Spec

namespace Cert.Spec

open Idealize.ShloMosaic Idealize.ShloMosaic.ValueIdx Idealize.ShloMosaic.AggregateLinear

variable {n a b d : ℕ}

theorem kMean_apply (s : Mat 1 d) (z : Fin 1) (q : Fin d) : kMean s (ix2 z q) = Ideal.div (s (ix2 z q)) cN := rfl
theorem kVar_apply (s ss : Mat 1 d) (z : Fin 1) (q : Fin d) :
    kVar s ss (ix2 z q) = Ideal.div (ss (ix2 z q)) cN - kMean s (ix2 z q) * kMean s (ix2 z q) := rfl

/-! ## The two normalisations agree on real entries -/

/-- The mean row formed from the accumulated column sums is the column's mean. -/
theorem kMean_colSum (H : Mat n d) (q : Fin d) : kMean (colSum H) (ix2 0 q) = rMean H q := rfl

/-- The variance row formed from the accumulated sums is the column's mean squared deviation, for real entries
    and as many rows as the divisor counts. -/
theorem kVar_eq_rVar (H : Mat n d) (hH : AllReal H) (hn : n = 50000) (q : Fin d) :
    kVar (colSum H) (colSumSq H) (ix2 0 q) = rVar H q := by
  choose hr hhr using fun p => hH (ix2 p q)
  have h5 : (50000 : ℝ) ≠ 0 := by norm_num
  rw [kVar_apply, kMean_apply, colSum_apply, colSumSq_apply]
  unfold rVar rMean
  simp only [hhr, cN_eq, Ideal.div_coe h5, ← EReal.coe_mul, ← coe_finset_sum, ← EReal.coe_sub]
  exact congrArg _ (var_identity hr 50000 h5 (by subst hn; norm_num))

/-- Normalising through the accumulated sums is normalising through the mean squared deviation. -/
theorem norm_eq_refNorm (H : Mat n d) (γ β : Mat 1 d) (hH : AllReal H) (hn : n = 50000) :
    norm H (kMean (colSum H)) (kVar (colSum H) (colSumSq H)) γ β = refNorm H γ β := by
  funext i
  obtain ⟨p, q, rfl⟩ : ∃ (p : Fin n) (q : Fin d), i = ix2 p q := ⟨i 0, i 1, eq_ix2 i⟩
  rw [norm_apply, refNorm_apply, kMean_colSum, kVar_eq_rVar H hH hn]

/-! ## Real entries through a layer -/

theorem rowOf_real (v : Vec1 d) (hv : AllReal v) : AllReal (rowOf v) := fun i => hv _

theorem mlp_real (x g : Mat n a) (Wa : Mat a b) (ba : Mat 1 b) (Wb : Mat b d) (bb : Mat 1 d)
    (hx : AllReal x) (hg : AllReal g) (hWa : AllReal Wa) (hba : AllReal ba) (hWb : AllReal Wb) (hbb : AllReal bb) :
    AllReal (mlp x g Wa ba Wb bb) := by
  intro i
  have hh : ∀ p k, ∃ r : ℝ, hid x g Wa ba p k = r := fun p k =>
    real_max0 (real_add (sum_isReal _ _ fun j _ => real_mul (real_add (hx _) (hg _)) (hWa _)) (hba _))
  exact real_max0 (real_add (sum_isReal _ _ fun k _ => real_mul (hh _ k) (hWb _)) (hbb _))

theorem rMean_real (H : Mat n d) (hH : AllReal H) (q : Fin d) : ∃ r : ℝ, rMean H q = r :=
  real_divN (sum_isReal _ _ fun p _ => hH _)

/-- The mean squared deviation of a real column is a nonnegative real. -/
theorem rVar_real_nonneg (H : Mat n d) (hH : AllReal H) (q : Fin d) : ∃ r : ℝ, 0 ≤ r ∧ rVar H q = r := by
  choose hr hhr using fun p => hH (ix2 p q)
  obtain ⟨μ, hμ⟩ := rMean_real H hH q
  have h5 : (50000 : ℝ) ≠ 0 := by norm_num
  refine ⟨(∑ p, (hr p - μ) * (hr p - μ)) * (1 / 50000), ?_, ?_⟩
  · exact mul_nonneg (Finset.sum_nonneg fun p _ => mul_self_nonneg _) (by norm_num)
  · unfold rVar
    simp only [hhr, hμ, cN_eq, Ideal.div_coe h5, ← EReal.coe_mul, ← coe_finset_sum, ← EReal.coe_sub]

theorem refNorm_real (H : Mat n d) (γ β : Mat 1 d) (hH : AllReal H) (hγ : AllReal γ) (hβ : AllReal β) :
    AllReal (refNorm H γ β) := by
  intro i
  obtain ⟨v, hv0, hv⟩ := rVar_real_nonneg H hH (i 1)
  have hpos : (0 : EReal) < rVar H (i 1) + cEps := by
    rw [hv, cEps_eq, ← EReal.coe_add]
    exact_mod_cast (by positivity : (0 : ℝ) < v + 10995116 / 1099511627776)
  exact real_add (real_mul (real_mul (real_sub (hH i) (rMean_real H hH _)) (rsqrt_isReal_of_pos _ hpos)) (hγ _)) (hβ _)

/-! ## One layer -/

/-- On real arrays with as many rows as the divisor counts, the two forms of a layer are one function. -/
theorem layerK_eq_layerR (x g : Mat n a) (Wa : Mat a b) (ba : Vec1 b) (Wb : Mat b d) (bb γ β : Vec1 d)
    (hx : AllReal x) (hg : AllReal g) (hWa : AllReal Wa) (hba : AllReal ba) (hWb : AllReal Wb) (hbb : AllReal bb)
    (hn : n = 50000) :
    layerK x g Wa ba Wb bb γ β = layerR x g Wa ba Wb bb γ β :=
  norm_eq_refNorm _ _ _ (mlp_real x g Wa _ Wb _ hx hg hWa (rowOf_real ba hba) hWb (rowOf_real bb hbb)) hn

/-- A layer maps real arrays to a real array. -/
theorem layerR_real (x g : Mat n a) (Wa : Mat a b) (ba : Vec1 b) (Wb : Mat b d) (bb γ β : Vec1 d)
    (hx : AllReal x) (hg : AllReal g) (hWa : AllReal Wa) (hba : AllReal ba) (hWb : AllReal Wb) (hbb : AllReal bb)
    (hγ : AllReal γ) (hβ : AllReal β) :
    AllReal (layerR x g Wa ba Wb bb γ β) :=
  refNorm_real _ _ _ (mlp_real x g Wa _ Wb _ hx hg hWa (rowOf_real ba hba) hWb (rowOf_real bb hbb))
    (rowOf_real γ hγ) (rowOf_real β hβ)

end Cert.Spec

end
-- ==== Proof.AggReal.lean ====
/-
  The neighbourhood sums of real-valued features are real: entry (n, c) is zero plus a finite sum whose terms are
  either zero or an entry of the features (the gathered row's entry at column c).
-/
import proofs.«144821_j2645699854452_1_alg».proof.Proof.AggR
import proofs.«144821_j2645699854452_1_alg».proof.Proof.NormForms

noncomputable section

open scoped BigOperators

namespace Cert.ReferenceIdeal.Agg

open Idealize.ShloMosaic Idealize.ShloMosaic.ValueIdx Cert.ReferenceIdeal Cert.ReferenceIdeal.Gen
open Idealize.ShloMosaic.AggregateLinear Idealize.ShloMosaic.RowIndexing

theorem agg_real (x : Feats) (e : Edges) (hx : Cert.Spec.AllReal (S := S50000x128) x) :
    Cert.Spec.AllReal (S := S50000x128) (agg x e) := by
  intro i
  obtain ⟨p, q, rfl⟩ : ∃ (p : Fin 50000) (q : Fin 128), i = ix2 p q := ⟨i 0, i 1, eq_ix2 i⟩
  unfold agg
  generalize hZ : broadcastInDim S50000x128 ![] bcast_S_S50000x128 (constant (F := Ideal) S_ .f32 0x00000000#32) = Z
  generalize hG : Host.gather gather_S50000x128_S600000x1_S600000x128_1_0_n_n_0_1_1128 x (srcCol e) = G
  rw [show Host.scatterAdd (F := Ideal) scatter_S50000x128_S600000x1_S600000x128_1_0_0_1 Z (dstCol e) G (ix2 p q) = _ from
    scatterAdd_rows_apply (w := 32) scatter_S50000x128_S600000x1_S600000x128_1_0_0_1_wf (dstCol e) Z G p q]
  refine Cert.Spec.real_add ⟨0, ?_⟩ (sum_isReal _ _ fun e' _ => ?_)
  · subst hZ; exact Ideal.ofBits_zero_f32
  · split_ifs
    · subst hG
      rw [show Host.gather gather_S50000x128_S600000x1_S600000x128_1_0_n_n_0_1_1128 x (srcCol e) (ix2 e' q) = _ from
        gather_rows_apply (w := 32) (by norm_num) gather_S50000x128_S600000x1_S600000x128_1_0_n_n_0_1_1128_wf x (srcCol e) e' q]
      exact hx _
    · exact ⟨0, rfl⟩

end Cert.ReferenceIdeal.Agg

end
-- ==== Proof.Bridge.lean ====
/-
  The two programs' results are one function of real-valued arguments.
  Both apply three layers; a layer's neighbourhood sums are the same host operations in both programs, its perceptron is
  the same function, and its two normalisations agree on real entries (the variance identity).  Real arguments give a
  real first layer, whose output is the second layer's input, and so on: layer by layer the accumulated-sums form
  equals the mean-squared-deviation form, and the value stays real.
-/
import proofs.«144821_j2645699854452_1_alg».proof.Proof.AggK
import proofs.«144821_j2645699854452_1_alg».proof.Proof.AggReal
import proofs.«144821_j2645699854452_1_alg».proof.Proof.NormForms
import proofs.«144821_j2645699854452_1_alg».proof.Proof.RefTerms

noncomputable section

namespace Cert.Bridge

open Idealize.ShloMosaic Cert.Spec

/-- The neighbourhood sums are spelt with each program's own shape facts; they are one function. -/
theorem agg_eq (x : Cert.KernelIdeal.Agg.Feats) (e : Cert.KernelIdeal.Agg.Edges) :
    Cert.KernelIdeal.Agg.agg x e = Cert.ReferenceIdeal.Agg.agg x e := rfl

section Steps

variable (x : Mat 50000 128) (e : Cert.ReferenceIdeal.Agg.Edges) (Wa : Mat 128 128) (ba : Vec1 128)

/-- One 128-wide layer on a real input: the accumulated-sums form over the kernel's neighbourhood sums is the
    reference's layer, and it is real. -/
theorem step1 (Wb : Mat 128 128) (bb γ β : Vec1 128)
    (hx : AllReal x) (hWa : AllReal Wa) (hba : AllReal ba) (hWb : AllReal Wb) (hbb : AllReal bb)
    (hγ : AllReal γ) (hβ : AllReal β) :
    layerK x (Cert.KernelIdeal.Agg.agg x e) Wa ba Wb bb γ β = Cert.ReferenceIdeal.RefTerms.layer1 x e Wa ba Wb bb γ β
      ∧ AllReal (Cert.ReferenceIdeal.RefTerms.layer1 x e Wa ba Wb bb γ β) := by
  have hg : AllReal (Cert.ReferenceIdeal.Agg.agg x e) := Cert.ReferenceIdeal.Agg.agg_real x e hx
  rw [Cert.ReferenceIdeal.RefTerms.layer1_eq, agg_eq]
  exact ⟨layerK_eq_layerR x _ Wa ba Wb bb γ β hx hg hWa hba hWb hbb rfl,
    layerR_real x _ Wa ba Wb bb γ β hx hg hWa hba hWb hbb hγ hβ⟩

theorem step2 (Wb : Mat 128 128) (bb γ β : Vec1 128)
    (hx : AllReal x) (hWa : AllReal Wa) (hba : AllReal ba) (hWb : AllReal Wb) (hbb : AllReal bb)
    (hγ : AllReal γ) (hβ : AllReal β) :
    layerK x (Cert.KernelIdeal.Agg.agg x e) Wa ba Wb bb γ β = Cert.ReferenceIdeal.RefTerms.layer2 x e Wa ba Wb bb γ β
      ∧ AllReal (Cert.ReferenceIdeal.RefTerms.layer2 x e Wa ba Wb bb γ β) := by
  have hg : AllReal (Cert.ReferenceIdeal.Agg.agg x e) := Cert.ReferenceIdeal.Agg.agg_real x e hx
  rw [Cert.ReferenceIdeal.RefTerms.layer2_eq, agg_eq]
  exact ⟨layerK_eq_layerR x _ Wa ba Wb bb γ β hx hg hWa hba hWb hbb rfl,
    layerR_real x _ Wa ba Wb bb γ β hx hg hWa hba hWb hbb hγ hβ⟩

/-- The last layer, two columns wide. -/
theorem step3 (Wb : Mat 128 2) (bb γ β : Vec1 2)
    (hx : AllReal x) (hWa : AllReal Wa) (hba : AllReal ba) (hWb : AllReal Wb) (hbb : AllReal bb) :
    layerK x (Cert.KernelIdeal.Agg.agg x e) Wa ba Wb bb γ β = Cert.ReferenceIdeal.RefTerms.layer3 x e Wa ba Wb bb γ β := by
  have hg : AllReal (Cert.ReferenceIdeal.Agg.agg x e) := Cert.ReferenceIdeal.Agg.agg_real x e hx
  rw [Cert.ReferenceIdeal.RefTerms.layer3_eq, agg_eq]
  exact layerK_eq_layerR x _ Wa ba Wb bb γ β hx hg hWa hba hWb hbb rfl

end Steps

/-- Three layers: the kernel's composite is the reference's, on real arguments. -/
theorem three_layers (x : Mat 50000 128) (e : Cert.ReferenceIdeal.Agg.Edges)
    (W1a : Mat 128 128) (b1a : Vec1 128) (W1b : Mat 128 128) (b1b g1 be1 : Vec1 128)
    (W2a : Mat 128 128) (b2a : Vec1 128) (W2b : Mat 128 128) (b2b g2 be2 : Vec1 128)
    (W5a : Mat 128 128) (b5a : Vec1 128) (W5b : Mat 128 2) (b5b g5 be5 : Vec1 2)
    (hx : AllReal x) (hW1a : AllReal W1a) (hb1a : AllReal b1a) (hW1b : AllReal W1b) (hb1b : AllReal b1b)
    (hg1 : AllReal g1) (hbe1 : AllReal be1)
    (hW2a : AllReal W2a) (hb2a : AllReal b2a) (hW2b : AllReal W2b) (hb2b : AllReal b2b)
    (hg2 : AllReal g2) (hbe2 : AllReal be2)
    (hW5a : AllReal W5a) (hb5a : AllReal b5a) (hW5b : AllReal W5b) (hb5b : AllReal b5b) :
    layerK (layerK (layerK x (Cert.KernelIdeal.Agg.agg x e) W1a b1a W1b b1b g1 be1)
          (Cert.KernelIdeal.Agg.agg (layerK x (Cert.KernelIdeal.Agg.agg x e) W1a b1a W1b b1b g1 be1) e) W2a b2a W2b b2b g2 be2)
        (Cert.KernelIdeal.Agg.agg (layerK (layerK x (Cert.KernelIdeal.Agg.agg x e) W1a b1a W1b b1b g1 be1)
          (Cert.KernelIdeal.Agg.agg (layerK x (Cert.KernelIdeal.Agg.agg x e) W1a b1a W1b b1b g1 be1) e) W2a b2a W2b b2b g2 be2) e)
        W5a b5a W5b b5b g5 be5
      = Cert.ReferenceIdeal.RefTerms.layer3
          (Cert.ReferenceIdeal.RefTerms.layer2 (Cert.ReferenceIdeal.RefTerms.layer1 x e W1a b1a W1b b1b g1 be1) e W2a b2a W2b b2b g2 be2)
          e W5a b5a W5b b5b g5 be5 := by
  obtain ⟨e1, r1⟩ := step1 x e W1a b1a W1b b1b g1 be1 hx hW1a hb1a hW1b hb1b hg1 hbe1
  rw [e1]
  obtain ⟨e2, r2⟩ := step2 _ e W2a b2a W2b b2b g2 be2 r1 hW2a hb2a hW2b hb2b hg2 hbe2
  rw [e2]
  exact step3 _ e W5a b5a W5b b5b g5 be5 r2 hW5a hb5a hW5b hb5b

end Cert.Bridge

end
-- ==== Proof.FiniteInputs.lean ====
/-
  The precondition says of every float argument that each entry's absolute value is below +∞; on the extended reals
  that is: every entry is a real number.
-/
import proofs.«144821_j2645699854452_1_alg».proof.Pre_finite_inputs
import proofs.«144821_j2645699854452_1_alg».proof.Proof.NormForms
import Idealize.ShloMosaic.Lib.ReduceAll
import Idealize.ShloMosaic.Lib.Affine

noncomputable section

namespace Cert.FiniteInputs

open Idealize.ShloMosaic Idealize.ShloMosaic.ValueIdx Cert.Pre_finite_inputs

instance : Subsingleton S_.Idx := ⟨fun a b => funext fun d => d.elim0⟩

/-- An extended real whose absolute value is below +∞ is a real number. -/
theorem real_of_abs_lt (x : EReal)
    (h : FloatOps.cmpf (F := Ideal) (φ := .f32) .olt (FloatOps.hostAbsf x) (FloatOps.ofBits .f32 0x7F800000#32) = 1#1) :
    ∃ r : ℝ, x = r := by
  have htop : Ideal.ofBits .f32 0x7F800000#32 = ⊤ := by simp [Ideal.ofBits, Ideal.ieee]
  induction x using EReal.rec with
  | bot =>
    exfalso; revert h
    show ¬ Ideal.cmp .olt (max (⊥ : EReal) (-⊥)) (Ideal.ofBits .f32 0x7F800000#32) = 1#1
    simp [Ideal.cmp, htop]
  | coe r => exact ⟨r, rfl⟩
  | top =>
    exfalso; revert h
    show ¬ Ideal.cmp .olt (max (⊤ : EReal) (-⊤)) (Ideal.ofBits .f32 0x7F800000#32) = 1#1
    simp [Ideal.cmp, htop]

/-- One conjunct of the precondition — every entry of |x| is below +∞ — says every entry of x is real. -/
theorem allReal_of_all {S : Shape} {axes : List (Fin S.rank)} (x : FVec Ideal S .f32) (hr : S.ReducesTo axes S_)
    (bc : S_.BroadcastsInDim S (![] : Fin 0 → Fin S.rank)) (hu : 0 < S_.numel)
    (h : Host.reduce IntOp.andi
          (cmpf .olt (Host.absf x) (broadcastInDim S ![] bc (constant (F := Ideal) S_ .f32 0x7F800000#32)))
          (constantI S_ 1 1#1) hr hu ix0 = 1#1) : Cert.Spec.AllReal x := fun i =>
  real_of_abs_lt (x i) (Host.reduce_andi_all _ _ hr hu ix0 h i)

/-- The precondition, read at the extended reals: every float argument is real-valued. -/
theorem all_real [Cert.Pre_finite_inputs.Facts] (a0 : FVec Ideal S50000x128 .f32) (a1 : IVec S2x600000 32)
    (a2 : FVec Ideal S128x128 .f32) (a3 : FVec Ideal S128 .f32) (a4 : FVec Ideal S128x128 .f32) (a5 a6 a7 : FVec Ideal S128 .f32)
    (a8 : FVec Ideal S128x128 .f32) (a9 : FVec Ideal S128 .f32) (a10 : FVec Ideal S128x128 .f32) (a11 a12 a13 : FVec Ideal S128 .f32)
    (a14 : FVec Ideal S128x128 .f32) (a15 : FVec Ideal S128 .f32) (a16 : FVec Ideal S128x2 .f32) (a17 a18 a19 : FVec Ideal S2 .f32)
    (h : fn (F := Ideal) a0 a1 a2 a3 a4 a5 a6 a7 a8 a9 a10 a11 a12 a13 a14 a15 a16 a17 a18 a19 = fun _ => 1#1) :
    Cert.Spec.AllReal a0 ∧ Cert.Spec.AllReal a2 ∧ Cert.Spec.AllReal a3 ∧ Cert.Spec.AllReal a4 ∧ Cert.Spec.AllReal a5
      ∧ Cert.Spec.AllReal a6 ∧ Cert.Spec.AllReal a7 ∧ Cert.Spec.AllReal a8 ∧ Cert.Spec.AllReal a9 ∧ Cert.Spec.AllReal a10
      ∧ Cert.Spec.AllReal a11 ∧ Cert.Spec.AllReal a12 ∧ Cert.Spec.AllReal a13 ∧ Cert.Spec.AllReal a14 ∧ Cert.Spec.AllReal a15
      ∧ Cert.Spec.AllReal a16 ∧ Cert.Spec.AllReal a17 ∧ Cert.Spec.AllReal a18 ∧ Cert.Spec.AllReal a19 := by
  have h0 := congrFun h ix0
  simp only [fn, fn_part1, fn_part2, fn_part3, fn_part4, fn_part5, andi, IntOp.andi_eq_one] at h0
  obtain ⟨⟨⟨⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, h16⟩, h17⟩, h18⟩, h19⟩ := h0
  exact ⟨allReal_of_all _ _ _ _ h0, allReal_of_all _ _ _ _ h2, allReal_of_all _ _ _ _ h3, allReal_of_all _ _ _ _ h4,
    allReal_of_all _ _ _ _ h5, allReal_of_all _ _ _ _ h6, allReal_of_all _ _ _ _ h7, allReal_of_all _ _ _ _ h8,
    allReal_of_all _ _ _ _ h9, allReal_of_all _ _ _ _ h10, allReal_of_all _ _ _ _ h11, allReal_of_all _ _ _ _ h12,
    allReal_of_all _ _ _ _ h13, allReal_of_all _ _ _ _ h14, allReal_of_all _ _ _ _ h15, allReal_of_all _ _ _ _ h16,
    allReal_of_all _ _ _ _ h17, allReal_of_all _ _ _ _ h18, allReal_of_all _ _ _ _ h19⟩

end Cert.FiniteInputs

end
-- ==== Proof.lean ====
/-
  The certificate.  Three graph-network layers — neighbourhood sums, a two-stage perceptron on every row, a batch
  normalisation of every column — computed by six tiled kernels among host operations on one side and by plain array
  operations on the other.  At the extended reals both results are the same function of real-valued arguments:
  the tiles of the perceptron's output are restrictions of one array, the accumulated column sums are the whole
  columns' sums, and the variance formed from the sums of squares is the mean squared deviation (an identity of real
  numbers, which is where the precondition is used).  The frames of the two kernel programs are the generated ones; the
  reference's frame is its run with the result dropped; the idealisation rewrote nothing.
-/
import proofs.«144821_j2645699854452_1_alg».proof.Defs
import proofs.«144821_j2645699854452_1_alg».proof.Proof.Gen.Kernel
import proofs.«144821_j2645699854452_1_alg».proof.Proof.Gen.Kernel.Frame
import proofs.«144821_j2645699854452_1_alg».proof.Proof.Gen.KernelIdeal
import proofs.«144821_j2645699854452_1_alg».proof.Proof.Gen.KernelIdeal.Frame
import proofs.«144821_j2645699854452_1_alg».proof.Proof.Gen.ReferenceIdeal
import proofs.«144821_j2645699854452_1_alg».proof.Proof.Gen.Pre_finite_inputs
import proofs.«144821_j2645699854452_1_alg».proof.Proof.KRun
import proofs.«144821_j2645699854452_1_alg».proof.Proof.Chain
import proofs.«144821_j2645699854452_1_alg».proof.Proof.RefMain
import proofs.«144821_j2645699854452_1_alg».proof.Proof.RefOut
import proofs.«144821_j2645699854452_1_alg».proof.Proof.Bridge
import proofs.«144821_j2645699854452_1_alg».proof.Proof.FiniteInputs

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RefRun.run (F := Ideal) m ρ)

set_option maxHeartbeats 1600000 in
/-- Both programs end at the reference's three-layer term of the (agreeing, real-valued) arguments. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.ReferenceIdeal.RefTerms.layer3 (Cert.ReferenceIdeal.RefTerms.layer2 (Cert.ReferenceIdeal.RefTerms.layer1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (m ((c.tc : Thread Cert.KernelIdeal.nD Cert.KernelIdeal.τ).loc Cert.KernelIdeal.main_arg1)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · refine (θ_run Cert.KernelIdeal.defs _ _).mono (fun r h c => ⟨(h c).1.trans ?_, (h c).2⟩)
      (Cert.KernelIdeal.KRun.run m ρ)
    obtain ⟨h0, h2, h3, h4, h5, h6, h7, h8, h9, h10, h11, h12, h13, h14, h15, h16, h17, _, _⟩ :=
      Cert.FiniteInputs.all_real _ _ _ _ _ _ _ _ _ _ _ _ _ _ _ _ _ _ _ _ (hpre c)
    rw [Cert.KernelIdeal.Chain.out m ρ c]
    exact Cert.Bridge.three_layers _ _ _ _ _ _ _ _ _ _ _ _ _ _ _ _ _ _ _ _ h0 h2 h3 h4 h5 h6 h7 h8 h9 h10 h11 h12 h13 h14 h15 h16 h17
  · refine (θ_run Cert.ReferenceIdeal.defs _ _).mono (fun r h c => ⟨(h c).1.trans ?_, (h c).2⟩)
      (Cert.ReferenceIdeal.RefRun.run (F := Ideal) m' ρ')
    obtain ⟨a0, a1, a2, a3, a4, a5, a6, a7, a8, a9, a10, a11, a12, a13, a14, a15, a16, a17, a18, a19⟩ := hagree c
    rw [Cert.ReferenceIdeal.RefRun.out]
    have b0 : m' ((c : Dev Cert.ReferenceIdeal.nD), Proc.devRef .tc Cert.ReferenceIdeal.main_arg0) = m ((c.tc : Thread Cert.KernelIdeal.nD Cert.KernelIdeal.τ).loc Cert.KernelIdeal.main_arg0) := a0
    have b1 : m' ((c : Dev Cert.ReferenceIdeal.nD), Proc.devRef .tc Cert.ReferenceIdeal.main_arg1) = m ((c.tc : Thread Cert.KernelIdeal.nD Cert.KernelIdeal.τ).loc Cert.KernelIdeal.main_arg1) := a1
    have b2 : m' ((c : Dev Cert.ReferenceIdeal.nD), Proc.devRef .tc Cert.ReferenceIdeal.main_arg2) = m ((c.tc : Thread Cert.KernelIdeal.nD Cert.KernelIdeal.τ).loc Cert.KernelIdeal.main_arg2) := a2
    have b3 : m' ((c : Dev Cert.ReferenceIdeal.nD), Proc.devRef .tc Cert.ReferenceIdeal.main_arg3) = m ((c.tc : Thread Cert.KernelIdeal.nD Cert.KernelIdeal.τ).loc Cert.KernelIdeal.main_arg3) := a3
    have b4 : m' ((c : Dev Cert.ReferenceIdeal.nD), Proc.devRef .tc Cert.ReferenceIdeal.main_arg4) = m ((c.tc : Thread Cert.KernelIdeal.nD Cert.KernelIdeal.τ).loc Cert.KernelIdeal.main_arg4) := a4
    have b5 : m' ((c : Dev Cert.ReferenceIdeal.nD), Proc.devRef .tc Cert.ReferenceIdeal.main_arg5) = m ((c.tc : Thread Cert.KernelIdeal.nD Cert.KernelIdeal.τ).loc Cert.KernelIdeal.main_arg5) := a5
    have b6 : m' ((c : Dev Cert.ReferenceIdeal.nD), Proc.devRef .tc Cert.ReferenceIdeal.main_arg6) = m ((c.tc : Thread Cert.KernelIdeal.nD Cert.KernelIdeal.τ).loc Cert.KernelIdeal.main_arg6) := a6
    have b7 : m' ((c : Dev Cert.ReferenceIdeal.nD), Proc.devRef .tc Cert.ReferenceIdeal.main_arg7) = m ((c.tc : Thread Cert.KernelIdeal.nD Cert.KernelIdeal.τ).loc Cert.KernelIdeal.main_arg7) := a7
    have b8 : m' ((c : Dev Cert.ReferenceIdeal.nD), Proc.devRef .tc Cert.ReferenceIdeal.main_arg8) = m ((c.tc : Thread Cert.KernelIdeal.nD Cert.KernelIdeal.τ).loc Cert.KernelIdeal.main_arg8) := a8
    have b9 : m' ((c : Dev Cert.ReferenceIdeal.nD), Proc.devRef .tc Cert.ReferenceIdeal.main_arg9) = m ((c.tc : Thread Cert.KernelIdeal.nD Cert.KernelIdeal.τ).loc Cert.KernelIdeal.main_arg9) := a9
    have b10 : m' ((c : Dev Cert.ReferenceIdeal.nD), Proc.devRef .tc Cert.ReferenceIdeal.main_arg10) = m ((c.tc : Thread Cert.KernelIdeal.nD Cert.KernelIdeal.τ).loc Cert.KernelIdeal.main_arg10) := a10
    have b11 : m' ((c : Dev Cert.ReferenceIdeal.nD), Proc.devRef .tc Cert.ReferenceIdeal.main_arg11) = m ((c.tc : Thread Cert.KernelIdeal.nD Cert.KernelIdeal.τ).loc Cert.KernelIdeal.main_arg11) := a11
    have b12 : m' ((c : Dev Cert.ReferenceIdeal.nD), Proc.devRef .tc Cert.ReferenceIdeal.main_arg12) = m ((c.tc : Thread Cert.KernelIdeal.nD Cert.KernelIdeal.τ).loc Cert.KernelIdeal.main_arg12) := a12
    have b13 : m' ((c : Dev Cert.ReferenceIdeal.nD), Proc.devRef .tc Cert.ReferenceIdeal.main_arg13) = m ((c.tc : Thread Cert.KernelIdeal.nD Cert.KernelIdeal.τ).loc Cert.KernelIdeal.main_arg13) := a13
    have b14 : m' ((c : Dev Cert.ReferenceIdeal.nD), Proc.devRef .tc Cert.ReferenceIdeal.main_arg14) = m ((c.tc : Thread Cert.KernelIdeal.nD Cert.KernelIdeal.τ).loc Cert.KernelIdeal.main_arg14) := a14
    have b15 : m' ((c : Dev Cert.ReferenceIdeal.nD), Proc.devRef .tc Cert.ReferenceIdeal.main_arg15) = m ((c.tc : Thread Cert.KernelIdeal.nD Cert.KernelIdeal.τ).loc Cert.KernelIdeal.main_arg15) := a15
    have b16 : m' ((c : Dev Cert.ReferenceIdeal.nD), Proc.devRef .tc Cert.ReferenceIdeal.main_arg16) = m ((c.tc : Thread Cert.KernelIdeal.nD Cert.KernelIdeal.τ).loc Cert.KernelIdeal.main_arg16) := a16
    have b17 : m' ((c : Dev Cert.ReferenceIdeal.nD), Proc.devRef .tc Cert.ReferenceIdeal.main_arg17) = m ((c.tc : Thread Cert.KernelIdeal.nD Cert.KernelIdeal.τ).loc Cert.KernelIdeal.main_arg17) := a17
    have b18 : m' ((c : Dev Cert.ReferenceIdeal.nD), Proc.devRef .tc Cert.ReferenceIdeal.main_arg18) = m ((c.tc : Thread Cert.KernelIdeal.nD Cert.KernelIdeal.τ).loc Cert.KernelIdeal.main_arg18) := a18
    have b19 : m' ((c : Dev Cert.ReferenceIdeal.nD), Proc.devRef .tc Cert.ReferenceIdeal.main_arg19) = m ((c.tc : Thread Cert.KernelIdeal.nD Cert.KernelIdeal.τ).loc Cert.KernelIdeal.main_arg19) := a19
    rw [b0, b1, b2, b3, b4, b5, b6, b7, b8, b9, b10, b11, b12, b13, b14, b15, b16, b17, b18, b19]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
